-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S10x128 : Shape := ⟨2, ![10, 128]⟩
abbrev S10 : Shape := ⟨1, ![10]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S10x128 .f32) (main_arg5 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S10x128 .f32 := Host.absf main_arg4
  let main_cst_6 : FVec F S_ .f32 := constant S_ .f32 0x7F800000#32
  let main_v20 : FVec F S10x128 .f32 := broadcastInDim S10x128 ![] bcast_S_S10x128 main_cst_6
  let main_v21 : IVec S10x128 1 := cmpf .olt main_v19 main_v20
  let main_c_7 : IVec S_ 1 := constantI S_ 1 1#1
  let main_v22 : IVec S_ 1 := (fun x v => Host.reduce IntOp.andi x v reducesTo_S10x128_S_d0_1 h_S_) main_v21 main_c_7
  let main_v23 : IVec S_ 1 := andi main_v18 main_v22
  let main_v24 : FVec F S10 .f32 := Host.absf main_arg5
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S10x128 .f32) (main_arg5 : FVec F S10 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S10x128 : Shape := ⟨2, ![10, 128]⟩
abbrev S10 : Shape := ⟨1, ![10]⟩
abbrev S1x128 : Shape := ⟨2, ![1, 128]⟩
abbrev S1x10 : Shape := ⟨2, ![1, 10]⟩
abbrev S10000x10 : Shape := ⟨2, ![10000, 10]⟩
abbrev S1000x128 : Shape := ⟨2, ![1000, 128]⟩
abbrev S1000x10 : Shape := ⟨2, ![1000, 10]⟩
abbrev S400x10000 : Shape := ⟨2, ![400, 10000]⟩
abbrev S400x10 : Shape := ⟨2, ![400, 10]⟩
abbrev S400 : Shape := ⟨1, ![400]⟩
abbrev S400x1 : Shape := ⟨2, ![400, 1]⟩

abbrev nBuf : Space → Nat
  | .hbm => 17
  | .vmem => 64
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10x128, .f32⟩
  | .hbm, ⟨5, _⟩ => ⟨S10, .f32⟩
  | .hbm, ⟨6, _⟩ => ⟨S1x128, .f32⟩
  | .hbm, ⟨7, _⟩ => ⟨S1x10, .f32⟩
  | .hbm, ⟨8, _⟩ => ⟨S10000x10, .f32⟩
  | .hbm, ⟨9, _⟩ => ⟨S10000x10, .f32⟩
  | .hbm, ⟨10, _⟩ => ⟨S10000x10, .f32⟩
  | .hbm, ⟨11, _⟩ => ⟨S10000x10, .f32⟩
  | .hbm, ⟨12, _⟩ => ⟨S10000x10, .f32⟩
  | .hbm, ⟨13, _⟩ => ⟨S10000x10, .f32⟩
  | .hbm, ⟨14, _⟩ => ⟨S10000x10, .f32⟩
  | .hbm, ⟨15, _⟩ => ⟨S10000x10, .f32⟩
  | .hbm, ⟨16, _⟩ => ⟨S10000x10, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1x128, .f32⟩
  | .local _ .vmem, ⟨4, _⟩ => ⟨S10x128, .f32⟩
  | .local _ .vmem, ⟨5, _⟩ => ⟨S1x10, .f32⟩
  | .local _ .vmem, ⟨6, _⟩ => ⟨S1000x10, .f32⟩
  | .local _ .vmem, ⟨7, _⟩ => ⟨S1000x10, .f32⟩
  | .local _ .vmem, ⟨8, _⟩ => ⟨S400x10000, .f32⟩
  | .local _ .vmem, ⟨9, _⟩ => ⟨S400x10000, .f32⟩
  | .local _ .vmem, ⟨10, _⟩ => ⟨S10000x10, .f32⟩
  | .local _ .vmem, ⟨11, _⟩ => ⟨S400x10, .f32⟩
  | .local _ .vmem, ⟨12, _⟩ => ⟨S400x10, .f32⟩
  | .local _ .vmem, ⟨13, _⟩ => ⟨S400x10, .f32⟩
  | .local _ .vmem, ⟨14, _⟩ => ⟨S400x10, .f32⟩
  | .local _ .vmem, ⟨15, _⟩ => ⟨S400x10000, .f32⟩
  | .local _ .vmem, ⟨16, _⟩ => ⟨S400x10000, .f32⟩
  | .local _ .vmem, ⟨17, _⟩ => ⟨S10000x10, .f32⟩
  | .local _ .vmem, ⟨18, _⟩ => ⟨S400x10, .f32⟩
  | .local _ .vmem, ⟨19, _⟩ => ⟨S400x10, .f32⟩
  | .local _ .vmem, ⟨20, _⟩ => ⟨S400x10, .f32⟩
  | .local _ .vmem, ⟨21, _⟩ => ⟨S400x10, .f32⟩
  | .local _ .vmem, ⟨22, _⟩ => ⟨S400x10000, .f32⟩
  | .local _ .vmem, ⟨23, _⟩ => ⟨S400x10000, .f32⟩
  | .local _ .vmem, ⟨24, _⟩ => ⟨S10000x10, .f32⟩
  | .local _ .vmem, ⟨25, _⟩ => ⟨S400x10, .f32⟩
  | .local _ .vmem, ⟨26, _⟩ => ⟨S400x10, .f32⟩
  | .local _ .vmem, ⟨27, _⟩ => ⟨S400x10, .f32⟩
  | .local _ .vmem, ⟨28, _⟩ => ⟨S400x10, .f32⟩
  | .local _ .vmem, ⟨29, _⟩ => ⟨S400x10000, .f32⟩
  | .local _ .vmem, ⟨30, _⟩ => ⟨S400x10000, .f32⟩
  | .local _ .vmem, ⟨31, _⟩ => ⟨S10000x10, .f32⟩
  | .local _ .vmem, ⟨32, _⟩ => ⟨S400x10, .f32⟩
  | .local _ .vmem, ⟨33, _⟩ => ⟨S400x10, .f32⟩
  | .local _ .vmem, ⟨34, _⟩ => ⟨S400x10, .f32⟩
  | .local _ .vmem, ⟨35, _⟩ => ⟨S400x10, .f32⟩
  | .local _ .vmem, ⟨36, _⟩ => ⟨S400x10000, .f32⟩
  | .local _ .vmem, ⟨37, _⟩ => ⟨S400x10000, .f32⟩
  | .local _ .vmem, ⟨38, _⟩ => ⟨S10000x10, .f32⟩
  | .local _ .vmem, ⟨39, _⟩ => ⟨S400x10, .f32⟩
  | .local _ .vmem, ⟨40, _⟩ => ⟨S400x10, .f32⟩
  | .local _ .vmem, ⟨41, _⟩ => ⟨S400x10, .f32⟩
  | .local _ .vmem, ⟨42, _⟩ => ⟨S400x10, .f32⟩
  | .local _ .vmem, ⟨43, _⟩ => ⟨S400x10000, .f32⟩
  | .local _ .vmem, ⟨44, _⟩ => ⟨S400x10000, .f32⟩
  | .local _ .vmem, ⟨45, _⟩ => ⟨S10000x10, .f32⟩
  | .local _ .vmem, ⟨46, _⟩ => ⟨S400x10, .f32⟩
  | .local _ .vmem, ⟨47, _⟩ => ⟨S400x10, .f32⟩
  | .local _ .vmem, ⟨48, _⟩ => ⟨S400x10, .f32⟩
  | .local _ .vmem, ⟨49, _⟩ => ⟨S400x10, .f32⟩
  | .local _ .vmem, ⟨50, _⟩ => ⟨S400x10000, .f32⟩
  | .local _ .vmem, ⟨51, _⟩ => ⟨S400x10000, .f32⟩
  | .local _ .vmem, ⟨52, _⟩ => ⟨S10000x10, .f32⟩
  | .local _ .vmem, ⟨53, _⟩ => ⟨S400x10, .f32⟩
  | .local _ .vmem, ⟨54, _⟩ => ⟨S400x10, .f32⟩
  | .local _ .vmem, ⟨55, _⟩ => ⟨S400x10, .f32⟩
  | .local _ .vmem, ⟨56, _⟩ => ⟨S400x10, .f32⟩
  | .local _ .vmem, ⟨57, _⟩ => ⟨S400x10000, .f32⟩
  | .local _ .vmem, ⟨58, _⟩ => ⟨S400x10000, .f32⟩
  | .local _ .vmem, ⟨59, _⟩ => ⟨S10000x10, .f32⟩
  | .local _ .vmem, ⟨60, _⟩ => ⟨S400x10, .f32⟩
  | .local _ .vmem, ⟨61, _⟩ => ⟨S400x10, .f32⟩
  | .local _ .vmem, ⟨62, _⟩ => ⟨S400x10, .f32⟩
  | .local _ .vmem, ⟨63, _⟩ => ⟨S400x10, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg2_1 : Ref sig .tc := ⟨.vmem, 40, rfl⟩
abbrev cc5_stg3_0 : Ref sig .tc := ⟨.vmem, 41, rfl⟩
abbrev cc5_stg3_1 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg2_0 : Ref sig .tc := ⟨.vmem, 46, rfl⟩
abbrev cc6_stg2_1 : Ref sig .tc := ⟨.vmem, 47, rfl⟩
abbrev cc6_stg3_0 : Ref sig .tc := ⟨.vmem, 48, rfl⟩
abbrev cc6_stg3_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg2_0 : Ref sig .tc := ⟨.vmem, 53, rfl⟩
abbrev cc7_stg2_1 : Ref sig .tc := ⟨.vmem, 54, rfl⟩
abbrev cc7_stg3_0 : Ref sig .tc := ⟨.vmem, 55, rfl⟩
abbrev cc7_stg3_1 : Ref sig .tc := ⟨.vmem, 56, rfl⟩
abbrev cc8_stg0_0 : Ref sig .tc := ⟨.vmem, 57, rfl⟩
abbrev cc8_stg0_1 : Ref sig .tc := ⟨.vmem, 58, rfl⟩
abbrev cc8_stg1_0 : Ref sig .tc := ⟨.vmem, 59, rfl⟩
abbrev cc8_stg2_0 : Ref sig .tc := ⟨.vmem, 60, rfl⟩
abbrev cc8_stg2_1 : Ref sig .tc := ⟨.vmem, 61, rfl⟩
abbrev cc8_stg3_0 : Ref sig .tc := ⟨.vmem, 62, rfl⟩
abbrev cc8_stg3_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem2_1 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem2_1 : DmaSem sig := 40
abbrev cc5_sem3_0 : DmaSem sig := 41
abbrev cc5_sem3_1 : DmaSem sig := 42
abbrev cc6_sem0_0 : DmaSem sig := 43
abbrev cc6_sem0_1 : DmaSem sig := 44
abbrev cc6_sem1_0 : DmaSem sig := 45
abbrev cc6_sem2_0 : DmaSem sig := 46
abbrev cc6_sem2_1 : DmaSem sig := 47
abbrev cc6_sem3_0 : DmaSem sig := 48
abbrev cc6_sem3_1 : DmaSem sig := 49
abbrev cc7_sem0_0 : DmaSem sig := 50
abbrev cc7_sem0_1 : DmaSem sig := 51
abbrev cc7_sem1_0 : DmaSem sig := 52
abbrev cc7_sem2_0 : DmaSem sig := 53
abbrev cc7_sem2_1 : DmaSem sig := 54
abbrev cc7_sem3_0 : DmaSem sig := 55
abbrev cc7_sem3_1 : DmaSem sig := 56
abbrev cc8_sem0_0 : DmaSem sig := 57
abbrev cc8_sem0_1 : DmaSem sig := 58
abbrev cc8_sem1_0 : DmaSem sig := 59
abbrev cc8_sem2_0 : DmaSem sig := 60
abbrev cc8_sem2_1 : DmaSem sig := 61
abbrev cc8_sem3_0 : DmaSem sig := 62
abbrev cc8_sem3_1 : DmaSem sig := 63

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x10 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x10 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x10 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S400x10 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x10 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S400x10 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x10000 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S400x10 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S400x10 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x10000 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x10 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S400x10 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S400x10 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S400x10000 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S10000x10 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S400x10 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S400x10 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S400x10000 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S10000x10 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S400x10 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S400x10 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S400x10000 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S10000x10 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S400x10 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S400x10 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  shapeCasts_S128_S1x128 : S128.ShapeCasts S1x128
  shapeCasts_S10_S1x10 : S10.ShapeCasts S1x10
  inb_S1000x128_S1000x128_0_0 : ∀ a, (![0, 0] : Fin 2 → Nat) a + S1000x128.size a ≤ S1000x128.size a
  h_S1000x128 : 0 < S1000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S10x128_S10x128_0_0 : ∀ a, (![0, 0] : Fin 2 → Nat) a + S10x128.size a ≤ S10x128.size a
  h_S10x128 : 0 < S10x128.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1000x10 : S1x10.Broadcasts S1000x10
  inb_S1000x10_S1000x10_0_0 : ∀ a, (![0, 0] : Fin 2 → Nat) a + S1000x10.size a ≤ S1000x10.size a
  h_S1000x10 : 0 < S1000x10.numel
  inb_S400x10000_S400x10000_0_0 : ∀ a, (![0, 0] : Fin 2 → Nat) a + S400x10000.size a ≤ S400x10000.size a
  h_S400x10000 : 0 < S400x10000.numel
  inb_S10000x10_S10000x10_0_0 : ∀ a, (![0, 0] : Fin 2 → Nat) a + S10000x10.size a ≤ S10000x10.size a
  h_S10000x10 : 0 < S10000x10.numel
  shapeCasts_S10000x10_S10000x10 : S10000x10.ShapeCasts S10000x10
  inb_S400x10_S400x10_0_0 : ∀ a, (![0, 0] : Fin 2 → Nat) a + S400x10.size a ≤ S400x10.size a
  h_S400x10 : 0 < S400x10.numel
  shapeCasts_S400x10_S400x10 : S400x10.ShapeCasts S400x10
  reduces_S400x10_S400 : S400x10.Reduces [1] S400
  shapeCasts_S400_S400x1 : S400.ShapeCasts S400x1
  broadcasts_S400x1_S400x10 : S400x1.Broadcasts S400x10
  dot_S1000x128_S128x128_S1000x128_1_1_0_0_n_n_wf : DotDims.WF S1000x128 S128x128 S1000x128 [1] [1] [0] [0] [] []
  dot_S1000x128_S10x128_S1000x10_1_1_0_0_n_n_wf : DotDims.WF S1000x128 S10x128 S1000x10 [1] [1] [0] [0] [] []
  dot_S400x10000_S10000x10_S400x10_1_0_0_1_n_n_wf : DotDims.WF S400x10000 S10000x10 S400x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x128.size a ≤ S10x128.size a
  hwx0_3 : ∀ i : grid0.Coords, EltTy.bits .f32 = 32 ∨ (Rect.block (s := S10x128) S10x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10.size a ≤ S1x10.size a
  hwx0_4 : ∀ i : grid0.Coords, EltTy.bits .f32 = 32 ∨ (Rect.block (s := S1x10) S1x10.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x10.size a ≤ S10000x10.size a
  hwx0_5 : ∀ i : grid0.Coords, EltTy.bits .f32 = 32 ∨ (Rect.block (s := S10000x10) S1000x10.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x10.size a ≤ S10000x10.size a
  hwx1_1 : ∀ i : grid1.Coords, EltTy.bits .f32 = 32 ∨ (Rect.block (s := S10000x10) S10000x10.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x10.size a ≤ S10000x10.size a
  hwx1_2 : ∀ i : grid1.Coords, EltTy.bits .f32 = 32 ∨ (Rect.block (s := S10000x10) S400x10.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x10.size a ≤ S10000x10.size a
  hwx1_3 : ∀ i : grid1.Coords, EltTy.bits .f32 = 32 ∨ (Rect.block (s := S10000x10) S400x10.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x10.size a ≤ S10000x10.size a
  hwx2_1 : ∀ i : grid2.Coords, EltTy.bits .f32 = 32 ∨ (Rect.block (s := S10000x10) S10000x10.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x10.size a ≤ S10000x10.size a
  hwx2_2 : ∀ i : grid2.Coords, EltTy.bits .f32 = 32 ∨ (Rect.block (s := S10000x10) S400x10.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x10.size a ≤ S10000x10.size a
  hwx2_3 : ∀ i : grid2.Coords, EltTy.bits .f32 = 32 ∨ (Rect.block (s := S10000x10) S400x10.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .f32 = 32 ∨ (Rect.block (s := S10000x10000) S400x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x10.size a ≤ S10000x10.size a
  hwx3_1 : ∀ i : grid3.Coords, EltTy.bits .f32 = 32 ∨ (Rect.block (s := S10000x10) S10000x10.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x10.size a ≤ S10000x10.size a
  hwx3_2 : ∀ i : grid3.Coords, EltTy.bits .f32 = 32 ∨ (Rect.block (s := S10000x10) S400x10.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x10.size a ≤ S10000x10.size a
  hwx3_3 : ∀ i : grid3.Coords, EltTy.bits .f32 = 32 ∨ (Rect.block (s := S10000x10) S400x10.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x10000.size a ≤ S10000x10000.size a
  hwx4_0 : ∀ i : grid4.Coords, EltTy.bits .f32 = 32 ∨ (Rect.block (s := S10000x10000) S400x10000.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x10.size a ≤ S10000x10.size a
  hwx4_1 : ∀ i : grid4.Coords, EltTy.bits .f32 = 32 ∨ (Rect.block (s := S10000x10) S10000x10.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S400x10.size a ≤ S10000x10.size a
  hwx4_2 : ∀ i : grid4.Coords, EltTy.bits .f32 = 32 ∨ (Rect.block (s := S10000x10) S400x10.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S400x10.size a ≤ S10000x10.size a
  hwx4_3 : ∀ i : grid4.Coords, EltTy.bits .f32 = 32 ∨ (Rect.block (s := S10000x10) S400x10.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x10000.size a ≤ S10000x10000.size a
  hwx5_0 : ∀ i : grid5.Coords, EltTy.bits .f32 = 32 ∨ (Rect.block (s := S10000x10000) S400x10000.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x10.size a ≤ S10000x10.size a
  hwx5_1 : ∀ i : grid5.Coords, EltTy.bits .f32 = 32 ∨ (Rect.block (s := S10000x10) S10000x10.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S400x10.size a ≤ S10000x10.size a
  hwx5_2 : ∀ i : grid5.Coords, EltTy.bits .f32 = 32 ∨ (Rect.block (s := S10000x10) S400x10.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S400x10.size a ≤ S10000x10.size a
  hwx5_3 : ∀ i : grid5.Coords, EltTy.bits .f32 = 32 ∨ (Rect.block (s := S10000x10) S400x10.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S400x10000.size a ≤ S10000x10000.size a
  hwx6_0 : ∀ i : grid6.Coords, EltTy.bits .f32 = 32 ∨ (Rect.block (s := S10000x10000) S400x10000.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S10000x10.size a ≤ S10000x10.size a
  hwx6_1 : ∀ i : grid6.Coords, EltTy.bits .f32 = 32 ∨ (Rect.block (s := S10000x10) S10000x10.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S400x10.size a ≤ S10000x10.size a
  hwx6_2 : ∀ i : grid6.Coords, EltTy.bits .f32 = 32 ∨ (Rect.block (s := S10000x10) S400x10.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S400x10.size a ≤ S10000x10.size a
  hwx6_3 : ∀ i : grid6.Coords, EltTy.bits .f32 = 32 ∨ (Rect.block (s := S10000x10) S400x10.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S400x10000.size a ≤ S10000x10000.size a
  hwx7_0 : ∀ i : grid7.Coords, EltTy.bits .f32 = 32 ∨ (Rect.block (s := S10000x10000) S400x10000.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S10000x10.size a ≤ S10000x10.size a
  hwx7_1 : ∀ i : grid7.Coords, EltTy.bits .f32 = 32 ∨ (Rect.block (s := S10000x10) S10000x10.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S400x10.size a ≤ S10000x10.size a
  hwx7_2 : ∀ i : grid7.Coords, EltTy.bits .f32 = 32 ∨ (Rect.block (s := S10000x10) S400x10.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S400x10.size a ≤ S10000x10.size a
  hwx7_3 : ∀ i : grid7.Coords, EltTy.bits .f32 = 32 ∨ (Rect.block (s := S10000x10) S400x10.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S400x10000.size a ≤ S10000x10000.size a
  hwx8_0 : ∀ i : grid8.Coords, EltTy.bits .f32 = 32 ∨ (Rect.block (s := S10000x10000) S400x10000.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S10000x10.size a ≤ S10000x10.size a
  hwx8_1 : ∀ i : grid8.Coords, EltTy.bits .f32 = 32 ∨ (Rect.block (s := S10000x10) S10000x10.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S400x10.size a ≤ S10000x10.size a
  hwx8_2 : ∀ i : grid8.Coords, EltTy.bits .f32 = 32 ∨ (Rect.block (s := S10000x10) S400x10.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S400x10.size a ≤ S10000x10.size a
  hwx8_3 : ∀ i : grid8.Coords, EltTy.bits .f32 = 32 ∨ (Rect.block (s := S10000x10) S400x10.size (cc8_transform_3 i) (hinb8_3 i)).WholeWords (EltTy.packing .f32)

variable [Facts₀]

def dot_S1000x128_S128x128_S1000x128_1_1_0_0_n_n : DotDims S1000x128 S128x128 S1000x128 where
  lhsContracting := [1]
  rhsContracting := [1]
  lhsNonContracting := [0]
  rhsNonContracting := [0]
  lhsBatch := []
  rhsBatch := []
  wf := dot_S1000x128_S128x128_S1000x128_1_1_0_0_n_n_wf
def dot_S1000x128_S10x128_S1000x10_1_1_0_0_n_n : DotDims S1000x128 S10x128 S1000x10 where
  lhsContracting := [1]
  rhsContracting := [1]
  lhsNonContracting := [0]
  rhsNonContracting := [0]
  lhsBatch := []
  rhsBatch := []
  wf := dot_S1000x128_S10x128_S1000x10_1_1_0_0_n_n_wf
def dot_S400x10000_S10000x10_S400x10_1_0_0_1_n_n : DotDims S400x10000 S10000x10 S400x10 where
  lhsContracting := [1]
  rhsContracting := [0]
  lhsNonContracting := [0]
  rhsNonContracting := [1]
  lhsBatch := []
  rhsBatch := []
  wf := dot_S400x10000_S10000x10_S400x10_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S10x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1000x10.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x10.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S400x10.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S400x10.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S10000x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S400x10.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S400x10.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S10000x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v2) S400x10.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v5) S400x10.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg1) S400x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S10000x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v2) S400x10.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v6) S400x10.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_arg1) S400x10000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v6) S10000x10.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v2) S400x10.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v7) S400x10.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_arg1) S400x10000.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v7) S10000x10.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v2) S400x10.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v8) S400x10.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_arg1) S400x10000.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v8) S10000x10.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v2) S400x10.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v9) S400x10.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_arg1) S400x10000.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v9) S10000x10.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v2) S400x10.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v10) S400x10.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S10x128 : Shape := ⟨2, ![10, 128]⟩
abbrev S10 : Shape := ⟨1, ![10]⟩
abbrev S1x128 : Shape := ⟨2, ![1, 128]⟩
abbrev S_ : Shape := ⟨0, ![]⟩
abbrev S128x10 : Shape := ⟨2, ![128, 10]⟩
abbrev S10000x10 : Shape := ⟨2, ![10000, 10]⟩
abbrev S1x10 : Shape := ⟨2, ![1, 10]⟩
abbrev S10000 : Shape := ⟨1, ![10000]⟩
abbrev S10000x1 : Shape := ⟨2, ![10000, 1]⟩

abbrev nBuf : Space → Nat
  | .hbm => 98
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10x128, .f32⟩
  | .hbm, ⟨5, _⟩ => ⟨S10, .f32⟩
  | .hbm, ⟨6, _⟩ => ⟨S128x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S128x10, .f32⟩
  | .hbm, ⟨15, _⟩ => ⟨S10000x10, .f32⟩
  | .hbm, ⟨16, _⟩ => ⟨S1x10, .f32⟩
  | .hbm, ⟨17, _⟩ => ⟨S10000x10, .f32⟩
  | .hbm, ⟨18, _⟩ => ⟨S10000x10, .f32⟩
  | .hbm, ⟨19, _⟩ => ⟨S10000x10, .f32⟩
  | .hbm, ⟨20, _⟩ => ⟨S_, .f32⟩
  | .hbm, ⟨21, _⟩ => ⟨S10000x10, .f32⟩
  | .hbm, ⟨22, _⟩ => ⟨S10000x10, .f32⟩
  | .hbm, ⟨23, _⟩ => ⟨S_, .f32⟩
  | .hbm, ⟨24, _⟩ => ⟨S10000x10, .f32⟩
  | .hbm, ⟨25, _⟩ => ⟨S10000x10, .f32⟩
  | .hbm, ⟨26, _⟩ => ⟨S10000x10, .f32⟩
  | .hbm, ⟨27, _⟩ => ⟨S10000x10, .f32⟩
  | .hbm, ⟨28, _⟩ => ⟨S_, .f32⟩
  | .hbm, ⟨29, _⟩ => ⟨S10000x10, .f32⟩
  | .hbm, ⟨30, _⟩ => ⟨S10000x10, .f32⟩
  | .hbm, ⟨31, _⟩ => ⟨S_, .f32⟩
  | .hbm, ⟨32, _⟩ => ⟨S10000x10, .f32⟩
  | .hbm, ⟨33, _⟩ => ⟨S10000x10, .f32⟩
  | .hbm, ⟨34, _⟩ => ⟨S10000x10, .f32⟩
  | .hbm, ⟨35, _⟩ => ⟨S10000x10, .f32⟩
  | .hbm, ⟨36, _⟩ => ⟨S_, .f32⟩
  | .hbm, ⟨37, _⟩ => ⟨S10000x10, .f32⟩
  | .hbm, ⟨38, _⟩ => ⟨S10000x10, .f32⟩
  | .hbm, ⟨39, _⟩ => ⟨S_, .f32⟩
  | .hbm, ⟨40, _⟩ => ⟨S10000x10, .f32⟩
  | .hbm, ⟨41, _⟩ => ⟨S10000x10, .f32⟩
  | .hbm, ⟨42, _⟩ => ⟨S10000x10, .f32⟩
  | .hbm, ⟨43, _⟩ => ⟨S10000x10, .f32⟩
  | .hbm, ⟨44, _⟩ => ⟨S_, .f32⟩
  | .hbm, ⟨45, _⟩ => ⟨S10000x10, .f32⟩
  | .hbm, ⟨46, _⟩ => ⟨S10000x10, .f32⟩
  | .hbm, ⟨47, _⟩ => ⟨S_, .f32⟩
  | .hbm, ⟨48, _⟩ => ⟨S10000x10, .f32⟩
  | .hbm, ⟨49, _⟩ => ⟨S10000x10, .f32⟩
  | .hbm, ⟨50, _⟩ => ⟨S10000x10, .f32⟩
  | .hbm, ⟨51, _⟩ => ⟨S10000x10, .f32⟩
  | .hbm, ⟨52, _⟩ => ⟨S_, .f32⟩
  | .hbm, ⟨53, _⟩ => ⟨S10000x10, .f32⟩
  | .hbm, ⟨54, _⟩ => ⟨S10000x10, .f32⟩
  | .hbm, ⟨55, _⟩ => ⟨S_, .f32⟩
  | .hbm, ⟨56, _⟩ => ⟨S10000x10, .f32⟩
  | .hbm, ⟨57, _⟩ => ⟨S10000x10, .f32⟩
  | .hbm, ⟨58, _⟩ => ⟨S10000x10, .f32⟩
  | .hbm, ⟨59, _⟩ => ⟨S10000x10, .f32⟩
  | .hbm, ⟨60, _⟩ => ⟨S_, .f32⟩
  | .hbm, ⟨61, _⟩ => ⟨S10000x10, .f32⟩
  | .hbm, ⟨62, _⟩ => ⟨S10000x10, .f32⟩
  | .hbm, ⟨63, _⟩ => ⟨S_, .f32⟩
  | .hbm, ⟨64, _⟩ => ⟨S10000x10, .f32⟩
  | .hbm, ⟨65, _⟩ => ⟨S10000x10, .f32⟩
  | .hbm, ⟨66, _⟩ => ⟨S10000x10, .f32⟩
  | .hbm, ⟨67, _⟩ => ⟨S10000x10, .f32⟩
  | .hbm, ⟨68, _⟩ => ⟨S_, .f32⟩
  | .hbm, ⟨69, _⟩ => ⟨S10000x10, .f32⟩
  | .hbm, ⟨70, _⟩ => ⟨S10000x10, .f32⟩
  | .hbm, ⟨71, _⟩ => ⟨S_, .f32⟩
  | .hbm, ⟨72, _⟩ => ⟨S10000x10, .f32⟩
  | .hbm, ⟨73, _⟩ => ⟨S10000x10, .f32⟩
  | .hbm, ⟨74, _⟩ => ⟨S10000x10, .f32⟩
  | .hbm, ⟨75, _⟩ => ⟨S10000x10, .f32⟩
  | .hbm, ⟨76, _⟩ => ⟨S_, .f32⟩
  | .hbm, ⟨77, _⟩ => ⟨S10000x10, .f32⟩
  | .hbm, ⟨78, _⟩ => ⟨S10000x10, .f32⟩
  | .hbm, ⟨79, _⟩ => ⟨S_, .f32⟩
  | .hbm, ⟨80, _⟩ => ⟨S10000x10, .f32⟩
  | .hbm, ⟨81, _⟩ => ⟨S10000x10, .f32⟩
  | .hbm, ⟨82, _⟩ => ⟨S10000x10, .f32⟩
  | .hbm, ⟨83, _⟩ => ⟨S_, .f32⟩
  | .hbm, ⟨84, _⟩ => ⟨S10000, .f32⟩
  | .hbm, ⟨85, _⟩ => ⟨S_, .f32⟩
  | .hbm, ⟨86, _⟩ => ⟨S10000, .f32⟩
  | .hbm, ⟨87, _⟩ => ⟨S10000, .f32⟩
  | .hbm, ⟨88, _⟩ => ⟨S10000x1, .f32⟩
  | .hbm, ⟨89, _⟩ => ⟨S10000x10, .f32⟩
  | .hbm, ⟨90, _⟩ => ⟨S10000x10, .f32⟩
  | .hbm, ⟨91, _⟩ => ⟨S10000x10, .f32⟩
  | .hbm, ⟨92, _⟩ => ⟨S_, .f32⟩
  | .hbm, ⟨93, _⟩ => ⟨S10000, .f32⟩
  | .hbm, ⟨94, _⟩ => ⟨S10000x1, .f32⟩
  | .hbm, ⟨95, _⟩ => ⟨S10000x1, .f32⟩
  | .hbm, ⟨96, _⟩ => ⟨S10000x10, .f32⟩
  | .hbm, ⟨97, _⟩ => ⟨S10000x10, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_cst_12 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_13 : Ref sig .tc := ⟨.hbm, 76, rfl⟩
abbrev main_v54 : Ref sig .tc := ⟨.hbm, 77, rfl⟩
abbrev main_v55 : Ref sig .tc := ⟨.hbm, 78, rfl⟩
abbrev main_cst_14 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_call1_cst_0 : Ref sig .tc := ⟨.hbm, 85, rfl⟩
abbrev main_call1_v1 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_v6 : Ref sig .tc := ⟨.hbm, 91, rfl⟩
abbrev main_call1_cst_1 : Ref sig .tc := ⟨.hbm, 92, rfl⟩
abbrev main_call1_v7 : Ref sig .tc := ⟨.hbm, 93, rfl⟩
abbrev main_call1_v8 : Ref sig .tc := ⟨.hbm, 94, rfl⟩
abbrev main_call1_v9 : Ref sig .tc := ⟨.hbm, 95, rfl⟩
abbrev main_call1_v10 : Ref sig .tc := ⟨.hbm, 96, rfl⟩
abbrev main_v59 : Ref sig .tc := ⟨.hbm, 97, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  transposes_S10x128_S128x10_1_0 : S10x128.Transposes [1, 0] S128x10
  bcast_S10_S1x10_1 : S10.BroadcastsInDim S1x10 (![1] : Fin 1 → Fin S1x10.rank)
  bcast_S1x10_S10000x10_0_1 : S1x10.BroadcastsInDim S10000x10 (![0, 1] : Fin 2 → Fin S10000x10.rank)
  bcast_S_S10000x10 : S_.BroadcastsInDim S10000x10 (![] : Fin 0 → Fin S10000x10.rank)
  reducesTo_S10000x10_S10000_d1 : S10000x10.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x10_0_1 : S10000x1.BroadcastsInDim S10000x10 (![0, 1] : Fin 2 → Fin S10000x10.rank)
  dot_S10000x128_S128x128_S10000x128_1_0_0_1_n_n_wf : DotDims.WF S10000x128 S128x128 S10000x128 [1] [0] [0] [1] [] []
  dot_S10000x128_S128x10_S10000x10_1_0_0_1_n_n_wf : DotDims.WF S10000x128 S128x10 S10000x10 [1] [0] [0] [1] [] []
  dot_S10000x10000_S10000x10_S10000x10_1_0_0_1_n_n_wf : DotDims.WF S10000x10000 S10000x10 S10000x10 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x10_S10000x10_1_0_0_1_n_n : DotDims S10000x128 S128x10 S10000x10 where
  lhsContracting := [1]
  rhsContracting := [0]
  lhsNonContracting := [0]
  rhsNonContracting := [1]
  lhsBatch := []
  rhsBatch := []
  wf := dot_S10000x128_S128x10_S10000x10_1_0_0_1_n_n_wf
def dot_S10000x10000_S10000x10_S10000x10_1_0_0_1_n_n : DotDims S10000x10000 S10000x10 S10000x10 where
  lhsContracting := [1]
  rhsContracting := [0]
  lhsNonContracting := [0]
  rhsNonContracting := [1]
  lhsBatch := []
  rhsBatch := []
  wf := dot_S10000x10000_S10000x10_S10000x10_1_0_0_1_n_n_wf

class Facts : Prop extends Facts₀ where

variable [Facts]
-- ==== Proof.KRegionEnc.lean ====
import proofs.«175698_g31370441130260_cont_8to1_b_1575_2_alg».proof.Proof.Gen.Kernel.Launch
import proofs.«175698_g31370441130260_cont_8to1_b_1575_2_alg».proof.Proof.Gen.Kernel.Skeleton
import proofs.«175698_g31370441130260_cont_8to1_b_1575_2_alg».proof.Proof.Gen.Kernel.Points
import Idealize.ShloMosaic.Lib.Pipeline.FrameBody
import Idealize.ShloMosaic.Lib.Ring
import Idealize.ShloMosaic.Lib.Tactic

/-!
# The encoder, one row block at a time

The grid has 10 points. At point `t` the encoder reads rows `1000 t … 1000 t + 999` of the 10000 × 128
feature matrix (window 0) and, whole, the first layer's 128 × 128 weights (window 1) and bias as a
1 × 128 row (window 2) and the second layer's 10 × 128 weights (window 3) and bias as a 1 × 10 row
(window 4); the four whole arrays are brought in once, at the first point, and stay in place. It writes
rows `1000 t …` of the 10000 × 10 encoder output (window 5):

  z = max (x · W1ᵀ + b1, 0) · W2ᵀ + b2.

Everything here is stated at a parameter `V`, the buffer contents the encoder finds when it starts, and
for any float instance. The file gives the contents each window's buffer holds before and after the
body at a point, and proves that the body, run on those contents, leaves exactly the stated ones.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of a core holds when the encoder starts
variable (V : (c : Dev nD) → (b : Ref sig .tc) → Buf (Elt F) ((c : Thread nD τ).loc b))

/-! ## The block of each window at a point -/

/-- The part of window `w`'s array that point `t` works on, read off the contents the encoder starts from. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body finds in the five input buffers

An input's buffer holds the input's block at every point, whether the block was brought in at this
point or at an earlier one: when nothing is brought in, the block index has not moved since the
previous point and the body does not write to inputs. The lemmas below say this for any proof data
whose array is `V`'s and whose body leaves the input in place. -/

theorem input0_0_found {c : Dev nD} (dat : Dat τ (Elt F) Unit ℕ (UR sig nD τ) ℕ cfg0 c) (hA : dat.A 0 = V c (Pipeline.arrRef spec0 0))
    (hkeep : ∀ t, dat.after 0 t = iblk0 V c 0 t) (t : Fin cfg0.N) (d) : dat.before 0 t d = iblk0 V c 0 t :=
  (dat.before_in_eq_fetched 0 rfl (fun _ => rfl) (fun _ _ _ => rfl) (fun t => by rw [hkeep]; unfold Dat.blockOf iblk0; rw [hA]; try rfl) t d).trans
    (by unfold Dat.fetched Dat.blockOf iblk0; rw [hA]; try rfl)

theorem input0_1_found {c : Dev nD} (dat : Dat τ (Elt F) Unit ℕ (UR sig nD τ) ℕ cfg0 c) (hA : dat.A 1 = V c (Pipeline.arrRef spec0 1))
    (hkeep : ∀ t, dat.after 1 t = iblk0 V c 1 t) (t : Fin cfg0.N) (d) : dat.before 1 t d = iblk0 V c 1 t :=
  (dat.before_in_eq_fetched 1 rfl (fun _ => rfl) (fun _ _ _ => rfl) (fun t => by rw [hkeep]; unfold Dat.blockOf iblk0; rw [hA]; try rfl) t d).trans
    (by unfold Dat.fetched Dat.blockOf iblk0; rw [hA]; try rfl)

theorem input0_2_found {c : Dev nD} (dat : Dat τ (Elt F) Unit ℕ (UR sig nD τ) ℕ cfg0 c) (hA : dat.A 2 = V c (Pipeline.arrRef spec0 2))
    (hkeep : ∀ t, dat.after 2 t = iblk0 V c 2 t) (t : Fin cfg0.N) (d) : dat.before 2 t d = iblk0 V c 2 t :=
  (dat.before_in_eq_fetched 2 rfl (fun _ => rfl) (fun _ _ _ => rfl) (fun t => by rw [hkeep]; unfold Dat.blockOf iblk0; rw [hA]; try rfl) t d).trans
    (by unfold Dat.fetched Dat.blockOf iblk0; rw [hA]; try rfl)

theorem input0_3_found {c : Dev nD} (dat : Dat τ (Elt F) Unit ℕ (UR sig nD τ) ℕ cfg0 c) (hA : dat.A 3 = V c (Pipeline.arrRef spec0 3))
    (hkeep : ∀ t, dat.after 3 t = iblk0 V c 3 t) (t : Fin cfg0.N) (d) : dat.before 3 t d = iblk0 V c 3 t :=
  (dat.before_in_eq_fetched 3 rfl (fun _ => rfl) (fun _ _ _ => rfl) (fun t => by rw [hkeep]; unfold Dat.blockOf iblk0; rw [hA]; try rfl) t d).trans
    (by unfold Dat.fetched Dat.blockOf iblk0; rw [hA]; try rfl)

theorem input0_4_found {c : Dev nD} (dat : Dat τ (Elt F) Unit ℕ (UR sig nD τ) ℕ cfg0 c) (hA : dat.A 4 = V c (Pipeline.arrRef spec0 4))
    (hkeep : ∀ t, dat.after 4 t = iblk0 V c 4 t) (t : Fin cfg0.N) (d) : dat.before 4 t d = iblk0 V c 4 t :=
  (dat.before_in_eq_fetched 4 rfl (fun _ => rfl) (fun _ _ _ => rfl) (fun t => by rw [hkeep]; unfold Dat.blockOf iblk0; rw [hA]; try rfl) t d).trans
    (by unfold Dat.fetched Dat.blockOf iblk0; rw [hA]; try rfl)

/-! ## The rectangles the body reads and writes: each is the whole of its buffer -/

abbrev whole0_x : Rect S1000x128 := Rect.unit (s := S1000x128) ![0, 0] S1000x128.size inb_S1000x128_S1000x128_0_0
abbrev whole0_w1 : Rect S128x128 := Rect.unit (s := S128x128) ![0, 0] S128x128.size inb_S128x128_S128x128_0_0
abbrev whole0_b1 : Rect S1x128 := Rect.unit (s := S1x128) ![0, 0] S1x128.size inb_S1x128_S1x128_0_0
abbrev whole0_w2 : Rect S10x128 := Rect.unit (s := S10x128) ![0, 0] S10x128.size inb_S10x128_S10x128_0_0
abbrev whole0_b2 : Rect S1x10 := Rect.unit (s := S1x10) ![0, 0] S1x10.size inb_S1x10_S1x10_0_0
abbrev whole0_z : Rect S1000x10 := Rect.unit (s := S1000x10) ![0, 0] S1000x10.size inb_S1000x10_S1000x10_0_0

/-! ## The output buffer after the body -/

/-- The 1000 × 10 output buffer once the body has run on feature rows `x0`, first-layer weights `x1` and
    bias `x2`, second-layer weights `x3` and bias `x4`: one store, of the whole buffer, of the body's
    arithmetic on what it loaded. -/
def out0_5 (x0 : Vec F S1000x128 .f32) (x1 : Vec F S128x128 .f32) (x2 : Vec F S1x128 .f32) (x3 : Vec F S10x128 .f32) (x4 : Vec F S1x10 .f32) : Vec F S1000x10 .f32 :=
  View.canon [⟨whole0_z, k0_pay1 (View.ld x0 whole0_x) (View.ld x1 whole0_w1) (View.ld x2 whole0_b1) (View.ld x3 whole0_w2) (View.ld x4 whole0_b2)⟩]

/-- The one store reaches every entry of the output buffer. -/
theorem out0_5_covered (p0 : Vec F S1000x10 .f32) (y : S1000x10.Idx) :
    ∃ pc ∈ ([⟨whole0_z, p0⟩] : List (View.Piece (Elt F) S1000x10 .f32)), y ∈ pc.1.set :=
  View.cover_of_tiled [⟨whole0_z, p0⟩] S1000x10.size (by rfl) y

/-! ## The body, run -/

set_option maxHeartbeats 1000000 in
/-- Run on whole buffers, the inputs' holding `x0 … x4` and the output's holding anything, the body ends
    with the inputs untouched and the output at `out0_5 x0 x1 x2 x3 x4`. The body first loads the five
    inputs, then loads the output buffer (a value it never uses), then stores. -/
theorem body0_runs (c : Dev nD) (E : Set ℕ) (i : grid0.Coords)
    (arg1 : Memref sig .tc .vmem S1000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S10x128 .f32) (harg4 : arg4.IsWhole)
    (arg5 : Memref sig .tc .vmem S1x10 .f32) (harg5 : arg5.IsWhole) (arg6 : Memref sig .tc .vmem S1000x10 .f32) (harg6 : arg6.IsWhole)
    (x0 : Vec F S1000x128 .f32) (x1 : Vec F S128x128 .f32) (x2 : Vec F S1x128 .f32) (x3 : Vec F S10x128 .f32) (x4 : Vec F S1x10 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__encoder_body i arg1 harg1 arg2 harg2 arg3 harg3 arg4 harg4 arg5 harg5 arg6 harg6) K := by
  simp only [cc0__encoder_body_eq_skeleton]; unfold cc0__encoder_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (out0_5_covered _)

/-! ## The proof data of the encoder -/

/-- On core `c`: the arrays as the encoder finds them; after the body at point `t`, each input buffer still
    at its block and the output buffer at `out0_5` of the five blocks; the invariant says only that the
    buffers the encoder does not window, and the generator register, stay as they are; the core owes
    nothing; every array is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  input0_0_found V (dat0 V c) (A_eq0 V c 0) (after0_0 V c) t d
theorem before0_1 (c : Dev nD) (t : Fin cfg0.N) (d) : (dat0 V c).before 1 t d = iblk0 V c 1 t :=
  input0_1_found V (dat0 V c) (A_eq0 V c 1) (after0_1 V c) t d
theorem before0_2 (c : Dev nD) (t : Fin cfg0.N) (d) : (dat0 V c).before 2 t d = iblk0 V c 2 t :=
  input0_2_found V (dat0 V c) (A_eq0 V c 2) (after0_2 V c) t d
theorem before0_3 (c : Dev nD) (t : Fin cfg0.N) (d) : (dat0 V c).before 3 t d = iblk0 V c 3 t :=
  input0_3_found V (dat0 V c) (A_eq0 V c 3) (after0_3 V c) t d
theorem before0_4 (c : Dev nD) (t : Fin cfg0.N) (d) : (dat0 V c).before 4 t d = iblk0 V c 4 t :=
  input0_4_found V (dat0 V c) (A_eq0 V c 4) (after0_4 V c) t d

/-! ## The body obligation -/

/-- What the body is handed at point `t`: the invariant, what the core owes, and the six current buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- At any point the input buffers hold their blocks, so `body0_runs` applies; the invariant and what the
    core owes are not looked at and come back as they went in. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (body0_runs c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline rule asks of the body, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegionProp1.lean ====
import proofs.«175698_g31370441130260_cont_8to1_b_1575_2_alg».proof.Proof.Gen.Kernel.Launch
import proofs.«175698_g31370441130260_cont_8to1_b_1575_2_alg».proof.Proof.Gen.Kernel.Skeleton
import proofs.«175698_g31370441130260_cont_8to1_b_1575_2_alg».proof.Proof.Gen.Kernel.Points
import Idealize.ShloMosaic.Lib.Pipeline.FrameBody
import Idealize.ShloMosaic.Lib.Ring
import Idealize.ShloMosaic.Lib.Tactic

/-!
# Propagation step 1, one row block at a time

The grid of this step has 25 points. At point `t` the step reads rows `400 t … 400 t + 399` of the
10000 × 10000 adjacency matrix (window 0), the whole 10000 × 10 current iterate (window 1, brought in
once, at the first point, and left in place afterwards), and rows `400 t …` of the 10000 × 10 encoder
output (window 2); it writes rows `400 t …` of the next iterate (window 3):

  next = 0.9 · (adjacency rows · current) + 0.1 · encoder rows.

In this first step the current iterate is the encoder output itself: windows 1 and 2 read one and the
same array, each holding a share of it.

Everything here is stated at a parameter `V`, the buffer contents the step finds when it starts, and for
any float instance. The file gives the contents each window's buffer holds before and after the body at
a point, and proves that the body, run on those contents, leaves exactly the stated ones.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of a core holds when the step starts
variable (V : (c : Dev nD) → (b : Ref sig .tc) → Buf (Elt F) ((c : Thread nD τ).loc b))

-- the shares held of the one array that windows 1 and 2 both read; nothing below looks at them
variable (q₁ q₂ : PosShare TreeShare)

/-! ## The block of each window at a point -/

/-- The part of window `w`'s array that point `t` works on, read off the contents the step starts from. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body finds in the three input buffers

An input's buffer holds the input's block at every point, whether the block was brought in at this
point or at an earlier one: when nothing is brought in, the block index has not moved since the
previous point and the body does not write to inputs. The three lemmas below say this for any proof
data whose array is `V`'s and whose body leaves the input in place. -/

theorem input1_0_found {c : Dev nD} (dat : Dat τ (Elt F) Unit ℕ (UR sig nD τ) ℕ cfg1 c) (hA : dat.A 0 = V c (Pipeline.arrRef spec1 0))
    (hkeep : ∀ t, dat.after 0 t = iblk1 V c 0 t) (t : Fin cfg1.N) (d) : dat.before 0 t d = iblk1 V c 0 t :=
  (dat.before_in_eq_fetched 0 rfl (fun _ => rfl) (fun _ _ _ => rfl) (fun t => by rw [hkeep]; unfold Dat.blockOf iblk1; rw [hA]; try rfl) t d).trans
    (by unfold Dat.fetched Dat.blockOf iblk1; rw [hA]; try rfl)

theorem input1_1_found {c : Dev nD} (dat : Dat τ (Elt F) Unit ℕ (UR sig nD τ) ℕ cfg1 c) (hA : dat.A 1 = V c (Pipeline.arrRef spec1 1))
    (hkeep : ∀ t, dat.after 1 t = iblk1 V c 1 t) (t : Fin cfg1.N) (d) : dat.before 1 t d = iblk1 V c 1 t :=
  (dat.before_in_eq_fetched 1 rfl (fun _ => rfl) (fun _ _ _ => rfl) (fun t => by rw [hkeep]; unfold Dat.blockOf iblk1; rw [hA]; try rfl) t d).trans
    (by unfold Dat.fetched Dat.blockOf iblk1; rw [hA]; try rfl)

theorem input1_2_found {c : Dev nD} (dat : Dat τ (Elt F) Unit ℕ (UR sig nD τ) ℕ cfg1 c) (hA : dat.A 2 = V c (Pipeline.arrRef spec1 2))
    (hkeep : ∀ t, dat.after 2 t = iblk1 V c 2 t) (t : Fin cfg1.N) (d) : dat.before 2 t d = iblk1 V c 2 t :=
  (dat.before_in_eq_fetched 2 rfl (fun _ => rfl) (fun _ _ _ => rfl) (fun t => by rw [hkeep]; unfold Dat.blockOf iblk1; rw [hA]; try rfl) t d).trans
    (by unfold Dat.fetched Dat.blockOf iblk1; rw [hA]; try rfl)

/-! ## The rectangles the body reads and writes: each is the whole of its buffer -/

abbrev whole1_adj : Rect S400x10000 := Rect.unit (s := S400x10000) ![0, 0] S400x10000.size inb_S400x10000_S400x10000_0_0
abbrev whole1_cur : Rect S10000x10 := Rect.unit (s := S10000x10) ![0, 0] S10000x10.size inb_S10000x10_S10000x10_0_0
abbrev whole1_blk : Rect S400x10 := Rect.unit (s := S400x10) ![0, 0] S400x10.size inb_S400x10_S400x10_0_0

/-! ## The output buffer after the body -/

/-- The 400 × 10 output buffer once the body has run on adjacency rows `x0`, current iterate `x1` and
    encoder rows `x2`: one store, of the whole buffer, of the body's arithmetic on what it loaded. -/
def out1_3 (x0 : Vec F S400x10000 .f32) (x1 : Vec F S10000x10 .f32) (x2 : Vec F S400x10 .f32) : Vec F S400x10 .f32 :=
  View.canon [⟨whole1_blk, k1_pay1 (View.ld x0 whole1_adj) (View.ld x1 whole1_cur) (View.ld x2 whole1_blk)⟩]

/-- The one store reaches every entry of the output buffer. -/
theorem out1_3_covered (p0 : Vec F S400x10 .f32) (y : S400x10.Idx) :
    ∃ pc ∈ ([⟨whole1_blk, p0⟩] : List (View.Piece (Elt F) S400x10 .f32)), y ∈ pc.1.set :=
  View.cover_of_tiled [⟨whole1_blk, p0⟩] S400x10.size (by rfl) y

/-! ## The body, run -/

set_option maxHeartbeats 1000000 in
/-- Run on whole buffers, the inputs' holding `x0`, `x1`, `x2` and the output's holding anything, the body
    ends with the inputs untouched and the output at `out1_3 x0 x1 x2`. The body first loads the three
    inputs, then loads the output buffer (a value it never uses), then stores. -/
theorem body1_runs (c : Dev nD) (E : Set ℕ) (i : grid1.Coords)
    (arg1 : Memref sig .tc .vmem S400x10000 .f32) (harg1 : arg1.IsWhole) (arg2 : Memref sig .tc .vmem S10000x10 .f32) (harg2 : arg2.IsWhole)
    (arg3 : Memref sig .tc .vmem S400x10 .f32) (harg3 : arg3.IsWhole) (arg4 : Memref sig .tc .vmem S400x10 .f32) (harg4 : arg4.IsWhole)
    (x0 : Vec F S400x10000 .f32) (x1 : Vec F S10000x10 .f32) (x2 : Vec F S400x10 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__prop_body i arg1 harg1 arg2 harg2 arg3 harg3 arg4 harg4) K := by
  simp only [cc1__prop_body_eq_skeleton]; unfold cc1__prop_body_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (out1_3_covered _)

/-! ## The proof data of the step -/

/-- On core `c`: the arrays as the step finds them; after the body at point `t`, each input buffer still
    at its block and the output buffer at `out1_3` of the three blocks; the invariant says only that the
    buffers the step does not window, and the generator register, stay as they are; the core owes
    nothing. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨1, _⟩ => q₁
    | ⟨2, _⟩ => q₂
    | _ => fullShare
  owed _ := 0

theorem A_eq1 (c : Dev nD) (w : Fin cfg1.W) : (dat1 V q₁ q₂ c).A w = V c (Pipeline.arrRef spec1 w) := by
  dsimp only [dat1]

theorem after1_0 (c : Dev nD) (t : Fin cfg1.N) : (dat1 V q₁ q₂ c).after 0 t = iblk1 V c 0 t := by dsimp only [dat1]
theorem after1_1 (c : Dev nD) (t : Fin cfg1.N) : (dat1 V q₁ q₂ c).after 1 t = iblk1 V c 1 t := by dsimp only [dat1]
theorem after1_2 (c : Dev nD) (t : Fin cfg1.N) : (dat1 V q₁ q₂ c).after 2 t = iblk1 V c 2 t := by dsimp only [dat1]
theorem after1_3 (c : Dev nD) (t : Fin cfg1.N) :
    (dat1 V q₁ q₂ c).after 3 t = out1_3 (iblk1 V c 0 t) (iblk1 V c 1 t) (iblk1 V c 2 t) := by dsimp only [dat1]

theorem before1_0 (c : Dev nD) (t : Fin cfg1.N) (d) : (dat1 V q₁ q₂ c).before 0 t d = iblk1 V c 0 t :=
  input1_0_found V (dat1 V q₁ q₂ c) (A_eq1 V q₁ q₂ c 0) (after1_0 V q₁ q₂ c) t d
theorem before1_1 (c : Dev nD) (t : Fin cfg1.N) (d) : (dat1 V q₁ q₂ c).before 1 t d = iblk1 V c 1 t :=
  input1_1_found V (dat1 V q₁ q₂ c) (A_eq1 V q₁ q₂ c 1) (after1_1 V q₁ q₂ c) t d
theorem before1_2 (c : Dev nD) (t : Fin cfg1.N) (d) : (dat1 V q₁ q₂ c).before 2 t d = iblk1 V c 2 t :=
  input1_2_found V (dat1 V q₁ q₂ c) (A_eq1 V q₁ q₂ c 2) (after1_2 V q₁ q₂ c) t d

/-! ## The body obligation -/

/-- What the body is handed at point `t`: the invariant, what the core owes, and the four current buffers, -/
def bodyPre1 (c : Dev nD) (t : Fin cfg1.N) : sProp 𝕄 :=
  iprop((dat1 V q₁ q₂ c).Φ t.castSucc ∗ (dat1 V q₁ q₂ c).owesAt () t.castSucc
    ∗ (∃ d, owns (c : Thread nD τ) (st1_0 t) fullShare ((dat1 V q₁ q₂ c).before 0 t d))
    ∗ (∃ d, owns (c : Thread nD τ) (st1_1 t) fullShare ((dat1 V q₁ q₂ c).before 1 t d))
    ∗ (∃ d, owns (c : Thread nD τ) (st1_2 t) fullShare ((dat1 V q₁ q₂ c).before 2 t d))
    ∗ (∃ d, owns (c : Thread nD τ) (st1_3 t) fullShare ((dat1 V q₁ q₂ c).before 3 t d)))

/-- and what it hands back. -/
def bodyPost1 (c : Dev nD) (t : Fin cfg1.N) : sProp 𝕄 :=
  iprop((dat1 V q₁ q₂ c).Φ t.succ ∗ (dat1 V q₁ q₂ c).owesAt () t.succ
    ∗ owns (c : Thread nD τ) (st1_0 t) fullShare ((dat1 V q₁ q₂ c).after 0 t)
    ∗ owns (c : Thread nD τ) (st1_1 t) fullShare ((dat1 V q₁ q₂ c).after 1 t)
    ∗ owns (c : Thread nD τ) (st1_2 t) fullShare ((dat1 V q₁ q₂ c).after 2 t)
    ∗ owns (c : Thread nD τ) (st1_3 t) fullShare ((dat1 V q₁ q₂ c).after 3 t))

/-- At any point the input buffers hold their blocks, so `body1_runs` applies; the invariant and what the
    core owes are not looked at and come back as they went in. -/
theorem sound_body1 (c : Dev nD) (t : Fin cfg1.N) :
    bodyPre1 V q₁ q₂ c t ⊢ wp frame (wpE (defs₀ (F := F)) Variants.none c none) Set.univ (bodyAt1 t) (fun _ => bodyPost1 V q₁ q₂ c t) := by
  unfold bodyPre1 bodyPost1 bodyAt1
  simp only [before1_0, before1_1, before1_2]
  rw [show (dat1 V q₁ q₂ c).Φ t.succ = (dat1 V q₁ q₂ c).Φ t.castSucc from rfl,
    show (dat1 V q₁ q₂ c).owesAt () t.succ = (dat1 V q₁ q₂ c).owesAt () t.castSucc from rfl,
    after1_0, after1_1, after1_2, after1_3]
  iintro ⟨HΦ, Ho, ⟨%d0, H0⟩, ⟨%d1, H1⟩, ⟨%d2, H2⟩, ⟨%d3, H3⟩⟩
  iapply (body1_runs c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline rule asks of the body, at every point. -/
theorem body_obligation1 (c : Dev nD) : BodyObligation (dat1 (F := F) V q₁ q₂ c) (defs₀ (F := F)) Variants.none () Set.univ := fun t => by
  rw [bigSep_W1, bigSep_W1]
  exact sound_body1 V q₁ q₂ c t

end Cert.Kernel.Hand

end
-- ==== Proof.KRegionProp2.lean ====
import proofs.«175698_g31370441130260_cont_8to1_b_1575_2_alg».proof.Proof.Gen.Kernel.Launch
import proofs.«175698_g31370441130260_cont_8to1_b_1575_2_alg».proof.Proof.Gen.Kernel.Skeleton
import proofs.«175698_g31370441130260_cont_8to1_b_1575_2_alg».proof.Proof.Gen.Kernel.Points
import Idealize.ShloMosaic.Lib.Pipeline.FrameBody
import Idealize.ShloMosaic.Lib.Ring
import Idealize.ShloMosaic.Lib.Tactic

/-!
# Propagation step 2, one row block at a time

The grid of this step has 25 points. At point `t` the step reads rows `400 t … 400 t + 399` of the
10000 × 10000 adjacency matrix (window 0), the whole 10000 × 10 current iterate (window 1, brought in
once, at the first point, and left in place afterwards), and rows `400 t …` of the 10000 × 10 encoder
output (window 2); it writes rows `400 t …` of the next iterate (window 3):

  next = 0.9 · (adjacency rows · current) + 0.1 · encoder rows.

Everything here is stated at a parameter `V`, the buffer contents the step finds when it starts, and for
any float instance. The file gives the contents each window's buffer holds before and after the body at
a point, and proves that the body, run on those contents, leaves exactly the stated ones.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of a core holds when the step starts
variable (V : (c : Dev nD) → (b : Ref sig .tc) → Buf (Elt F) ((c : Thread nD τ).loc b))

/-! ## The block of each window at a point -/

/-- The part of window `w`'s array that point `t` works on, read off the contents the step starts from. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## What the body finds in the three input buffers

An input's buffer holds the input's block at every point, whether the block was brought in at this
point or at an earlier one: when nothing is brought in, the block index has not moved since the
previous point and the body does not write to inputs. The three lemmas below say this for any proof
data whose array is `V`'s and whose body leaves the input in place. -/

theorem input2_0_found {c : Dev nD} (dat : Dat τ (Elt F) Unit ℕ (UR sig nD τ) ℕ cfg2 c) (hA : dat.A 0 = V c (Pipeline.arrRef spec2 0))
    (hkeep : ∀ t, dat.after 0 t = iblk2 V c 0 t) (t : Fin cfg2.N) (d) : dat.before 0 t d = iblk2 V c 0 t :=
  (dat.before_in_eq_fetched 0 rfl (fun _ => rfl) (fun _ _ _ => rfl) (fun t => by rw [hkeep]; unfold Dat.blockOf iblk2; rw [hA]; try rfl) t d).trans
    (by unfold Dat.fetched Dat.blockOf iblk2; rw [hA]; try rfl)

theorem input2_1_found {c : Dev nD} (dat : Dat τ (Elt F) Unit ℕ (UR sig nD τ) ℕ cfg2 c) (hA : dat.A 1 = V c (Pipeline.arrRef spec2 1))
    (hkeep : ∀ t, dat.after 1 t = iblk2 V c 1 t) (t : Fin cfg2.N) (d) : dat.before 1 t d = iblk2 V c 1 t :=
  (dat.before_in_eq_fetched 1 rfl (fun _ => rfl) (fun _ _ _ => rfl) (fun t => by rw [hkeep]; unfold Dat.blockOf iblk2; rw [hA]; try rfl) t d).trans
    (by unfold Dat.fetched Dat.blockOf iblk2; rw [hA]; try rfl)

theorem input2_2_found {c : Dev nD} (dat : Dat τ (Elt F) Unit ℕ (UR sig nD τ) ℕ cfg2 c) (hA : dat.A 2 = V c (Pipeline.arrRef spec2 2))
    (hkeep : ∀ t, dat.after 2 t = iblk2 V c 2 t) (t : Fin cfg2.N) (d) : dat.before 2 t d = iblk2 V c 2 t :=
  (dat.before_in_eq_fetched 2 rfl (fun _ => rfl) (fun _ _ _ => rfl) (fun t => by rw [hkeep]; unfold Dat.blockOf iblk2; rw [hA]; try rfl) t d).trans
    (by unfold Dat.fetched Dat.blockOf iblk2; rw [hA]; try rfl)

/-! ## The rectangles the body reads and writes: each is the whole of its buffer -/

abbrev whole2_adj : Rect S400x10000 := Rect.unit (s := S400x10000) ![0, 0] S400x10000.size inb_S400x10000_S400x10000_0_0
abbrev whole2_cur : Rect S10000x10 := Rect.unit (s := S10000x10) ![0, 0] S10000x10.size inb_S10000x10_S10000x10_0_0
abbrev whole2_blk : Rect S400x10 := Rect.unit (s := S400x10) ![0, 0] S400x10.size inb_S400x10_S400x10_0_0

/-! ## The output buffer after the body -/

/-- The 400 × 10 output buffer once the body has run on adjacency rows `x0`, current iterate `x1` and
    encoder rows `x2`: one store, of the whole buffer, of the body's arithmetic on what it loaded. -/
def out2_3 (x0 : Vec F S400x10000 .f32) (x1 : Vec F S10000x10 .f32) (x2 : Vec F S400x10 .f32) : Vec F S400x10 .f32 :=
  View.canon [⟨whole2_blk, k2_pay1 (View.ld x0 whole2_adj) (View.ld x1 whole2_cur) (View.ld x2 whole2_blk)⟩]

/-- The one store reaches every entry of the output buffer. -/
theorem out2_3_covered (p0 : Vec F S400x10 .f32) (y : S400x10.Idx) :
    ∃ pc ∈ ([⟨whole2_blk, p0⟩] : List (View.Piece (Elt F) S400x10 .f32)), y ∈ pc.1.set :=
  View.cover_of_tiled [⟨whole2_blk, p0⟩] S400x10.size (by rfl) y

/-! ## The body, run -/

set_option maxHeartbeats 1000000 in
/-- Run on whole buffers, the inputs' holding `x0`, `x1`, `x2` and the output's holding anything, the body
    ends with the inputs untouched and the output at `out2_3 x0 x1 x2`. The body first loads the three
    inputs, then loads the output buffer (a value it never uses), then stores. -/
theorem body2_runs (c : Dev nD) (E : Set ℕ) (i : grid2.Coords)
    (arg1 : Memref sig .tc .vmem S400x10000 .f32) (harg1 : arg1.IsWhole) (arg2 : Memref sig .tc .vmem S10000x10 .f32) (harg2 : arg2.IsWhole)
    (arg3 : Memref sig .tc .vmem S400x10 .f32) (harg3 : arg3.IsWhole) (arg4 : Memref sig .tc .vmem S400x10 .f32) (harg4 : arg4.IsWhole)
    (x0 : Vec F S400x10000 .f32) (x1 : Vec F S10000x10 .f32) (x2 : Vec F S400x10 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__prop_body i arg1 harg1 arg2 harg2 arg3 harg3 arg4 harg4) K := by
  simp only [cc2__prop_body_eq_skeleton]; unfold cc2__prop_body_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (out2_3_covered _)

/-! ## The proof data of the step -/

/-- On core `c`: the arrays as the step finds them; after the body at point `t`, each input buffer still
    at its block and the output buffer at `out2_3` of the three blocks; the invariant says only that the
    buffers the step does not window, and the generator register, stay as they are; the core owes
    nothing. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  input2_0_found V (dat2 V c) (A_eq2 V c 0) (after2_0 V c) t d
theorem before2_1 (c : Dev nD) (t : Fin cfg2.N) (d) : (dat2 V c).before 1 t d = iblk2 V c 1 t :=
  input2_1_found V (dat2 V c) (A_eq2 V c 1) (after2_1 V c) t d
theorem before2_2 (c : Dev nD) (t : Fin cfg2.N) (d) : (dat2 V c).before 2 t d = iblk2 V c 2 t :=
  input2_2_found V (dat2 V c) (A_eq2 V c 2) (after2_2 V c) t d

/-! ## The body obligation -/

/-- What the body is handed at point `t`: the invariant, what the core owes, and the four current buffers, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- At any point the input buffers hold their blocks, so `body2_runs` applies; the invariant and what the
    core owes are not looked at and come back as they went in. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (body2_runs c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline rule asks of the body, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRegionProp3.lean ====
import proofs.«175698_g31370441130260_cont_8to1_b_1575_2_alg».proof.Proof.Gen.Kernel.Launch
import proofs.«175698_g31370441130260_cont_8to1_b_1575_2_alg».proof.Proof.Gen.Kernel.Skeleton
import proofs.«175698_g31370441130260_cont_8to1_b_1575_2_alg».proof.Proof.Gen.Kernel.Points
import Idealize.ShloMosaic.Lib.Pipeline.FrameBody
import Idealize.ShloMosaic.Lib.Ring
import Idealize.ShloMosaic.Lib.Tactic

/-!
# Propagation step 3, one row block at a time

The grid of this step has 25 points. At point `t` the step reads rows `400 t … 400 t + 399` of the
10000 × 10000 adjacency matrix (window 0), the whole 10000 × 10 current iterate (window 1, brought in
once, at the first point, and left in place afterwards), and rows `400 t …` of the 10000 × 10 encoder
output (window 2); it writes rows `400 t …` of the next iterate (window 3):

  next = 0.9 · (adjacency rows · current) + 0.1 · encoder rows.

Everything here is stated at a parameter `V`, the buffer contents the step finds when it starts, and for
any float instance. The file gives the contents each window's buffer holds before and after the body at
a point, and proves that the body, run on those contents, leaves exactly the stated ones.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of a core holds when the step starts
variable (V : (c : Dev nD) → (b : Ref sig .tc) → Buf (Elt F) ((c : Thread nD τ).loc b))

/-! ## The block of each window at a point -/

/-- The part of window `w`'s array that point `t` works on, read off the contents the step starts from. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## What the body finds in the three input buffers

An input's buffer holds the input's block at every point, whether the block was brought in at this
point or at an earlier one: when nothing is brought in, the block index has not moved since the
previous point and the body does not write to inputs. The three lemmas below say this for any proof
data whose array is `V`'s and whose body leaves the input in place. -/

theorem input3_0_found {c : Dev nD} (dat : Dat τ (Elt F) Unit ℕ (UR sig nD τ) ℕ cfg3 c) (hA : dat.A 0 = V c (Pipeline.arrRef spec3 0))
    (hkeep : ∀ t, dat.after 0 t = iblk3 V c 0 t) (t : Fin cfg3.N) (d) : dat.before 0 t d = iblk3 V c 0 t :=
  (dat.before_in_eq_fetched 0 rfl (fun _ => rfl) (fun _ _ _ => rfl) (fun t => by rw [hkeep]; unfold Dat.blockOf iblk3; rw [hA]; try rfl) t d).trans
    (by unfold Dat.fetched Dat.blockOf iblk3; rw [hA]; try rfl)

theorem input3_1_found {c : Dev nD} (dat : Dat τ (Elt F) Unit ℕ (UR sig nD τ) ℕ cfg3 c) (hA : dat.A 1 = V c (Pipeline.arrRef spec3 1))
    (hkeep : ∀ t, dat.after 1 t = iblk3 V c 1 t) (t : Fin cfg3.N) (d) : dat.before 1 t d = iblk3 V c 1 t :=
  (dat.before_in_eq_fetched 1 rfl (fun _ => rfl) (fun _ _ _ => rfl) (fun t => by rw [hkeep]; unfold Dat.blockOf iblk3; rw [hA]; try rfl) t d).trans
    (by unfold Dat.fetched Dat.blockOf iblk3; rw [hA]; try rfl)

theorem input3_2_found {c : Dev nD} (dat : Dat τ (Elt F) Unit ℕ (UR sig nD τ) ℕ cfg3 c) (hA : dat.A 2 = V c (Pipeline.arrRef spec3 2))
    (hkeep : ∀ t, dat.after 2 t = iblk3 V c 2 t) (t : Fin cfg3.N) (d) : dat.before 2 t d = iblk3 V c 2 t :=
  (dat.before_in_eq_fetched 2 rfl (fun _ => rfl) (fun _ _ _ => rfl) (fun t => by rw [hkeep]; unfold Dat.blockOf iblk3; rw [hA]; try rfl) t d).trans
    (by unfold Dat.fetched Dat.blockOf iblk3; rw [hA]; try rfl)

/-! ## The rectangles the body reads and writes: each is the whole of its buffer -/

abbrev whole3_adj : Rect S400x10000 := Rect.unit (s := S400x10000) ![0, 0] S400x10000.size inb_S400x10000_S400x10000_0_0
abbrev whole3_cur : Rect S10000x10 := Rect.unit (s := S10000x10) ![0, 0] S10000x10.size inb_S10000x10_S10000x10_0_0
abbrev whole3_blk : Rect S400x10 := Rect.unit (s := S400x10) ![0, 0] S400x10.size inb_S400x10_S400x10_0_0

/-! ## The output buffer after the body -/

/-- The 400 × 10 output buffer once the body has run on adjacency rows `x0`, current iterate `x1` and
    encoder rows `x2`: one store, of the whole buffer, of the body's arithmetic on what it loaded. -/
def out3_3 (x0 : Vec F S400x10000 .f32) (x1 : Vec F S10000x10 .f32) (x2 : Vec F S400x10 .f32) : Vec F S400x10 .f32 :=
  View.canon [⟨whole3_blk, k3_pay1 (View.ld x0 whole3_adj) (View.ld x1 whole3_cur) (View.ld x2 whole3_blk)⟩]

/-- The one store reaches every entry of the output buffer. -/
theorem out3_3_covered (p0 : Vec F S400x10 .f32) (y : S400x10.Idx) :
    ∃ pc ∈ ([⟨whole3_blk, p0⟩] : List (View.Piece (Elt F) S400x10 .f32)), y ∈ pc.1.set :=
  View.cover_of_tiled [⟨whole3_blk, p0⟩] S400x10.size (by rfl) y

/-! ## The body, run -/

set_option maxHeartbeats 1000000 in
/-- Run on whole buffers, the inputs' holding `x0`, `x1`, `x2` and the output's holding anything, the body
    ends with the inputs untouched and the output at `out3_3 x0 x1 x2`. The body first loads the three
    inputs, then loads the output buffer (a value it never uses), then stores. -/
theorem body3_runs (c : Dev nD) (E : Set ℕ) (i : grid3.Coords)
    (arg1 : Memref sig .tc .vmem S400x10000 .f32) (harg1 : arg1.IsWhole) (arg2 : Memref sig .tc .vmem S10000x10 .f32) (harg2 : arg2.IsWhole)
    (arg3 : Memref sig .tc .vmem S400x10 .f32) (harg3 : arg3.IsWhole) (arg4 : Memref sig .tc .vmem S400x10 .f32) (harg4 : arg4.IsWhole)
    (x0 : Vec F S400x10000 .f32) (x1 : Vec F S10000x10 .f32) (x2 : Vec F S400x10 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__prop_body i arg1 harg1 arg2 harg2 arg3 harg3 arg4 harg4) K := by
  simp only [cc3__prop_body_eq_skeleton]; unfold cc3__prop_body_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (out3_3_covered _)

/-! ## The proof data of the step -/

/-- On core `c`: the arrays as the step finds them; after the body at point `t`, each input buffer still
    at its block and the output buffer at `out3_3` of the three blocks; the invariant says only that the
    buffers the step does not window, and the generator register, stay as they are; the core owes
    nothing. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  input3_0_found V (dat3 V c) (A_eq3 V c 0) (after3_0 V c) t d
theorem before3_1 (c : Dev nD) (t : Fin cfg3.N) (d) : (dat3 V c).before 1 t d = iblk3 V c 1 t :=
  input3_1_found V (dat3 V c) (A_eq3 V c 1) (after3_1 V c) t d
theorem before3_2 (c : Dev nD) (t : Fin cfg3.N) (d) : (dat3 V c).before 2 t d = iblk3 V c 2 t :=
  input3_2_found V (dat3 V c) (A_eq3 V c 2) (after3_2 V c) t d

/-! ## The body obligation -/

/-- What the body is handed at point `t`: the invariant, what the core owes, and the four current buffers, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- At any point the input buffers hold their blocks, so `body3_runs` applies; the invariant and what the
    core owes are not looked at and come back as they went in. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (body3_runs c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline rule asks of the body, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KRegionProp4.lean ====
import proofs.«175698_g31370441130260_cont_8to1_b_1575_2_alg».proof.Proof.Gen.Kernel.Launch
import proofs.«175698_g31370441130260_cont_8to1_b_1575_2_alg».proof.Proof.Gen.Kernel.Skeleton
import proofs.«175698_g31370441130260_cont_8to1_b_1575_2_alg».proof.Proof.Gen.Kernel.Points
import Idealize.ShloMosaic.Lib.Pipeline.FrameBody
import Idealize.ShloMosaic.Lib.Ring
import Idealize.ShloMosaic.Lib.Tactic

/-!
# Propagation step 4, one row block at a time

The grid of this step has 25 points. At point `t` the step reads rows `400 t … 400 t + 399` of the
10000 × 10000 adjacency matrix (window 0), the whole 10000 × 10 current iterate (window 1, brought in
once, at the first point, and left in place afterwards), and rows `400 t …` of the 10000 × 10 encoder
output (window 2); it writes rows `400 t …` of the next iterate (window 3):

  next = 0.9 · (adjacency rows · current) + 0.1 · encoder rows.

Everything here is stated at a parameter `V`, the buffer contents the step finds when it starts, and for
any float instance. The file gives the contents each window's buffer holds before and after the body at
a point, and proves that the body, run on those contents, leaves exactly the stated ones.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of a core holds when the step starts
variable (V : (c : Dev nD) → (b : Ref sig .tc) → Buf (Elt F) ((c : Thread nD τ).loc b))

/-! ## The block of each window at a point -/

/-- The part of window `w`'s array that point `t` works on, read off the contents the step starts from. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## What the body finds in the three input buffers

An input's buffer holds the input's block at every point, whether the block was brought in at this
point or at an earlier one: when nothing is brought in, the block index has not moved since the
previous point and the body does not write to inputs. The three lemmas below say this for any proof
data whose array is `V`'s and whose body leaves the input in place. -/

theorem input4_0_found {c : Dev nD} (dat : Dat τ (Elt F) Unit ℕ (UR sig nD τ) ℕ cfg4 c) (hA : dat.A 0 = V c (Pipeline.arrRef spec4 0))
    (hkeep : ∀ t, dat.after 0 t = iblk4 V c 0 t) (t : Fin cfg4.N) (d) : dat.before 0 t d = iblk4 V c 0 t :=
  (dat.before_in_eq_fetched 0 rfl (fun _ => rfl) (fun _ _ _ => rfl) (fun t => by rw [hkeep]; unfold Dat.blockOf iblk4; rw [hA]; try rfl) t d).trans
    (by unfold Dat.fetched Dat.blockOf iblk4; rw [hA]; try rfl)

theorem input4_1_found {c : Dev nD} (dat : Dat τ (Elt F) Unit ℕ (UR sig nD τ) ℕ cfg4 c) (hA : dat.A 1 = V c (Pipeline.arrRef spec4 1))
    (hkeep : ∀ t, dat.after 1 t = iblk4 V c 1 t) (t : Fin cfg4.N) (d) : dat.before 1 t d = iblk4 V c 1 t :=
  (dat.before_in_eq_fetched 1 rfl (fun _ => rfl) (fun _ _ _ => rfl) (fun t => by rw [hkeep]; unfold Dat.blockOf iblk4; rw [hA]; try rfl) t d).trans
    (by unfold Dat.fetched Dat.blockOf iblk4; rw [hA]; try rfl)

theorem input4_2_found {c : Dev nD} (dat : Dat τ (Elt F) Unit ℕ (UR sig nD τ) ℕ cfg4 c) (hA : dat.A 2 = V c (Pipeline.arrRef spec4 2))
    (hkeep : ∀ t, dat.after 2 t = iblk4 V c 2 t) (t : Fin cfg4.N) (d) : dat.before 2 t d = iblk4 V c 2 t :=
  (dat.before_in_eq_fetched 2 rfl (fun _ => rfl) (fun _ _ _ => rfl) (fun t => by rw [hkeep]; unfold Dat.blockOf iblk4; rw [hA]; try rfl) t d).trans
    (by unfold Dat.fetched Dat.blockOf iblk4; rw [hA]; try rfl)

/-! ## The rectangles the body reads and writes: each is the whole of its buffer -/

abbrev whole4_adj : Rect S400x10000 := Rect.unit (s := S400x10000) ![0, 0] S400x10000.size inb_S400x10000_S400x10000_0_0
abbrev whole4_cur : Rect S10000x10 := Rect.unit (s := S10000x10) ![0, 0] S10000x10.size inb_S10000x10_S10000x10_0_0
abbrev whole4_blk : Rect S400x10 := Rect.unit (s := S400x10) ![0, 0] S400x10.size inb_S400x10_S400x10_0_0

/-! ## The output buffer after the body -/

/-- The 400 × 10 output buffer once the body has run on adjacency rows `x0`, current iterate `x1` and
    encoder rows `x2`: one store, of the whole buffer, of the body's arithmetic on what it loaded. -/
def out4_3 (x0 : Vec F S400x10000 .f32) (x1 : Vec F S10000x10 .f32) (x2 : Vec F S400x10 .f32) : Vec F S400x10 .f32 :=
  View.canon [⟨whole4_blk, k4_pay1 (View.ld x0 whole4_adj) (View.ld x1 whole4_cur) (View.ld x2 whole4_blk)⟩]

/-- The one store reaches every entry of the output buffer. -/
theorem out4_3_covered (p0 : Vec F S400x10 .f32) (y : S400x10.Idx) :
    ∃ pc ∈ ([⟨whole4_blk, p0⟩] : List (View.Piece (Elt F) S400x10 .f32)), y ∈ pc.1.set :=
  View.cover_of_tiled [⟨whole4_blk, p0⟩] S400x10.size (by rfl) y

/-! ## The body, run -/

set_option maxHeartbeats 1000000 in
/-- Run on whole buffers, the inputs' holding `x0`, `x1`, `x2` and the output's holding anything, the body
    ends with the inputs untouched and the output at `out4_3 x0 x1 x2`. The body first loads the three
    inputs, then loads the output buffer (a value it never uses), then stores. -/
theorem body4_runs (c : Dev nD) (E : Set ℕ) (i : grid4.Coords)
    (arg1 : Memref sig .tc .vmem S400x10000 .f32) (harg1 : arg1.IsWhole) (arg2 : Memref sig .tc .vmem S10000x10 .f32) (harg2 : arg2.IsWhole)
    (arg3 : Memref sig .tc .vmem S400x10 .f32) (harg3 : arg3.IsWhole) (arg4 : Memref sig .tc .vmem S400x10 .f32) (harg4 : arg4.IsWhole)
    (x0 : Vec F S400x10000 .f32) (x1 : Vec F S10000x10 .f32) (x2 : Vec F S400x10 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__prop_body i arg1 harg1 arg2 harg2 arg3 harg3 arg4 harg4) K := by
  simp only [cc4__prop_body_eq_skeleton]; unfold cc4__prop_body_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (out4_3_covered _)

/-! ## The proof data of the step -/

/-- On core `c`: the arrays as the step finds them; after the body at point `t`, each input buffer still
    at its block and the output buffer at `out4_3` of the three blocks; the invariant says only that the
    buffers the step does not window, and the generator register, stay as they are; the core owes
    nothing. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  input4_0_found V (dat4 V c) (A_eq4 V c 0) (after4_0 V c) t d
theorem before4_1 (c : Dev nD) (t : Fin cfg4.N) (d) : (dat4 V c).before 1 t d = iblk4 V c 1 t :=
  input4_1_found V (dat4 V c) (A_eq4 V c 1) (after4_1 V c) t d
theorem before4_2 (c : Dev nD) (t : Fin cfg4.N) (d) : (dat4 V c).before 2 t d = iblk4 V c 2 t :=
  input4_2_found V (dat4 V c) (A_eq4 V c 2) (after4_2 V c) t d

/-! ## The body obligation -/

/-- What the body is handed at point `t`: the invariant, what the core owes, and the four current buffers, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it hands back. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- At any point the input buffers hold their blocks, so `body4_runs` applies; the invariant and what the
    core owes are not looked at and come back as they went in. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (body4_runs c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline rule asks of the body, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KRegionProp5.lean ====
import proofs.«175698_g31370441130260_cont_8to1_b_1575_2_alg».proof.Proof.Gen.Kernel.Launch
import proofs.«175698_g31370441130260_cont_8to1_b_1575_2_alg».proof.Proof.Gen.Kernel.Skeleton
import proofs.«175698_g31370441130260_cont_8to1_b_1575_2_alg».proof.Proof.Gen.Kernel.Points
import Idealize.ShloMosaic.Lib.Pipeline.FrameBody
import Idealize.ShloMosaic.Lib.Ring
import Idealize.ShloMosaic.Lib.Tactic

/-!
# Propagation step 5, one row block at a time

The grid of this step has 25 points. At point `t` the step reads rows `400 t … 400 t + 399` of the
10000 × 10000 adjacency matrix (window 0), the whole 10000 × 10 current iterate (window 1, brought in
once, at the first point, and left in place afterwards), and rows `400 t …` of the 10000 × 10 encoder
output (window 2); it writes rows `400 t …` of the next iterate (window 3):

  next = 0.9 · (adjacency rows · current) + 0.1 · encoder rows.

Everything here is stated at a parameter `V`, the buffer contents the step finds when it starts, and for
any float instance. The file gives the contents each window's buffer holds before and after the body at
a point, and proves that the body, run on those contents, leaves exactly the stated ones.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of a core holds when the step starts
variable (V : (c : Dev nD) → (b : Ref sig .tc) → Buf (Elt F) ((c : Thread nD τ).loc b))

/-! ## The block of each window at a point -/

/-- The part of window `w`'s array that point `t` works on, read off the contents the step starts from. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## What the body finds in the three input buffers

An input's buffer holds the input's block at every point, whether the block was brought in at this
point or at an earlier one: when nothing is brought in, the block index has not moved since the
previous point and the body does not write to inputs. The three lemmas below say this for any proof
data whose array is `V`'s and whose body leaves the input in place. -/

theorem input5_0_found {c : Dev nD} (dat : Dat τ (Elt F) Unit ℕ (UR sig nD τ) ℕ cfg5 c) (hA : dat.A 0 = V c (Pipeline.arrRef spec5 0))
    (hkeep : ∀ t, dat.after 0 t = iblk5 V c 0 t) (t : Fin cfg5.N) (d) : dat.before 0 t d = iblk5 V c 0 t :=
  (dat.before_in_eq_fetched 0 rfl (fun _ => rfl) (fun _ _ _ => rfl) (fun t => by rw [hkeep]; unfold Dat.blockOf iblk5; rw [hA]; try rfl) t d).trans
    (by unfold Dat.fetched Dat.blockOf iblk5; rw [hA]; try rfl)

theorem input5_1_found {c : Dev nD} (dat : Dat τ (Elt F) Unit ℕ (UR sig nD τ) ℕ cfg5 c) (hA : dat.A 1 = V c (Pipeline.arrRef spec5 1))
    (hkeep : ∀ t, dat.after 1 t = iblk5 V c 1 t) (t : Fin cfg5.N) (d) : dat.before 1 t d = iblk5 V c 1 t :=
  (dat.before_in_eq_fetched 1 rfl (fun _ => rfl) (fun _ _ _ => rfl) (fun t => by rw [hkeep]; unfold Dat.blockOf iblk5; rw [hA]; try rfl) t d).trans
    (by unfold Dat.fetched Dat.blockOf iblk5; rw [hA]; try rfl)

theorem input5_2_found {c : Dev nD} (dat : Dat τ (Elt F) Unit ℕ (UR sig nD τ) ℕ cfg5 c) (hA : dat.A 2 = V c (Pipeline.arrRef spec5 2))
    (hkeep : ∀ t, dat.after 2 t = iblk5 V c 2 t) (t : Fin cfg5.N) (d) : dat.before 2 t d = iblk5 V c 2 t :=
  (dat.before_in_eq_fetched 2 rfl (fun _ => rfl) (fun _ _ _ => rfl) (fun t => by rw [hkeep]; unfold Dat.blockOf iblk5; rw [hA]; try rfl) t d).trans
    (by unfold Dat.fetched Dat.blockOf iblk5; rw [hA]; try rfl)

/-! ## The rectangles the body reads and writes: each is the whole of its buffer -/

abbrev whole5_adj : Rect S400x10000 := Rect.unit (s := S400x10000) ![0, 0] S400x10000.size inb_S400x10000_S400x10000_0_0
abbrev whole5_cur : Rect S10000x10 := Rect.unit (s := S10000x10) ![0, 0] S10000x10.size inb_S10000x10_S10000x10_0_0
abbrev whole5_blk : Rect S400x10 := Rect.unit (s := S400x10) ![0, 0] S400x10.size inb_S400x10_S400x10_0_0

/-! ## The output buffer after the body -/

/-- The 400 × 10 output buffer once the body has run on adjacency rows `x0`, current iterate `x1` and
    encoder rows `x2`: one store, of the whole buffer, of the body's arithmetic on what it loaded. -/
def out5_3 (x0 : Vec F S400x10000 .f32) (x1 : Vec F S10000x10 .f32) (x2 : Vec F S400x10 .f32) : Vec F S400x10 .f32 :=
  View.canon [⟨whole5_blk, k5_pay1 (View.ld x0 whole5_adj) (View.ld x1 whole5_cur) (View.ld x2 whole5_blk)⟩]

/-- The one store reaches every entry of the output buffer. -/
theorem out5_3_covered (p0 : Vec F S400x10 .f32) (y : S400x10.Idx) :
    ∃ pc ∈ ([⟨whole5_blk, p0⟩] : List (View.Piece (Elt F) S400x10 .f32)), y ∈ pc.1.set :=
  View.cover_of_tiled [⟨whole5_blk, p0⟩] S400x10.size (by rfl) y

/-! ## The body, run -/

set_option maxHeartbeats 1000000 in
/-- Run on whole buffers, the inputs' holding `x0`, `x1`, `x2` and the output's holding anything, the body
    ends with the inputs untouched and the output at `out5_3 x0 x1 x2`. The body first loads the three
    inputs, then loads the output buffer (a value it never uses), then stores. -/
theorem body5_runs (c : Dev nD) (E : Set ℕ) (i : grid5.Coords)
    (arg1 : Memref sig .tc .vmem S400x10000 .f32) (harg1 : arg1.IsWhole) (arg2 : Memref sig .tc .vmem S10000x10 .f32) (harg2 : arg2.IsWhole)
    (arg3 : Memref sig .tc .vmem S400x10 .f32) (harg3 : arg3.IsWhole) (arg4 : Memref sig .tc .vmem S400x10 .f32) (harg4 : arg4.IsWhole)
    (x0 : Vec F S400x10000 .f32) (x1 : Vec F S10000x10 .f32) (x2 : Vec F S400x10 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__prop_body i arg1 harg1 arg2 harg2 arg3 harg3 arg4 harg4) K := by
  simp only [cc5__prop_body_eq_skeleton]; unfold cc5__prop_body_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (out5_3_covered _)

/-! ## The proof data of the step -/

/-- On core `c`: the arrays as the step finds them; after the body at point `t`, each input buffer still
    at its block and the output buffer at `out5_3` of the three blocks; the invariant says only that the
    buffers the step does not window, and the generator register, stay as they are; the core owes
    nothing. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  input5_0_found V (dat5 V c) (A_eq5 V c 0) (after5_0 V c) t d
theorem before5_1 (c : Dev nD) (t : Fin cfg5.N) (d) : (dat5 V c).before 1 t d = iblk5 V c 1 t :=
  input5_1_found V (dat5 V c) (A_eq5 V c 1) (after5_1 V c) t d
theorem before5_2 (c : Dev nD) (t : Fin cfg5.N) (d) : (dat5 V c).before 2 t d = iblk5 V c 2 t :=
  input5_2_found V (dat5 V c) (A_eq5 V c 2) (after5_2 V c) t d

/-! ## The body obligation -/

/-- What the body is handed at point `t`: the invariant, what the core owes, and the four current buffers, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it hands back. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- At any point the input buffers hold their blocks, so `body5_runs` applies; the invariant and what the
    core owes are not looked at and come back as they went in. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (body5_runs c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline rule asks of the body, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KRegionProp6.lean ====
import proofs.«175698_g31370441130260_cont_8to1_b_1575_2_alg».proof.Proof.Gen.Kernel.Launch
import proofs.«175698_g31370441130260_cont_8to1_b_1575_2_alg».proof.Proof.Gen.Kernel.Skeleton
import proofs.«175698_g31370441130260_cont_8to1_b_1575_2_alg».proof.Proof.Gen.Kernel.Points
import Idealize.ShloMosaic.Lib.Pipeline.FrameBody
import Idealize.ShloMosaic.Lib.Ring
import Idealize.ShloMosaic.Lib.Tactic

/-!
# Propagation step 6, one row block at a time

The grid of this step has 25 points. At point `t` the step reads rows `400 t … 400 t + 399` of the
10000 × 10000 adjacency matrix (window 0), the whole 10000 × 10 current iterate (window 1, brought in
once, at the first point, and left in place afterwards), and rows `400 t …` of the 10000 × 10 encoder
output (window 2); it writes rows `400 t …` of the next iterate (window 3):

  next = 0.9 · (adjacency rows · current) + 0.1 · encoder rows.

Everything here is stated at a parameter `V`, the buffer contents the step finds when it starts, and for
any float instance. The file gives the contents each window's buffer holds before and after the body at
a point, and proves that the body, run on those contents, leaves exactly the stated ones.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of a core holds when the step starts
variable (V : (c : Dev nD) → (b : Ref sig .tc) → Buf (Elt F) ((c : Thread nD τ).loc b))

/-! ## The block of each window at a point -/

/-- The part of window `w`'s array that point `t` works on, read off the contents the step starts from. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## What the body finds in the three input buffers

An input's buffer holds the input's block at every point, whether the block was brought in at this
point or at an earlier one: when nothing is brought in, the block index has not moved since the
previous point and the body does not write to inputs. The three lemmas below say this for any proof
data whose array is `V`'s and whose body leaves the input in place. -/

theorem input6_0_found {c : Dev nD} (dat : Dat τ (Elt F) Unit ℕ (UR sig nD τ) ℕ cfg6 c) (hA : dat.A 0 = V c (Pipeline.arrRef spec6 0))
    (hkeep : ∀ t, dat.after 0 t = iblk6 V c 0 t) (t : Fin cfg6.N) (d) : dat.before 0 t d = iblk6 V c 0 t :=
  (dat.before_in_eq_fetched 0 rfl (fun _ => rfl) (fun _ _ _ => rfl) (fun t => by rw [hkeep]; unfold Dat.blockOf iblk6; rw [hA]; try rfl) t d).trans
    (by unfold Dat.fetched Dat.blockOf iblk6; rw [hA]; try rfl)

theorem input6_1_found {c : Dev nD} (dat : Dat τ (Elt F) Unit ℕ (UR sig nD τ) ℕ cfg6 c) (hA : dat.A 1 = V c (Pipeline.arrRef spec6 1))
    (hkeep : ∀ t, dat.after 1 t = iblk6 V c 1 t) (t : Fin cfg6.N) (d) : dat.before 1 t d = iblk6 V c 1 t :=
  (dat.before_in_eq_fetched 1 rfl (fun _ => rfl) (fun _ _ _ => rfl) (fun t => by rw [hkeep]; unfold Dat.blockOf iblk6; rw [hA]; try rfl) t d).trans
    (by unfold Dat.fetched Dat.blockOf iblk6; rw [hA]; try rfl)

theorem input6_2_found {c : Dev nD} (dat : Dat τ (Elt F) Unit ℕ (UR sig nD τ) ℕ cfg6 c) (hA : dat.A 2 = V c (Pipeline.arrRef spec6 2))
    (hkeep : ∀ t, dat.after 2 t = iblk6 V c 2 t) (t : Fin cfg6.N) (d) : dat.before 2 t d = iblk6 V c 2 t :=
  (dat.before_in_eq_fetched 2 rfl (fun _ => rfl) (fun _ _ _ => rfl) (fun t => by rw [hkeep]; unfold Dat.blockOf iblk6; rw [hA]; try rfl) t d).trans
    (by unfold Dat.fetched Dat.blockOf iblk6; rw [hA]; try rfl)

/-! ## The rectangles the body reads and writes: each is the whole of its buffer -/

abbrev whole6_adj : Rect S400x10000 := Rect.unit (s := S400x10000) ![0, 0] S400x10000.size inb_S400x10000_S400x10000_0_0
abbrev whole6_cur : Rect S10000x10 := Rect.unit (s := S10000x10) ![0, 0] S10000x10.size inb_S10000x10_S10000x10_0_0
abbrev whole6_blk : Rect S400x10 := Rect.unit (s := S400x10) ![0, 0] S400x10.size inb_S400x10_S400x10_0_0

/-! ## The output buffer after the body -/

/-- The 400 × 10 output buffer once the body has run on adjacency rows `x0`, current iterate `x1` and
    encoder rows `x2`: one store, of the whole buffer, of the body's arithmetic on what it loaded. -/
def out6_3 (x0 : Vec F S400x10000 .f32) (x1 : Vec F S10000x10 .f32) (x2 : Vec F S400x10 .f32) : Vec F S400x10 .f32 :=
  View.canon [⟨whole6_blk, k6_pay1 (View.ld x0 whole6_adj) (View.ld x1 whole6_cur) (View.ld x2 whole6_blk)⟩]

/-- The one store reaches every entry of the output buffer. -/
theorem out6_3_covered (p0 : Vec F S400x10 .f32) (y : S400x10.Idx) :
    ∃ pc ∈ ([⟨whole6_blk, p0⟩] : List (View.Piece (Elt F) S400x10 .f32)), y ∈ pc.1.set :=
  View.cover_of_tiled [⟨whole6_blk, p0⟩] S400x10.size (by rfl) y

/-! ## The body, run -/

set_option maxHeartbeats 1000000 in
/-- Run on whole buffers, the inputs' holding `x0`, `x1`, `x2` and the output's holding anything, the body
    ends with the inputs untouched and the output at `out6_3 x0 x1 x2`. The body first loads the three
    inputs, then loads the output buffer (a value it never uses), then stores. -/
theorem body6_runs (c : Dev nD) (E : Set ℕ) (i : grid6.Coords)
    (arg1 : Memref sig .tc .vmem S400x10000 .f32) (harg1 : arg1.IsWhole) (arg2 : Memref sig .tc .vmem S10000x10 .f32) (harg2 : arg2.IsWhole)
    (arg3 : Memref sig .tc .vmem S400x10 .f32) (harg3 : arg3.IsWhole) (arg4 : Memref sig .tc .vmem S400x10 .f32) (harg4 : arg4.IsWhole)
    (x0 : Vec F S400x10000 .f32) (x1 : Vec F S10000x10 .f32) (x2 : Vec F S400x10 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__prop_body i arg1 harg1 arg2 harg2 arg3 harg3 arg4 harg4) K := by
  simp only [cc6__prop_body_eq_skeleton]; unfold cc6__prop_body_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (out6_3_covered _)

/-! ## The proof data of the step -/

/-- On core `c`: the arrays as the step finds them; after the body at point `t`, each input buffer still
    at its block and the output buffer at `out6_3` of the three blocks; the invariant says only that the
    buffers the step does not window, and the generator register, stay as they are; the core owes
    nothing. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  input6_0_found V (dat6 V c) (A_eq6 V c 0) (after6_0 V c) t d
theorem before6_1 (c : Dev nD) (t : Fin cfg6.N) (d) : (dat6 V c).before 1 t d = iblk6 V c 1 t :=
  input6_1_found V (dat6 V c) (A_eq6 V c 1) (after6_1 V c) t d
theorem before6_2 (c : Dev nD) (t : Fin cfg6.N) (d) : (dat6 V c).before 2 t d = iblk6 V c 2 t :=
  input6_2_found V (dat6 V c) (A_eq6 V c 2) (after6_2 V c) t d

/-! ## The body obligation -/

/-- What the body is handed at point `t`: the invariant, what the core owes, and the four current buffers, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it hands back. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- At any point the input buffers hold their blocks, so `body6_runs` applies; the invariant and what the
    core owes are not looked at and come back as they went in. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (body6_runs c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline rule asks of the body, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.KRegionProp7.lean ====
import proofs.«175698_g31370441130260_cont_8to1_b_1575_2_alg».proof.Proof.Gen.Kernel.Launch
import proofs.«175698_g31370441130260_cont_8to1_b_1575_2_alg».proof.Proof.Gen.Kernel.Skeleton
import proofs.«175698_g31370441130260_cont_8to1_b_1575_2_alg».proof.Proof.Gen.Kernel.Points
import Idealize.ShloMosaic.Lib.Pipeline.FrameBody
import Idealize.ShloMosaic.Lib.Ring
import Idealize.ShloMosaic.Lib.Tactic

/-!
# Propagation step 7, one row block at a time

The grid of this step has 25 points. At point `t` the step reads rows `400 t … 400 t + 399` of the
10000 × 10000 adjacency matrix (window 0), the whole 10000 × 10 current iterate (window 1, brought in
once, at the first point, and left in place afterwards), and rows `400 t …` of the 10000 × 10 encoder
output (window 2); it writes rows `400 t …` of the next iterate (window 3):

  next = 0.9 · (adjacency rows · current) + 0.1 · encoder rows.

Everything here is stated at a parameter `V`, the buffer contents the step finds when it starts, and for
any float instance. The file gives the contents each window's buffer holds before and after the body at
a point, and proves that the body, run on those contents, leaves exactly the stated ones.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of a core holds when the step starts
variable (V : (c : Dev nD) → (b : Ref sig .tc) → Buf (Elt F) ((c : Thread nD τ).loc b))

/-! ## The block of each window at a point -/

/-- The part of window `w`'s array that point `t` works on, read off the contents the step starts from. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## What the body finds in the three input buffers

An input's buffer holds the input's block at every point, whether the block was brought in at this
point or at an earlier one: when nothing is brought in, the block index has not moved since the
previous point and the body does not write to inputs. The three lemmas below say this for any proof
data whose array is `V`'s and whose body leaves the input in place. -/

theorem input7_0_found {c : Dev nD} (dat : Dat τ (Elt F) Unit ℕ (UR sig nD τ) ℕ cfg7 c) (hA : dat.A 0 = V c (Pipeline.arrRef spec7 0))
    (hkeep : ∀ t, dat.after 0 t = iblk7 V c 0 t) (t : Fin cfg7.N) (d) : dat.before 0 t d = iblk7 V c 0 t :=
  (dat.before_in_eq_fetched 0 rfl (fun _ => rfl) (fun _ _ _ => rfl) (fun t => by rw [hkeep]; unfold Dat.blockOf iblk7; rw [hA]; try rfl) t d).trans
    (by unfold Dat.fetched Dat.blockOf iblk7; rw [hA]; try rfl)

theorem input7_1_found {c : Dev nD} (dat : Dat τ (Elt F) Unit ℕ (UR sig nD τ) ℕ cfg7 c) (hA : dat.A 1 = V c (Pipeline.arrRef spec7 1))
    (hkeep : ∀ t, dat.after 1 t = iblk7 V c 1 t) (t : Fin cfg7.N) (d) : dat.before 1 t d = iblk7 V c 1 t :=
  (dat.before_in_eq_fetched 1 rfl (fun _ => rfl) (fun _ _ _ => rfl) (fun t => by rw [hkeep]; unfold Dat.blockOf iblk7; rw [hA]; try rfl) t d).trans
    (by unfold Dat.fetched Dat.blockOf iblk7; rw [hA]; try rfl)

theorem input7_2_found {c : Dev nD} (dat : Dat τ (Elt F) Unit ℕ (UR sig nD τ) ℕ cfg7 c) (hA : dat.A 2 = V c (Pipeline.arrRef spec7 2))
    (hkeep : ∀ t, dat.after 2 t = iblk7 V c 2 t) (t : Fin cfg7.N) (d) : dat.before 2 t d = iblk7 V c 2 t :=
  (dat.before_in_eq_fetched 2 rfl (fun _ => rfl) (fun _ _ _ => rfl) (fun t => by rw [hkeep]; unfold Dat.blockOf iblk7; rw [hA]; try rfl) t d).trans
    (by unfold Dat.fetched Dat.blockOf iblk7; rw [hA]; try rfl)

/-! ## The rectangles the body reads and writes: each is the whole of its buffer -/

abbrev whole7_adj : Rect S400x10000 := Rect.unit (s := S400x10000) ![0, 0] S400x10000.size inb_S400x10000_S400x10000_0_0
abbrev whole7_cur : Rect S10000x10 := Rect.unit (s := S10000x10) ![0, 0] S10000x10.size inb_S10000x10_S10000x10_0_0
abbrev whole7_blk : Rect S400x10 := Rect.unit (s := S400x10) ![0, 0] S400x10.size inb_S400x10_S400x10_0_0

/-! ## The output buffer after the body -/

/-- The 400 × 10 output buffer once the body has run on adjacency rows `x0`, current iterate `x1` and
    encoder rows `x2`: one store, of the whole buffer, of the body's arithmetic on what it loaded. -/
def out7_3 (x0 : Vec F S400x10000 .f32) (x1 : Vec F S10000x10 .f32) (x2 : Vec F S400x10 .f32) : Vec F S400x10 .f32 :=
  View.canon [⟨whole7_blk, k7_pay1 (View.ld x0 whole7_adj) (View.ld x1 whole7_cur) (View.ld x2 whole7_blk)⟩]

/-- The one store reaches every entry of the output buffer. -/
theorem out7_3_covered (p0 : Vec F S400x10 .f32) (y : S400x10.Idx) :
    ∃ pc ∈ ([⟨whole7_blk, p0⟩] : List (View.Piece (Elt F) S400x10 .f32)), y ∈ pc.1.set :=
  View.cover_of_tiled [⟨whole7_blk, p0⟩] S400x10.size (by rfl) y

/-! ## The body, run -/

set_option maxHeartbeats 1000000 in
/-- Run on whole buffers, the inputs' holding `x0`, `x1`, `x2` and the output's holding anything, the body
    ends with the inputs untouched and the output at `out7_3 x0 x1 x2`. The body first loads the three
    inputs, then loads the output buffer (a value it never uses), then stores. -/
theorem body7_runs (c : Dev nD) (E : Set ℕ) (i : grid7.Coords)
    (arg1 : Memref sig .tc .vmem S400x10000 .f32) (harg1 : arg1.IsWhole) (arg2 : Memref sig .tc .vmem S10000x10 .f32) (harg2 : arg2.IsWhole)
    (arg3 : Memref sig .tc .vmem S400x10 .f32) (harg3 : arg3.IsWhole) (arg4 : Memref sig .tc .vmem S400x10 .f32) (harg4 : arg4.IsWhole)
    (x0 : Vec F S400x10000 .f32) (x1 : Vec F S10000x10 .f32) (x2 : Vec F S400x10 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out7_3 x0 x1 x2)) -∗ K ⟨⟩))
      ⊢ wp frame (wpE (defs₀ (F := F)) Variants.none c none) E (cc7__prop_body i arg1 harg1 arg2 harg2 arg3 harg3 arg4 harg4) K := by
  simp only [cc7__prop_body_eq_skeleton]; unfold cc7__prop_body_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (out7_3_covered _)

/-! ## The proof data of the step -/

/-- On core `c`: the arrays as the step finds them; after the body at point `t`, each input buffer still
    at its block and the output buffer at `out7_3` of the three blocks; the invariant says only that the
    buffers the step does not window, and the generator register, stay as they are; the core owes
    nothing. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  input7_0_found V (dat7 V c) (A_eq7 V c 0) (after7_0 V c) t d
theorem before7_1 (c : Dev nD) (t : Fin cfg7.N) (d) : (dat7 V c).before 1 t d = iblk7 V c 1 t :=
  input7_1_found V (dat7 V c) (A_eq7 V c 1) (after7_1 V c) t d
theorem before7_2 (c : Dev nD) (t : Fin cfg7.N) (d) : (dat7 V c).before 2 t d = iblk7 V c 2 t :=
  input7_2_found V (dat7 V c) (A_eq7 V c 2) (after7_2 V c) t d

/-! ## The body obligation -/

/-- What the body is handed at point `t`: the invariant, what the core owes, and the four current buffers, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it hands back. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- At any point the input buffers hold their blocks, so `body7_runs` applies; the invariant and what the
    core owes are not looked at and come back as they went in. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (body7_runs c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline rule asks of the body, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.KRegionLast.lean ====
import proofs.«175698_g31370441130260_cont_8to1_b_1575_2_alg».proof.Proof.Gen.Kernel.Launch
import proofs.«175698_g31370441130260_cont_8to1_b_1575_2_alg».proof.Proof.Gen.Kernel.Skeleton
import proofs.«175698_g31370441130260_cont_8to1_b_1575_2_alg».proof.Proof.Gen.Kernel.Points
import Idealize.ShloMosaic.Lib.Pipeline.FrameBody
import Idealize.ShloMosaic.Lib.Ring
import Idealize.ShloMosaic.Lib.Tactic

/-!
# The last propagation step, one row block at a time

The grid of this step has 25 points. At point `t` the step reads rows `400 t … 400 t + 399` of the
10000 × 10000 adjacency matrix (window 0), the whole 10000 × 10 current iterate (window 1, brought in
once, at the first point, and left in place afterwards), and rows `400 t …` of the 10000 × 10 encoder
output (window 2); it writes rows `400 t …` of the result (window 3):

  h   = 0.9 · (adjacency rows · current) + 0.1 · encoder rows,
  out = (h − rowmax h) − log (rowsum (exp (h − rowmax h))),

that is, the step followed by a log-softmax along each row of ten entries.

Everything here is stated at a parameter `V`, the buffer contents the step finds when it starts, and for
any float instance. The file gives the contents each window's buffer holds before and after the body at
a point, and proves that the body, run on those contents, leaves exactly the stated ones.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of a core holds when the step starts
variable (V : (c : Dev nD) → (b : Ref sig .tc) → Buf (Elt F) ((c : Thread nD τ).loc b))

/-! ## The block of each window at a point -/

/-- The part of window `w`'s array that point `t` works on, read off the contents the step starts from. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## What the body finds in the three input buffers

An input's buffer holds the input's block at every point, whether the block was brought in at this
point or at an earlier one: when nothing is brought in, the block index has not moved since the
previous point and the body does not write to inputs. The three lemmas below say this for any proof
data whose array is `V`'s and whose body leaves the input in place. -/

theorem input8_0_found {c : Dev nD} (dat : Dat τ (Elt F) Unit ℕ (UR sig nD τ) ℕ cfg8 c) (hA : dat.A 0 = V c (Pipeline.arrRef spec8 0))
    (hkeep : ∀ t, dat.after 0 t = iblk8 V c 0 t) (t : Fin cfg8.N) (d) : dat.before 0 t d = iblk8 V c 0 t :=
  (dat.before_in_eq_fetched 0 rfl (fun _ => rfl) (fun _ _ _ => rfl) (fun t => by rw [hkeep]; unfold Dat.blockOf iblk8; rw [hA]; try rfl) t d).trans
    (by unfold Dat.fetched Dat.blockOf iblk8; rw [hA]; try rfl)

theorem input8_1_found {c : Dev nD} (dat : Dat τ (Elt F) Unit ℕ (UR sig nD τ) ℕ cfg8 c) (hA : dat.A 1 = V c (Pipeline.arrRef spec8 1))
    (hkeep : ∀ t, dat.after 1 t = iblk8 V c 1 t) (t : Fin cfg8.N) (d) : dat.before 1 t d = iblk8 V c 1 t :=
  (dat.before_in_eq_fetched 1 rfl (fun _ => rfl) (fun _ _ _ => rfl) (fun t => by rw [hkeep]; unfold Dat.blockOf iblk8; rw [hA]; try rfl) t d).trans
    (by unfold Dat.fetched Dat.blockOf iblk8; rw [hA]; try rfl)

theorem input8_2_found {c : Dev nD} (dat : Dat τ (Elt F) Unit ℕ (UR sig nD τ) ℕ cfg8 c) (hA : dat.A 2 = V c (Pipeline.arrRef spec8 2))
    (hkeep : ∀ t, dat.after 2 t = iblk8 V c 2 t) (t : Fin cfg8.N) (d) : dat.before 2 t d = iblk8 V c 2 t :=
  (dat.before_in_eq_fetched 2 rfl (fun _ => rfl) (fun _ _ _ => rfl) (fun t => by rw [hkeep]; unfold Dat.blockOf iblk8; rw [hA]; try rfl) t d).trans
    (by unfold Dat.fetched Dat.blockOf iblk8; rw [hA]; try rfl)

/-! ## The rectangles the body reads and writes: each is the whole of its buffer -/

abbrev whole8_adj : Rect S400x10000 := Rect.unit (s := S400x10000) ![0, 0] S400x10000.size inb_S400x10000_S400x10000_0_0
abbrev whole8_cur : Rect S10000x10 := Rect.unit (s := S10000x10) ![0, 0] S10000x10.size inb_S10000x10_S10000x10_0_0
abbrev whole8_blk : Rect S400x10 := Rect.unit (s := S400x10) ![0, 0] S400x10.size inb_S400x10_S400x10_0_0

/-! ## The output buffer after the body -/

/-- The 400 × 10 output buffer once the body has run on adjacency rows `x0`, current iterate `x1` and
    encoder rows `x2`: one store, of the whole buffer, of the body's arithmetic on what it loaded. -/
def out8_3 (x0 : Vec F S400x10000 .f32) (x1 : Vec F S10000x10 .f32) (x2 : Vec F S400x10 .f32) : Vec F S400x10 .f32 :=
  View.canon [⟨whole8_blk, k8_pay1 (View.ld x0 whole8_adj) (View.ld x1 whole8_cur) (View.ld x2 whole8_blk)⟩]

/-- The one store reaches every entry of the output buffer. -/
theorem out8_3_covered (p0 : Vec F S400x10 .f32) (y : S400x10.Idx) :
    ∃ pc ∈ ([⟨whole8_blk, p0⟩] : List (View.Piece (Elt F) S400x10 .f32)), y ∈ pc.1.set :=
  View.cover_of_tiled [⟨whole8_blk, p0⟩] S400x10.size (by rfl) y

/-! ## The body, run -/

set_option maxHeartbeats 1000000 in
/-- Run on whole buffers, the inputs' holding `x0`, `x1`, `x2` and the output's holding anything, the body
    ends with the inputs untouched and the output at `out8_3 x0 x1 x2`. The body first loads the three
    inputs, then loads the output buffer (a value it never uses), then stores. -/
theorem body8_runs (c : Dev nD) (E : Set ℕ) (i : grid8.Coords)
    (arg1 : Memref sig .tc .vmem S400x10000 .f32) (harg1 : arg1.IsWhole) (arg2 : Memref sig .tc .vmem S10000x10 .f32) (harg2 : arg2.IsWhole)
    (arg3 : Memref sig .tc .vmem S400x10 .f32) (harg3 : arg3.IsWhole) (arg4 : Memref sig .tc .vmem S400x10 .f32) (harg4 : arg4.IsWhole)
    (x0 : Vec F S400x10000 .f32) (x1 : Vec F S10000x10 .f32) (x2 : Vec F S400x10 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out8_3 x0 x1 x2)) -∗ K ⟨⟩))
      ⊢ wp frame (wpE (defs₀ (F := F)) Variants.none c none) E (cc8__prop_body i arg1 harg1 arg2 harg2 arg3 harg3 arg4 harg4) K := by
  simp only [cc8__prop_body_eq_skeleton]; unfold cc8__prop_body_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (out8_3_covered _)

/-! ## The proof data of the step -/

/-- On core `c`: the arrays as the step finds them; after the body at point `t`, each input buffer still
    at its block and the output buffer at `out8_3` of the three blocks; the invariant says only that the
    buffers the step does not window, and the generator register, stay as they are; the core owes
    nothing. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) :
    (dat8 V c).after 3 t = out8_3 (iblk8 V c 0 t) (iblk8 V c 1 t) (iblk8 V c 2 t) := by dsimp only [dat8]

theorem before8_0 (c : Dev nD) (t : Fin cfg8.N) (d) : (dat8 V c).before 0 t d = iblk8 V c 0 t :=
  input8_0_found V (dat8 V c) (A_eq8 V c 0) (after8_0 V c) t d
theorem before8_1 (c : Dev nD) (t : Fin cfg8.N) (d) : (dat8 V c).before 1 t d = iblk8 V c 1 t :=
  input8_1_found V (dat8 V c) (A_eq8 V c 1) (after8_1 V c) t d
theorem before8_2 (c : Dev nD) (t : Fin cfg8.N) (d) : (dat8 V c).before 2 t d = iblk8 V c 2 t :=
  input8_2_found V (dat8 V c) (A_eq8 V c 2) (after8_2 V c) t d

/-! ## The body obligation -/

/-- What the body is handed at point `t`: the invariant, what the core owes, and the four current buffers, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it hands back. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- At any point the input buffers hold their blocks, so `body8_runs` applies; the invariant and what the
    core owes are not looked at and come back as they went in. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (body8_runs c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline rule asks of the body, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.KSharedArr.lean ====
/-
  The second pallas_call hands ONE array, the teleport matrix, to two of its input windows: the whole matrix as the
  propagated operand and a block of rows as the teleport term. The core holds that buffer once, at the full share; the
  pipeline wants one points-to per window. So on entry the full share is split in two parts, one per window, and on
  exit the two parts, which still hold the same contents, are joined again. The other two windows' arrays (the adjacency
  matrix, read; the output, written) are distinct buffers held at the full share as usual.
-/
import proofs.«175698_g31370441130260_cont_8to1_b_1575_2_alg».proof.Proof.Gen.Kernel.Launch
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open PCS
open Idealize.ShloMosaic.Pipeline (Dat)

variable {F : FTy → Type} [FloatOps F]

local notation "𝕄" => MT nD τ sig Unit (Elt F) ℕ (UR sig nD τ) ℕ

/-- The three distinct buffers behind the four windows' arrays, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_v2) ↦{fullShare} V main_v2)
          ∗ (((c : Thread nD τ).loc main_v3) ↦{fullShare} V main_v3)) := by
  unfold Pipeline.arrBufs
  exact bigSep_eq_bigSepL_of_eq [main_arg1, main_v2, main_v3] (by decide) (by decide) _

/-- The core's unscoped buffers: the buffers behind the windows' arrays, and the rest. -/
theorem unscopedBufs1_eq (c : Dev nD) (V : (b : Ref sig .tc) → Buf (Elt F) ((c : Thread nD τ).loc b)) :
    (unscopedBufs c V : sProp 𝕄) = iprop(Pipeline.arrBufs spec1 c V ∗ Pipeline.unscopedRest spec1 c V) :=
  Pipeline.unscopedBufs_split₀ cfgs 1 winFacts₀1.arr_unscoped c V

section
variable (q₁ q₂ : PosShare TreeShare) (hq : fullShare ∈ q₁ ·? q₂) (c : Dev nD)
  (dat : Dat τ (Elt F) Unit ℕ (UR sig nD τ) ℕ cfg1 c)
  (hq0 : dat.q 0 = fullShare) (hq1 : dat.q 1 = q₁) (hq2 : dat.q 2 = q₂)

include hq0 hq1 hq2 in
/-- The windows' arrays, one by one, each at its share. -/
theorem arrays1_eq (A : (w : Fin cfg1.W) → Buf (Elt F) ((cfg1.win w).arr.view.loc (c : Thread nD τ))) :
    (dat.arrays A : sProp 𝕄)
      = iprop((((c : Thread nD τ).loc main_arg1) ↦{fullShare} A 0) ∗ (((c : Thread nD τ).loc main_v2) ↦{q₁} A 1)
          ∗ (((c : Thread nD τ).loc main_v2) ↦{q₂} A 2) ∗ (((c : Thread nD τ).loc main_v3) ↦{fullShare} A 3)) := by
  unfold Dat.arrays
  rw [bigSep_W1]
  have h0 : dat.share 0 = fullShare := (if_neg (by decide)).trans hq0
  have h1 : dat.share 1 = q₁ := (if_neg (by decide)).trans hq1
  have h2 : dat.share 2 = q₂ := (if_neg (by decide)).trans hq2
  have h3 : dat.share 3 = fullShare := if_pos rfl
  rw [h0, h1, h2, h3, (arr_whole1 0).set_eq_univ, (arr_whole1 1).set_eq_univ, (arr_whole1 3).set_eq_univ]

include hq hq0 hq1 hq2 in
/-- ENTRY: the core's unscoped buffers at contents `V` are the four windows' arrays at what `V` holds there — the shared
    buffer's full share dealt to its two windows — and the unscoped rest. -/
theorem shared_entry (V : (b : Ref sig .tc) → Buf (Elt F) ((c : Thread nD τ).loc b))
    (A : (w : Fin cfg1.W) → Buf (Elt F) ((cfg1.win w).arr.view.loc (c : Thread nD τ)))
    (hA : ∀ w, A w = V (Pipeline.arrRef spec1 w)) :
    (unscopedBufs c V : sProp 𝕄) ⊢ iprop(dat.arrays A ∗ Pipeline.unscopedRest spec1 c V) := by
  rw [unscopedBufs1_eq c V, arrBufs1_eq, arrays1_eq q₁ q₂ c dat hq0 hq1 hq2 A,
    hA 0, hA 1, hA 2, hA 3]
  iintro ⟨⟨Ha, Hz, Ho⟩, Hr⟩
  ihave Hz' := (pointsTo_share hq).1 $$ Hz
  icases Hz' with ⟨Hz1, Hz2⟩
  isplitr [Hr]
  · isplitl [Ha]; · iexact Ha
    isplitl [Hz1]; · iexact Hz1
    isplitl [Hz2]; · iexact Hz2
    iexact Ho
  iexact Hr

include hq hq0 hq1 hq2 in
/-- EXIT: the four windows' arrays at contents `A` — the shared buffer's two parts at the same contents — and the
    unscoped rest at `V` are the core's unscoped buffers at any `V'` that has the arrays at `A` and agrees with `V`
    off them. -/
theorem shared_exit (V V' : (b : Ref sig .tc) → Buf (Elt F) ((c : Thread nD τ).loc b))
    (A : (w : Fin cfg1.W) → Buf (Elt F) ((cfg1.win w).arr.view.loc (c : Thread nD τ)))
    (hA : ∀ w, A w = V' (Pipeline.arrRef spec1 w))
    (hrest : ∀ b, b ∉ Finset.univ.image (Pipeline.arrRef spec1) → V' b = V b) :
    iprop(dat.arrays A ∗ Pipeline.unscopedRest spec1 c V) ⊢ (unscopedBufs c V' : sProp 𝕄) := by
  rw [unscopedBufs1_eq c V', arrBufs1_eq, arrays1_eq q₁ q₂ c dat hq0 hq1 hq2 A,
    hA 0, hA 1, hA 2, hA 3]
  have hr : (Pipeline.unscopedRest (Ix := Unit) (Name := ℕ) (U := UR sig nD τ) (Lvl := ℕ) spec1 c V : sProp 𝕄)
      = Pipeline.unscopedRest spec1 c V' := by
    unfold Pipeline.unscopedRest
    exact bigSep_congr fun b hb => by rw [hrest b (Finset.mem_sdiff.mp hb).2]
  rw [hr]
  iintro ⟨⟨Ha, Hz1, Hz2, Ho⟩, Hr⟩
  isplitr [Hr]
  · isplitl [Ha]; · iexact Ha
    isplitr [Ho]
    · iapply (pointsTo_share hq).2
      isplitl [Hz1]; · iexact Hz1
      iexact Hz2
    iexact Ho
  iexact Hr

end

end Cert.Kernel.Hand

end
-- ==== Proof.KRun.lean ====
/-
  The run of the whole program: two host reshapes, then nine pallas_calls in a row, each reading the arrays the earlier
  ones wrote. Between two items every unscoped buffer of a TensorCore is held whole at known contents: the launch
  memory, then the reshapes applied, then, call by call, the call's output array replaced by what the write-backs of all
  its grid points leave (the proof data's array after the last point) and every other buffer untouched. Each call is a
  segment entered from these contents and left at the next ones; the launch theorem for a list of segments then says that
  every weakly fair execution terminates without a fault, and the final memory is read off the last contents: every
  unscoped buffer, the result array and the six argument arrays among them. Stated for any float instance.
-/
import proofs.«175698_g31370441130260_cont_8to1_b_1575_2_alg».proof.Proof.KRegionEnc
import proofs.«175698_g31370441130260_cont_8to1_b_1575_2_alg».proof.Proof.KRegionProp1
import proofs.«175698_g31370441130260_cont_8to1_b_1575_2_alg».proof.Proof.KRegionProp2
import proofs.«175698_g31370441130260_cont_8to1_b_1575_2_alg».proof.Proof.KRegionProp3
import proofs.«175698_g31370441130260_cont_8to1_b_1575_2_alg».proof.Proof.KRegionProp4
import proofs.«175698_g31370441130260_cont_8to1_b_1575_2_alg».proof.Proof.KRegionProp5
import proofs.«175698_g31370441130260_cont_8to1_b_1575_2_alg».proof.Proof.KRegionProp6
import proofs.«175698_g31370441130260_cont_8to1_b_1575_2_alg».proof.Proof.KRegionProp7
import proofs.«175698_g31370441130260_cont_8to1_b_1575_2_alg».proof.Proof.KRegionLast
import proofs.«175698_g31370441130260_cont_8to1_b_1575_2_alg».proof.Proof.KSharedArr
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ (UR sig nD τ) ℕ

variable (m : (ℓ : Loc nD τ sig) → Buf (Elt F) ℓ)

/-! ## The buffer contents between two items -/

/-- Core `c`'s buffers at launch. -/
abbrev B0 : Dev nD → Valuation τ sig (Elt F) := fun c b => m (c, b)
/-- After the two host reshapes (the biases as rows): the first pallas_call's entry. -/
abbrev B1 : Dev nD → Valuation τ sig (Elt F) := fun c => StableHlo.after hostOps0 (B0 m c)
/-- The same read at the TensorCore's references. -/
abbrev C1 : (c : Dev nD) → (b : Ref sig .tc) → Buf (Elt F) ((c : Thread nD τ).loc b) := fun c b => B1 m c b

/-- After pallas_call 0: its output array `main_v2` at what the write-backs of all its grid points leave, every other
    buffer as the call found it. -/
def B2 (c : Dev nD) : Valuation τ sig (Elt F) :=
  Function.update (B1 m c) (Proc.devRef .tc main_v2) ((dat0 (C1 m) c).arrAt 5 cfg0.N)
abbrev C2 : (c : Dev nD) → (b : Ref sig .tc) → Buf (Elt F) ((c : Thread nD τ).loc b) := fun c b => B2 m c b
theorem B2_out (c : Dev nD) : B2 m c (Proc.devRef .tc main_v2) = (dat0 (C1 m) c).arrAt 5 cfg0.N := by
  unfold B2; exact Function.update_self ..
theorem B2_of_ne (c : Dev nD) (b : Ref sig .tc) (hb : b ≠ main_v2) : B2 m c (Proc.devRef .tc b) = B1 m c (Proc.devRef .tc b) := by
  unfold B2; exact Function.update_of_ne (StableHlo.devRef_ne_of_ne hb) ..
/-- At the call's exit each of its arrays holds what the pipeline leaves — an input as found, the output its write-backs — -/
theorem exitArr0 (c : Dev nD) : ∀ w : Fin cfg0.W, (dat0 (C1 m) c).arrAt w cfg0.N = C2 m c (Pipeline.arrRef spec0 w)
  | ⟨0, _⟩ => (((dat0 (C1 m) c).arrAt_in 0 rfl _).trans (A_eq0 (C1 m) c 0)).trans (B2_of_ne m c _ (by decide)).symm
  | ⟨1, _⟩ => (((dat0 (C1 m) c).arrAt_in 1 rfl _).trans (A_eq0 (C1 m) c 1)).trans (B2_of_ne m c _ (by decide)).symm
  | ⟨2, _⟩ => (((dat0 (C1 m) c).arrAt_in 2 rfl _).trans (A_eq0 (C1 m) c 2)).trans (B2_of_ne m c _ (by decide)).symm
  | ⟨3, _⟩ => (((dat0 (C1 m) c).arrAt_in 3 rfl _).trans (A_eq0 (C1 m) c 3)).trans (B2_of_ne m c _ (by decide)).symm
  | ⟨4, _⟩ => (((dat0 (C1 m) c).arrAt_in 4 rfl _).trans (A_eq0 (C1 m) c 4)).trans (B2_of_ne m c _ (by decide)).symm
  | ⟨5, _⟩ => (B2_out m c).symm
/-- and every other buffer what it held at entry. -/
theorem exitRest0 (c : Dev nD) : ∀ b, b ∉ Finset.univ.image (Pipeline.arrRef spec0) → C2 m c b = C1 m c b :=
  fun b hb => B2_of_ne m c b fun e => hb (Finset.mem_image.mpr ⟨5, Finset.mem_univ _, e.symm⟩)

/-- After pallas_call 1: its output array `main_v3` at what the write-backs of all its grid points leave, every other
    buffer as the call found it. -/
def B3 (c : Dev nD) : Valuation τ sig (Elt F) :=
  Function.update (B2 m c) (Proc.devRef .tc main_v3) ((dat1 (C2 m) fullShare.left fullShare.right c).arrAt 3 cfg1.N)
abbrev C3 : (c : Dev nD) → (b : Ref sig .tc) → Buf (Elt F) ((c : Thread nD τ).loc b) := fun c b => B3 m c b
theorem B3_out (c : Dev nD) : B3 m c (Proc.devRef .tc main_v3) = (dat1 (C2 m) fullShare.left fullShare.right c).arrAt 3 cfg1.N := by
  unfold B3; exact Function.update_self ..
theorem B3_of_ne (c : Dev nD) (b : Ref sig .tc) (hb : b ≠ main_v3) : B3 m c (Proc.devRef .tc b) = B2 m c (Proc.devRef .tc b) := by
  unfold B3; exact Function.update_of_ne (StableHlo.devRef_ne_of_ne hb) ..
/-- At the call's exit each of its arrays holds what the pipeline leaves — an input as found, the output its write-backs — -/
theorem exitArr1 (c : Dev nD) : ∀ w : Fin cfg1.W, (dat1 (C2 m) fullShare.left fullShare.right c).arrAt w cfg1.N = C3 m c (Pipeline.arrRef spec1 w)
  | ⟨0, _⟩ => (((dat1 (C2 m) fullShare.left fullShare.right c).arrAt_in 0 rfl _).trans (A_eq1 (C2 m) fullShare.left fullShare.right c 0)).trans (B3_of_ne m c _ (by decide)).symm
  | ⟨1, _⟩ => (((dat1 (C2 m) fullShare.left fullShare.right c).arrAt_in 1 rfl _).trans (A_eq1 (C2 m) fullShare.left fullShare.right c 1)).trans (B3_of_ne m c _ (by decide)).symm
  | ⟨2, _⟩ => (((dat1 (C2 m) fullShare.left fullShare.right c).arrAt_in 2 rfl _).trans (A_eq1 (C2 m) fullShare.left fullShare.right c 2)).trans (B3_of_ne m c _ (by decide)).symm
  | ⟨3, _⟩ => (B3_out m c).symm
/-- and every other buffer what it held at entry. -/
theorem exitRest1 (c : Dev nD) : ∀ b, b ∉ Finset.univ.image (Pipeline.arrRef spec1) → C3 m c b = C2 m c b :=
  fun b hb => B3_of_ne m c b fun e => hb (Finset.mem_image.mpr ⟨3, Finset.mem_univ _, e.symm⟩)

/-- After pallas_call 2: its output array `main_v4` at what the write-backs of all its grid points leave, every other
    buffer as the call found it. -/
def B4 (c : Dev nD) : Valuation τ sig (Elt F) :=
  Function.update (B3 m c) (Proc.devRef .tc main_v4) ((dat2 (C3 m) c).arrAt 3 cfg2.N)
abbrev C4 : (c : Dev nD) → (b : Ref sig .tc) → Buf (Elt F) ((c : Thread nD τ).loc b) := fun c b => B4 m c b
theorem B4_out (c : Dev nD) : B4 m c (Proc.devRef .tc main_v4) = (dat2 (C3 m) c).arrAt 3 cfg2.N := by
  unfold B4; exact Function.update_self ..
theorem B4_of_ne (c : Dev nD) (b : Ref sig .tc) (hb : b ≠ main_v4) : B4 m c (Proc.devRef .tc b) = B3 m c (Proc.devRef .tc b) := by
  unfold B4; exact Function.update_of_ne (StableHlo.devRef_ne_of_ne hb) ..
/-- At the call's exit each of its arrays holds what the pipeline leaves — an input as found, the output its write-backs — -/
theorem exitArr2 (c : Dev nD) : ∀ w : Fin cfg2.W, (dat2 (C3 m) c).arrAt w cfg2.N = C4 m c (Pipeline.arrRef spec2 w)
  | ⟨0, _⟩ => (((dat2 (C3 m) c).arrAt_in 0 rfl _).trans (A_eq2 (C3 m) c 0)).trans (B4_of_ne m c _ (by decide)).symm
  | ⟨1, _⟩ => (((dat2 (C3 m) c).arrAt_in 1 rfl _).trans (A_eq2 (C3 m) c 1)).trans (B4_of_ne m c _ (by decide)).symm
  | ⟨2, _⟩ => (((dat2 (C3 m) c).arrAt_in 2 rfl _).trans (A_eq2 (C3 m) c 2)).trans (B4_of_ne m c _ (by decide)).symm
  | ⟨3, _⟩ => (B4_out m c).symm
/-- and every other buffer what it held at entry. -/
theorem exitRest2 (c : Dev nD) : ∀ b, b ∉ Finset.univ.image (Pipeline.arrRef spec2) → C4 m c b = C3 m c b :=
  fun b hb => B4_of_ne m c b fun e => hb (Finset.mem_image.mpr ⟨3, Finset.mem_univ _, e.symm⟩)

/-- After pallas_call 3: its output array `main_v5` at what the write-backs of all its grid points leave, every other
    buffer as the call found it. -/
def B5 (c : Dev nD) : Valuation τ sig (Elt F) :=
  Function.update (B4 m c) (Proc.devRef .tc main_v5) ((dat3 (C4 m) c).arrAt 3 cfg3.N)
abbrev C5 : (c : Dev nD) → (b : Ref sig .tc) → Buf (Elt F) ((c : Thread nD τ).loc b) := fun c b => B5 m c b
theorem B5_out (c : Dev nD) : B5 m c (Proc.devRef .tc main_v5) = (dat3 (C4 m) c).arrAt 3 cfg3.N := by
  unfold B5; exact Function.update_self ..
theorem B5_of_ne (c : Dev nD) (b : Ref sig .tc) (hb : b ≠ main_v5) : B5 m c (Proc.devRef .tc b) = B4 m c (Proc.devRef .tc b) := by
  unfold B5; exact Function.update_of_ne (StableHlo.devRef_ne_of_ne hb) ..
/-- At the call's exit each of its arrays holds what the pipeline leaves — an input as found, the output its write-backs — -/
theorem exitArr3 (c : Dev nD) : ∀ w : Fin cfg3.W, (dat3 (C4 m) c).arrAt w cfg3.N = C5 m c (Pipeline.arrRef spec3 w)
  | ⟨0, _⟩ => (((dat3 (C4 m) c).arrAt_in 0 rfl _).trans (A_eq3 (C4 m) c 0)).trans (B5_of_ne m c _ (by decide)).symm
  | ⟨1, _⟩ => (((dat3 (C4 m) c).arrAt_in 1 rfl _).trans (A_eq3 (C4 m) c 1)).trans (B5_of_ne m c _ (by decide)).symm
  | ⟨2, _⟩ => (((dat3 (C4 m) c).arrAt_in 2 rfl _).trans (A_eq3 (C4 m) c 2)).trans (B5_of_ne m c _ (by decide)).symm
  | ⟨3, _⟩ => (B5_out m c).symm
/-- and every other buffer what it held at entry. -/
theorem exitRest3 (c : Dev nD) : ∀ b, b ∉ Finset.univ.image (Pipeline.arrRef spec3) → C5 m c b = C4 m c b :=
  fun b hb => B5_of_ne m c b fun e => hb (Finset.mem_image.mpr ⟨3, Finset.mem_univ _, e.symm⟩)

/-- After pallas_call 4: its output array `main_v6` at what the write-backs of all its grid points leave, every other
    buffer as the call found it. -/
def B6 (c : Dev nD) : Valuation τ sig (Elt F) :=
  Function.update (B5 m c) (Proc.devRef .tc main_v6) ((dat4 (C5 m) c).arrAt 3 cfg4.N)
abbrev C6 : (c : Dev nD) → (b : Ref sig .tc) → Buf (Elt F) ((c : Thread nD τ).loc b) := fun c b => B6 m c b
theorem B6_out (c : Dev nD) : B6 m c (Proc.devRef .tc main_v6) = (dat4 (C5 m) c).arrAt 3 cfg4.N := by
  unfold B6; exact Function.update_self ..
theorem B6_of_ne (c : Dev nD) (b : Ref sig .tc) (hb : b ≠ main_v6) : B6 m c (Proc.devRef .tc b) = B5 m c (Proc.devRef .tc b) := by
  unfold B6; exact Function.update_of_ne (StableHlo.devRef_ne_of_ne hb) ..
/-- At the call's exit each of its arrays holds what the pipeline leaves — an input as found, the output its write-backs — -/
theorem exitArr4 (c : Dev nD) : ∀ w : Fin cfg4.W, (dat4 (C5 m) c).arrAt w cfg4.N = C6 m c (Pipeline.arrRef spec4 w)
  | ⟨0, _⟩ => (((dat4 (C5 m) c).arrAt_in 0 rfl _).trans (A_eq4 (C5 m) c 0)).trans (B6_of_ne m c _ (by decide)).symm
  | ⟨1, _⟩ => (((dat4 (C5 m) c).arrAt_in 1 rfl _).trans (A_eq4 (C5 m) c 1)).trans (B6_of_ne m c _ (by decide)).symm
  | ⟨2, _⟩ => (((dat4 (C5 m) c).arrAt_in 2 rfl _).trans (A_eq4 (C5 m) c 2)).trans (B6_of_ne m c _ (by decide)).symm
  | ⟨3, _⟩ => (B6_out m c).symm
/-- and every other buffer what it held at entry. -/
theorem exitRest4 (c : Dev nD) : ∀ b, b ∉ Finset.univ.image (Pipeline.arrRef spec4) → C6 m c b = C5 m c b :=
  fun b hb => B6_of_ne m c b fun e => hb (Finset.mem_image.mpr ⟨3, Finset.mem_univ _, e.symm⟩)

/-- After pallas_call 5: its output array `main_v7` at what the write-backs of all its grid points leave, every other
    buffer as the call found it. -/
def B7 (c : Dev nD) : Valuation τ sig (Elt F) :=
  Function.update (B6 m c) (Proc.devRef .tc main_v7) ((dat5 (C6 m) c).arrAt 3 cfg5.N)
abbrev C7 : (c : Dev nD) → (b : Ref sig .tc) → Buf (Elt F) ((c : Thread nD τ).loc b) := fun c b => B7 m c b
theorem B7_out (c : Dev nD) : B7 m c (Proc.devRef .tc main_v7) = (dat5 (C6 m) c).arrAt 3 cfg5.N := by
  unfold B7; exact Function.update_self ..
theorem B7_of_ne (c : Dev nD) (b : Ref sig .tc) (hb : b ≠ main_v7) : B7 m c (Proc.devRef .tc b) = B6 m c (Proc.devRef .tc b) := by
  unfold B7; exact Function.update_of_ne (StableHlo.devRef_ne_of_ne hb) ..
/-- At the call's exit each of its arrays holds what the pipeline leaves — an input as found, the output its write-backs — -/
theorem exitArr5 (c : Dev nD) : ∀ w : Fin cfg5.W, (dat5 (C6 m) c).arrAt w cfg5.N = C7 m c (Pipeline.arrRef spec5 w)
  | ⟨0, _⟩ => (((dat5 (C6 m) c).arrAt_in 0 rfl _).trans (A_eq5 (C6 m) c 0)).trans (B7_of_ne m c _ (by decide)).symm
  | ⟨1, _⟩ => (((dat5 (C6 m) c).arrAt_in 1 rfl _).trans (A_eq5 (C6 m) c 1)).trans (B7_of_ne m c _ (by decide)).symm
  | ⟨2, _⟩ => (((dat5 (C6 m) c).arrAt_in 2 rfl _).trans (A_eq5 (C6 m) c 2)).trans (B7_of_ne m c _ (by decide)).symm
  | ⟨3, _⟩ => (B7_out m c).symm
/-- and every other buffer what it held at entry. -/
theorem exitRest5 (c : Dev nD) : ∀ b, b ∉ Finset.univ.image (Pipeline.arrRef spec5) → C7 m c b = C6 m c b :=
  fun b hb => B7_of_ne m c b fun e => hb (Finset.mem_image.mpr ⟨3, Finset.mem_univ _, e.symm⟩)

/-- After pallas_call 6: its output array `main_v8` at what the write-backs of all its grid points leave, every other
    buffer as the call found it. -/
def B8 (c : Dev nD) : Valuation τ sig (Elt F) :=
  Function.update (B7 m c) (Proc.devRef .tc main_v8) ((dat6 (C7 m) c).arrAt 3 cfg6.N)
abbrev C8 : (c : Dev nD) → (b : Ref sig .tc) → Buf (Elt F) ((c : Thread nD τ).loc b) := fun c b => B8 m c b
theorem B8_out (c : Dev nD) : B8 m c (Proc.devRef .tc main_v8) = (dat6 (C7 m) c).arrAt 3 cfg6.N := by
  unfold B8; exact Function.update_self ..
theorem B8_of_ne (c : Dev nD) (b : Ref sig .tc) (hb : b ≠ main_v8) : B8 m c (Proc.devRef .tc b) = B7 m c (Proc.devRef .tc b) := by
  unfold B8; exact Function.update_of_ne (StableHlo.devRef_ne_of_ne hb) ..
/-- At the call's exit each of its arrays holds what the pipeline leaves — an input as found, the output its write-backs — -/
theorem exitArr6 (c : Dev nD) : ∀ w : Fin cfg6.W, (dat6 (C7 m) c).arrAt w cfg6.N = C8 m c (Pipeline.arrRef spec6 w)
  | ⟨0, _⟩ => (((dat6 (C7 m) c).arrAt_in 0 rfl _).trans (A_eq6 (C7 m) c 0)).trans (B8_of_ne m c _ (by decide)).symm
  | ⟨1, _⟩ => (((dat6 (C7 m) c).arrAt_in 1 rfl _).trans (A_eq6 (C7 m) c 1)).trans (B8_of_ne m c _ (by decide)).symm
  | ⟨2, _⟩ => (((dat6 (C7 m) c).arrAt_in 2 rfl _).trans (A_eq6 (C7 m) c 2)).trans (B8_of_ne m c _ (by decide)).symm
  | ⟨3, _⟩ => (B8_out m c).symm
/-- and every other buffer what it held at entry. -/
theorem exitRest6 (c : Dev nD) : ∀ b, b ∉ Finset.univ.image (Pipeline.arrRef spec6) → C8 m c b = C7 m c b :=
  fun b hb => B8_of_ne m c b fun e => hb (Finset.mem_image.mpr ⟨3, Finset.mem_univ _, e.symm⟩)

/-- After pallas_call 7: its output array `main_v9` at what the write-backs of all its grid points leave, every other
    buffer as the call found it. -/
def B9 (c : Dev nD) : Valuation τ sig (Elt F) :=
  Function.update (B8 m c) (Proc.devRef .tc main_v9) ((dat7 (C8 m) c).arrAt 3 cfg7.N)
abbrev C9 : (c : Dev nD) → (b : Ref sig .tc) → Buf (Elt F) ((c : Thread nD τ).loc b) := fun c b => B9 m c b
theorem B9_out (c : Dev nD) : B9 m c (Proc.devRef .tc main_v9) = (dat7 (C8 m) c).arrAt 3 cfg7.N := by
  unfold B9; exact Function.update_self ..
theorem B9_of_ne (c : Dev nD) (b : Ref sig .tc) (hb : b ≠ main_v9) : B9 m c (Proc.devRef .tc b) = B8 m c (Proc.devRef .tc b) := by
  unfold B9; exact Function.update_of_ne (StableHlo.devRef_ne_of_ne hb) ..
/-- At the call's exit each of its arrays holds what the pipeline leaves — an input as found, the output its write-backs — -/
theorem exitArr7 (c : Dev nD) : ∀ w : Fin cfg7.W, (dat7 (C8 m) c).arrAt w cfg7.N = C9 m c (Pipeline.arrRef spec7 w)
  | ⟨0, _⟩ => (((dat7 (C8 m) c).arrAt_in 0 rfl _).trans (A_eq7 (C8 m) c 0)).trans (B9_of_ne m c _ (by decide)).symm
  | ⟨1, _⟩ => (((dat7 (C8 m) c).arrAt_in 1 rfl _).trans (A_eq7 (C8 m) c 1)).trans (B9_of_ne m c _ (by decide)).symm
  | ⟨2, _⟩ => (((dat7 (C8 m) c).arrAt_in 2 rfl _).trans (A_eq7 (C8 m) c 2)).trans (B9_of_ne m c _ (by decide)).symm
  | ⟨3, _⟩ => (B9_out m c).symm
/-- and every other buffer what it held at entry. -/
theorem exitRest7 (c : Dev nD) : ∀ b, b ∉ Finset.univ.image (Pipeline.arrRef spec7) → C9 m c b = C8 m c b :=
  fun b hb => B9_of_ne m c b fun e => hb (Finset.mem_image.mpr ⟨3, Finset.mem_univ _, e.symm⟩)

/-- After pallas_call 8: its output array `main_v10` at what the write-backs of all its grid points leave, every other
    buffer as the call found it. -/
def B10 (c : Dev nD) : Valuation τ sig (Elt F) :=
  Function.update (B9 m c) (Proc.devRef .tc main_v10) ((dat8 (C9 m) c).arrAt 3 cfg8.N)
abbrev C10 : (c : Dev nD) → (b : Ref sig .tc) → Buf (Elt F) ((c : Thread nD τ).loc b) := fun c b => B10 m c b
theorem B10_out (c : Dev nD) : B10 m c (Proc.devRef .tc main_v10) = (dat8 (C9 m) c).arrAt 3 cfg8.N := by
  unfold B10; exact Function.update_self ..
theorem B10_of_ne (c : Dev nD) (b : Ref sig .tc) (hb : b ≠ main_v10) : B10 m c (Proc.devRef .tc b) = B9 m c (Proc.devRef .tc b) := by
  unfold B10; exact Function.update_of_ne (StableHlo.devRef_ne_of_ne hb) ..
/-- At the call's exit each of its arrays holds what the pipeline leaves — an input as found, the output its write-backs — -/
theorem exitArr8 (c : Dev nD) : ∀ w : Fin cfg8.W, (dat8 (C9 m) c).arrAt w cfg8.N = C10 m c (Pipeline.arrRef spec8 w)
  | ⟨0, _⟩ => (((dat8 (C9 m) c).arrAt_in 0 rfl _).trans (A_eq8 (C9 m) c 0)).trans (B10_of_ne m c _ (by decide)).symm
  | ⟨1, _⟩ => (((dat8 (C9 m) c).arrAt_in 1 rfl _).trans (A_eq8 (C9 m) c 1)).trans (B10_of_ne m c _ (by decide)).symm
  | ⟨2, _⟩ => (((dat8 (C9 m) c).arrAt_in 2 rfl _).trans (A_eq8 (C9 m) c 2)).trans (B10_of_ne m c _ (by decide)).symm
  | ⟨3, _⟩ => (B10_out m c).symm
/-- and every other buffer what it held at entry. -/
theorem exitRest8 (c : Dev nD) : ∀ b, b ∉ Finset.univ.image (Pipeline.arrRef spec8) → C10 m c b = C9 m c b :=
  fun b hb => B10_of_ne m c b fun e => hb (Finset.mem_image.mpr ⟨3, Finset.mem_univ _, e.symm⟩)

/-! ## The proof data of the nine pipelines, the thread state -/

/-- No pallas_call has a prefetched table. -/
abbrev adm : (p : Fin 9) → (pcfgs (F := F) p).Adm := fun p => (cfgs p).toPCfg_adm
/-- Every pipeline's proof data at its call's entry contents (a literal match on the pipeline's number). -/
def pdats : (p : Fin 9) → (c : Dev nD) → Dat τ (Elt F) Unit ℕ (UR sig nD τ) ℕ (Pipeline.pin (pcfgs (F := F)) adm p) c
  | ⟨0, _⟩ => fun c => dat0 (C1 m) c
  | ⟨1, _⟩ => fun c => dat1 (C2 m) fullShare.left fullShare.right c
  | ⟨2, _⟩ => fun c => dat2 (C3 m) c
  | ⟨3, _⟩ => fun c => dat3 (C4 m) c
  | ⟨4, _⟩ => fun c => dat4 (C5 m) c
  | ⟨5, _⟩ => fun c => dat5 (C6 m) c
  | ⟨6, _⟩ => fun c => dat6 (C7 m) c
  | ⟨7, _⟩ => fun c => dat7 (C8 m) c
  | ⟨8, _⟩ => fun c => dat8 (C9 m) c
/-- No core owes another anything: no level is assigned. -/
abbrev Lnone : GSem nD τ sig → Finset Unit := fun _ => ∅
abbrev lvnone : GSem nD τ sig → Unit → ℕ := fun _ _ => 0
/-- What rides beside the buffers through every item: the core's generator register at some state, and nothing owed. -/
abbrev Rest (c : Dev nD) : sProp 𝕄 := iprop((∃ r, prngReg c r) ∗ ∃ W, owes (c : Thread nD τ) (0 : CellTallies nD τ sig Unit) W)
/-- The last thread state without what is owed: every unscoped buffer at the last contents, the register at some state. -/
abbrev Tend (c : Dev nD) : sProp 𝕄 := iprop(StableHlo.held (c : Thread nD τ) (Pipeline.ucRefs τ sig) (B10 m c) ∗ ∃ r, prngReg c r)

theorem hostOps0_allocates_nothing : (hostOps0 : List (HloOp τ sig (Elt F))).Forall fun op => op.fresh = ∅ := by
  simp only [List.Forall]; repeat' constructor
/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The host reshapes as a segment over the unscoped buffers from the launch contents. -/
abbrev hostSeg : Pipeline.HostSeg (Name := ℕ) (U := UR sig nD τ) (pcfgs (F := F)) defs₀ Variants.none Lnone lvnone :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_allocates_nothing) op h) (B0 m) Rest

/-! ## The nine calls as segments -/

set_option backward.isDefEq.respectTransparency.types false in
/-- Pallas_call 0 as a segment: entered with every unscoped buffer at `B1`, left with them at `B2`. Its windows'
    arrays are taken out of the unscoped buffers on entry and put back, at what the pipeline leaves, on exit; the generator
    register rides through the pipeline's invariant; nothing is owed; the kernel has no semaphore of its own. -/
def reg0 : Pipeline.RegionSeg (pcfgs (F := F)) adm (pdats m) () defs₀ Variants.none Lnone lvnone 0 where
  win := launch0.win.to₀
  block_pos := launch0.block_pos
  stage_whole := launch0.stage_whole
  K := PEmpty
  osem k := k.elim
  ho := Pipeline.OwnSemFacts.none _
  hbody c := (body_obligation0 (C1 m) c).loose
  hwaits := Pipeline.hwaits_of_owed_zero _ _ _ _ Lnone lvnone 0 fun _ _ => rfl
  pre c := iprop(StableHlo.held (c : Thread nD τ) (Pipeline.ucRefs τ sig) (B1 m c) ∗ Rest c)
  post c := iprop(StableHlo.held (c : Thread nD τ) (Pipeline.ucRefs τ sig) (B2 m c) ∗ Rest c)
  X c := iprop(∃ r, prngReg c r)
  Y c := iprop(∃ r, prngReg c r)
  Z c := Pipeline.unscopedRest (Ix := Unit) (Name := ℕ) (U := UR sig nD τ) (Lvl := ℕ) spec0 c (C1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (C1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (C1 m c) (C2 m c) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 as a segment: entered with every unscoped buffer at `B2`, left with them at `B3`. Its windows'
    arrays are taken out of the unscoped buffers on entry and put back, at what the pipeline leaves, on exit; the generator
    register rides through the pipeline's invariant; nothing is owed; the kernel has no semaphore of its own. -/
def reg1 : Pipeline.RegionSeg (pcfgs (F := F)) adm (pdats m) () defs₀ Variants.none Lnone lvnone 1 where
  win := winFacts₀1
  block_pos := block_pos1
  stage_whole := stage_whole1
  K := PEmpty
  osem k := k.elim
  ho := Pipeline.OwnSemFacts.none _
  hbody c := (body_obligation1 (C2 m) fullShare.left fullShare.right c).loose
  hwaits := Pipeline.hwaits_of_owed_zero _ _ _ _ Lnone lvnone 1 fun _ _ => rfl
  pre c := iprop(StableHlo.held (c : Thread nD τ) (Pipeline.ucRefs τ sig) (B2 m c) ∗ Rest c)
  post c := iprop(StableHlo.held (c : Thread nD τ) (Pipeline.ucRefs τ sig) (B3 m c) ∗ Rest c)
  X c := iprop(∃ r, prngReg c r)
  Y c := iprop(∃ r, prngReg c r)
  Z c := Pipeline.unscopedRest (Ix := Unit) (Name := ℕ) (U := UR sig nD τ) (Lvl := ℕ) spec1 c (C2 m c)
  hentry c := by
    rw [Pipeline.ownSems0_none]
    have hsplit := shared_entry (F := F) fullShare.left fullShare.right (PosShare.mem_left_op_right fullShare) c (pdats m 1 c) rfl rfl rfl
      (C2 m c) (fun w => (pdats m 1 c).arrAt w 0) (fun w => A_eq1 (C2 m) fullShare.left fullShare.right c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := shared_exit (F := F) fullShare.left fullShare.right (PosShare.mem_left_op_right fullShare) c (pdats m 1 c) rfl rfl rfl
      (C2 m c) (C3 m c) ((pdats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 2 as a segment: entered with every unscoped buffer at `B3`, left with them at `B4`. Its windows'
    arrays are taken out of the unscoped buffers on entry and put back, at what the pipeline leaves, on exit; the generator
    register rides through the pipeline's invariant; nothing is owed; the kernel has no semaphore of its own. -/
def reg2 : Pipeline.RegionSeg (pcfgs (F := F)) adm (pdats m) () defs₀ Variants.none Lnone lvnone 2 where
  win := launch2.win.to₀
  block_pos := launch2.block_pos
  stage_whole := launch2.stage_whole
  K := PEmpty
  osem k := k.elim
  ho := Pipeline.OwnSemFacts.none _
  hbody c := (body_obligation2 (C3 m) c).loose
  hwaits := Pipeline.hwaits_of_owed_zero _ _ _ _ Lnone lvnone 2 fun _ _ => rfl
  pre c := iprop(StableHlo.held (c : Thread nD τ) (Pipeline.ucRefs τ sig) (B3 m c) ∗ Rest c)
  post c := iprop(StableHlo.held (c : Thread nD τ) (Pipeline.ucRefs τ sig) (B4 m c) ∗ Rest c)
  X c := iprop(∃ r, prngReg c r)
  Y c := iprop(∃ r, prngReg c r)
  Z c := Pipeline.unscopedRest (Ix := Unit) (Name := ℕ) (U := UR sig nD τ) (Lvl := ℕ) spec2 c (C3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (C3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (C3 m c) (C4 m c) ((pdats m 2 c).arrAt · cfg2.N) (exitArr2 m c) (exitRest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 3 as a segment: entered with every unscoped buffer at `B4`, left with them at `B5`. Its windows'
    arrays are taken out of the unscoped buffers on entry and put back, at what the pipeline leaves, on exit; the generator
    register rides through the pipeline's invariant; nothing is owed; the kernel has no semaphore of its own. -/
def reg3 : Pipeline.RegionSeg (pcfgs (F := F)) adm (pdats m) () defs₀ Variants.none Lnone lvnone 3 where
  win := launch3.win.to₀
  block_pos := launch3.block_pos
  stage_whole := launch3.stage_whole
  K := PEmpty
  osem k := k.elim
  ho := Pipeline.OwnSemFacts.none _
  hbody c := (body_obligation3 (C4 m) c).loose
  hwaits := Pipeline.hwaits_of_owed_zero _ _ _ _ Lnone lvnone 3 fun _ _ => rfl
  pre c := iprop(StableHlo.held (c : Thread nD τ) (Pipeline.ucRefs τ sig) (B4 m c) ∗ Rest c)
  post c := iprop(StableHlo.held (c : Thread nD τ) (Pipeline.ucRefs τ sig) (B5 m c) ∗ Rest c)
  X c := iprop(∃ r, prngReg c r)
  Y c := iprop(∃ r, prngReg c r)
  Z c := Pipeline.unscopedRest (Ix := Unit) (Name := ℕ) (U := UR sig nD τ) (Lvl := ℕ) spec3 c (C4 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (C4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (C4 m c) (C5 m c) ((pdats m 3 c).arrAt · cfg3.N) (exitArr3 m c) (exitRest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 4 as a segment: entered with every unscoped buffer at `B5`, left with them at `B6`. Its windows'
    arrays are taken out of the unscoped buffers on entry and put back, at what the pipeline leaves, on exit; the generator
    register rides through the pipeline's invariant; nothing is owed; the kernel has no semaphore of its own. -/
def reg4 : Pipeline.RegionSeg (pcfgs (F := F)) adm (pdats m) () defs₀ Variants.none Lnone lvnone 4 where
  win := launch4.win.to₀
  block_pos := launch4.block_pos
  stage_whole := launch4.stage_whole
  K := PEmpty
  osem k := k.elim
  ho := Pipeline.OwnSemFacts.none _
  hbody c := (body_obligation4 (C5 m) c).loose
  hwaits := Pipeline.hwaits_of_owed_zero _ _ _ _ Lnone lvnone 4 fun _ _ => rfl
  pre c := iprop(StableHlo.held (c : Thread nD τ) (Pipeline.ucRefs τ sig) (B5 m c) ∗ Rest c)
  post c := iprop(StableHlo.held (c : Thread nD τ) (Pipeline.ucRefs τ sig) (B6 m c) ∗ Rest c)
  X c := iprop(∃ r, prngReg c r)
  Y c := iprop(∃ r, prngReg c r)
  Z c := Pipeline.unscopedRest (Ix := Unit) (Name := ℕ) (U := UR sig nD τ) (Lvl := ℕ) spec4 c (C5 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (C5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (C5 m c) (C6 m c) ((pdats m 4 c).arrAt · cfg4.N) (exitArr4 m c) (exitRest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 5 as a segment: entered with every unscoped buffer at `B6`, left with them at `B7`. Its windows'
    arrays are taken out of the unscoped buffers on entry and put back, at what the pipeline leaves, on exit; the generator
    register rides through the pipeline's invariant; nothing is owed; the kernel has no semaphore of its own. -/
def reg5 : Pipeline.RegionSeg (pcfgs (F := F)) adm (pdats m) () defs₀ Variants.none Lnone lvnone 5 where
  win := launch5.win.to₀
  block_pos := launch5.block_pos
  stage_whole := launch5.stage_whole
  K := PEmpty
  osem k := k.elim
  ho := Pipeline.OwnSemFacts.none _
  hbody c := (body_obligation5 (C6 m) c).loose
  hwaits := Pipeline.hwaits_of_owed_zero _ _ _ _ Lnone lvnone 5 fun _ _ => rfl
  pre c := iprop(StableHlo.held (c : Thread nD τ) (Pipeline.ucRefs τ sig) (B6 m c) ∗ Rest c)
  post c := iprop(StableHlo.held (c : Thread nD τ) (Pipeline.ucRefs τ sig) (B7 m c) ∗ Rest c)
  X c := iprop(∃ r, prngReg c r)
  Y c := iprop(∃ r, prngReg c r)
  Z c := Pipeline.unscopedRest (Ix := Unit) (Name := ℕ) (U := UR sig nD τ) (Lvl := ℕ) spec5 c (C6 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (C6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (C6 m c) (C7 m c) ((pdats m 5 c).arrAt · cfg5.N) (exitArr5 m c) (exitRest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 6 as a segment: entered with every unscoped buffer at `B7`, left with them at `B8`. Its windows'
    arrays are taken out of the unscoped buffers on entry and put back, at what the pipeline leaves, on exit; the generator
    register rides through the pipeline's invariant; nothing is owed; the kernel has no semaphore of its own. -/
def reg6 : Pipeline.RegionSeg (pcfgs (F := F)) adm (pdats m) () defs₀ Variants.none Lnone lvnone 6 where
  win := launch6.win.to₀
  block_pos := launch6.block_pos
  stage_whole := launch6.stage_whole
  K := PEmpty
  osem k := k.elim
  ho := Pipeline.OwnSemFacts.none _
  hbody c := (body_obligation6 (C7 m) c).loose
  hwaits := Pipeline.hwaits_of_owed_zero _ _ _ _ Lnone lvnone 6 fun _ _ => rfl
  pre c := iprop(StableHlo.held (c : Thread nD τ) (Pipeline.ucRefs τ sig) (B7 m c) ∗ Rest c)
  post c := iprop(StableHlo.held (c : Thread nD τ) (Pipeline.ucRefs τ sig) (B8 m c) ∗ Rest c)
  X c := iprop(∃ r, prngReg c r)
  Y c := iprop(∃ r, prngReg c r)
  Z c := Pipeline.unscopedRest (Ix := Unit) (Name := ℕ) (U := UR sig nD τ) (Lvl := ℕ) spec6 c (C7 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (C7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (C7 m c) (C8 m c) ((pdats m 6 c).arrAt · cfg6.N) (exitArr6 m c) (exitRest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 7 as a segment: entered with every unscoped buffer at `B8`, left with them at `B9`. Its windows'
    arrays are taken out of the unscoped buffers on entry and put back, at what the pipeline leaves, on exit; the generator
    register rides through the pipeline's invariant; nothing is owed; the kernel has no semaphore of its own. -/
def reg7 : Pipeline.RegionSeg (pcfgs (F := F)) adm (pdats m) () defs₀ Variants.none Lnone lvnone 7 where
  win := launch7.win.to₀
  block_pos := launch7.block_pos
  stage_whole := launch7.stage_whole
  K := PEmpty
  osem k := k.elim
  ho := Pipeline.OwnSemFacts.none _
  hbody c := (body_obligation7 (C8 m) c).loose
  hwaits := Pipeline.hwaits_of_owed_zero _ _ _ _ Lnone lvnone 7 fun _ _ => rfl
  pre c := iprop(StableHlo.held (c : Thread nD τ) (Pipeline.ucRefs τ sig) (B8 m c) ∗ Rest c)
  post c := iprop(StableHlo.held (c : Thread nD τ) (Pipeline.ucRefs τ sig) (B9 m c) ∗ Rest c)
  X c := iprop(∃ r, prngReg c r)
  Y c := iprop(∃ r, prngReg c r)
  Z c := Pipeline.unscopedRest (Ix := Unit) (Name := ℕ) (U := UR sig nD τ) (Lvl := ℕ) spec7 c (C8 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (C8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (C8 m c) (C9 m c) ((pdats m 7 c).arrAt · cfg7.N) (exitArr7 m c) (exitRest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 8 as a segment: entered with every unscoped buffer at `B9`, left with them at `B10`. Its windows'
    arrays are taken out of the unscoped buffers on entry and put back, at what the pipeline leaves, on exit; the generator
    register rides through the pipeline's invariant; nothing is owed; the kernel has no semaphore of its own. -/
def reg8 : Pipeline.RegionSeg (pcfgs (F := F)) adm (pdats m) () defs₀ Variants.none Lnone lvnone 8 where
  win := launch8.win.to₀
  block_pos := launch8.block_pos
  stage_whole := launch8.stage_whole
  K := PEmpty
  osem k := k.elim
  ho := Pipeline.OwnSemFacts.none _
  hbody c := (body_obligation8 (C9 m) c).loose
  hwaits := Pipeline.hwaits_of_owed_zero _ _ _ _ Lnone lvnone 8 fun _ _ => rfl
  pre c := iprop(StableHlo.held (c : Thread nD τ) (Pipeline.ucRefs τ sig) (B9 m c) ∗ Rest c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec8 c (C9 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (C9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (C9 m c) (C10 m c) ((pdats m 8 c).arrAt · cfg8.N) (exitArr8 m c) (exitRest8 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The ten items in the program's order. -/
abbrev segs : List (Pipeline.Seg (pcfgs (F := F)) adm (pdats m) () defs₀ Variants.none Lnone lvnone) :=
  [ .host (hostSeg m), .region (reg0 m), .region (reg1 m), .region (reg2 m), .region (reg3 m), .region (reg4 m), .region (reg5 m), .region (reg6 m), .region (reg7 m), .region (reg8 m) ]

theorem main_is_segs (c : Dev nD) : main (F := F) c = Pipeline.Seg.run (segs m) := (main_chain c).trans (by chain_rfl)

set_option backward.isDefEq.respectTransparency.types false in
/-- THE RUN. From any memory with zero counters every weakly fair execution of the program on the TensorCores terminates,
    nothing faulting, and in every final state each unscoped buffer of each core holds the last contents `B10`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B10 m c b) :=
  Pipeline.θ_run_regions_kit (pcfgs (F := F)) adm (pdats m) () cellOf_inj emb₁ defs₀ Variants.none Lnone lvnone m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rest c)) (Tₙ := Tend m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Lnone lvnone fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B10 m c b)
    (hfin := fun c s' => by
      iintro ⟨⟨Hh, -⟩, HSI⟩
      unfold StableHlo.held
      imodintro
      iapply (pointsTo_read_all (Pipeline.ucRefs τ sig) (fun b => (((c : Thread nD τ)).1, b)) (B10 m c) s')
      isplitl [Hh] <;> iassumption)
    (hQ := fun s h c => h c)

/-! ## The arguments end as launched -/

/-- The two reshapes write only the bias rows: every other buffer is as launched after them. -/
theorem B1_keeps (c : Dev nD) (b : Ref sig .tc) (h0 : b ≠ main_v0) (h1 : b ≠ main_v1) : B1 m c (Proc.devRef .tc b) = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-- No item writes an argument array: the last contents at an argument walk back to the launch memory. -/
theorem B10_of_arg (c : Dev nD) (b : Ref sig .tc) (hb : b ∈ ([main_arg0, main_arg1, main_arg2, main_arg3, main_arg4, main_arg5] : List (Ref sig .tc))) :
    B10 m c (Proc.devRef .tc b) = m ((c : Thread nD τ).loc b) := by
  have hne : ∀ r ∈ ([main_v0, main_v1, main_v2, main_v3, main_v4, main_v5, main_v6, main_v7, main_v8, main_v9, main_v10] : List (Ref sig .tc)), b ≠ r := by
    revert b; decide
  rw [B10_of_ne m c b (hne _ (by decide)), B9_of_ne m c b (hne _ (by decide)), B8_of_ne m c b (hne _ (by decide)),
    B7_of_ne m c b (hne _ (by decide)), B6_of_ne m c b (hne _ (by decide)), B5_of_ne m c b (hne _ (by decide)),
    B4_of_ne m c b (hne _ (by decide)), B3_of_ne m c b (hne _ (by decide)), B2_of_ne m c b (hne _ (by decide))]
  exact B1_keeps m c b (hne _ (by decide)) (hne _ (by decide))

/-- THE FRAME: the program runs to the end, faults nowhere, and leaves its six argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_unscoped main_arg0 (by decide))).trans (B10_of_arg m c main_arg0 (by decide)),
     (h c _ (mem_unscoped main_arg1 (by decide))).trans (B10_of_arg m c main_arg1 (by decide)),
     (h c _ (mem_unscoped main_arg2 (by decide))).trans (B10_of_arg m c main_arg2 (by decide)),
     (h c _ (mem_unscoped main_arg3 (by decide))).trans (B10_of_arg m c main_arg3 (by decide)),
     (h c _ (mem_unscoped main_arg4 (by decide))).trans (B10_of_arg m c main_arg4 (by decide)),
     (h c _ (mem_unscoped main_arg5 (by decide))).trans (B10_of_arg m c main_arg5 (by decide))⟩) (run_all m ρ)

end Cert.Kernel.Hand

end
-- ==== Proof.RegionEnc.lean ====
import proofs.«175698_g31370441130260_cont_8to1_b_1575_2_alg».proof.Proof.Gen.KernelIdeal.Launch
import proofs.«175698_g31370441130260_cont_8to1_b_1575_2_alg».proof.Proof.Gen.KernelIdeal.Skeleton
import proofs.«175698_g31370441130260_cont_8to1_b_1575_2_alg».proof.Proof.Gen.KernelIdeal.Points
import Idealize.ShloMosaic.Lib.Pipeline.FrameBody
import Idealize.ShloMosaic.Lib.Ring
import Idealize.ShloMosaic.Lib.Tactic

/-!
# The encoder, one row block at a time

The grid has 10 points. At point `t` the encoder reads rows `1000 t … 1000 t + 999` of the 10000 × 128
feature matrix (window 0) and, whole, the first layer's 128 × 128 weights (window 1) and bias as a
1 × 128 row (window 2) and the second layer's 10 × 128 weights (window 3) and bias as a 1 × 10 row
(window 4); the four whole arrays are brought in once, at the first point, and stay in place. It writes
rows `1000 t …` of the 10000 × 10 encoder output (window 5):

  z = max (x · W1ᵀ + b1, 0) · W2ᵀ + b2.

Everything here is stated at a parameter `V`, the buffer contents the encoder finds when it starts, and
for any float instance. The file gives the contents each window's buffer holds before and after the
body at a point, and proves that the body, run on those contents, leaves exactly the stated ones.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of a core holds when the encoder starts
variable (V : (c : Dev nD) → (b : Ref sig .tc) → Buf (Elt F) ((c : Thread nD τ).loc b))

/-! ## The block of each window at a point -/

/-- The part of window `w`'s array that point `t` works on, read off the contents the encoder starts from. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body finds in the five input buffers

An input's buffer holds the input's block at every point, whether the block was brought in at this
point or at an earlier one: when nothing is brought in, the block index has not moved since the
previous point and the body does not write to inputs. The lemmas below say this for any proof data
whose array is `V`'s and whose body leaves the input in place. -/

theorem input0_0_found {c : Dev nD} (dat : Dat τ (Elt F) Unit ℕ (UR sig nD τ) ℕ cfg0 c) (hA : dat.A 0 = V c (Pipeline.arrRef spec0 0))
    (hkeep : ∀ t, dat.after 0 t = iblk0 V c 0 t) (t : Fin cfg0.N) (d) : dat.before 0 t d = iblk0 V c 0 t :=
  (dat.before_in_eq_fetched 0 rfl (fun _ => rfl) (fun _ _ _ => rfl) (fun t => by rw [hkeep]; unfold Dat.blockOf iblk0; rw [hA]; try rfl) t d).trans
    (by unfold Dat.fetched Dat.blockOf iblk0; rw [hA]; try rfl)

theorem input0_1_found {c : Dev nD} (dat : Dat τ (Elt F) Unit ℕ (UR sig nD τ) ℕ cfg0 c) (hA : dat.A 1 = V c (Pipeline.arrRef spec0 1))
    (hkeep : ∀ t, dat.after 1 t = iblk0 V c 1 t) (t : Fin cfg0.N) (d) : dat.before 1 t d = iblk0 V c 1 t :=
  (dat.before_in_eq_fetched 1 rfl (fun _ => rfl) (fun _ _ _ => rfl) (fun t => by rw [hkeep]; unfold Dat.blockOf iblk0; rw [hA]; try rfl) t d).trans
    (by unfold Dat.fetched Dat.blockOf iblk0; rw [hA]; try rfl)

theorem input0_2_found {c : Dev nD} (dat : Dat τ (Elt F) Unit ℕ (UR sig nD τ) ℕ cfg0 c) (hA : dat.A 2 = V c (Pipeline.arrRef spec0 2))
    (hkeep : ∀ t, dat.after 2 t = iblk0 V c 2 t) (t : Fin cfg0.N) (d) : dat.before 2 t d = iblk0 V c 2 t :=
  (dat.before_in_eq_fetched 2 rfl (fun _ => rfl) (fun _ _ _ => rfl) (fun t => by rw [hkeep]; unfold Dat.blockOf iblk0; rw [hA]; try rfl) t d).trans
    (by unfold Dat.fetched Dat.blockOf iblk0; rw [hA]; try rfl)

theorem input0_3_found {c : Dev nD} (dat : Dat τ (Elt F) Unit ℕ (UR sig nD τ) ℕ cfg0 c) (hA : dat.A 3 = V c (Pipeline.arrRef spec0 3))
    (hkeep : ∀ t, dat.after 3 t = iblk0 V c 3 t) (t : Fin cfg0.N) (d) : dat.before 3 t d = iblk0 V c 3 t :=
  (dat.before_in_eq_fetched 3 rfl (fun _ => rfl) (fun _ _ _ => rfl) (fun t => by rw [hkeep]; unfold Dat.blockOf iblk0; rw [hA]; try rfl) t d).trans
    (by unfold Dat.fetched Dat.blockOf iblk0; rw [hA]; try rfl)

theorem input0_4_found {c : Dev nD} (dat : Dat τ (Elt F) Unit ℕ (UR sig nD τ) ℕ cfg0 c) (hA : dat.A 4 = V c (Pipeline.arrRef spec0 4))
    (hkeep : ∀ t, dat.after 4 t = iblk0 V c 4 t) (t : Fin cfg0.N) (d) : dat.before 4 t d = iblk0 V c 4 t :=
  (dat.before_in_eq_fetched 4 rfl (fun _ => rfl) (fun _ _ _ => rfl) (fun t => by rw [hkeep]; unfold Dat.blockOf iblk0; rw [hA]; try rfl) t d).trans
    (by unfold Dat.fetched Dat.blockOf iblk0; rw [hA]; try rfl)

/-! ## The rectangles the body reads and writes: each is the whole of its buffer -/

abbrev whole0_x : Rect S1000x128 := Rect.unit (s := S1000x128) ![0, 0] S1000x128.size inb_S1000x128_S1000x128_0_0
abbrev whole0_w1 : Rect S128x128 := Rect.unit (s := S128x128) ![0, 0] S128x128.size inb_S128x128_S128x128_0_0
abbrev whole0_b1 : Rect S1x128 := Rect.unit (s := S1x128) ![0, 0] S1x128.size inb_S1x128_S1x128_0_0
abbrev whole0_w2 : Rect S10x128 := Rect.unit (s := S10x128) ![0, 0] S10x128.size inb_S10x128_S10x128_0_0
abbrev whole0_b2 : Rect S1x10 := Rect.unit (s := S1x10) ![0, 0] S1x10.size inb_S1x10_S1x10_0_0
abbrev whole0_z : Rect S1000x10 := Rect.unit (s := S1000x10) ![0, 0] S1000x10.size inb_S1000x10_S1000x10_0_0

/-! ## The output buffer after the body -/

/-- The 1000 × 10 output buffer once the body has run on feature rows `x0`, first-layer weights `x1` and
    bias `x2`, second-layer weights `x3` and bias `x4`: one store, of the whole buffer, of the body's
    arithmetic on what it loaded. -/
def out0_5 (x0 : Vec F S1000x128 .f32) (x1 : Vec F S128x128 .f32) (x2 : Vec F S1x128 .f32) (x3 : Vec F S10x128 .f32) (x4 : Vec F S1x10 .f32) : Vec F S1000x10 .f32 :=
  View.canon [⟨whole0_z, k0_pay1 (View.ld x0 whole0_x) (View.ld x1 whole0_w1) (View.ld x2 whole0_b1) (View.ld x3 whole0_w2) (View.ld x4 whole0_b2)⟩]

/-- The one store reaches every entry of the output buffer. -/
theorem out0_5_covered (p0 : Vec F S1000x10 .f32) (y : S1000x10.Idx) :
    ∃ pc ∈ ([⟨whole0_z, p0⟩] : List (View.Piece (Elt F) S1000x10 .f32)), y ∈ pc.1.set :=
  View.cover_of_tiled [⟨whole0_z, p0⟩] S1000x10.size (by rfl) y

/-! ## The body, run -/

set_option maxHeartbeats 1000000 in
/-- Run on whole buffers, the inputs' holding `x0 … x4` and the output's holding anything, the body ends
    with the inputs untouched and the output at `out0_5 x0 x1 x2 x3 x4`. The body first loads the five
    inputs, then loads the output buffer (a value it never uses), then stores. -/
theorem body0_runs (c : Dev nD) (E : Set ℕ) (i : grid0.Coords)
    (arg1 : Memref sig .tc .vmem S1000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S10x128 .f32) (harg4 : arg4.IsWhole)
    (arg5 : Memref sig .tc .vmem S1x10 .f32) (harg5 : arg5.IsWhole) (arg6 : Memref sig .tc .vmem S1000x10 .f32) (harg6 : arg6.IsWhole)
    (x0 : Vec F S1000x128 .f32) (x1 : Vec F S128x128 .f32) (x2 : Vec F S1x128 .f32) (x3 : Vec F S10x128 .f32) (x4 : Vec F S1x10 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__encoder_body i arg1 harg1 arg2 harg2 arg3 harg3 arg4 harg4 arg5 harg5 arg6 harg6) K := by
  simp only [cc0__encoder_body_eq_skeleton]; unfold cc0__encoder_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (out0_5_covered _)

/-! ## The proof data of the encoder -/

/-- On core `c`: the arrays as the encoder finds them; after the body at point `t`, each input buffer still
    at its block and the output buffer at `out0_5` of the five blocks; the invariant says only that the
    buffers the encoder does not window, and the generator register, stay as they are; the core owes
    nothing; every array is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  input0_0_found V (dat0 V c) (A_eq0 V c 0) (after0_0 V c) t d
theorem before0_1 (c : Dev nD) (t : Fin cfg0.N) (d) : (dat0 V c).before 1 t d = iblk0 V c 1 t :=
  input0_1_found V (dat0 V c) (A_eq0 V c 1) (after0_1 V c) t d
theorem before0_2 (c : Dev nD) (t : Fin cfg0.N) (d) : (dat0 V c).before 2 t d = iblk0 V c 2 t :=
  input0_2_found V (dat0 V c) (A_eq0 V c 2) (after0_2 V c) t d
theorem before0_3 (c : Dev nD) (t : Fin cfg0.N) (d) : (dat0 V c).before 3 t d = iblk0 V c 3 t :=
  input0_3_found V (dat0 V c) (A_eq0 V c 3) (after0_3 V c) t d
theorem before0_4 (c : Dev nD) (t : Fin cfg0.N) (d) : (dat0 V c).before 4 t d = iblk0 V c 4 t :=
  input0_4_found V (dat0 V c) (A_eq0 V c 4) (after0_4 V c) t d

/-! ## The body obligation -/

/-- What the body is handed at point `t`: the invariant, what the core owes, and the six current buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- At any point the input buffers hold their blocks, so `body0_runs` applies; the invariant and what the
    core owes are not looked at and come back as they went in. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (body0_runs c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline rule asks of the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.RegionProp1.lean ====
import proofs.«175698_g31370441130260_cont_8to1_b_1575_2_alg».proof.Proof.Gen.KernelIdeal.Launch
import proofs.«175698_g31370441130260_cont_8to1_b_1575_2_alg».proof.Proof.Gen.KernelIdeal.Skeleton
import proofs.«175698_g31370441130260_cont_8to1_b_1575_2_alg».proof.Proof.Gen.KernelIdeal.Points
import Idealize.ShloMosaic.Lib.Pipeline.FrameBody
import Idealize.ShloMosaic.Lib.Ring
import Idealize.ShloMosaic.Lib.Tactic

/-!
# Propagation step 1, one row block at a time

The grid of this step has 25 points. At point `t` the step reads rows `400 t … 400 t + 399` of the
10000 × 10000 adjacency matrix (window 0), the whole 10000 × 10 current iterate (window 1, brought in
once, at the first point, and left in place afterwards), and rows `400 t …` of the 10000 × 10 encoder
output (window 2); it writes rows `400 t …` of the next iterate (window 3):

  next = 0.9 · (adjacency rows · current) + 0.1 · encoder rows.

In this first step the current iterate is the encoder output itself: windows 1 and 2 read one and the
same array, each holding a share of it.

Everything here is stated at a parameter `V`, the buffer contents the step finds when it starts, and for
any float instance. The file gives the contents each window's buffer holds before and after the body at
a point, and proves that the body, run on those contents, leaves exactly the stated ones.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of a core holds when the step starts
variable (V : (c : Dev nD) → (b : Ref sig .tc) → Buf (Elt F) ((c : Thread nD τ).loc b))

-- the shares held of the one array that windows 1 and 2 both read; nothing below looks at them
variable (q₁ q₂ : PosShare TreeShare)

/-! ## The block of each window at a point -/

/-- The part of window `w`'s array that point `t` works on, read off the contents the step starts from. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body finds in the three input buffers

An input's buffer holds the input's block at every point, whether the block was brought in at this
point or at an earlier one: when nothing is brought in, the block index has not moved since the
previous point and the body does not write to inputs. The three lemmas below say this for any proof
data whose array is `V`'s and whose body leaves the input in place. -/

theorem input1_0_found {c : Dev nD} (dat : Dat τ (Elt F) Unit ℕ (UR sig nD τ) ℕ cfg1 c) (hA : dat.A 0 = V c (Pipeline.arrRef spec1 0))
    (hkeep : ∀ t, dat.after 0 t = iblk1 V c 0 t) (t : Fin cfg1.N) (d) : dat.before 0 t d = iblk1 V c 0 t :=
  (dat.before_in_eq_fetched 0 rfl (fun _ => rfl) (fun _ _ _ => rfl) (fun t => by rw [hkeep]; unfold Dat.blockOf iblk1; rw [hA]; try rfl) t d).trans
    (by unfold Dat.fetched Dat.blockOf iblk1; rw [hA]; try rfl)

theorem input1_1_found {c : Dev nD} (dat : Dat τ (Elt F) Unit ℕ (UR sig nD τ) ℕ cfg1 c) (hA : dat.A 1 = V c (Pipeline.arrRef spec1 1))
    (hkeep : ∀ t, dat.after 1 t = iblk1 V c 1 t) (t : Fin cfg1.N) (d) : dat.before 1 t d = iblk1 V c 1 t :=
  (dat.before_in_eq_fetched 1 rfl (fun _ => rfl) (fun _ _ _ => rfl) (fun t => by rw [hkeep]; unfold Dat.blockOf iblk1; rw [hA]; try rfl) t d).trans
    (by unfold Dat.fetched Dat.blockOf iblk1; rw [hA]; try rfl)

theorem input1_2_found {c : Dev nD} (dat : Dat τ (Elt F) Unit ℕ (UR sig nD τ) ℕ cfg1 c) (hA : dat.A 2 = V c (Pipeline.arrRef spec1 2))
    (hkeep : ∀ t, dat.after 2 t = iblk1 V c 2 t) (t : Fin cfg1.N) (d) : dat.before 2 t d = iblk1 V c 2 t :=
  (dat.before_in_eq_fetched 2 rfl (fun _ => rfl) (fun _ _ _ => rfl) (fun t => by rw [hkeep]; unfold Dat.blockOf iblk1; rw [hA]; try rfl) t d).trans
    (by unfold Dat.fetched Dat.blockOf iblk1; rw [hA]; try rfl)

/-! ## The rectangles the body reads and writes: each is the whole of its buffer -/

abbrev whole1_adj : Rect S400x10000 := Rect.unit (s := S400x10000) ![0, 0] S400x10000.size inb_S400x10000_S400x10000_0_0
abbrev whole1_cur : Rect S10000x10 := Rect.unit (s := S10000x10) ![0, 0] S10000x10.size inb_S10000x10_S10000x10_0_0
abbrev whole1_blk : Rect S400x10 := Rect.unit (s := S400x10) ![0, 0] S400x10.size inb_S400x10_S400x10_0_0

/-! ## The output buffer after the body -/

/-- The 400 × 10 output buffer once the body has run on adjacency rows `x0`, current iterate `x1` and
    encoder rows `x2`: one store, of the whole buffer, of the body's arithmetic on what it loaded. -/
def out1_3 (x0 : Vec F S400x10000 .f32) (x1 : Vec F S10000x10 .f32) (x2 : Vec F S400x10 .f32) : Vec F S400x10 .f32 :=
  View.canon [⟨whole1_blk, k1_pay1 (View.ld x0 whole1_adj) (View.ld x1 whole1_cur) (View.ld x2 whole1_blk)⟩]

/-- The one store reaches every entry of the output buffer. -/
theorem out1_3_covered (p0 : Vec F S400x10 .f32) (y : S400x10.Idx) :
    ∃ pc ∈ ([⟨whole1_blk, p0⟩] : List (View.Piece (Elt F) S400x10 .f32)), y ∈ pc.1.set :=
  View.cover_of_tiled [⟨whole1_blk, p0⟩] S400x10.size (by rfl) y

/-! ## The body, run -/

set_option maxHeartbeats 1000000 in
/-- Run on whole buffers, the inputs' holding `x0`, `x1`, `x2` and the output's holding anything, the body
    ends with the inputs untouched and the output at `out1_3 x0 x1 x2`. The body first loads the three
    inputs, then loads the output buffer (a value it never uses), then stores. -/
theorem body1_runs (c : Dev nD) (E : Set ℕ) (i : grid1.Coords)
    (arg1 : Memref sig .tc .vmem S400x10000 .f32) (harg1 : arg1.IsWhole) (arg2 : Memref sig .tc .vmem S10000x10 .f32) (harg2 : arg2.IsWhole)
    (arg3 : Memref sig .tc .vmem S400x10 .f32) (harg3 : arg3.IsWhole) (arg4 : Memref sig .tc .vmem S400x10 .f32) (harg4 : arg4.IsWhole)
    (x0 : Vec F S400x10000 .f32) (x1 : Vec F S10000x10 .f32) (x2 : Vec F S400x10 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__prop_body i arg1 harg1 arg2 harg2 arg3 harg3 arg4 harg4) K := by
  simp only [cc1__prop_body_eq_skeleton]; unfold cc1__prop_body_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (out1_3_covered _)

/-! ## The proof data of the step -/

/-- On core `c`: the arrays as the step finds them; after the body at point `t`, each input buffer still
    at its block and the output buffer at `out1_3` of the three blocks; the invariant says only that the
    buffers the step does not window, and the generator register, stay as they are; the core owes
    nothing. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨1, _⟩ => q₁
    | ⟨2, _⟩ => q₂
    | _ => fullShare
  owed _ := 0

theorem A_eq1 (c : Dev nD) (w : Fin cfg1.W) : (dat1 V q₁ q₂ c).A w = V c (Pipeline.arrRef spec1 w) := by
  dsimp only [dat1]

theorem after1_0 (c : Dev nD) (t : Fin cfg1.N) : (dat1 V q₁ q₂ c).after 0 t = iblk1 V c 0 t := by dsimp only [dat1]
theorem after1_1 (c : Dev nD) (t : Fin cfg1.N) : (dat1 V q₁ q₂ c).after 1 t = iblk1 V c 1 t := by dsimp only [dat1]
theorem after1_2 (c : Dev nD) (t : Fin cfg1.N) : (dat1 V q₁ q₂ c).after 2 t = iblk1 V c 2 t := by dsimp only [dat1]
theorem after1_3 (c : Dev nD) (t : Fin cfg1.N) :
    (dat1 V q₁ q₂ c).after 3 t = out1_3 (iblk1 V c 0 t) (iblk1 V c 1 t) (iblk1 V c 2 t) := by dsimp only [dat1]

theorem before1_0 (c : Dev nD) (t : Fin cfg1.N) (d) : (dat1 V q₁ q₂ c).before 0 t d = iblk1 V c 0 t :=
  input1_0_found V (dat1 V q₁ q₂ c) (A_eq1 V q₁ q₂ c 0) (after1_0 V q₁ q₂ c) t d
theorem before1_1 (c : Dev nD) (t : Fin cfg1.N) (d) : (dat1 V q₁ q₂ c).before 1 t d = iblk1 V c 1 t :=
  input1_1_found V (dat1 V q₁ q₂ c) (A_eq1 V q₁ q₂ c 1) (after1_1 V q₁ q₂ c) t d
theorem before1_2 (c : Dev nD) (t : Fin cfg1.N) (d) : (dat1 V q₁ q₂ c).before 2 t d = iblk1 V c 2 t :=
  input1_2_found V (dat1 V q₁ q₂ c) (A_eq1 V q₁ q₂ c 2) (after1_2 V q₁ q₂ c) t d

/-! ## The body obligation -/

/-- What the body is handed at point `t`: the invariant, what the core owes, and the four current buffers, -/
def bodyPre1 (c : Dev nD) (t : Fin cfg1.N) : sProp 𝕄 :=
  iprop((dat1 V q₁ q₂ c).Φ t.castSucc ∗ (dat1 V q₁ q₂ c).owesAt () t.castSucc
    ∗ (∃ d, owns (c : Thread nD τ) (st1_0 t) fullShare ((dat1 V q₁ q₂ c).before 0 t d))
    ∗ (∃ d, owns (c : Thread nD τ) (st1_1 t) fullShare ((dat1 V q₁ q₂ c).before 1 t d))
    ∗ (∃ d, owns (c : Thread nD τ) (st1_2 t) fullShare ((dat1 V q₁ q₂ c).before 2 t d))
    ∗ (∃ d, owns (c : Thread nD τ) (st1_3 t) fullShare ((dat1 V q₁ q₂ c).before 3 t d)))

/-- and what it hands back. -/
def bodyPost1 (c : Dev nD) (t : Fin cfg1.N) : sProp 𝕄 :=
  iprop((dat1 V q₁ q₂ c).Φ t.succ ∗ (dat1 V q₁ q₂ c).owesAt () t.succ
    ∗ owns (c : Thread nD τ) (st1_0 t) fullShare ((dat1 V q₁ q₂ c).after 0 t)
    ∗ owns (c : Thread nD τ) (st1_1 t) fullShare ((dat1 V q₁ q₂ c).after 1 t)
    ∗ owns (c : Thread nD τ) (st1_2 t) fullShare ((dat1 V q₁ q₂ c).after 2 t)
    ∗ owns (c : Thread nD τ) (st1_3 t) fullShare ((dat1 V q₁ q₂ c).after 3 t))

/-- At any point the input buffers hold their blocks, so `body1_runs` applies; the invariant and what the
    core owes are not looked at and come back as they went in. -/
theorem sound_body1 (c : Dev nD) (t : Fin cfg1.N) :
    bodyPre1 V q₁ q₂ c t ⊢ wp frame (wpE (defs₀ (F := F)) Variants.none c none) Set.univ (bodyAt1 t) (fun _ => bodyPost1 V q₁ q₂ c t) := by
  unfold bodyPre1 bodyPost1 bodyAt1
  simp only [before1_0, before1_1, before1_2]
  rw [show (dat1 V q₁ q₂ c).Φ t.succ = (dat1 V q₁ q₂ c).Φ t.castSucc from rfl,
    show (dat1 V q₁ q₂ c).owesAt () t.succ = (dat1 V q₁ q₂ c).owesAt () t.castSucc from rfl,
    after1_0, after1_1, after1_2, after1_3]
  iintro ⟨HΦ, Ho, ⟨%d0, H0⟩, ⟨%d1, H1⟩, ⟨%d2, H2⟩, ⟨%d3, H3⟩⟩
  iapply (body1_runs c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline rule asks of the body, at every point. -/
theorem body_obligation1 (c : Dev nD) : BodyObligation (dat1 (F := F) V q₁ q₂ c) (defs₀ (F := F)) Variants.none () Set.univ := fun t => by
  rw [bigSep_W1, bigSep_W1]
  exact sound_body1 V q₁ q₂ c t

end Cert.KernelIdeal.Hand

end
-- ==== Proof.RegionProp2.lean ====
import proofs.«175698_g31370441130260_cont_8to1_b_1575_2_alg».proof.Proof.Gen.KernelIdeal.Launch
import proofs.«175698_g31370441130260_cont_8to1_b_1575_2_alg».proof.Proof.Gen.KernelIdeal.Skeleton
import proofs.«175698_g31370441130260_cont_8to1_b_1575_2_alg».proof.Proof.Gen.KernelIdeal.Points
import Idealize.ShloMosaic.Lib.Pipeline.FrameBody
import Idealize.ShloMosaic.Lib.Ring
import Idealize.ShloMosaic.Lib.Tactic

/-!
# Propagation step 2, one row block at a time

The grid of this step has 25 points. At point `t` the step reads rows `400 t … 400 t + 399` of the
10000 × 10000 adjacency matrix (window 0), the whole 10000 × 10 current iterate (window 1, brought in
once, at the first point, and left in place afterwards), and rows `400 t …` of the 10000 × 10 encoder
output (window 2); it writes rows `400 t …` of the next iterate (window 3):

  next = 0.9 · (adjacency rows · current) + 0.1 · encoder rows.

Everything here is stated at a parameter `V`, the buffer contents the step finds when it starts, and for
any float instance. The file gives the contents each window's buffer holds before and after the body at
a point, and proves that the body, run on those contents, leaves exactly the stated ones.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of a core holds when the step starts
variable (V : (c : Dev nD) → (b : Ref sig .tc) → Buf (Elt F) ((c : Thread nD τ).loc b))

/-! ## The block of each window at a point -/

/-- The part of window `w`'s array that point `t` works on, read off the contents the step starts from. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## What the body finds in the three input buffers

An input's buffer holds the input's block at every point, whether the block was brought in at this
point or at an earlier one: when nothing is brought in, the block index has not moved since the
previous point and the body does not write to inputs. The three lemmas below say this for any proof
data whose array is `V`'s and whose body leaves the input in place. -/

theorem input2_0_found {c : Dev nD} (dat : Dat τ (Elt F) Unit ℕ (UR sig nD τ) ℕ cfg2 c) (hA : dat.A 0 = V c (Pipeline.arrRef spec2 0))
    (hkeep : ∀ t, dat.after 0 t = iblk2 V c 0 t) (t : Fin cfg2.N) (d) : dat.before 0 t d = iblk2 V c 0 t :=
  (dat.before_in_eq_fetched 0 rfl (fun _ => rfl) (fun _ _ _ => rfl) (fun t => by rw [hkeep]; unfold Dat.blockOf iblk2; rw [hA]; try rfl) t d).trans
    (by unfold Dat.fetched Dat.blockOf iblk2; rw [hA]; try rfl)

theorem input2_1_found {c : Dev nD} (dat : Dat τ (Elt F) Unit ℕ (UR sig nD τ) ℕ cfg2 c) (hA : dat.A 1 = V c (Pipeline.arrRef spec2 1))
    (hkeep : ∀ t, dat.after 1 t = iblk2 V c 1 t) (t : Fin cfg2.N) (d) : dat.before 1 t d = iblk2 V c 1 t :=
  (dat.before_in_eq_fetched 1 rfl (fun _ => rfl) (fun _ _ _ => rfl) (fun t => by rw [hkeep]; unfold Dat.blockOf iblk2; rw [hA]; try rfl) t d).trans
    (by unfold Dat.fetched Dat.blockOf iblk2; rw [hA]; try rfl)

theorem input2_2_found {c : Dev nD} (dat : Dat τ (Elt F) Unit ℕ (UR sig nD τ) ℕ cfg2 c) (hA : dat.A 2 = V c (Pipeline.arrRef spec2 2))
    (hkeep : ∀ t, dat.after 2 t = iblk2 V c 2 t) (t : Fin cfg2.N) (d) : dat.before 2 t d = iblk2 V c 2 t :=
  (dat.before_in_eq_fetched 2 rfl (fun _ => rfl) (fun _ _ _ => rfl) (fun t => by rw [hkeep]; unfold Dat.blockOf iblk2; rw [hA]; try rfl) t d).trans
    (by unfold Dat.fetched Dat.blockOf iblk2; rw [hA]; try rfl)

/-! ## The rectangles the body reads and writes: each is the whole of its buffer -/

abbrev whole2_adj : Rect S400x10000 := Rect.unit (s := S400x10000) ![0, 0] S400x10000.size inb_S400x10000_S400x10000_0_0
abbrev whole2_cur : Rect S10000x10 := Rect.unit (s := S10000x10) ![0, 0] S10000x10.size inb_S10000x10_S10000x10_0_0
abbrev whole2_blk : Rect S400x10 := Rect.unit (s := S400x10) ![0, 0] S400x10.size inb_S400x10_S400x10_0_0

/-! ## The output buffer after the body -/

/-- The 400 × 10 output buffer once the body has run on adjacency rows `x0`, current iterate `x1` and
    encoder rows `x2`: one store, of the whole buffer, of the body's arithmetic on what it loaded. -/
def out2_3 (x0 : Vec F S400x10000 .f32) (x1 : Vec F S10000x10 .f32) (x2 : Vec F S400x10 .f32) : Vec F S400x10 .f32 :=
  View.canon [⟨whole2_blk, k2_pay1 (View.ld x0 whole2_adj) (View.ld x1 whole2_cur) (View.ld x2 whole2_blk)⟩]

/-- The one store reaches every entry of the output buffer. -/
theorem out2_3_covered (p0 : Vec F S400x10 .f32) (y : S400x10.Idx) :
    ∃ pc ∈ ([⟨whole2_blk, p0⟩] : List (View.Piece (Elt F) S400x10 .f32)), y ∈ pc.1.set :=
  View.cover_of_tiled [⟨whole2_blk, p0⟩] S400x10.size (by rfl) y

/-! ## The body, run -/

set_option maxHeartbeats 1000000 in
/-- Run on whole buffers, the inputs' holding `x0`, `x1`, `x2` and the output's holding anything, the body
    ends with the inputs untouched and the output at `out2_3 x0 x1 x2`. The body first loads the three
    inputs, then loads the output buffer (a value it never uses), then stores. -/
theorem body2_runs (c : Dev nD) (E : Set ℕ) (i : grid2.Coords)
    (arg1 : Memref sig .tc .vmem S400x10000 .f32) (harg1 : arg1.IsWhole) (arg2 : Memref sig .tc .vmem S10000x10 .f32) (harg2 : arg2.IsWhole)
    (arg3 : Memref sig .tc .vmem S400x10 .f32) (harg3 : arg3.IsWhole) (arg4 : Memref sig .tc .vmem S400x10 .f32) (harg4 : arg4.IsWhole)
    (x0 : Vec F S400x10000 .f32) (x1 : Vec F S10000x10 .f32) (x2 : Vec F S400x10 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__prop_body i arg1 harg1 arg2 harg2 arg3 harg3 arg4 harg4) K := by
  simp only [cc2__prop_body_eq_skeleton]; unfold cc2__prop_body_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (out2_3_covered _)

/-! ## The proof data of the step -/

/-- On core `c`: the arrays as the step finds them; after the body at point `t`, each input buffer still
    at its block and the output buffer at `out2_3` of the three blocks; the invariant says only that the
    buffers the step does not window, and the generator register, stay as they are; the core owes
    nothing. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  input2_0_found V (dat2 V c) (A_eq2 V c 0) (after2_0 V c) t d
theorem before2_1 (c : Dev nD) (t : Fin cfg2.N) (d) : (dat2 V c).before 1 t d = iblk2 V c 1 t :=
  input2_1_found V (dat2 V c) (A_eq2 V c 1) (after2_1 V c) t d
theorem before2_2 (c : Dev nD) (t : Fin cfg2.N) (d) : (dat2 V c).before 2 t d = iblk2 V c 2 t :=
  input2_2_found V (dat2 V c) (A_eq2 V c 2) (after2_2 V c) t d

/-! ## The body obligation -/

/-- What the body is handed at point `t`: the invariant, what the core owes, and the four current buffers, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- At any point the input buffers hold their blocks, so `body2_runs` applies; the invariant and what the
    core owes are not looked at and come back as they went in. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (body2_runs c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline rule asks of the body, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.RegionProp3.lean ====
import proofs.«175698_g31370441130260_cont_8to1_b_1575_2_alg».proof.Proof.Gen.KernelIdeal.Launch
import proofs.«175698_g31370441130260_cont_8to1_b_1575_2_alg».proof.Proof.Gen.KernelIdeal.Skeleton
import proofs.«175698_g31370441130260_cont_8to1_b_1575_2_alg».proof.Proof.Gen.KernelIdeal.Points
import Idealize.ShloMosaic.Lib.Pipeline.FrameBody
import Idealize.ShloMosaic.Lib.Ring
import Idealize.ShloMosaic.Lib.Tactic

/-!
# Propagation step 3, one row block at a time

The grid of this step has 25 points. At point `t` the step reads rows `400 t … 400 t + 399` of the
10000 × 10000 adjacency matrix (window 0), the whole 10000 × 10 current iterate (window 1, brought in
once, at the first point, and left in place afterwards), and rows `400 t …` of the 10000 × 10 encoder
output (window 2); it writes rows `400 t …` of the next iterate (window 3):

  next = 0.9 · (adjacency rows · current) + 0.1 · encoder rows.

Everything here is stated at a parameter `V`, the buffer contents the step finds when it starts, and for
any float instance. The file gives the contents each window's buffer holds before and after the body at
a point, and proves that the body, run on those contents, leaves exactly the stated ones.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of a core holds when the step starts
variable (V : (c : Dev nD) → (b : Ref sig .tc) → Buf (Elt F) ((c : Thread nD τ).loc b))

/-! ## The block of each window at a point -/

/-- The part of window `w`'s array that point `t` works on, read off the contents the step starts from. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## What the body finds in the three input buffers

An input's buffer holds the input's block at every point, whether the block was brought in at this
point or at an earlier one: when nothing is brought in, the block index has not moved since the
previous point and the body does not write to inputs. The three lemmas below say this for any proof
data whose array is `V`'s and whose body leaves the input in place. -/

theorem input3_0_found {c : Dev nD} (dat : Dat τ (Elt F) Unit ℕ (UR sig nD τ) ℕ cfg3 c) (hA : dat.A 0 = V c (Pipeline.arrRef spec3 0))
    (hkeep : ∀ t, dat.after 0 t = iblk3 V c 0 t) (t : Fin cfg3.N) (d) : dat.before 0 t d = iblk3 V c 0 t :=
  (dat.before_in_eq_fetched 0 rfl (fun _ => rfl) (fun _ _ _ => rfl) (fun t => by rw [hkeep]; unfold Dat.blockOf iblk3; rw [hA]; try rfl) t d).trans
    (by unfold Dat.fetched Dat.blockOf iblk3; rw [hA]; try rfl)

theorem input3_1_found {c : Dev nD} (dat : Dat τ (Elt F) Unit ℕ (UR sig nD τ) ℕ cfg3 c) (hA : dat.A 1 = V c (Pipeline.arrRef spec3 1))
    (hkeep : ∀ t, dat.after 1 t = iblk3 V c 1 t) (t : Fin cfg3.N) (d) : dat.before 1 t d = iblk3 V c 1 t :=
  (dat.before_in_eq_fetched 1 rfl (fun _ => rfl) (fun _ _ _ => rfl) (fun t => by rw [hkeep]; unfold Dat.blockOf iblk3; rw [hA]; try rfl) t d).trans
    (by unfold Dat.fetched Dat.blockOf iblk3; rw [hA]; try rfl)

theorem input3_2_found {c : Dev nD} (dat : Dat τ (Elt F) Unit ℕ (UR sig nD τ) ℕ cfg3 c) (hA : dat.A 2 = V c (Pipeline.arrRef spec3 2))
    (hkeep : ∀ t, dat.after 2 t = iblk3 V c 2 t) (t : Fin cfg3.N) (d) : dat.before 2 t d = iblk3 V c 2 t :=
  (dat.before_in_eq_fetched 2 rfl (fun _ => rfl) (fun _ _ _ => rfl) (fun t => by rw [hkeep]; unfold Dat.blockOf iblk3; rw [hA]; try rfl) t d).trans
    (by unfold Dat.fetched Dat.blockOf iblk3; rw [hA]; try rfl)

/-! ## The rectangles the body reads and writes: each is the whole of its buffer -/

abbrev whole3_adj : Rect S400x10000 := Rect.unit (s := S400x10000) ![0, 0] S400x10000.size inb_S400x10000_S400x10000_0_0
abbrev whole3_cur : Rect S10000x10 := Rect.unit (s := S10000x10) ![0, 0] S10000x10.size inb_S10000x10_S10000x10_0_0
abbrev whole3_blk : Rect S400x10 := Rect.unit (s := S400x10) ![0, 0] S400x10.size inb_S400x10_S400x10_0_0

/-! ## The output buffer after the body -/

/-- The 400 × 10 output buffer once the body has run on adjacency rows `x0`, current iterate `x1` and
    encoder rows `x2`: one store, of the whole buffer, of the body's arithmetic on what it loaded. -/
def out3_3 (x0 : Vec F S400x10000 .f32) (x1 : Vec F S10000x10 .f32) (x2 : Vec F S400x10 .f32) : Vec F S400x10 .f32 :=
  View.canon [⟨whole3_blk, k3_pay1 (View.ld x0 whole3_adj) (View.ld x1 whole3_cur) (View.ld x2 whole3_blk)⟩]

/-- The one store reaches every entry of the output buffer. -/
theorem out3_3_covered (p0 : Vec F S400x10 .f32) (y : S400x10.Idx) :
    ∃ pc ∈ ([⟨whole3_blk, p0⟩] : List (View.Piece (Elt F) S400x10 .f32)), y ∈ pc.1.set :=
  View.cover_of_tiled [⟨whole3_blk, p0⟩] S400x10.size (by rfl) y

/-! ## The body, run -/

set_option maxHeartbeats 1000000 in
/-- Run on whole buffers, the inputs' holding `x0`, `x1`, `x2` and the output's holding anything, the body
    ends with the inputs untouched and the output at `out3_3 x0 x1 x2`. The body first loads the three
    inputs, then loads the output buffer (a value it never uses), then stores. -/
theorem body3_runs (c : Dev nD) (E : Set ℕ) (i : grid3.Coords)
    (arg1 : Memref sig .tc .vmem S400x10000 .f32) (harg1 : arg1.IsWhole) (arg2 : Memref sig .tc .vmem S10000x10 .f32) (harg2 : arg2.IsWhole)
    (arg3 : Memref sig .tc .vmem S400x10 .f32) (harg3 : arg3.IsWhole) (arg4 : Memref sig .tc .vmem S400x10 .f32) (harg4 : arg4.IsWhole)
    (x0 : Vec F S400x10000 .f32) (x1 : Vec F S10000x10 .f32) (x2 : Vec F S400x10 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__prop_body i arg1 harg1 arg2 harg2 arg3 harg3 arg4 harg4) K := by
  simp only [cc3__prop_body_eq_skeleton]; unfold cc3__prop_body_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (out3_3_covered _)

/-! ## The proof data of the step -/

/-- On core `c`: the arrays as the step finds them; after the body at point `t`, each input buffer still
    at its block and the output buffer at `out3_3` of the three blocks; the invariant says only that the
    buffers the step does not window, and the generator register, stay as they are; the core owes
    nothing. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  input3_0_found V (dat3 V c) (A_eq3 V c 0) (after3_0 V c) t d
theorem before3_1 (c : Dev nD) (t : Fin cfg3.N) (d) : (dat3 V c).before 1 t d = iblk3 V c 1 t :=
  input3_1_found V (dat3 V c) (A_eq3 V c 1) (after3_1 V c) t d
theorem before3_2 (c : Dev nD) (t : Fin cfg3.N) (d) : (dat3 V c).before 2 t d = iblk3 V c 2 t :=
  input3_2_found V (dat3 V c) (A_eq3 V c 2) (after3_2 V c) t d

/-! ## The body obligation -/

/-- What the body is handed at point `t`: the invariant, what the core owes, and the four current buffers, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- At any point the input buffers hold their blocks, so `body3_runs` applies; the invariant and what the
    core owes are not looked at and come back as they went in. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (body3_runs c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline rule asks of the body, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.RegionProp4.lean ====
import proofs.«175698_g31370441130260_cont_8to1_b_1575_2_alg».proof.Proof.Gen.KernelIdeal.Launch
import proofs.«175698_g31370441130260_cont_8to1_b_1575_2_alg».proof.Proof.Gen.KernelIdeal.Skeleton
import proofs.«175698_g31370441130260_cont_8to1_b_1575_2_alg».proof.Proof.Gen.KernelIdeal.Points
import Idealize.ShloMosaic.Lib.Pipeline.FrameBody
import Idealize.ShloMosaic.Lib.Ring
import Idealize.ShloMosaic.Lib.Tactic

/-!
# Propagation step 4, one row block at a time

The grid of this step has 25 points. At point `t` the step reads rows `400 t … 400 t + 399` of the
10000 × 10000 adjacency matrix (window 0), the whole 10000 × 10 current iterate (window 1, brought in
once, at the first point, and left in place afterwards), and rows `400 t …` of the 10000 × 10 encoder
output (window 2); it writes rows `400 t …` of the next iterate (window 3):

  next = 0.9 · (adjacency rows · current) + 0.1 · encoder rows.

Everything here is stated at a parameter `V`, the buffer contents the step finds when it starts, and for
any float instance. The file gives the contents each window's buffer holds before and after the body at
a point, and proves that the body, run on those contents, leaves exactly the stated ones.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of a core holds when the step starts
variable (V : (c : Dev nD) → (b : Ref sig .tc) → Buf (Elt F) ((c : Thread nD τ).loc b))

/-! ## The block of each window at a point -/

/-- The part of window `w`'s array that point `t` works on, read off the contents the step starts from. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## What the body finds in the three input buffers

An input's buffer holds the input's block at every point, whether the block was brought in at this
point or at an earlier one: when nothing is brought in, the block index has not moved since the
previous point and the body does not write to inputs. The three lemmas below say this for any proof
data whose array is `V`'s and whose body leaves the input in place. -/

theorem input4_0_found {c : Dev nD} (dat : Dat τ (Elt F) Unit ℕ (UR sig nD τ) ℕ cfg4 c) (hA : dat.A 0 = V c (Pipeline.arrRef spec4 0))
    (hkeep : ∀ t, dat.after 0 t = iblk4 V c 0 t) (t : Fin cfg4.N) (d) : dat.before 0 t d = iblk4 V c 0 t :=
  (dat.before_in_eq_fetched 0 rfl (fun _ => rfl) (fun _ _ _ => rfl) (fun t => by rw [hkeep]; unfold Dat.blockOf iblk4; rw [hA]; try rfl) t d).trans
    (by unfold Dat.fetched Dat.blockOf iblk4; rw [hA]; try rfl)

theorem input4_1_found {c : Dev nD} (dat : Dat τ (Elt F) Unit ℕ (UR sig nD τ) ℕ cfg4 c) (hA : dat.A 1 = V c (Pipeline.arrRef spec4 1))
    (hkeep : ∀ t, dat.after 1 t = iblk4 V c 1 t) (t : Fin cfg4.N) (d) : dat.before 1 t d = iblk4 V c 1 t :=
  (dat.before_in_eq_fetched 1 rfl (fun _ => rfl) (fun _ _ _ => rfl) (fun t => by rw [hkeep]; unfold Dat.blockOf iblk4; rw [hA]; try rfl) t d).trans
    (by unfold Dat.fetched Dat.blockOf iblk4; rw [hA]; try rfl)

theorem input4_2_found {c : Dev nD} (dat : Dat τ (Elt F) Unit ℕ (UR sig nD τ) ℕ cfg4 c) (hA : dat.A 2 = V c (Pipeline.arrRef spec4 2))
    (hkeep : ∀ t, dat.after 2 t = iblk4 V c 2 t) (t : Fin cfg4.N) (d) : dat.before 2 t d = iblk4 V c 2 t :=
  (dat.before_in_eq_fetched 2 rfl (fun _ => rfl) (fun _ _ _ => rfl) (fun t => by rw [hkeep]; unfold Dat.blockOf iblk4; rw [hA]; try rfl) t d).trans
    (by unfold Dat.fetched Dat.blockOf iblk4; rw [hA]; try rfl)

/-! ## The rectangles the body reads and writes: each is the whole of its buffer -/

abbrev whole4_adj : Rect S400x10000 := Rect.unit (s := S400x10000) ![0, 0] S400x10000.size inb_S400x10000_S400x10000_0_0
abbrev whole4_cur : Rect S10000x10 := Rect.unit (s := S10000x10) ![0, 0] S10000x10.size inb_S10000x10_S10000x10_0_0
abbrev whole4_blk : Rect S400x10 := Rect.unit (s := S400x10) ![0, 0] S400x10.size inb_S400x10_S400x10_0_0

/-! ## The output buffer after the body -/

/-- The 400 × 10 output buffer once the body has run on adjacency rows `x0`, current iterate `x1` and
    encoder rows `x2`: one store, of the whole buffer, of the body's arithmetic on what it loaded. -/
def out4_3 (x0 : Vec F S400x10000 .f32) (x1 : Vec F S10000x10 .f32) (x2 : Vec F S400x10 .f32) : Vec F S400x10 .f32 :=
  View.canon [⟨whole4_blk, k4_pay1 (View.ld x0 whole4_adj) (View.ld x1 whole4_cur) (View.ld x2 whole4_blk)⟩]

/-- The one store reaches every entry of the output buffer. -/
theorem out4_3_covered (p0 : Vec F S400x10 .f32) (y : S400x10.Idx) :
    ∃ pc ∈ ([⟨whole4_blk, p0⟩] : List (View.Piece (Elt F) S400x10 .f32)), y ∈ pc.1.set :=
  View.cover_of_tiled [⟨whole4_blk, p0⟩] S400x10.size (by rfl) y

/-! ## The body, run -/

set_option maxHeartbeats 1000000 in
/-- Run on whole buffers, the inputs' holding `x0`, `x1`, `x2` and the output's holding anything, the body
    ends with the inputs untouched and the output at `out4_3 x0 x1 x2`. The body first loads the three
    inputs, then loads the output buffer (a value it never uses), then stores. -/
theorem body4_runs (c : Dev nD) (E : Set ℕ) (i : grid4.Coords)
    (arg1 : Memref sig .tc .vmem S400x10000 .f32) (harg1 : arg1.IsWhole) (arg2 : Memref sig .tc .vmem S10000x10 .f32) (harg2 : arg2.IsWhole)
    (arg3 : Memref sig .tc .vmem S400x10 .f32) (harg3 : arg3.IsWhole) (arg4 : Memref sig .tc .vmem S400x10 .f32) (harg4 : arg4.IsWhole)
    (x0 : Vec F S400x10000 .f32) (x1 : Vec F S10000x10 .f32) (x2 : Vec F S400x10 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__prop_body i arg1 harg1 arg2 harg2 arg3 harg3 arg4 harg4) K := by
  simp only [cc4__prop_body_eq_skeleton]; unfold cc4__prop_body_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (out4_3_covered _)

/-! ## The proof data of the step -/

/-- On core `c`: the arrays as the step finds them; after the body at point `t`, each input buffer still
    at its block and the output buffer at `out4_3` of the three blocks; the invariant says only that the
    buffers the step does not window, and the generator register, stay as they are; the core owes
    nothing. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  input4_0_found V (dat4 V c) (A_eq4 V c 0) (after4_0 V c) t d
theorem before4_1 (c : Dev nD) (t : Fin cfg4.N) (d) : (dat4 V c).before 1 t d = iblk4 V c 1 t :=
  input4_1_found V (dat4 V c) (A_eq4 V c 1) (after4_1 V c) t d
theorem before4_2 (c : Dev nD) (t : Fin cfg4.N) (d) : (dat4 V c).before 2 t d = iblk4 V c 2 t :=
  input4_2_found V (dat4 V c) (A_eq4 V c 2) (after4_2 V c) t d

/-! ## The body obligation -/

/-- What the body is handed at point `t`: the invariant, what the core owes, and the four current buffers, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it hands back. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- At any point the input buffers hold their blocks, so `body4_runs` applies; the invariant and what the
    core owes are not looked at and come back as they went in. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (body4_runs c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline rule asks of the body, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.RegionProp5.lean ====
import proofs.«175698_g31370441130260_cont_8to1_b_1575_2_alg».proof.Proof.Gen.KernelIdeal.Launch
import proofs.«175698_g31370441130260_cont_8to1_b_1575_2_alg».proof.Proof.Gen.KernelIdeal.Skeleton
import proofs.«175698_g31370441130260_cont_8to1_b_1575_2_alg».proof.Proof.Gen.KernelIdeal.Points
import Idealize.ShloMosaic.Lib.Pipeline.FrameBody
import Idealize.ShloMosaic.Lib.Ring
import Idealize.ShloMosaic.Lib.Tactic

/-!
# Propagation step 5, one row block at a time

The grid of this step has 25 points. At point `t` the step reads rows `400 t … 400 t + 399` of the
10000 × 10000 adjacency matrix (window 0), the whole 10000 × 10 current iterate (window 1, brought in
once, at the first point, and left in place afterwards), and rows `400 t …` of the 10000 × 10 encoder
output (window 2); it writes rows `400 t …` of the next iterate (window 3):

  next = 0.9 · (adjacency rows · current) + 0.1 · encoder rows.

Everything here is stated at a parameter `V`, the buffer contents the step finds when it starts, and for
any float instance. The file gives the contents each window's buffer holds before and after the body at
a point, and proves that the body, run on those contents, leaves exactly the stated ones.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of a core holds when the step starts
variable (V : (c : Dev nD) → (b : Ref sig .tc) → Buf (Elt F) ((c : Thread nD τ).loc b))

/-! ## The block of each window at a point -/

/-- The part of window `w`'s array that point `t` works on, read off the contents the step starts from. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## What the body finds in the three input buffers

An input's buffer holds the input's block at every point, whether the block was brought in at this
point or at an earlier one: when nothing is brought in, the block index has not moved since the
previous point and the body does not write to inputs. The three lemmas below say this for any proof
data whose array is `V`'s and whose body leaves the input in place. -/

theorem input5_0_found {c : Dev nD} (dat : Dat τ (Elt F) Unit ℕ (UR sig nD τ) ℕ cfg5 c) (hA : dat.A 0 = V c (Pipeline.arrRef spec5 0))
    (hkeep : ∀ t, dat.after 0 t = iblk5 V c 0 t) (t : Fin cfg5.N) (d) : dat.before 0 t d = iblk5 V c 0 t :=
  (dat.before_in_eq_fetched 0 rfl (fun _ => rfl) (fun _ _ _ => rfl) (fun t => by rw [hkeep]; unfold Dat.blockOf iblk5; rw [hA]; try rfl) t d).trans
    (by unfold Dat.fetched Dat.blockOf iblk5; rw [hA]; try rfl)

theorem input5_1_found {c : Dev nD} (dat : Dat τ (Elt F) Unit ℕ (UR sig nD τ) ℕ cfg5 c) (hA : dat.A 1 = V c (Pipeline.arrRef spec5 1))
    (hkeep : ∀ t, dat.after 1 t = iblk5 V c 1 t) (t : Fin cfg5.N) (d) : dat.before 1 t d = iblk5 V c 1 t :=
  (dat.before_in_eq_fetched 1 rfl (fun _ => rfl) (fun _ _ _ => rfl) (fun t => by rw [hkeep]; unfold Dat.blockOf iblk5; rw [hA]; try rfl) t d).trans
    (by unfold Dat.fetched Dat.blockOf iblk5; rw [hA]; try rfl)

theorem input5_2_found {c : Dev nD} (dat : Dat τ (Elt F) Unit ℕ (UR sig nD τ) ℕ cfg5 c) (hA : dat.A 2 = V c (Pipeline.arrRef spec5 2))
    (hkeep : ∀ t, dat.after 2 t = iblk5 V c 2 t) (t : Fin cfg5.N) (d) : dat.before 2 t d = iblk5 V c 2 t :=
  (dat.before_in_eq_fetched 2 rfl (fun _ => rfl) (fun _ _ _ => rfl) (fun t => by rw [hkeep]; unfold Dat.blockOf iblk5; rw [hA]; try rfl) t d).trans
    (by unfold Dat.fetched Dat.blockOf iblk5; rw [hA]; try rfl)

/-! ## The rectangles the body reads and writes: each is the whole of its buffer -/

abbrev whole5_adj : Rect S400x10000 := Rect.unit (s := S400x10000) ![0, 0] S400x10000.size inb_S400x10000_S400x10000_0_0
abbrev whole5_cur : Rect S10000x10 := Rect.unit (s := S10000x10) ![0, 0] S10000x10.size inb_S10000x10_S10000x10_0_0
abbrev whole5_blk : Rect S400x10 := Rect.unit (s := S400x10) ![0, 0] S400x10.size inb_S400x10_S400x10_0_0

/-! ## The output buffer after the body -/

/-- The 400 × 10 output buffer once the body has run on adjacency rows `x0`, current iterate `x1` and
    encoder rows `x2`: one store, of the whole buffer, of the body's arithmetic on what it loaded. -/
def out5_3 (x0 : Vec F S400x10000 .f32) (x1 : Vec F S10000x10 .f32) (x2 : Vec F S400x10 .f32) : Vec F S400x10 .f32 :=
  View.canon [⟨whole5_blk, k5_pay1 (View.ld x0 whole5_adj) (View.ld x1 whole5_cur) (View.ld x2 whole5_blk)⟩]

/-- The one store reaches every entry of the output buffer. -/
theorem out5_3_covered (p0 : Vec F S400x10 .f32) (y : S400x10.Idx) :
    ∃ pc ∈ ([⟨whole5_blk, p0⟩] : List (View.Piece (Elt F) S400x10 .f32)), y ∈ pc.1.set :=
  View.cover_of_tiled [⟨whole5_blk, p0⟩] S400x10.size (by rfl) y

/-! ## The body, run -/

set_option maxHeartbeats 1000000 in
/-- Run on whole buffers, the inputs' holding `x0`, `x1`, `x2` and the output's holding anything, the body
    ends with the inputs untouched and the output at `out5_3 x0 x1 x2`. The body first loads the three
    inputs, then loads the output buffer (a value it never uses), then stores. -/
theorem body5_runs (c : Dev nD) (E : Set ℕ) (i : grid5.Coords)
    (arg1 : Memref sig .tc .vmem S400x10000 .f32) (harg1 : arg1.IsWhole) (arg2 : Memref sig .tc .vmem S10000x10 .f32) (harg2 : arg2.IsWhole)
    (arg3 : Memref sig .tc .vmem S400x10 .f32) (harg3 : arg3.IsWhole) (arg4 : Memref sig .tc .vmem S400x10 .f32) (harg4 : arg4.IsWhole)
    (x0 : Vec F S400x10000 .f32) (x1 : Vec F S10000x10 .f32) (x2 : Vec F S400x10 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__prop_body i arg1 harg1 arg2 harg2 arg3 harg3 arg4 harg4) K := by
  simp only [cc5__prop_body_eq_skeleton]; unfold cc5__prop_body_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (out5_3_covered _)

/-! ## The proof data of the step -/

/-- On core `c`: the arrays as the step finds them; after the body at point `t`, each input buffer still
    at its block and the output buffer at `out5_3` of the three blocks; the invariant says only that the
    buffers the step does not window, and the generator register, stay as they are; the core owes
    nothing. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  input5_0_found V (dat5 V c) (A_eq5 V c 0) (after5_0 V c) t d
theorem before5_1 (c : Dev nD) (t : Fin cfg5.N) (d) : (dat5 V c).before 1 t d = iblk5 V c 1 t :=
  input5_1_found V (dat5 V c) (A_eq5 V c 1) (after5_1 V c) t d
theorem before5_2 (c : Dev nD) (t : Fin cfg5.N) (d) : (dat5 V c).before 2 t d = iblk5 V c 2 t :=
  input5_2_found V (dat5 V c) (A_eq5 V c 2) (after5_2 V c) t d

/-! ## The body obligation -/

/-- What the body is handed at point `t`: the invariant, what the core owes, and the four current buffers, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it hands back. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- At any point the input buffers hold their blocks, so `body5_runs` applies; the invariant and what the
    core owes are not looked at and come back as they went in. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (body5_runs c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline rule asks of the body, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.RegionProp6.lean ====
import proofs.«175698_g31370441130260_cont_8to1_b_1575_2_alg».proof.Proof.Gen.KernelIdeal.Launch
import proofs.«175698_g31370441130260_cont_8to1_b_1575_2_alg».proof.Proof.Gen.KernelIdeal.Skeleton
import proofs.«175698_g31370441130260_cont_8to1_b_1575_2_alg».proof.Proof.Gen.KernelIdeal.Points
import Idealize.ShloMosaic.Lib.Pipeline.FrameBody
import Idealize.ShloMosaic.Lib.Ring
import Idealize.ShloMosaic.Lib.Tactic

/-!
# Propagation step 6, one row block at a time

The grid of this step has 25 points. At point `t` the step reads rows `400 t … 400 t + 399` of the
10000 × 10000 adjacency matrix (window 0), the whole 10000 × 10 current iterate (window 1, brought in
once, at the first point, and left in place afterwards), and rows `400 t …` of the 10000 × 10 encoder
output (window 2); it writes rows `400 t …` of the next iterate (window 3):

  next = 0.9 · (adjacency rows · current) + 0.1 · encoder rows.

Everything here is stated at a parameter `V`, the buffer contents the step finds when it starts, and for
any float instance. The file gives the contents each window's buffer holds before and after the body at
a point, and proves that the body, run on those contents, leaves exactly the stated ones.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of a core holds when the step starts
variable (V : (c : Dev nD) → (b : Ref sig .tc) → Buf (Elt F) ((c : Thread nD τ).loc b))

/-! ## The block of each window at a point -/

/-- The part of window `w`'s array that point `t` works on, read off the contents the step starts from. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## What the body finds in the three input buffers

An input's buffer holds the input's block at every point, whether the block was brought in at this
point or at an earlier one: when nothing is brought in, the block index has not moved since the
previous point and the body does not write to inputs. The three lemmas below say this for any proof
data whose array is `V`'s and whose body leaves the input in place. -/

theorem input6_0_found {c : Dev nD} (dat : Dat τ (Elt F) Unit ℕ (UR sig nD τ) ℕ cfg6 c) (hA : dat.A 0 = V c (Pipeline.arrRef spec6 0))
    (hkeep : ∀ t, dat.after 0 t = iblk6 V c 0 t) (t : Fin cfg6.N) (d) : dat.before 0 t d = iblk6 V c 0 t :=
  (dat.before_in_eq_fetched 0 rfl (fun _ => rfl) (fun _ _ _ => rfl) (fun t => by rw [hkeep]; unfold Dat.blockOf iblk6; rw [hA]; try rfl) t d).trans
    (by unfold Dat.fetched Dat.blockOf iblk6; rw [hA]; try rfl)

theorem input6_1_found {c : Dev nD} (dat : Dat τ (Elt F) Unit ℕ (UR sig nD τ) ℕ cfg6 c) (hA : dat.A 1 = V c (Pipeline.arrRef spec6 1))
    (hkeep : ∀ t, dat.after 1 t = iblk6 V c 1 t) (t : Fin cfg6.N) (d) : dat.before 1 t d = iblk6 V c 1 t :=
  (dat.before_in_eq_fetched 1 rfl (fun _ => rfl) (fun _ _ _ => rfl) (fun t => by rw [hkeep]; unfold Dat.blockOf iblk6; rw [hA]; try rfl) t d).trans
    (by unfold Dat.fetched Dat.blockOf iblk6; rw [hA]; try rfl)

theorem input6_2_found {c : Dev nD} (dat : Dat τ (Elt F) Unit ℕ (UR sig nD τ) ℕ cfg6 c) (hA : dat.A 2 = V c (Pipeline.arrRef spec6 2))
    (hkeep : ∀ t, dat.after 2 t = iblk6 V c 2 t) (t : Fin cfg6.N) (d) : dat.before 2 t d = iblk6 V c 2 t :=
  (dat.before_in_eq_fetched 2 rfl (fun _ => rfl) (fun _ _ _ => rfl) (fun t => by rw [hkeep]; unfold Dat.blockOf iblk6; rw [hA]; try rfl) t d).trans
    (by unfold Dat.fetched Dat.blockOf iblk6; rw [hA]; try rfl)

/-! ## The rectangles the body reads and writes: each is the whole of its buffer -/

abbrev whole6_adj : Rect S400x10000 := Rect.unit (s := S400x10000) ![0, 0] S400x10000.size inb_S400x10000_S400x10000_0_0
abbrev whole6_cur : Rect S10000x10 := Rect.unit (s := S10000x10) ![0, 0] S10000x10.size inb_S10000x10_S10000x10_0_0
abbrev whole6_blk : Rect S400x10 := Rect.unit (s := S400x10) ![0, 0] S400x10.size inb_S400x10_S400x10_0_0

/-! ## The output buffer after the body -/

/-- The 400 × 10 output buffer once the body has run on adjacency rows `x0`, current iterate `x1` and
    encoder rows `x2`: one store, of the whole buffer, of the body's arithmetic on what it loaded. -/
def out6_3 (x0 : Vec F S400x10000 .f32) (x1 : Vec F S10000x10 .f32) (x2 : Vec F S400x10 .f32) : Vec F S400x10 .f32 :=
  View.canon [⟨whole6_blk, k6_pay1 (View.ld x0 whole6_adj) (View.ld x1 whole6_cur) (View.ld x2 whole6_blk)⟩]

/-- The one store reaches every entry of the output buffer. -/
theorem out6_3_covered (p0 : Vec F S400x10 .f32) (y : S400x10.Idx) :
    ∃ pc ∈ ([⟨whole6_blk, p0⟩] : List (View.Piece (Elt F) S400x10 .f32)), y ∈ pc.1.set :=
  View.cover_of_tiled [⟨whole6_blk, p0⟩] S400x10.size (by rfl) y

/-! ## The body, run -/

set_option maxHeartbeats 1000000 in
/-- Run on whole buffers, the inputs' holding `x0`, `x1`, `x2` and the output's holding anything, the body
    ends with the inputs untouched and the output at `out6_3 x0 x1 x2`. The body first loads the three
    inputs, then loads the output buffer (a value it never uses), then stores. -/
theorem body6_runs (c : Dev nD) (E : Set ℕ) (i : grid6.Coords)
    (arg1 : Memref sig .tc .vmem S400x10000 .f32) (harg1 : arg1.IsWhole) (arg2 : Memref sig .tc .vmem S10000x10 .f32) (harg2 : arg2.IsWhole)
    (arg3 : Memref sig .tc .vmem S400x10 .f32) (harg3 : arg3.IsWhole) (arg4 : Memref sig .tc .vmem S400x10 .f32) (harg4 : arg4.IsWhole)
    (x0 : Vec F S400x10000 .f32) (x1 : Vec F S10000x10 .f32) (x2 : Vec F S400x10 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__prop_body i arg1 harg1 arg2 harg2 arg3 harg3 arg4 harg4) K := by
  simp only [cc6__prop_body_eq_skeleton]; unfold cc6__prop_body_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (out6_3_covered _)

/-! ## The proof data of the step -/

/-- On core `c`: the arrays as the step finds them; after the body at point `t`, each input buffer still
    at its block and the output buffer at `out6_3` of the three blocks; the invariant says only that the
    buffers the step does not window, and the generator register, stay as they are; the core owes
    nothing. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  input6_0_found V (dat6 V c) (A_eq6 V c 0) (after6_0 V c) t d
theorem before6_1 (c : Dev nD) (t : Fin cfg6.N) (d) : (dat6 V c).before 1 t d = iblk6 V c 1 t :=
  input6_1_found V (dat6 V c) (A_eq6 V c 1) (after6_1 V c) t d
theorem before6_2 (c : Dev nD) (t : Fin cfg6.N) (d) : (dat6 V c).before 2 t d = iblk6 V c 2 t :=
  input6_2_found V (dat6 V c) (A_eq6 V c 2) (after6_2 V c) t d

/-! ## The body obligation -/

/-- What the body is handed at point `t`: the invariant, what the core owes, and the four current buffers, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it hands back. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- At any point the input buffers hold their blocks, so `body6_runs` applies; the invariant and what the
    core owes are not looked at and come back as they went in. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (body6_runs c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline rule asks of the body, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.RegionProp7.lean ====
import proofs.«175698_g31370441130260_cont_8to1_b_1575_2_alg».proof.Proof.Gen.KernelIdeal.Launch
import proofs.«175698_g31370441130260_cont_8to1_b_1575_2_alg».proof.Proof.Gen.KernelIdeal.Skeleton
import proofs.«175698_g31370441130260_cont_8to1_b_1575_2_alg».proof.Proof.Gen.KernelIdeal.Points
import Idealize.ShloMosaic.Lib.Pipeline.FrameBody
import Idealize.ShloMosaic.Lib.Ring
import Idealize.ShloMosaic.Lib.Tactic

/-!
# Propagation step 7, one row block at a time

The grid of this step has 25 points. At point `t` the step reads rows `400 t … 400 t + 399` of the
10000 × 10000 adjacency matrix (window 0), the whole 10000 × 10 current iterate (window 1, brought in
once, at the first point, and left in place afterwards), and rows `400 t …` of the 10000 × 10 encoder
output (window 2); it writes rows `400 t …` of the next iterate (window 3):

  next = 0.9 · (adjacency rows · current) + 0.1 · encoder rows.

Everything here is stated at a parameter `V`, the buffer contents the step finds when it starts, and for
any float instance. The file gives the contents each window's buffer holds before and after the body at
a point, and proves that the body, run on those contents, leaves exactly the stated ones.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of a core holds when the step starts
variable (V : (c : Dev nD) → (b : Ref sig .tc) → Buf (Elt F) ((c : Thread nD τ).loc b))

/-! ## The block of each window at a point -/

/-- The part of window `w`'s array that point `t` works on, read off the contents the step starts from. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## What the body finds in the three input buffers

An input's buffer holds the input's block at every point, whether the block was brought in at this
point or at an earlier one: when nothing is brought in, the block index has not moved since the
previous point and the body does not write to inputs. The three lemmas below say this for any proof
data whose array is `V`'s and whose body leaves the input in place. -/

theorem input7_0_found {c : Dev nD} (dat : Dat τ (Elt F) Unit ℕ (UR sig nD τ) ℕ cfg7 c) (hA : dat.A 0 = V c (Pipeline.arrRef spec7 0))
    (hkeep : ∀ t, dat.after 0 t = iblk7 V c 0 t) (t : Fin cfg7.N) (d) : dat.before 0 t d = iblk7 V c 0 t :=
  (dat.before_in_eq_fetched 0 rfl (fun _ => rfl) (fun _ _ _ => rfl) (fun t => by rw [hkeep]; unfold Dat.blockOf iblk7; rw [hA]; try rfl) t d).trans
    (by unfold Dat.fetched Dat.blockOf iblk7; rw [hA]; try rfl)

theorem input7_1_found {c : Dev nD} (dat : Dat τ (Elt F) Unit ℕ (UR sig nD τ) ℕ cfg7 c) (hA : dat.A 1 = V c (Pipeline.arrRef spec7 1))
    (hkeep : ∀ t, dat.after 1 t = iblk7 V c 1 t) (t : Fin cfg7.N) (d) : dat.before 1 t d = iblk7 V c 1 t :=
  (dat.before_in_eq_fetched 1 rfl (fun _ => rfl) (fun _ _ _ => rfl) (fun t => by rw [hkeep]; unfold Dat.blockOf iblk7; rw [hA]; try rfl) t d).trans
    (by unfold Dat.fetched Dat.blockOf iblk7; rw [hA]; try rfl)

theorem input7_2_found {c : Dev nD} (dat : Dat τ (Elt F) Unit ℕ (UR sig nD τ) ℕ cfg7 c) (hA : dat.A 2 = V c (Pipeline.arrRef spec7 2))
    (hkeep : ∀ t, dat.after 2 t = iblk7 V c 2 t) (t : Fin cfg7.N) (d) : dat.before 2 t d = iblk7 V c 2 t :=
  (dat.before_in_eq_fetched 2 rfl (fun _ => rfl) (fun _ _ _ => rfl) (fun t => by rw [hkeep]; unfold Dat.blockOf iblk7; rw [hA]; try rfl) t d).trans
    (by unfold Dat.fetched Dat.blockOf iblk7; rw [hA]; try rfl)

/-! ## The rectangles the body reads and writes: each is the whole of its buffer -/

abbrev whole7_adj : Rect S400x10000 := Rect.unit (s := S400x10000) ![0, 0] S400x10000.size inb_S400x10000_S400x10000_0_0
abbrev whole7_cur : Rect S10000x10 := Rect.unit (s := S10000x10) ![0, 0] S10000x10.size inb_S10000x10_S10000x10_0_0
abbrev whole7_blk : Rect S400x10 := Rect.unit (s := S400x10) ![0, 0] S400x10.size inb_S400x10_S400x10_0_0

/-! ## The output buffer after the body -/

/-- The 400 × 10 output buffer once the body has run on adjacency rows `x0`, current iterate `x1` and
    encoder rows `x2`: one store, of the whole buffer, of the body's arithmetic on what it loaded. -/
def out7_3 (x0 : Vec F S400x10000 .f32) (x1 : Vec F S10000x10 .f32) (x2 : Vec F S400x10 .f32) : Vec F S400x10 .f32 :=
  View.canon [⟨whole7_blk, k7_pay1 (View.ld x0 whole7_adj) (View.ld x1 whole7_cur) (View.ld x2 whole7_blk)⟩]

/-- The one store reaches every entry of the output buffer. -/
theorem out7_3_covered (p0 : Vec F S400x10 .f32) (y : S400x10.Idx) :
    ∃ pc ∈ ([⟨whole7_blk, p0⟩] : List (View.Piece (Elt F) S400x10 .f32)), y ∈ pc.1.set :=
  View.cover_of_tiled [⟨whole7_blk, p0⟩] S400x10.size (by rfl) y

/-! ## The body, run -/

set_option maxHeartbeats 1000000 in
/-- Run on whole buffers, the inputs' holding `x0`, `x1`, `x2` and the output's holding anything, the body
    ends with the inputs untouched and the output at `out7_3 x0 x1 x2`. The body first loads the three
    inputs, then loads the output buffer (a value it never uses), then stores. -/
theorem body7_runs (c : Dev nD) (E : Set ℕ) (i : grid7.Coords)
    (arg1 : Memref sig .tc .vmem S400x10000 .f32) (harg1 : arg1.IsWhole) (arg2 : Memref sig .tc .vmem S10000x10 .f32) (harg2 : arg2.IsWhole)
    (arg3 : Memref sig .tc .vmem S400x10 .f32) (harg3 : arg3.IsWhole) (arg4 : Memref sig .tc .vmem S400x10 .f32) (harg4 : arg4.IsWhole)
    (x0 : Vec F S400x10000 .f32) (x1 : Vec F S10000x10 .f32) (x2 : Vec F S400x10 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out7_3 x0 x1 x2)) -∗ K ⟨⟩))
      ⊢ wp frame (wpE (defs₀ (F := F)) Variants.none c none) E (cc7__prop_body i arg1 harg1 arg2 harg2 arg3 harg3 arg4 harg4) K := by
  simp only [cc7__prop_body_eq_skeleton]; unfold cc7__prop_body_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (out7_3_covered _)

/-! ## The proof data of the step -/

/-- On core `c`: the arrays as the step finds them; after the body at point `t`, each input buffer still
    at its block and the output buffer at `out7_3` of the three blocks; the invariant says only that the
    buffers the step does not window, and the generator register, stay as they are; the core owes
    nothing. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  input7_0_found V (dat7 V c) (A_eq7 V c 0) (after7_0 V c) t d
theorem before7_1 (c : Dev nD) (t : Fin cfg7.N) (d) : (dat7 V c).before 1 t d = iblk7 V c 1 t :=
  input7_1_found V (dat7 V c) (A_eq7 V c 1) (after7_1 V c) t d
theorem before7_2 (c : Dev nD) (t : Fin cfg7.N) (d) : (dat7 V c).before 2 t d = iblk7 V c 2 t :=
  input7_2_found V (dat7 V c) (A_eq7 V c 2) (after7_2 V c) t d

/-! ## The body obligation -/

/-- What the body is handed at point `t`: the invariant, what the core owes, and the four current buffers, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it hands back. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- At any point the input buffers hold their blocks, so `body7_runs` applies; the invariant and what the
    core owes are not looked at and come back as they went in. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (body7_runs c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline rule asks of the body, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.RegionLast.lean ====
import proofs.«175698_g31370441130260_cont_8to1_b_1575_2_alg».proof.Proof.Gen.KernelIdeal.Launch
import proofs.«175698_g31370441130260_cont_8to1_b_1575_2_alg».proof.Proof.Gen.KernelIdeal.Skeleton
import proofs.«175698_g31370441130260_cont_8to1_b_1575_2_alg».proof.Proof.Gen.KernelIdeal.Points
import Idealize.ShloMosaic.Lib.Pipeline.FrameBody
import Idealize.ShloMosaic.Lib.Ring
import Idealize.ShloMosaic.Lib.Tactic

/-!
# The last propagation step, one row block at a time

The grid of this step has 25 points. At point `t` the step reads rows `400 t … 400 t + 399` of the
10000 × 10000 adjacency matrix (window 0), the whole 10000 × 10 current iterate (window 1, brought in
once, at the first point, and left in place afterwards), and rows `400 t …` of the 10000 × 10 encoder
output (window 2); it writes rows `400 t …` of the result (window 3):

  h   = 0.9 · (adjacency rows · current) + 0.1 · encoder rows,
  out = (h − rowmax h) − log (rowsum (exp (h − rowmax h))),

that is, the step followed by a log-softmax along each row of ten entries.

Everything here is stated at a parameter `V`, the buffer contents the step finds when it starts, and for
any float instance. The file gives the contents each window's buffer holds before and after the body at
a point, and proves that the body, run on those contents, leaves exactly the stated ones.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of a core holds when the step starts
variable (V : (c : Dev nD) → (b : Ref sig .tc) → Buf (Elt F) ((c : Thread nD τ).loc b))

/-! ## The block of each window at a point -/

/-- The part of window `w`'s array that point `t` works on, read off the contents the step starts from. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## What the body finds in the three input buffers

An input's buffer holds the input's block at every point, whether the block was brought in at this
point or at an earlier one: when nothing is brought in, the block index has not moved since the
previous point and the body does not write to inputs. The three lemmas below say this for any proof
data whose array is `V`'s and whose body leaves the input in place. -/

theorem input8_0_found {c : Dev nD} (dat : Dat τ (Elt F) Unit ℕ (UR sig nD τ) ℕ cfg8 c) (hA : dat.A 0 = V c (Pipeline.arrRef spec8 0))
    (hkeep : ∀ t, dat.after 0 t = iblk8 V c 0 t) (t : Fin cfg8.N) (d) : dat.before 0 t d = iblk8 V c 0 t :=
  (dat.before_in_eq_fetched 0 rfl (fun _ => rfl) (fun _ _ _ => rfl) (fun t => by rw [hkeep]; unfold Dat.blockOf iblk8; rw [hA]; try rfl) t d).trans
    (by unfold Dat.fetched Dat.blockOf iblk8; rw [hA]; try rfl)

theorem input8_1_found {c : Dev nD} (dat : Dat τ (Elt F) Unit ℕ (UR sig nD τ) ℕ cfg8 c) (hA : dat.A 1 = V c (Pipeline.arrRef spec8 1))
    (hkeep : ∀ t, dat.after 1 t = iblk8 V c 1 t) (t : Fin cfg8.N) (d) : dat.before 1 t d = iblk8 V c 1 t :=
  (dat.before_in_eq_fetched 1 rfl (fun _ => rfl) (fun _ _ _ => rfl) (fun t => by rw [hkeep]; unfold Dat.blockOf iblk8; rw [hA]; try rfl) t d).trans
    (by unfold Dat.fetched Dat.blockOf iblk8; rw [hA]; try rfl)

theorem input8_2_found {c : Dev nD} (dat : Dat τ (Elt F) Unit ℕ (UR sig nD τ) ℕ cfg8 c) (hA : dat.A 2 = V c (Pipeline.arrRef spec8 2))
    (hkeep : ∀ t, dat.after 2 t = iblk8 V c 2 t) (t : Fin cfg8.N) (d) : dat.before 2 t d = iblk8 V c 2 t :=
  (dat.before_in_eq_fetched 2 rfl (fun _ => rfl) (fun _ _ _ => rfl) (fun t => by rw [hkeep]; unfold Dat.blockOf iblk8; rw [hA]; try rfl) t d).trans
    (by unfold Dat.fetched Dat.blockOf iblk8; rw [hA]; try rfl)

/-! ## The rectangles the body reads and writes: each is the whole of its buffer -/

abbrev whole8_adj : Rect S400x10000 := Rect.unit (s := S400x10000) ![0, 0] S400x10000.size inb_S400x10000_S400x10000_0_0
abbrev whole8_cur : Rect S10000x10 := Rect.unit (s := S10000x10) ![0, 0] S10000x10.size inb_S10000x10_S10000x10_0_0
abbrev whole8_blk : Rect S400x10 := Rect.unit (s := S400x10) ![0, 0] S400x10.size inb_S400x10_S400x10_0_0

/-! ## The output buffer after the body -/

/-- The 400 × 10 output buffer once the body has run on adjacency rows `x0`, current iterate `x1` and
    encoder rows `x2`: one store, of the whole buffer, of the body's arithmetic on what it loaded. -/
def out8_3 (x0 : Vec F S400x10000 .f32) (x1 : Vec F S10000x10 .f32) (x2 : Vec F S400x10 .f32) : Vec F S400x10 .f32 :=
  View.canon [⟨whole8_blk, k8_pay1 (View.ld x0 whole8_adj) (View.ld x1 whole8_cur) (View.ld x2 whole8_blk)⟩]

/-- The one store reaches every entry of the output buffer. -/
theorem out8_3_covered (p0 : Vec F S400x10 .f32) (y : S400x10.Idx) :
    ∃ pc ∈ ([⟨whole8_blk, p0⟩] : List (View.Piece (Elt F) S400x10 .f32)), y ∈ pc.1.set :=
  View.cover_of_tiled [⟨whole8_blk, p0⟩] S400x10.size (by rfl) y

/-! ## The body, run -/

set_option maxHeartbeats 1000000 in
/-- Run on whole buffers, the inputs' holding `x0`, `x1`, `x2` and the output's holding anything, the body
    ends with the inputs untouched and the output at `out8_3 x0 x1 x2`. The body first loads the three
    inputs, then loads the output buffer (a value it never uses), then stores. -/
theorem body8_runs (c : Dev nD) (E : Set ℕ) (i : grid8.Coords)
    (arg1 : Memref sig .tc .vmem S400x10000 .f32) (harg1 : arg1.IsWhole) (arg2 : Memref sig .tc .vmem S10000x10 .f32) (harg2 : arg2.IsWhole)
    (arg3 : Memref sig .tc .vmem S400x10 .f32) (harg3 : arg3.IsWhole) (arg4 : Memref sig .tc .vmem S400x10 .f32) (harg4 : arg4.IsWhole)
    (x0 : Vec F S400x10000 .f32) (x1 : Vec F S10000x10 .f32) (x2 : Vec F S400x10 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out8_3 x0 x1 x2)) -∗ K ⟨⟩))
      ⊢ wp frame (wpE (defs₀ (F := F)) Variants.none c none) E (cc8__prop_body i arg1 harg1 arg2 harg2 arg3 harg3 arg4 harg4) K := by
  simp only [cc8__prop_body_eq_skeleton]; unfold cc8__prop_body_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (out8_3_covered _)

/-! ## The proof data of the step -/

/-- On core `c`: the arrays as the step finds them; after the body at point `t`, each input buffer still
    at its block and the output buffer at `out8_3` of the three blocks; the invariant says only that the
    buffers the step does not window, and the generator register, stay as they are; the core owes
    nothing. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) :
    (dat8 V c).after 3 t = out8_3 (iblk8 V c 0 t) (iblk8 V c 1 t) (iblk8 V c 2 t) := by dsimp only [dat8]

theorem before8_0 (c : Dev nD) (t : Fin cfg8.N) (d) : (dat8 V c).before 0 t d = iblk8 V c 0 t :=
  input8_0_found V (dat8 V c) (A_eq8 V c 0) (after8_0 V c) t d
theorem before8_1 (c : Dev nD) (t : Fin cfg8.N) (d) : (dat8 V c).before 1 t d = iblk8 V c 1 t :=
  input8_1_found V (dat8 V c) (A_eq8 V c 1) (after8_1 V c) t d
theorem before8_2 (c : Dev nD) (t : Fin cfg8.N) (d) : (dat8 V c).before 2 t d = iblk8 V c 2 t :=
  input8_2_found V (dat8 V c) (A_eq8 V c 2) (after8_2 V c) t d

/-! ## The body obligation -/

/-- What the body is handed at point `t`: the invariant, what the core owes, and the four current buffers, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it hands back. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- At any point the input buffers hold their blocks, so `body8_runs` applies; the invariant and what the
    core owes are not looked at and come back as they went in. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (body8_runs c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline rule asks of the body, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.SharedArr.lean ====
/-
  The second pallas_call hands ONE array, the teleport matrix, to two of its input windows: the whole matrix as the
  propagated operand and a block of rows as the teleport term. The core holds that buffer once, at the full share; the
  pipeline wants one points-to per window. So on entry the full share is split in two parts, one per window, and on
  exit the two parts, which still hold the same contents, are joined again. The other two windows' arrays (the adjacency
  matrix, read; the output, written) are distinct buffers held at the full share as usual.
-/
import proofs.«175698_g31370441130260_cont_8to1_b_1575_2_alg».proof.Proof.Gen.KernelIdeal.Launch
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open PCS
open Idealize.ShloMosaic.Pipeline (Dat)

variable {F : FTy → Type} [FloatOps F]

local notation "𝕄" => MT nD τ sig Unit (Elt F) ℕ (UR sig nD τ) ℕ

/-- The three distinct buffers behind the four windows' arrays, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_v2) ↦{fullShare} V main_v2)
          ∗ (((c : Thread nD τ).loc main_v3) ↦{fullShare} V main_v3)) := by
  unfold Pipeline.arrBufs
  exact bigSep_eq_bigSepL_of_eq [main_arg1, main_v2, main_v3] (by decide) (by decide) _

/-- The core's unscoped buffers: the buffers behind the windows' arrays, and the rest. -/
theorem unscopedBufs1_eq (c : Dev nD) (V : (b : Ref sig .tc) → Buf (Elt F) ((c : Thread nD τ).loc b)) :
    (unscopedBufs c V : sProp 𝕄) = iprop(Pipeline.arrBufs spec1 c V ∗ Pipeline.unscopedRest spec1 c V) :=
  Pipeline.unscopedBufs_split₀ cfgs 1 winFacts₀1.arr_unscoped c V

section
variable (q₁ q₂ : PosShare TreeShare) (hq : fullShare ∈ q₁ ·? q₂) (c : Dev nD)
  (dat : Dat τ (Elt F) Unit ℕ (UR sig nD τ) ℕ cfg1 c)
  (hq0 : dat.q 0 = fullShare) (hq1 : dat.q 1 = q₁) (hq2 : dat.q 2 = q₂)

include hq0 hq1 hq2 in
/-- The windows' arrays, one by one, each at its share. -/
theorem arrays1_eq (A : (w : Fin cfg1.W) → Buf (Elt F) ((cfg1.win w).arr.view.loc (c : Thread nD τ))) :
    (dat.arrays A : sProp 𝕄)
      = iprop((((c : Thread nD τ).loc main_arg1) ↦{fullShare} A 0) ∗ (((c : Thread nD τ).loc main_v2) ↦{q₁} A 1)
          ∗ (((c : Thread nD τ).loc main_v2) ↦{q₂} A 2) ∗ (((c : Thread nD τ).loc main_v3) ↦{fullShare} A 3)) := by
  unfold Dat.arrays
  rw [bigSep_W1]
  have h0 : dat.share 0 = fullShare := (if_neg (by decide)).trans hq0
  have h1 : dat.share 1 = q₁ := (if_neg (by decide)).trans hq1
  have h2 : dat.share 2 = q₂ := (if_neg (by decide)).trans hq2
  have h3 : dat.share 3 = fullShare := if_pos rfl
  rw [h0, h1, h2, h3, (arr_whole1 0).set_eq_univ, (arr_whole1 1).set_eq_univ, (arr_whole1 3).set_eq_univ]

include hq hq0 hq1 hq2 in
/-- ENTRY: the core's unscoped buffers at contents `V` are the four windows' arrays at what `V` holds there — the shared
    buffer's full share dealt to its two windows — and the unscoped rest. -/
theorem shared_entry (V : (b : Ref sig .tc) → Buf (Elt F) ((c : Thread nD τ).loc b))
    (A : (w : Fin cfg1.W) → Buf (Elt F) ((cfg1.win w).arr.view.loc (c : Thread nD τ)))
    (hA : ∀ w, A w = V (Pipeline.arrRef spec1 w)) :
    (unscopedBufs c V : sProp 𝕄) ⊢ iprop(dat.arrays A ∗ Pipeline.unscopedRest spec1 c V) := by
  rw [unscopedBufs1_eq c V, arrBufs1_eq, arrays1_eq q₁ q₂ c dat hq0 hq1 hq2 A,
    hA 0, hA 1, hA 2, hA 3]
  iintro ⟨⟨Ha, Hz, Ho⟩, Hr⟩
  ihave Hz' := (pointsTo_share hq).1 $$ Hz
  icases Hz' with ⟨Hz1, Hz2⟩
  isplitr [Hr]
  · isplitl [Ha]; · iexact Ha
    isplitl [Hz1]; · iexact Hz1
    isplitl [Hz2]; · iexact Hz2
    iexact Ho
  iexact Hr

include hq hq0 hq1 hq2 in
/-- EXIT: the four windows' arrays at contents `A` — the shared buffer's two parts at the same contents — and the
    unscoped rest at `V` are the core's unscoped buffers at any `V'` that has the arrays at `A` and agrees with `V`
    off them. -/
theorem shared_exit (V V' : (b : Ref sig .tc) → Buf (Elt F) ((c : Thread nD τ).loc b))
    (A : (w : Fin cfg1.W) → Buf (Elt F) ((cfg1.win w).arr.view.loc (c : Thread nD τ)))
    (hA : ∀ w, A w = V' (Pipeline.arrRef spec1 w))
    (hrest : ∀ b, b ∉ Finset.univ.image (Pipeline.arrRef spec1) → V' b = V b) :
    iprop(dat.arrays A ∗ Pipeline.unscopedRest spec1 c V) ⊢ (unscopedBufs c V' : sProp 𝕄) := by
  rw [unscopedBufs1_eq c V', arrBufs1_eq, arrays1_eq q₁ q₂ c dat hq0 hq1 hq2 A,
    hA 0, hA 1, hA 2, hA 3]
  have hr : (Pipeline.unscopedRest (Ix := Unit) (Name := ℕ) (U := UR sig nD τ) (Lvl := ℕ) spec1 c V : sProp 𝕄)
      = Pipeline.unscopedRest spec1 c V' := by
    unfold Pipeline.unscopedRest
    exact bigSep_congr fun b hb => by rw [hrest b (Finset.mem_sdiff.mp hb).2]
  rw [hr]
  iintro ⟨⟨Ha, Hz1, Hz2, Ho⟩, Hr⟩
  isplitr [Hr]
  · isplitl [Ha]; · iexact Ha
    isplitr [Ho]
    · iapply (pointsTo_share hq).2
      isplitl [Hz1]; · iexact Hz1
      iexact Hz2
    iexact Ho
  iexact Hr

end

end Cert.KernelIdeal.Hand

end
-- ==== Proof.Run.lean ====
/-
  The run of the whole program: two host reshapes, then nine pallas_calls in a row, each reading the arrays the earlier
  ones wrote. Between two items every unscoped buffer of a TensorCore is held whole at known contents: the launch
  memory, then the reshapes applied, then, call by call, the call's output array replaced by what the write-backs of all
  its grid points leave (the proof data's array after the last point) and every other buffer untouched. Each call is a
  segment entered from these contents and left at the next ones; the launch theorem for a list of segments then says that
  every weakly fair execution terminates without a fault, and the final memory is read off the last contents: every
  unscoped buffer, the result array and the six argument arrays among them. Stated for any float instance.
-/
import proofs.«175698_g31370441130260_cont_8to1_b_1575_2_alg».proof.Proof.RegionEnc
import proofs.«175698_g31370441130260_cont_8to1_b_1575_2_alg».proof.Proof.RegionProp1
import proofs.«175698_g31370441130260_cont_8to1_b_1575_2_alg».proof.Proof.RegionProp2
import proofs.«175698_g31370441130260_cont_8to1_b_1575_2_alg».proof.Proof.RegionProp3
import proofs.«175698_g31370441130260_cont_8to1_b_1575_2_alg».proof.Proof.RegionProp4
import proofs.«175698_g31370441130260_cont_8to1_b_1575_2_alg».proof.Proof.RegionProp5
import proofs.«175698_g31370441130260_cont_8to1_b_1575_2_alg».proof.Proof.RegionProp6
import proofs.«175698_g31370441130260_cont_8to1_b_1575_2_alg».proof.Proof.RegionProp7
import proofs.«175698_g31370441130260_cont_8to1_b_1575_2_alg».proof.Proof.RegionLast
import proofs.«175698_g31370441130260_cont_8to1_b_1575_2_alg».proof.Proof.SharedArr
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ (UR sig nD τ) ℕ

variable (m : (ℓ : Loc nD τ sig) → Buf (Elt F) ℓ)

/-! ## The buffer contents between two items -/

/-- Core `c`'s buffers at launch. -/
abbrev B0 : Dev nD → Valuation τ sig (Elt F) := fun c b => m (c, b)
/-- After the two host reshapes (the biases as rows): the first pallas_call's entry. -/
abbrev B1 : Dev nD → Valuation τ sig (Elt F) := fun c => StableHlo.after hostOps0 (B0 m c)
/-- The same read at the TensorCore's references. -/
abbrev C1 : (c : Dev nD) → (b : Ref sig .tc) → Buf (Elt F) ((c : Thread nD τ).loc b) := fun c b => B1 m c b

/-- After pallas_call 0: its output array `main_v2` at what the write-backs of all its grid points leave, every other
    buffer as the call found it. -/
def B2 (c : Dev nD) : Valuation τ sig (Elt F) :=
  Function.update (B1 m c) (Proc.devRef .tc main_v2) ((dat0 (C1 m) c).arrAt 5 cfg0.N)
abbrev C2 : (c : Dev nD) → (b : Ref sig .tc) → Buf (Elt F) ((c : Thread nD τ).loc b) := fun c b => B2 m c b
theorem B2_out (c : Dev nD) : B2 m c (Proc.devRef .tc main_v2) = (dat0 (C1 m) c).arrAt 5 cfg0.N := by
  unfold B2; exact Function.update_self ..
theorem B2_of_ne (c : Dev nD) (b : Ref sig .tc) (hb : b ≠ main_v2) : B2 m c (Proc.devRef .tc b) = B1 m c (Proc.devRef .tc b) := by
  unfold B2; exact Function.update_of_ne (StableHlo.devRef_ne_of_ne hb) ..
/-- At the call's exit each of its arrays holds what the pipeline leaves — an input as found, the output its write-backs — -/
theorem exitArr0 (c : Dev nD) : ∀ w : Fin cfg0.W, (dat0 (C1 m) c).arrAt w cfg0.N = C2 m c (Pipeline.arrRef spec0 w)
  | ⟨0, _⟩ => (((dat0 (C1 m) c).arrAt_in 0 rfl _).trans (A_eq0 (C1 m) c 0)).trans (B2_of_ne m c _ (by decide)).symm
  | ⟨1, _⟩ => (((dat0 (C1 m) c).arrAt_in 1 rfl _).trans (A_eq0 (C1 m) c 1)).trans (B2_of_ne m c _ (by decide)).symm
  | ⟨2, _⟩ => (((dat0 (C1 m) c).arrAt_in 2 rfl _).trans (A_eq0 (C1 m) c 2)).trans (B2_of_ne m c _ (by decide)).symm
  | ⟨3, _⟩ => (((dat0 (C1 m) c).arrAt_in 3 rfl _).trans (A_eq0 (C1 m) c 3)).trans (B2_of_ne m c _ (by decide)).symm
  | ⟨4, _⟩ => (((dat0 (C1 m) c).arrAt_in 4 rfl _).trans (A_eq0 (C1 m) c 4)).trans (B2_of_ne m c _ (by decide)).symm
  | ⟨5, _⟩ => (B2_out m c).symm
/-- and every other buffer what it held at entry. -/
theorem exitRest0 (c : Dev nD) : ∀ b, b ∉ Finset.univ.image (Pipeline.arrRef spec0) → C2 m c b = C1 m c b :=
  fun b hb => B2_of_ne m c b fun e => hb (Finset.mem_image.mpr ⟨5, Finset.mem_univ _, e.symm⟩)

/-- After pallas_call 1: its output array `main_v3` at what the write-backs of all its grid points leave, every other
    buffer as the call found it. -/
def B3 (c : Dev nD) : Valuation τ sig (Elt F) :=
  Function.update (B2 m c) (Proc.devRef .tc main_v3) ((dat1 (C2 m) fullShare.left fullShare.right c).arrAt 3 cfg1.N)
abbrev C3 : (c : Dev nD) → (b : Ref sig .tc) → Buf (Elt F) ((c : Thread nD τ).loc b) := fun c b => B3 m c b
theorem B3_out (c : Dev nD) : B3 m c (Proc.devRef .tc main_v3) = (dat1 (C2 m) fullShare.left fullShare.right c).arrAt 3 cfg1.N := by
  unfold B3; exact Function.update_self ..
theorem B3_of_ne (c : Dev nD) (b : Ref sig .tc) (hb : b ≠ main_v3) : B3 m c (Proc.devRef .tc b) = B2 m c (Proc.devRef .tc b) := by
  unfold B3; exact Function.update_of_ne (StableHlo.devRef_ne_of_ne hb) ..
/-- At the call's exit each of its arrays holds what the pipeline leaves — an input as found, the output its write-backs — -/
theorem exitArr1 (c : Dev nD) : ∀ w : Fin cfg1.W, (dat1 (C2 m) fullShare.left fullShare.right c).arrAt w cfg1.N = C3 m c (Pipeline.arrRef spec1 w)
  | ⟨0, _⟩ => (((dat1 (C2 m) fullShare.left fullShare.right c).arrAt_in 0 rfl _).trans (A_eq1 (C2 m) fullShare.left fullShare.right c 0)).trans (B3_of_ne m c _ (by decide)).symm
  | ⟨1, _⟩ => (((dat1 (C2 m) fullShare.left fullShare.right c).arrAt_in 1 rfl _).trans (A_eq1 (C2 m) fullShare.left fullShare.right c 1)).trans (B3_of_ne m c _ (by decide)).symm
  | ⟨2, _⟩ => (((dat1 (C2 m) fullShare.left fullShare.right c).arrAt_in 2 rfl _).trans (A_eq1 (C2 m) fullShare.left fullShare.right c 2)).trans (B3_of_ne m c _ (by decide)).symm
  | ⟨3, _⟩ => (B3_out m c).symm
/-- and every other buffer what it held at entry. -/
theorem exitRest1 (c : Dev nD) : ∀ b, b ∉ Finset.univ.image (Pipeline.arrRef spec1) → C3 m c b = C2 m c b :=
  fun b hb => B3_of_ne m c b fun e => hb (Finset.mem_image.mpr ⟨3, Finset.mem_univ _, e.symm⟩)

/-- After pallas_call 2: its output array `main_v4` at what the write-backs of all its grid points leave, every other
    buffer as the call found it. -/
def B4 (c : Dev nD) : Valuation τ sig (Elt F) :=
  Function.update (B3 m c) (Proc.devRef .tc main_v4) ((dat2 (C3 m) c).arrAt 3 cfg2.N)
abbrev C4 : (c : Dev nD) → (b : Ref sig .tc) → Buf (Elt F) ((c : Thread nD τ).loc b) := fun c b => B4 m c b
theorem B4_out (c : Dev nD) : B4 m c (Proc.devRef .tc main_v4) = (dat2 (C3 m) c).arrAt 3 cfg2.N := by
  unfold B4; exact Function.update_self ..
theorem B4_of_ne (c : Dev nD) (b : Ref sig .tc) (hb : b ≠ main_v4) : B4 m c (Proc.devRef .tc b) = B3 m c (Proc.devRef .tc b) := by
  unfold B4; exact Function.update_of_ne (StableHlo.devRef_ne_of_ne hb) ..
/-- At the call's exit each of its arrays holds what the pipeline leaves — an input as found, the output its write-backs — -/
theorem exitArr2 (c : Dev nD) : ∀ w : Fin cfg2.W, (dat2 (C3 m) c).arrAt w cfg2.N = C4 m c (Pipeline.arrRef spec2 w)
  | ⟨0, _⟩ => (((dat2 (C3 m) c).arrAt_in 0 rfl _).trans (A_eq2 (C3 m) c 0)).trans (B4_of_ne m c _ (by decide)).symm
  | ⟨1, _⟩ => (((dat2 (C3 m) c).arrAt_in 1 rfl _).trans (A_eq2 (C3 m) c 1)).trans (B4_of_ne m c _ (by decide)).symm
  | ⟨2, _⟩ => (((dat2 (C3 m) c).arrAt_in 2 rfl _).trans (A_eq2 (C3 m) c 2)).trans (B4_of_ne m c _ (by decide)).symm
  | ⟨3, _⟩ => (B4_out m c).symm
/-- and every other buffer what it held at entry. -/
theorem exitRest2 (c : Dev nD) : ∀ b, b ∉ Finset.univ.image (Pipeline.arrRef spec2) → C4 m c b = C3 m c b :=
  fun b hb => B4_of_ne m c b fun e => hb (Finset.mem_image.mpr ⟨3, Finset.mem_univ _, e.symm⟩)

/-- After pallas_call 3: its output array `main_v5` at what the write-backs of all its grid points leave, every other
    buffer as the call found it. -/
def B5 (c : Dev nD) : Valuation τ sig (Elt F) :=
  Function.update (B4 m c) (Proc.devRef .tc main_v5) ((dat3 (C4 m) c).arrAt 3 cfg3.N)
abbrev C5 : (c : Dev nD) → (b : Ref sig .tc) → Buf (Elt F) ((c : Thread nD τ).loc b) := fun c b => B5 m c b
theorem B5_out (c : Dev nD) : B5 m c (Proc.devRef .tc main_v5) = (dat3 (C4 m) c).arrAt 3 cfg3.N := by
  unfold B5; exact Function.update_self ..
theorem B5_of_ne (c : Dev nD) (b : Ref sig .tc) (hb : b ≠ main_v5) : B5 m c (Proc.devRef .tc b) = B4 m c (Proc.devRef .tc b) := by
  unfold B5; exact Function.update_of_ne (StableHlo.devRef_ne_of_ne hb) ..
/-- At the call's exit each of its arrays holds what the pipeline leaves — an input as found, the output its write-backs — -/
theorem exitArr3 (c : Dev nD) : ∀ w : Fin cfg3.W, (dat3 (C4 m) c).arrAt w cfg3.N = C5 m c (Pipeline.arrRef spec3 w)
  | ⟨0, _⟩ => (((dat3 (C4 m) c).arrAt_in 0 rfl _).trans (A_eq3 (C4 m) c 0)).trans (B5_of_ne m c _ (by decide)).symm
  | ⟨1, _⟩ => (((dat3 (C4 m) c).arrAt_in 1 rfl _).trans (A_eq3 (C4 m) c 1)).trans (B5_of_ne m c _ (by decide)).symm
  | ⟨2, _⟩ => (((dat3 (C4 m) c).arrAt_in 2 rfl _).trans (A_eq3 (C4 m) c 2)).trans (B5_of_ne m c _ (by decide)).symm
  | ⟨3, _⟩ => (B5_out m c).symm
/-- and every other buffer what it held at entry. -/
theorem exitRest3 (c : Dev nD) : ∀ b, b ∉ Finset.univ.image (Pipeline.arrRef spec3) → C5 m c b = C4 m c b :=
  fun b hb => B5_of_ne m c b fun e => hb (Finset.mem_image.mpr ⟨3, Finset.mem_univ _, e.symm⟩)

/-- After pallas_call 4: its output array `main_v6` at what the write-backs of all its grid points leave, every other
    buffer as the call found it. -/
def B6 (c : Dev nD) : Valuation τ sig (Elt F) :=
  Function.update (B5 m c) (Proc.devRef .tc main_v6) ((dat4 (C5 m) c).arrAt 3 cfg4.N)
abbrev C6 : (c : Dev nD) → (b : Ref sig .tc) → Buf (Elt F) ((c : Thread nD τ).loc b) := fun c b => B6 m c b
theorem B6_out (c : Dev nD) : B6 m c (Proc.devRef .tc main_v6) = (dat4 (C5 m) c).arrAt 3 cfg4.N := by
  unfold B6; exact Function.update_self ..
theorem B6_of_ne (c : Dev nD) (b : Ref sig .tc) (hb : b ≠ main_v6) : B6 m c (Proc.devRef .tc b) = B5 m c (Proc.devRef .tc b) := by
  unfold B6; exact Function.update_of_ne (StableHlo.devRef_ne_of_ne hb) ..
/-- At the call's exit each of its arrays holds what the pipeline leaves — an input as found, the output its write-backs — -/
theorem exitArr4 (c : Dev nD) : ∀ w : Fin cfg4.W, (dat4 (C5 m) c).arrAt w cfg4.N = C6 m c (Pipeline.arrRef spec4 w)
  | ⟨0, _⟩ => (((dat4 (C5 m) c).arrAt_in 0 rfl _).trans (A_eq4 (C5 m) c 0)).trans (B6_of_ne m c _ (by decide)).symm
  | ⟨1, _⟩ => (((dat4 (C5 m) c).arrAt_in 1 rfl _).trans (A_eq4 (C5 m) c 1)).trans (B6_of_ne m c _ (by decide)).symm
  | ⟨2, _⟩ => (((dat4 (C5 m) c).arrAt_in 2 rfl _).trans (A_eq4 (C5 m) c 2)).trans (B6_of_ne m c _ (by decide)).symm
  | ⟨3, _⟩ => (B6_out m c).symm
/-- and every other buffer what it held at entry. -/
theorem exitRest4 (c : Dev nD) : ∀ b, b ∉ Finset.univ.image (Pipeline.arrRef spec4) → C6 m c b = C5 m c b :=
  fun b hb => B6_of_ne m c b fun e => hb (Finset.mem_image.mpr ⟨3, Finset.mem_univ _, e.symm⟩)

/-- After pallas_call 5: its output array `main_v7` at what the write-backs of all its grid points leave, every other
    buffer as the call found it. -/
def B7 (c : Dev nD) : Valuation τ sig (Elt F) :=
  Function.update (B6 m c) (Proc.devRef .tc main_v7) ((dat5 (C6 m) c).arrAt 3 cfg5.N)
abbrev C7 : (c : Dev nD) → (b : Ref sig .tc) → Buf (Elt F) ((c : Thread nD τ).loc b) := fun c b => B7 m c b
theorem B7_out (c : Dev nD) : B7 m c (Proc.devRef .tc main_v7) = (dat5 (C6 m) c).arrAt 3 cfg5.N := by
  unfold B7; exact Function.update_self ..
theorem B7_of_ne (c : Dev nD) (b : Ref sig .tc) (hb : b ≠ main_v7) : B7 m c (Proc.devRef .tc b) = B6 m c (Proc.devRef .tc b) := by
  unfold B7; exact Function.update_of_ne (StableHlo.devRef_ne_of_ne hb) ..
/-- At the call's exit each of its arrays holds what the pipeline leaves — an input as found, the output its write-backs — -/
theorem exitArr5 (c : Dev nD) : ∀ w : Fin cfg5.W, (dat5 (C6 m) c).arrAt w cfg5.N = C7 m c (Pipeline.arrRef spec5 w)
  | ⟨0, _⟩ => (((dat5 (C6 m) c).arrAt_in 0 rfl _).trans (A_eq5 (C6 m) c 0)).trans (B7_of_ne m c _ (by decide)).symm
  | ⟨1, _⟩ => (((dat5 (C6 m) c).arrAt_in 1 rfl _).trans (A_eq5 (C6 m) c 1)).trans (B7_of_ne m c _ (by decide)).symm
  | ⟨2, _⟩ => (((dat5 (C6 m) c).arrAt_in 2 rfl _).trans (A_eq5 (C6 m) c 2)).trans (B7_of_ne m c _ (by decide)).symm
  | ⟨3, _⟩ => (B7_out m c).symm
/-- and every other buffer what it held at entry. -/
theorem exitRest5 (c : Dev nD) : ∀ b, b ∉ Finset.univ.image (Pipeline.arrRef spec5) → C7 m c b = C6 m c b :=
  fun b hb => B7_of_ne m c b fun e => hb (Finset.mem_image.mpr ⟨3, Finset.mem_univ _, e.symm⟩)

/-- After pallas_call 6: its output array `main_v8` at what the write-backs of all its grid points leave, every other
    buffer as the call found it. -/
def B8 (c : Dev nD) : Valuation τ sig (Elt F) :=
  Function.update (B7 m c) (Proc.devRef .tc main_v8) ((dat6 (C7 m) c).arrAt 3 cfg6.N)
abbrev C8 : (c : Dev nD) → (b : Ref sig .tc) → Buf (Elt F) ((c : Thread nD τ).loc b) := fun c b => B8 m c b
theorem B8_out (c : Dev nD) : B8 m c (Proc.devRef .tc main_v8) = (dat6 (C7 m) c).arrAt 3 cfg6.N := by
  unfold B8; exact Function.update_self ..
theorem B8_of_ne (c : Dev nD) (b : Ref sig .tc) (hb : b ≠ main_v8) : B8 m c (Proc.devRef .tc b) = B7 m c (Proc.devRef .tc b) := by
  unfold B8; exact Function.update_of_ne (StableHlo.devRef_ne_of_ne hb) ..
/-- At the call's exit each of its arrays holds what the pipeline leaves — an input as found, the output its write-backs — -/
theorem exitArr6 (c : Dev nD) : ∀ w : Fin cfg6.W, (dat6 (C7 m) c).arrAt w cfg6.N = C8 m c (Pipeline.arrRef spec6 w)
  | ⟨0, _⟩ => (((dat6 (C7 m) c).arrAt_in 0 rfl _).trans (A_eq6 (C7 m) c 0)).trans (B8_of_ne m c _ (by decide)).symm
  | ⟨1, _⟩ => (((dat6 (C7 m) c).arrAt_in 1 rfl _).trans (A_eq6 (C7 m) c 1)).trans (B8_of_ne m c _ (by decide)).symm
  | ⟨2, _⟩ => (((dat6 (C7 m) c).arrAt_in 2 rfl _).trans (A_eq6 (C7 m) c 2)).trans (B8_of_ne m c _ (by decide)).symm
  | ⟨3, _⟩ => (B8_out m c).symm
/-- and every other buffer what it held at entry. -/
theorem exitRest6 (c : Dev nD) : ∀ b, b ∉ Finset.univ.image (Pipeline.arrRef spec6) → C8 m c b = C7 m c b :=
  fun b hb => B8_of_ne m c b fun e => hb (Finset.mem_image.mpr ⟨3, Finset.mem_univ _, e.symm⟩)

/-- After pallas_call 7: its output array `main_v9` at what the write-backs of all its grid points leave, every other
    buffer as the call found it. -/
def B9 (c : Dev nD) : Valuation τ sig (Elt F) :=
  Function.update (B8 m c) (Proc.devRef .tc main_v9) ((dat7 (C8 m) c).arrAt 3 cfg7.N)
abbrev C9 : (c : Dev nD) → (b : Ref sig .tc) → Buf (Elt F) ((c : Thread nD τ).loc b) := fun c b => B9 m c b
theorem B9_out (c : Dev nD) : B9 m c (Proc.devRef .tc main_v9) = (dat7 (C8 m) c).arrAt 3 cfg7.N := by
  unfold B9; exact Function.update_self ..
theorem B9_of_ne (c : Dev nD) (b : Ref sig .tc) (hb : b ≠ main_v9) : B9 m c (Proc.devRef .tc b) = B8 m c (Proc.devRef .tc b) := by
  unfold B9; exact Function.update_of_ne (StableHlo.devRef_ne_of_ne hb) ..
/-- At the call's exit each of its arrays holds what the pipeline leaves — an input as found, the output its write-backs — -/
theorem exitArr7 (c : Dev nD) : ∀ w : Fin cfg7.W, (dat7 (C8 m) c).arrAt w cfg7.N = C9 m c (Pipeline.arrRef spec7 w)
  | ⟨0, _⟩ => (((dat7 (C8 m) c).arrAt_in 0 rfl _).trans (A_eq7 (C8 m) c 0)).trans (B9_of_ne m c _ (by decide)).symm
  | ⟨1, _⟩ => (((dat7 (C8 m) c).arrAt_in 1 rfl _).trans (A_eq7 (C8 m) c 1)).trans (B9_of_ne m c _ (by decide)).symm
  | ⟨2, _⟩ => (((dat7 (C8 m) c).arrAt_in 2 rfl _).trans (A_eq7 (C8 m) c 2)).trans (B9_of_ne m c _ (by decide)).symm
  | ⟨3, _⟩ => (B9_out m c).symm
/-- and every other buffer what it held at entry. -/
theorem exitRest7 (c : Dev nD) : ∀ b, b ∉ Finset.univ.image (Pipeline.arrRef spec7) → C9 m c b = C8 m c b :=
  fun b hb => B9_of_ne m c b fun e => hb (Finset.mem_image.mpr ⟨3, Finset.mem_univ _, e.symm⟩)

/-- After pallas_call 8: its output array `main_v10` at what the write-backs of all its grid points leave, every other
    buffer as the call found it. -/
def B10 (c : Dev nD) : Valuation τ sig (Elt F) :=
  Function.update (B9 m c) (Proc.devRef .tc main_v10) ((dat8 (C9 m) c).arrAt 3 cfg8.N)
abbrev C10 : (c : Dev nD) → (b : Ref sig .tc) → Buf (Elt F) ((c : Thread nD τ).loc b) := fun c b => B10 m c b
theorem B10_out (c : Dev nD) : B10 m c (Proc.devRef .tc main_v10) = (dat8 (C9 m) c).arrAt 3 cfg8.N := by
  unfold B10; exact Function.update_self ..
theorem B10_of_ne (c : Dev nD) (b : Ref sig .tc) (hb : b ≠ main_v10) : B10 m c (Proc.devRef .tc b) = B9 m c (Proc.devRef .tc b) := by
  unfold B10; exact Function.update_of_ne (StableHlo.devRef_ne_of_ne hb) ..
/-- At the call's exit each of its arrays holds what the pipeline leaves — an input as found, the output its write-backs — -/
theorem exitArr8 (c : Dev nD) : ∀ w : Fin cfg8.W, (dat8 (C9 m) c).arrAt w cfg8.N = C10 m c (Pipeline.arrRef spec8 w)
  | ⟨0, _⟩ => (((dat8 (C9 m) c).arrAt_in 0 rfl _).trans (A_eq8 (C9 m) c 0)).trans (B10_of_ne m c _ (by decide)).symm
  | ⟨1, _⟩ => (((dat8 (C9 m) c).arrAt_in 1 rfl _).trans (A_eq8 (C9 m) c 1)).trans (B10_of_ne m c _ (by decide)).symm
  | ⟨2, _⟩ => (((dat8 (C9 m) c).arrAt_in 2 rfl _).trans (A_eq8 (C9 m) c 2)).trans (B10_of_ne m c _ (by decide)).symm
  | ⟨3, _⟩ => (B10_out m c).symm
/-- and every other buffer what it held at entry. -/
theorem exitRest8 (c : Dev nD) : ∀ b, b ∉ Finset.univ.image (Pipeline.arrRef spec8) → C10 m c b = C9 m c b :=
  fun b hb => B10_of_ne m c b fun e => hb (Finset.mem_image.mpr ⟨3, Finset.mem_univ _, e.symm⟩)

/-! ## The proof data of the nine pipelines, the thread state -/

/-- No pallas_call has a prefetched table. -/
abbrev adm : (p : Fin 9) → (pcfgs (F := F) p).Adm := fun p => (cfgs p).toPCfg_adm
/-- Every pipeline's proof data at its call's entry contents (a literal match on the pipeline's number). -/
def pdats : (p : Fin 9) → (c : Dev nD) → Dat τ (Elt F) Unit ℕ (UR sig nD τ) ℕ (Pipeline.pin (pcfgs (F := F)) adm p) c
  | ⟨0, _⟩ => fun c => dat0 (C1 m) c
  | ⟨1, _⟩ => fun c => dat1 (C2 m) fullShare.left fullShare.right c
  | ⟨2, _⟩ => fun c => dat2 (C3 m) c
  | ⟨3, _⟩ => fun c => dat3 (C4 m) c
  | ⟨4, _⟩ => fun c => dat4 (C5 m) c
  | ⟨5, _⟩ => fun c => dat5 (C6 m) c
  | ⟨6, _⟩ => fun c => dat6 (C7 m) c
  | ⟨7, _⟩ => fun c => dat7 (C8 m) c
  | ⟨8, _⟩ => fun c => dat8 (C9 m) c
/-- No core owes another anything: no level is assigned. -/
abbrev Lnone : GSem nD τ sig → Finset Unit := fun _ => ∅
abbrev lvnone : GSem nD τ sig → Unit → ℕ := fun _ _ => 0
/-- What rides beside the buffers through every item: the core's generator register at some state, and nothing owed. -/
abbrev Rest (c : Dev nD) : sProp 𝕄 := iprop((∃ r, prngReg c r) ∗ ∃ W, owes (c : Thread nD τ) (0 : CellTallies nD τ sig Unit) W)
/-- The last thread state without what is owed: every unscoped buffer at the last contents, the register at some state. -/
abbrev Tend (c : Dev nD) : sProp 𝕄 := iprop(StableHlo.held (c : Thread nD τ) (Pipeline.ucRefs τ sig) (B10 m c) ∗ ∃ r, prngReg c r)

theorem hostOps0_allocates_nothing : (hostOps0 : List (HloOp τ sig (Elt F))).Forall fun op => op.fresh = ∅ := by
  simp only [List.Forall]; repeat' constructor
/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The host reshapes as a segment over the unscoped buffers from the launch contents. -/
abbrev hostSeg : Pipeline.HostSeg (Name := ℕ) (U := UR sig nD τ) (pcfgs (F := F)) defs₀ Variants.none Lnone lvnone :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_allocates_nothing) op h) (B0 m) Rest

/-! ## The nine calls as segments -/

set_option backward.isDefEq.respectTransparency.types false in
/-- Pallas_call 0 as a segment: entered with every unscoped buffer at `B1`, left with them at `B2`. Its windows'
    arrays are taken out of the unscoped buffers on entry and put back, at what the pipeline leaves, on exit; the generator
    register rides through the pipeline's invariant; nothing is owed; the kernel has no semaphore of its own. -/
def reg0 : Pipeline.RegionSeg (pcfgs (F := F)) adm (pdats m) () defs₀ Variants.none Lnone lvnone 0 where
  win := launch0.win.to₀
  block_pos := launch0.block_pos
  stage_whole := launch0.stage_whole
  K := PEmpty
  osem k := k.elim
  ho := Pipeline.OwnSemFacts.none _
  hbody c := (body_obligation0 (C1 m) c).loose
  hwaits := Pipeline.hwaits_of_owed_zero _ _ _ _ Lnone lvnone 0 fun _ _ => rfl
  pre c := iprop(StableHlo.held (c : Thread nD τ) (Pipeline.ucRefs τ sig) (B1 m c) ∗ Rest c)
  post c := iprop(StableHlo.held (c : Thread nD τ) (Pipeline.ucRefs τ sig) (B2 m c) ∗ Rest c)
  X c := iprop(∃ r, prngReg c r)
  Y c := iprop(∃ r, prngReg c r)
  Z c := Pipeline.unscopedRest (Ix := Unit) (Name := ℕ) (U := UR sig nD τ) (Lvl := ℕ) spec0 c (C1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (C1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (C1 m c) (C2 m c) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 as a segment: entered with every unscoped buffer at `B2`, left with them at `B3`. Its windows'
    arrays are taken out of the unscoped buffers on entry and put back, at what the pipeline leaves, on exit; the generator
    register rides through the pipeline's invariant; nothing is owed; the kernel has no semaphore of its own. -/
def reg1 : Pipeline.RegionSeg (pcfgs (F := F)) adm (pdats m) () defs₀ Variants.none Lnone lvnone 1 where
  win := winFacts₀1
  block_pos := block_pos1
  stage_whole := stage_whole1
  K := PEmpty
  osem k := k.elim
  ho := Pipeline.OwnSemFacts.none _
  hbody c := (body_obligation1 (C2 m) fullShare.left fullShare.right c).loose
  hwaits := Pipeline.hwaits_of_owed_zero _ _ _ _ Lnone lvnone 1 fun _ _ => rfl
  pre c := iprop(StableHlo.held (c : Thread nD τ) (Pipeline.ucRefs τ sig) (B2 m c) ∗ Rest c)
  post c := iprop(StableHlo.held (c : Thread nD τ) (Pipeline.ucRefs τ sig) (B3 m c) ∗ Rest c)
  X c := iprop(∃ r, prngReg c r)
  Y c := iprop(∃ r, prngReg c r)
  Z c := Pipeline.unscopedRest (Ix := Unit) (Name := ℕ) (U := UR sig nD τ) (Lvl := ℕ) spec1 c (C2 m c)
  hentry c := by
    rw [Pipeline.ownSems0_none]
    have hsplit := shared_entry (F := F) fullShare.left fullShare.right (PosShare.mem_left_op_right fullShare) c (pdats m 1 c) rfl rfl rfl
      (C2 m c) (fun w => (pdats m 1 c).arrAt w 0) (fun w => A_eq1 (C2 m) fullShare.left fullShare.right c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := shared_exit (F := F) fullShare.left fullShare.right (PosShare.mem_left_op_right fullShare) c (pdats m 1 c) rfl rfl rfl
      (C2 m c) (C3 m c) ((pdats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 2 as a segment: entered with every unscoped buffer at `B3`, left with them at `B4`. Its windows'
    arrays are taken out of the unscoped buffers on entry and put back, at what the pipeline leaves, on exit; the generator
    register rides through the pipeline's invariant; nothing is owed; the kernel has no semaphore of its own. -/
def reg2 : Pipeline.RegionSeg (pcfgs (F := F)) adm (pdats m) () defs₀ Variants.none Lnone lvnone 2 where
  win := launch2.win.to₀
  block_pos := launch2.block_pos
  stage_whole := launch2.stage_whole
  K := PEmpty
  osem k := k.elim
  ho := Pipeline.OwnSemFacts.none _
  hbody c := (body_obligation2 (C3 m) c).loose
  hwaits := Pipeline.hwaits_of_owed_zero _ _ _ _ Lnone lvnone 2 fun _ _ => rfl
  pre c := iprop(StableHlo.held (c : Thread nD τ) (Pipeline.ucRefs τ sig) (B3 m c) ∗ Rest c)
  post c := iprop(StableHlo.held (c : Thread nD τ) (Pipeline.ucRefs τ sig) (B4 m c) ∗ Rest c)
  X c := iprop(∃ r, prngReg c r)
  Y c := iprop(∃ r, prngReg c r)
  Z c := Pipeline.unscopedRest (Ix := Unit) (Name := ℕ) (U := UR sig nD τ) (Lvl := ℕ) spec2 c (C3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (C3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (C3 m c) (C4 m c) ((pdats m 2 c).arrAt · cfg2.N) (exitArr2 m c) (exitRest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 3 as a segment: entered with every unscoped buffer at `B4`, left with them at `B5`. Its windows'
    arrays are taken out of the unscoped buffers on entry and put back, at what the pipeline leaves, on exit; the generator
    register rides through the pipeline's invariant; nothing is owed; the kernel has no semaphore of its own. -/
def reg3 : Pipeline.RegionSeg (pcfgs (F := F)) adm (pdats m) () defs₀ Variants.none Lnone lvnone 3 where
  win := launch3.win.to₀
  block_pos := launch3.block_pos
  stage_whole := launch3.stage_whole
  K := PEmpty
  osem k := k.elim
  ho := Pipeline.OwnSemFacts.none _
  hbody c := (body_obligation3 (C4 m) c).loose
  hwaits := Pipeline.hwaits_of_owed_zero _ _ _ _ Lnone lvnone 3 fun _ _ => rfl
  pre c := iprop(StableHlo.held (c : Thread nD τ) (Pipeline.ucRefs τ sig) (B4 m c) ∗ Rest c)
  post c := iprop(StableHlo.held (c : Thread nD τ) (Pipeline.ucRefs τ sig) (B5 m c) ∗ Rest c)
  X c := iprop(∃ r, prngReg c r)
  Y c := iprop(∃ r, prngReg c r)
  Z c := Pipeline.unscopedRest (Ix := Unit) (Name := ℕ) (U := UR sig nD τ) (Lvl := ℕ) spec3 c (C4 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (C4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (C4 m c) (C5 m c) ((pdats m 3 c).arrAt · cfg3.N) (exitArr3 m c) (exitRest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 4 as a segment: entered with every unscoped buffer at `B5`, left with them at `B6`. Its windows'
    arrays are taken out of the unscoped buffers on entry and put back, at what the pipeline leaves, on exit; the generator
    register rides through the pipeline's invariant; nothing is owed; the kernel has no semaphore of its own. -/
def reg4 : Pipeline.RegionSeg (pcfgs (F := F)) adm (pdats m) () defs₀ Variants.none Lnone lvnone 4 where
  win := launch4.win.to₀
  block_pos := launch4.block_pos
  stage_whole := launch4.stage_whole
  K := PEmpty
  osem k := k.elim
  ho := Pipeline.OwnSemFacts.none _
  hbody c := (body_obligation4 (C5 m) c).loose
  hwaits := Pipeline.hwaits_of_owed_zero _ _ _ _ Lnone lvnone 4 fun _ _ => rfl
  pre c := iprop(StableHlo.held (c : Thread nD τ) (Pipeline.ucRefs τ sig) (B5 m c) ∗ Rest c)
  post c := iprop(StableHlo.held (c : Thread nD τ) (Pipeline.ucRefs τ sig) (B6 m c) ∗ Rest c)
  X c := iprop(∃ r, prngReg c r)
  Y c := iprop(∃ r, prngReg c r)
  Z c := Pipeline.unscopedRest (Ix := Unit) (Name := ℕ) (U := UR sig nD τ) (Lvl := ℕ) spec4 c (C5 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (C5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (C5 m c) (C6 m c) ((pdats m 4 c).arrAt · cfg4.N) (exitArr4 m c) (exitRest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 5 as a segment: entered with every unscoped buffer at `B6`, left with them at `B7`. Its windows'
    arrays are taken out of the unscoped buffers on entry and put back, at what the pipeline leaves, on exit; the generator
    register rides through the pipeline's invariant; nothing is owed; the kernel has no semaphore of its own. -/
def reg5 : Pipeline.RegionSeg (pcfgs (F := F)) adm (pdats m) () defs₀ Variants.none Lnone lvnone 5 where
  win := launch5.win.to₀
  block_pos := launch5.block_pos
  stage_whole := launch5.stage_whole
  K := PEmpty
  osem k := k.elim
  ho := Pipeline.OwnSemFacts.none _
  hbody c := (body_obligation5 (C6 m) c).loose
  hwaits := Pipeline.hwaits_of_owed_zero _ _ _ _ Lnone lvnone 5 fun _ _ => rfl
  pre c := iprop(StableHlo.held (c : Thread nD τ) (Pipeline.ucRefs τ sig) (B6 m c) ∗ Rest c)
  post c := iprop(StableHlo.held (c : Thread nD τ) (Pipeline.ucRefs τ sig) (B7 m c) ∗ Rest c)
  X c := iprop(∃ r, prngReg c r)
  Y c := iprop(∃ r, prngReg c r)
  Z c := Pipeline.unscopedRest (Ix := Unit) (Name := ℕ) (U := UR sig nD τ) (Lvl := ℕ) spec5 c (C6 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (C6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (C6 m c) (C7 m c) ((pdats m 5 c).arrAt · cfg5.N) (exitArr5 m c) (exitRest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 6 as a segment: entered with every unscoped buffer at `B7`, left with them at `B8`. Its windows'
    arrays are taken out of the unscoped buffers on entry and put back, at what the pipeline leaves, on exit; the generator
    register rides through the pipeline's invariant; nothing is owed; the kernel has no semaphore of its own. -/
def reg6 : Pipeline.RegionSeg (pcfgs (F := F)) adm (pdats m) () defs₀ Variants.none Lnone lvnone 6 where
  win := launch6.win.to₀
  block_pos := launch6.block_pos
  stage_whole := launch6.stage_whole
  K := PEmpty
  osem k := k.elim
  ho := Pipeline.OwnSemFacts.none _
  hbody c := (body_obligation6 (C7 m) c).loose
  hwaits := Pipeline.hwaits_of_owed_zero _ _ _ _ Lnone lvnone 6 fun _ _ => rfl
  pre c := iprop(StableHlo.held (c : Thread nD τ) (Pipeline.ucRefs τ sig) (B7 m c) ∗ Rest c)
  post c := iprop(StableHlo.held (c : Thread nD τ) (Pipeline.ucRefs τ sig) (B8 m c) ∗ Rest c)
  X c := iprop(∃ r, prngReg c r)
  Y c := iprop(∃ r, prngReg c r)
  Z c := Pipeline.unscopedRest (Ix := Unit) (Name := ℕ) (U := UR sig nD τ) (Lvl := ℕ) spec6 c (C7 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (C7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (C7 m c) (C8 m c) ((pdats m 6 c).arrAt · cfg6.N) (exitArr6 m c) (exitRest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 7 as a segment: entered with every unscoped buffer at `B8`, left with them at `B9`. Its windows'
    arrays are taken out of the unscoped buffers on entry and put back, at what the pipeline leaves, on exit; the generator
    register rides through the pipeline's invariant; nothing is owed; the kernel has no semaphore of its own. -/
def reg7 : Pipeline.RegionSeg (pcfgs (F := F)) adm (pdats m) () defs₀ Variants.none Lnone lvnone 7 where
  win := launch7.win.to₀
  block_pos := launch7.block_pos
  stage_whole := launch7.stage_whole
  K := PEmpty
  osem k := k.elim
  ho := Pipeline.OwnSemFacts.none _
  hbody c := (body_obligation7 (C8 m) c).loose
  hwaits := Pipeline.hwaits_of_owed_zero _ _ _ _ Lnone lvnone 7 fun _ _ => rfl
  pre c := iprop(StableHlo.held (c : Thread nD τ) (Pipeline.ucRefs τ sig) (B8 m c) ∗ Rest c)
  post c := iprop(StableHlo.held (c : Thread nD τ) (Pipeline.ucRefs τ sig) (B9 m c) ∗ Rest c)
  X c := iprop(∃ r, prngReg c r)
  Y c := iprop(∃ r, prngReg c r)
  Z c := Pipeline.unscopedRest (Ix := Unit) (Name := ℕ) (U := UR sig nD τ) (Lvl := ℕ) spec7 c (C8 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (C8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (C8 m c) (C9 m c) ((pdats m 7 c).arrAt · cfg7.N) (exitArr7 m c) (exitRest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 8 as a segment: entered with every unscoped buffer at `B9`, left with them at `B10`. Its windows'
    arrays are taken out of the unscoped buffers on entry and put back, at what the pipeline leaves, on exit; the generator
    register rides through the pipeline's invariant; nothing is owed; the kernel has no semaphore of its own. -/
def reg8 : Pipeline.RegionSeg (pcfgs (F := F)) adm (pdats m) () defs₀ Variants.none Lnone lvnone 8 where
  win := launch8.win.to₀
  block_pos := launch8.block_pos
  stage_whole := launch8.stage_whole
  K := PEmpty
  osem k := k.elim
  ho := Pipeline.OwnSemFacts.none _
  hbody c := (body_obligation8 (C9 m) c).loose
  hwaits := Pipeline.hwaits_of_owed_zero _ _ _ _ Lnone lvnone 8 fun _ _ => rfl
  pre c := iprop(StableHlo.held (c : Thread nD τ) (Pipeline.ucRefs τ sig) (B9 m c) ∗ Rest c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec8 c (C9 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (C9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (C9 m c) (C10 m c) ((pdats m 8 c).arrAt · cfg8.N) (exitArr8 m c) (exitRest8 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The ten items in the program's order. -/
abbrev segs : List (Pipeline.Seg (pcfgs (F := F)) adm (pdats m) () defs₀ Variants.none Lnone lvnone) :=
  [ .host (hostSeg m), .region (reg0 m), .region (reg1 m), .region (reg2 m), .region (reg3 m), .region (reg4 m), .region (reg5 m), .region (reg6 m), .region (reg7 m), .region (reg8 m) ]

theorem main_is_segs (c : Dev nD) : main (F := F) c = Pipeline.Seg.run (segs m) := (main_chain c).trans (by chain_rfl)

set_option backward.isDefEq.respectTransparency.types false in
/-- THE RUN. From any memory with zero counters every weakly fair execution of the program on the TensorCores terminates,
    nothing faulting, and in every final state each unscoped buffer of each core holds the last contents `B10`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B10 m c b) :=
  Pipeline.θ_run_regions_kit (pcfgs (F := F)) adm (pdats m) () cellOf_inj emb₁ defs₀ Variants.none Lnone lvnone m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rest c)) (Tₙ := Tend m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Lnone lvnone fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B10 m c b)
    (hfin := fun c s' => by
      iintro ⟨⟨Hh, -⟩, HSI⟩
      unfold StableHlo.held
      imodintro
      iapply (pointsTo_read_all (Pipeline.ucRefs τ sig) (fun b => (((c : Thread nD τ)).1, b)) (B10 m c) s')
      isplitl [Hh] <;> iassumption)
    (hQ := fun s h c => h c)

/-! ## The arguments end as launched -/

/-- The two reshapes write only the bias rows: every other buffer is as launched after them. -/
theorem B1_keeps (c : Dev nD) (b : Ref sig .tc) (h0 : b ≠ main_v0) (h1 : b ≠ main_v1) : B1 m c (Proc.devRef .tc b) = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-- No item writes an argument array: the last contents at an argument walk back to the launch memory. -/
theorem B10_of_arg (c : Dev nD) (b : Ref sig .tc) (hb : b ∈ ([main_arg0, main_arg1, main_arg2, main_arg3, main_arg4, main_arg5] : List (Ref sig .tc))) :
    B10 m c (Proc.devRef .tc b) = m ((c : Thread nD τ).loc b) := by
  have hne : ∀ r ∈ ([main_v0, main_v1, main_v2, main_v3, main_v4, main_v5, main_v6, main_v7, main_v8, main_v9, main_v10] : List (Ref sig .tc)), b ≠ r := by
    revert b; decide
  rw [B10_of_ne m c b (hne _ (by decide)), B9_of_ne m c b (hne _ (by decide)), B8_of_ne m c b (hne _ (by decide)),
    B7_of_ne m c b (hne _ (by decide)), B6_of_ne m c b (hne _ (by decide)), B5_of_ne m c b (hne _ (by decide)),
    B4_of_ne m c b (hne _ (by decide)), B3_of_ne m c b (hne _ (by decide)), B2_of_ne m c b (hne _ (by decide))]
  exact B1_keeps m c b (hne _ (by decide)) (hne _ (by decide))

/-- THE FRAME: the program runs to the end, faults nowhere, and leaves its six argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_unscoped main_arg0 (by decide))).trans (B10_of_arg m c main_arg0 (by decide)),
     (h c _ (mem_unscoped main_arg1 (by decide))).trans (B10_of_arg m c main_arg1 (by decide)),
     (h c _ (mem_unscoped main_arg2 (by decide))).trans (B10_of_arg m c main_arg2 (by decide)),
     (h c _ (mem_unscoped main_arg3 (by decide))).trans (B10_of_arg m c main_arg3 (by decide)),
     (h c _ (mem_unscoped main_arg4 (by decide))).trans (B10_of_arg m c main_arg4 (by decide)),
     (h c _ (mem_unscoped main_arg5 (by decide))).trans (B10_of_arg m c main_arg5 (by decide))⟩) (run_all m ρ)

end Cert.KernelIdeal.Hand

end
-- ==== Proof.Spec.lean ====
/-
  The function both programs compute, entry by entry over the extended reals.

  A two-layer encoder gives the teleport matrix  z = relu(x · W1ᵀ + b1) · W2ᵀ + b2  ([10000, 10]); eight propagation
  steps  cur ↦ (adj · cur) · c₉ + c₁ · z  start from  cur = z  (c₉, c₁ the two float words both programs carry for
  0.9 and 0.1); the result is the row-wise log-softmax of the last iterate: each entry minus its row's maximum, minus the
  logarithm of the row's sum of exponentials of those differences. Every sum is a plain finite sum of extended reals in the
  order of its index, every constant the extended real its word denotes; nothing here needs the inputs finite.
-/
import Idealize.ShloMosaic.PureOps.Ideal
import Idealize.ShloMosaic.Lib.ValueIdx

noncomputable section

namespace Appnp

open Idealize.ShloMosaic Idealize.ShloMosaic.ValueIdx

/-- A matrix of extended reals, indexed as the programs' arrays are. -/
abbrev Mat (a b : Nat) : Type := (⟨2, ![a, b]⟩ : Shape).Idx → EReal
/-- A vector of extended reals. -/
abbrev Vc (a : Nat) : Type := (⟨1, ![a]⟩ : Shape).Idx → EReal

/-- The words of 0, 0.9 (rounded to f32), 0.1 (rounded to f32) and −∞, as the extended reals they denote. -/
def w0 : EReal := Ideal.ofBits .f32 0x00000000#32
def w9 : EReal := Ideal.ofBits .f32 0x3F666666#32
def w1 : EReal := Ideal.ofBits .f32 0x3DCCCCCD#32
def wInf : EReal := Ideal.ofBits .f32 0xFF800000#32

/-- The hidden layer at (r, k): relu of row r of x against row k of W1, plus b1 k. -/
def hidAt (x : Mat 10000 128) (W1 : Mat 128 128) (b1 : Vc 128) (r : Fin 10000) (k : Fin 128) : EReal :=
  max ((∑ j : Fin 128, x (ix2 r j) * W1 (ix2 k j)) + b1 (ix1 k)) w0

/-- The teleport matrix at (r, q): the hidden row r against row q of W2, plus b2 q. -/
def encAt (x : Mat 10000 128) (W1 : Mat 128 128) (b1 : Vc 128) (W2 : Mat 10 128) (b2 : Vc 10) (r : Fin 10000) (q : Fin 10) : EReal :=
  (∑ k : Fin 128, hidAt x W1 b1 r k * W2 (ix2 q k)) + b2 (ix1 q)

def enc (x : Mat 10000 128) (W1 : Mat 128 128) (b1 : Vc 128) (W2 : Mat 10 128) (b2 : Vc 10) : Mat 10000 10 :=
  fun i => encAt x W1 b1 W2 b2 (i 0) (i 1)

/-- One propagation step at (r, q). -/
def stepAt (adj : Mat 10000 10000) (cur z : Mat 10000 10) (r : Fin 10000) (q : Fin 10) : EReal :=
  (∑ k : Fin 10000, adj (ix2 r k) * cur (ix2 k q)) * w9 + w1 * z (ix2 r q)

def step (adj : Mat 10000 10000) (cur z : Mat 10000 10) : Mat 10000 10 :=
  fun i => stepAt adj cur z (i 0) (i 1)

/-- The maximum of row r, folded from −∞ and once more joined with −∞ (as both programs do). -/
def rowMaxAt (u : Mat 10000 10) (r : Fin 10000) : EReal :=
  max wInf ((Finset.univ : Finset (Fin 10)).fold max wInf fun k => u (ix2 r k))

/-- The row-wise log-softmax at (r, q). -/
def lsmAt (u : Mat 10000 10) (r : Fin 10000) (q : Fin 10) : EReal :=
  (u (ix2 r q) - rowMaxAt u r) - Ideal.log (∑ k : Fin 10, Ideal.exp (u (ix2 r k) - rowMaxAt u r))

def lsm (u : Mat 10000 10) : Mat 10000 10 := fun i => lsmAt u (i 0) (i 1)

/-- The n-th iterate of the propagation from the teleport matrix z. -/
def iter (adj : Mat 10000 10000) (z : Mat 10000 10) : Nat → Mat 10000 10
  | 0 => z
  | n + 1 => step adj (iter adj z n) z

/-- The whole function: encoder, eight steps, log-softmax. -/
def G (x : Mat 10000 128) (adj : Mat 10000 10000) (W1 : Mat 128 128) (b1 : Vc 128) (W2 : Mat 10 128) (b2 : Vc 10) : Mat 10000 10 :=
  lsm (iter adj (enc x W1 b1 W2 b2) 8)

theorem enc_ix2 (x : Mat 10000 128) (W1 : Mat 128 128) (b1 : Vc 128) (W2 : Mat 10 128) (b2 : Vc 10) (r : Fin 10000) (q : Fin 10) :
    enc x W1 b1 W2 b2 (ix2 r q) = encAt x W1 b1 W2 b2 r q := rfl
theorem step_ix2 (adj : Mat 10000 10000) (cur z : Mat 10000 10) (r : Fin 10000) (q : Fin 10) :
    step adj cur z (ix2 r q) = stepAt adj cur z r q := rfl
theorem lsm_ix2 (u : Mat 10000 10) (r : Fin 10000) (q : Fin 10) : lsm u (ix2 r q) = lsmAt u r q := rfl

end Appnp

end
-- ==== Proof.LibPlainDot.lean ====
/-
  A plain matrix product [M, K] × [K, N] → [M, N] (no batch axis, the left operand's axis 1 contracted with the right
  operand's axis 0), read at an index over the extended reals: the entry (r, q) is the sum over k of lhs (r, k) · rhs (k, q),
  for a kernel's `tpu.matmul` into a zero accumulator and for the host's `dot_general` alike. Stated for any M, K, N and any
  operand formats, over the library's dimension numbers `DotDims.plain`; a printed record with the same fields is that by `rfl`.
-/
import Idealize.ShloMosaic.PureOps.Ideal.Laws
import Idealize.ShloMosaic.Lib.ValueIdx

namespace Idealize.ShloMosaic.LibPlainDot

open Idealize.ShloMosaic.ValueIdx

variable {φ₁ φ₂ : FTy}

/-- The left operand's index at output (r, q) and contraction coordinate k is (r, k). -/
theorem plain_lhsIdx (M K N : Nat) (r : Fin M) (q : Fin N) (k : Fin K) :
    (DotDims.plain M K N).lhsIdx (ix2 r q) ((contrEquiv1 (DotDims.plain M K N) K rfl rfl).symm k) = ix2 r k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 r q) _).trans hk

/-- The right operand's index at output (r, q) and contraction coordinate k is (k, q). -/
theorem plain_rhsIdx (M K N : Nat) (r : Fin M) (q : Fin N) (k : Fin K) :
    (DotDims.plain M K N).rhsIdx (ix2 r q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 r q) _).trans hk
  | ⟨1, _⟩ => rfl

/-- A kernel's matrix product into a zero accumulator, at (r, q): the sum over k of lhs (r, k) · rhs (k, q). -/
theorem matmul_plain_apply (M K N : Nat) (prec : Option ContractPrecision)
    (lhs : FVec Ideal ⟨2, ![M, K]⟩ φ₁) (rhs : FVec Ideal ⟨2, ![K, N]⟩ φ₂) (r : Fin M) (q : Fin N) :
    FloatOps.matmul (DotDims.plain M K N) prec lhs rhs (constant ⟨2, ![M, N]⟩ .f32 0x00000000#32) (ix2 r q)
      = ∑ k : Fin K, lhs (ix2 r k) * rhs (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

/-- The host's `dot_general` of the same dimension numbers, at (r, q): the same sum. -/
theorem dotGeneral_plain_apply (M K N : Nat) (prec : Option ContractPrecision) (sched : HostSchedule)
    (lhs : FVec Ideal ⟨2, ![M, K]⟩ φ₁) (rhs : FVec Ideal ⟨2, ![K, N]⟩ φ₂) (r : Fin M) (q : Fin N) :
    FloatOps.dotGeneral (DotDims.plain M K N) prec sched lhs rhs (ix2 r q)
      = ∑ k : Fin K, lhs (ix2 r k) * rhs (ix2 k q) := by
  rw [Ideal.dotGeneral_apply, ← Equiv.sum_comp (contrEquiv1 (DotDims.plain M K N) K rfl rfl).symm]
  refine Finset.sum_congr rfl fun k _ => ?_
  rw [plain_lhsIdx, plain_rhsIdx]

end Idealize.ShloMosaic.LibPlainDot
-- ==== Proof.LibDotRhsT.lean ====
/-
  A matrix product with the right operand given by rows, [M, K] × [N, K] → [M, N] (no batch axis, axis 1 of BOTH operands
  contracted), read at an index over the extended reals: the entry (r, q) is the sum over k of lhs (r, k) · rhs (q, k),
  for a kernel's matrix product into a zero accumulator and for the host's general dot product alike. Stated for any M, K, N and any
  operand formats, over the library's dimension numbers `DotDims.transposedRhs`; a printed record with the same fields is
  that by `rfl`.
-/
import Idealize.ShloMosaic.PureOps.Ideal.Laws
import Idealize.ShloMosaic.Lib.ValueIdx

namespace Idealize.ShloMosaic.LibDotRhsT

open Idealize.ShloMosaic.ValueIdx

variable {φ₁ φ₂ : FTy}

/-- The left operand's index at output (r, q) and contraction coordinate k is (r, k). -/
theorem rhsT_lhsIdx (M K N : Nat) (r : Fin M) (q : Fin N) (k : Fin K) :
    (DotDims.transposedRhs M K N).lhsIdx (ix2 r q) ((contrEquiv1 (DotDims.transposedRhs M K N) K rfl rfl).symm k) = ix2 r k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl (ix2 r q) _).trans hk

/-- The right operand's index at output (r, q) and contraction coordinate k is (q, k). -/
theorem rhsT_rhsIdx (M K N : Nat) (r : Fin M) (q : Fin N) (k : Fin K) :
    (DotDims.transposedRhs M K N).rhsIdx (ix2 r q) ((contrEquiv1 (DotDims.transposedRhs M K N) K rfl rfl).symm k) = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl (ix2 r q) _).trans hk

/-- A kernel's product with a row-given right operand into a zero accumulator, at (r, q): the sum over k of
    lhs (r, k) · rhs (q, k). -/
theorem matmul_rhsT_apply (M K N : Nat) (prec : Option ContractPrecision)
    (lhs : FVec Ideal ⟨2, ![M, K]⟩ φ₁) (rhs : FVec Ideal ⟨2, ![N, K]⟩ φ₂) (r : Fin M) (q : Fin N) :
    FloatOps.matmul (DotDims.transposedRhs M K N) prec lhs rhs (constant ⟨2, ![M, N]⟩ .f32 0x00000000#32) (ix2 r q)
      = ∑ k : Fin K, lhs (ix2 r k) * rhs (ix2 q k) := by
  rw [Ideal.matmul_constant_zero_apply, ← Equiv.sum_comp (contrEquiv1 (DotDims.transposedRhs M K N) K rfl rfl).symm]
  refine Finset.sum_congr rfl fun k _ => ?_
  rw [rhsT_lhsIdx, rhsT_rhsIdx]

/-- The host's general dot product of the same dimension numbers, at (r, q): the same sum. -/
theorem dotGeneral_rhsT_apply (M K N : Nat) (prec : Option ContractPrecision) (sched : HostSchedule)
    (lhs : FVec Ideal ⟨2, ![M, K]⟩ φ₁) (rhs : FVec Ideal ⟨2, ![N, K]⟩ φ₂) (r : Fin M) (q : Fin N) :
    FloatOps.dotGeneral (DotDims.transposedRhs M K N) prec sched lhs rhs (ix2 r q)
      = ∑ k : Fin K, lhs (ix2 r k) * rhs (ix2 q k) := by
  rw [Ideal.dotGeneral_apply, ← Equiv.sum_comp (contrEquiv1 (DotDims.transposedRhs M K N) K rfl rfl).symm]
  refine Finset.sum_congr rfl fun k _ => ?_
  rw [rhsT_lhsIdx, rhsT_rhsIdx]

end Idealize.ShloMosaic.LibDotRhsT
-- ==== Proof.LibColumns.lean ====
/-
  Re-layouts of small ranks read at an index, in the style of the value library's own lemmas: a block with two
  leading unit axes viewed as a matrix and back, a vector made a column, a column broadcast over the columns of a
  matrix, and a row sum of a matrix at the ideal values as a plain sum over the row.
-/
import Idealize.ShloMosaic.Lib.ValueLayout
import Idealize.ShloMosaic.PureOps.Ideal.Laws

namespace Idealize.ShloMosaic.ValueIdx

open Idealize.ShloMosaic

variable {α : Type}

/-- A `[1, 1, a, b]` block viewed `[a, b]` reads, at `(p, q)`, the block at `(0, 0, p, q)`. -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp)

/-- An `[a, b]` matrix stored as a `[1, 1, a, b]` block reads, at `(u, v, p, q)`, the matrix at `(p, q)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (p : Fin a) (q : Fin b) :
    shapeCast ⟨4, ![1, 1, a, b]⟩ x h (ix4 u v p q) = x (ix2 p q) :=
  shapeCast_apply x h _ _ (by
    have hu : u.val = 0 := by omega
    have hv : v.val = 0 := by omega
    rw [Shape.rowMajor_val_four, Shape.rowMajor_val_two]
    show p.val * b + q.val = ((u.val * 1 + v.val) * a + p.val) * b + q.val
    rw [hu, hv]; simp)

/-- An `[a]` vector made a column `[a, 1]` reads, at `(p, z)`, the vector at `p`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz]; simp)

/-- A column `[a, 1]` broadcast to `[a, b]` reads, at `(p, q)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- At the ideal values the sum of a matrix along its rows is, at row `p`, the plain sum of the row's entries. -/
theorem rowSum_apply {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ X acc h hφ hacc (ix1 p) = ∑ k : Fin b, X (ix2 p k) :=
  (Ideal.multiReduction_add_single X acc h hφ hacc (ix1 p)).trans
    (Finset.sum_congr rfl fun k _ => congrArg X (funext fun ax => Fin.ext (by
      match ax with
      | ⟨0, _⟩ => rfl
      | ⟨1, _⟩ => rfl)))

/-- At the ideal values the maximum of a matrix along its rows is, at row `p`, the fold of `max` over the row from the
    initial word's value. -/
theorem rowMax_apply {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ X acc h hφ hacc (ix1 p)
      = (Finset.univ : Finset (Fin b)).fold max (Ideal.ofBits φ acc) fun k => X (ix2 p k) :=
  (Ideal.multiReduction_maximumf_single X acc h hφ hacc (ix1 p)).trans
    (congrArg (Finset.fold max (Ideal.ofBits φ acc) · Finset.univ) (funext fun k => congrArg X (funext fun ax => Fin.ext (by
      match ax with
      | ⟨0, _⟩ => rfl
      | ⟨1, _⟩ => rfl))))

end Idealize.ShloMosaic.ValueIdx
-- ==== Proof.KernelPay.lean ====
/-
  What each body stores, read entry by entry over the extended reals (p the row inside the block, q the column).

  The encoder's block at (p, q) is  ∑ₖ max(∑ⱼ x(p,j)·W1(k,j) + b1(k), 0) · W2(q,k) + b2(q):  both products contract the
  second axis of both operands, the biases are one-row arrays repeated down the rows, and the zero is the word of 0.
  A propagation block at (p, q) is  (∑ₖ adj(p,k)·cur(k,q)) · c₉ + c₁ · z(p,q),  the product a plain one into a zero
  accumulator, c₉ and c₁ the words of 0.9 and 0.1. The last block is the row-wise log-softmax of a propagation block u:
  with  m(p) = max(−∞, fold of max over row p from −∞),  the entry is  (u(p,q) − m(p)) − log ∑ₖ exp(u(p,k) − m(p)).
  Sums are finite sums of extended reals in the order of their index; no entry is assumed finite.
-/
import proofs.«175698_g31370441130260_cont_8to1_b_1575_2_alg».proof.Proof.Gen.KernelIdeal.Skeleton
import proofs.«175698_g31370441130260_cont_8to1_b_1575_2_alg».proof.Proof.Spec
import proofs.«175698_g31370441130260_cont_8to1_b_1575_2_alg».proof.Proof.LibPlainDot
import proofs.«175698_g31370441130260_cont_8to1_b_1575_2_alg».proof.Proof.LibDotRhsT
import proofs.«175698_g31370441130260_cont_8to1_b_1575_2_alg».proof.Proof.LibColumns

noncomputable section

namespace Cert.KernelIdeal.Pay

open Cert.KernelIdeal Cert.KernelIdeal.Gen Idealize.ShloMosaic Idealize.ShloMosaic.ValueIdx

/-! ## The three matrix products at an index -/

/-- [1000,128] against the rows of [128,128]: entry (p, k) is ∑ⱼ lhs(p,j)·rhs(k,j). -/
theorem matmul_enc1_apply (lhs : FVec Ideal S1000x128 .f32) (rhs : FVec Ideal S128x128 .f32) (p : Fin 1000) (k : Fin 128) :
    matmul dot_S1000x128_S128x128_S1000x128_1_1_0_0_n_n none lhs rhs (constant S1000x128 .f32 0x00000000#32) (ix2 p k)
      = ∑ j : Fin 128, lhs (ix2 p j) * rhs (ix2 k j) :=
  LibDotRhsT.matmul_rhsT_apply 1000 128 128 none lhs rhs p k

/-- [1000,128] against the rows of [10,128]: entry (p, q) is ∑ₖ lhs(p,k)·rhs(q,k). -/
theorem matmul_enc2_apply (lhs : FVec Ideal S1000x128 .f32) (rhs : FVec Ideal S10x128 .f32) (p : Fin 1000) (q : Fin 10) :
    matmul dot_S1000x128_S10x128_S1000x10_1_1_0_0_n_n none lhs rhs (constant S1000x10 .f32 0x00000000#32) (ix2 p q)
      = ∑ k : Fin 128, lhs (ix2 p k) * rhs (ix2 q k) :=
  LibDotRhsT.matmul_rhsT_apply 1000 128 10 none lhs rhs p q

/-- [400,10000] times [10000,10]: entry (p, q) is ∑ₖ lhs(p,k)·rhs(k,q). -/
theorem matmul_prop_apply (lhs : FVec Ideal S400x10000 .f32) (rhs : FVec Ideal S10000x10 .f32) (p : Fin 400) (q : Fin 10) :
    matmul dot_S400x10000_S10000x10_S400x10_1_0_0_1_n_n none lhs rhs (constant S400x10 .f32 0x00000000#32) (ix2 p q)
      = ∑ k : Fin 10000, lhs (ix2 p k) * rhs (ix2 k q) :=
  LibPlainDot.matmul_plain_apply 400 10000 10 none lhs rhs p q

/-- The exponential and the logarithm of a vector are taken entry by entry. -/
theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl

/-! ## The encoder block -/

theorem pay_enc (v0 : Vec Ideal S1000x128 .f32) (v1 : Vec Ideal S128x128 .f32) (v3 : Vec Ideal S1x128 .f32)
    (v9 : Vec Ideal S10x128 .f32) (v11 : Vec Ideal S1x10 .f32) (p : Fin 1000) (q : Fin 10) :
    k0_pay1 (F := Ideal) v0 v1 v3 v9 v11 (ix2 p q)
      = (∑ k : Fin 128, max ((∑ j : Fin 128, v0 (ix2 p j) * v1 (ix2 k j)) + v3 (ix2 (0 : Fin 1) k)) Appnp.w0 * v9 (ix2 q k))
          + v11 (ix2 (0 : Fin 1) q) := by
  unfold k0_pay1
  simp only [shapeCast_self, addf_apply]
  refine congrArg₂ (fun a b : EReal => a + b) ?_ (broadcastTo_1b_ab_apply v11 broadcasts_S1x10_S1000x10 p q)
  refine (matmul_enc2_apply _ v9 p q).trans (Finset.sum_congr rfl fun k _ => ?_)
  refine congrArg (fun s : EReal => s * v9 (ix2 q k)) ?_
  exact congrArg₂ (fun a b : EReal => max (a + b) Appnp.w0) (matmul_enc1_apply v0 v1 p k)
    (broadcastTo_1b_ab_apply v3 broadcasts_S1x128_S1000x128 p k)

/-! ## A propagation block -/

/-- The propagation block at (p, q). -/
def uAt (v0 : Vec Ideal S400x10000 .f32) (v1 : Vec Ideal S10000x10 .f32) (v6 : Vec Ideal S400x10 .f32) (p : Fin 400) (q : Fin 10) : EReal :=
  (∑ k : Fin 10000, v0 (ix2 p k) * v1 (ix2 k q)) * Appnp.w9 + Appnp.w1 * v6 (ix2 p q)

/-- The maximum of row p of the propagation block, folded from −∞ and joined once more with −∞. -/
def mxAt (v0 : Vec Ideal S400x10000 .f32) (v1 : Vec Ideal S10000x10 .f32) (v6 : Vec Ideal S400x10 .f32) (p : Fin 400) : EReal :=
  max Appnp.wInf ((Finset.univ : Finset (Fin 10)).fold max Appnp.wInf fun k => uAt v0 v1 v6 p k)

theorem pay_prop1 (v0 : Vec Ideal S400x10000 .f32) (v1 : Vec Ideal S10000x10 .f32) (v6 : Vec Ideal S400x10 .f32) (p : Fin 400) (q : Fin 10) :
    k1_pay1 (F := Ideal) v0 v1 v6 (ix2 p q) = (∑ k : Fin 10000, v0 (ix2 p k) * v1 (ix2 k q)) * Appnp.w9 + Appnp.w1 * v6 (ix2 p q) := by
  unfold k1_pay1
  simp only [shapeCast_self]
  exact congrArg (fun s : EReal => s * Appnp.w9 + Appnp.w1 * v6 (ix2 p q)) (matmul_prop_apply v0 v1 p q)

/-- Step 2 stores the same function of its three blocks as step 1. -/
theorem pay_prop2 (v0 : Vec Ideal S400x10000 .f32) (v1 : Vec Ideal S10000x10 .f32) (v6 : Vec Ideal S400x10 .f32) (p : Fin 400) (q : Fin 10) :
    k2_pay1 (F := Ideal) v0 v1 v6 (ix2 p q) = (∑ k : Fin 10000, v0 (ix2 p k) * v1 (ix2 k q)) * Appnp.w9 + Appnp.w1 * v6 (ix2 p q) :=
  pay_prop1 v0 v1 v6 p q

/-- Step 3 stores the same function of its three blocks as step 1. -/
theorem pay_prop3 (v0 : Vec Ideal S400x10000 .f32) (v1 : Vec Ideal S10000x10 .f32) (v6 : Vec Ideal S400x10 .f32) (p : Fin 400) (q : Fin 10) :
    k3_pay1 (F := Ideal) v0 v1 v6 (ix2 p q) = (∑ k : Fin 10000, v0 (ix2 p k) * v1 (ix2 k q)) * Appnp.w9 + Appnp.w1 * v6 (ix2 p q) :=
  pay_prop1 v0 v1 v6 p q

/-- Step 4 stores the same function of its three blocks as step 1. -/
theorem pay_prop4 (v0 : Vec Ideal S400x10000 .f32) (v1 : Vec Ideal S10000x10 .f32) (v6 : Vec Ideal S400x10 .f32) (p : Fin 400) (q : Fin 10) :
    k4_pay1 (F := Ideal) v0 v1 v6 (ix2 p q) = (∑ k : Fin 10000, v0 (ix2 p k) * v1 (ix2 k q)) * Appnp.w9 + Appnp.w1 * v6 (ix2 p q) :=
  pay_prop1 v0 v1 v6 p q

/-- Step 5 stores the same function of its three blocks as step 1. -/
theorem pay_prop5 (v0 : Vec Ideal S400x10000 .f32) (v1 : Vec Ideal S10000x10 .f32) (v6 : Vec Ideal S400x10 .f32) (p : Fin 400) (q : Fin 10) :
    k5_pay1 (F := Ideal) v0 v1 v6 (ix2 p q) = (∑ k : Fin 10000, v0 (ix2 p k) * v1 (ix2 k q)) * Appnp.w9 + Appnp.w1 * v6 (ix2 p q) :=
  pay_prop1 v0 v1 v6 p q

/-- Step 6 stores the same function of its three blocks as step 1. -/
theorem pay_prop6 (v0 : Vec Ideal S400x10000 .f32) (v1 : Vec Ideal S10000x10 .f32) (v6 : Vec Ideal S400x10 .f32) (p : Fin 400) (q : Fin 10) :
    k6_pay1 (F := Ideal) v0 v1 v6 (ix2 p q) = (∑ k : Fin 10000, v0 (ix2 p k) * v1 (ix2 k q)) * Appnp.w9 + Appnp.w1 * v6 (ix2 p q) :=
  pay_prop1 v0 v1 v6 p q

/-- Step 7 stores the same function of its three blocks as step 1. -/
theorem pay_prop7 (v0 : Vec Ideal S400x10000 .f32) (v1 : Vec Ideal S10000x10 .f32) (v6 : Vec Ideal S400x10 .f32) (p : Fin 400) (q : Fin 10) :
    k7_pay1 (F := Ideal) v0 v1 v6 (ix2 p q) = (∑ k : Fin 10000, v0 (ix2 p k) * v1 (ix2 k q)) * Appnp.w9 + Appnp.w1 * v6 (ix2 p q) :=
  pay_prop1 v0 v1 v6 p q

/-! ## The last block: a propagation block, then the row-wise log-softmax -/

/-- Row by row, −∞ joined with the row's maximum folded from −∞. -/
def rowTop (u : FVec Ideal S400x10 .f32) : FVec Ideal S400 .f32 :=
  maximumf (broadcast S400 (Scalar.ofBits (F := Ideal) .f32 0xFF800000#32))
    (multiReduction (F := Ideal) .maximumf [1] S400 u 0xFF800000#32 reduces_S400x10_S400 (.inl rfl) rfl)

theorem rowTop_apply (u : FVec Ideal S400x10 .f32) (p : Fin 400) :
    rowTop u (ix1 p) = max Appnp.wInf ((Finset.univ : Finset (Fin 10)).fold max Appnp.wInf fun k => u (ix2 p k)) :=
  congrArg (max Appnp.wInf) (rowMax_apply u 0xFF800000#32 reduces_S400x10_S400 (.inl rfl) rfl p)

/-- Every entry minus its row's top. -/
def shifted (u : FVec Ideal S400x10 .f32) : FVec Ideal S400x10 .f32 :=
  subf u (broadcastTo S400x10 (shapeCast S400x1 (rowTop u) shapeCasts_S400_S400x1) broadcasts_S400x1_S400x10)

theorem shifted_apply (u : FVec Ideal S400x10 .f32) (p : Fin 400) (q : Fin 10) :
    shifted u (ix2 p q) = u (ix2 p q) - rowTop u (ix1 p) :=
  congrArg (fun m : EReal => u (ix2 p q) - m)
    ((broadcastTo_a1_ab_apply _ broadcasts_S400x1_S400x10 p q).trans
      (shapeCast_a_a1_apply (rowTop u) shapeCasts_S400_S400x1 p (0 : Fin 1)))

/-- The shifted entries minus the logarithm of their row's sum of exponentials. -/
def lsmTail (u : FVec Ideal S400x10 .f32) : FVec Ideal S400x10 .f32 :=
  subf (shifted u)
    (broadcastTo S400x10
      (log (shapeCast S400x1
        (multiReduction (F := Ideal) .add [1] S400 (exp (shifted u)) 0x00000000#32 reduces_S400x10_S400 (.inl rfl) rfl)
        shapeCasts_S400_S400x1))
      broadcasts_S400x1_S400x10)

theorem lsmTail_apply (u : FVec Ideal S400x10 .f32) (p : Fin 400) (q : Fin 10) :
    lsmTail u (ix2 p q) = shifted u (ix2 p q) - Ideal.log (∑ k : Fin 10, Ideal.exp (shifted u (ix2 p k))) :=
  congrArg (fun m : EReal => shifted u (ix2 p q) - m)
    ((broadcastTo_a1_ab_apply _ broadcasts_S400x1_S400x10 p q).trans
      (congrArg Ideal.log
        ((shapeCast_a_a1_apply _ shapeCasts_S400_S400x1 p (0 : Fin 1)).trans
          (rowSum_apply (exp (shifted u)) 0x00000000#32 reduces_S400x10_S400 (.inl rfl) rfl p))))

/-- The last body is the log-softmax tail of the propagation block. -/
theorem k8_pay1_eq (v0 : Vec Ideal S400x10000 .f32) (v1 : Vec Ideal S10000x10 .f32) (v6 : Vec Ideal S400x10 .f32) :
    k8_pay1 (F := Ideal) v0 v1 v6 = lsmTail (k1_pay1 (F := Ideal) v0 v1 v6) := rfl

theorem pay_last (v0 : Vec Ideal S400x10000 .f32) (v1 : Vec Ideal S10000x10 .f32) (v6 : Vec Ideal S400x10 .f32) (p : Fin 400) (q : Fin 10) :
    k8_pay1 (F := Ideal) v0 v1 v6 (ix2 p q)
      = (uAt v0 v1 v6 p q - mxAt v0 v1 v6 p) - Ideal.log (∑ k : Fin 10, Ideal.exp (uAt v0 v1 v6 p k - mxAt v0 v1 v6 p)) := by
  have hu : ∀ (a : Fin 400) (b : Fin 10), k1_pay1 (F := Ideal) v0 v1 v6 (ix2 a b) = uAt v0 v1 v6 a b :=
    fun a b => pay_prop1 v0 v1 v6 a b
  have hm : rowTop (k1_pay1 (F := Ideal) v0 v1 v6) (ix1 p) = mxAt v0 v1 v6 p :=
    (rowTop_apply _ p).trans (congrArg (fun f : Fin 10 → EReal => max Appnp.wInf ((Finset.univ : Finset (Fin 10)).fold max Appnp.wInf f))
      (funext fun k => hu p k))
  have hs : ∀ b : Fin 10, shifted (k1_pay1 (F := Ideal) v0 v1 v6) (ix2 p b) = uAt v0 v1 v6 p b - mxAt v0 v1 v6 p :=
    fun b => (shifted_apply _ p b).trans (congrArg₂ (fun x m : EReal => x - m) (hu p b) hm)
  refine (congrFun (k8_pay1_eq v0 v1 v6) (ix2 p q)).trans ((lsmTail_apply _ p q).trans ?_)
  exact congrArg₂ (fun x s : EReal => x - Ideal.log s) (hs q) (Finset.sum_congr rfl fun k _ => congrArg Ideal.exp (hs k))

end Cert.KernelIdeal.Pay

end
-- ==== Proof.KernelArrEnc.lean ====
/-
  The encoder, from its blocks to its array.

  The grid has 10 points. At point t the stored block is the two-layer encoder of feature rows 1000·t … 1000·t + 999: the
  feature window's block index is (t, 0), the two weight matrices' and the two one-row biases' are (0, 0) at every point, the
  output window's is (t, 0), so entry (p, q) of the output block is entry (1000·t + p, q) of the output array and reads feature
  row 1000·t + p. Every point writes its block back and row r lies in the block of point r / 1000; hence after the last point
  the output array is  relu(x · W1ᵀ + b1) · W2ᵀ + b2  of the arrays the encoder found, entry by entry.
-/
import proofs.«175698_g31370441130260_cont_8to1_b_1575_2_alg».proof.Proof.RegionEnc
import proofs.«175698_g31370441130260_cont_8to1_b_1575_2_alg».proof.Proof.KernelPay
import Idealize.ShloMosaic.Lib.Pipeline.Value

noncomputable section

namespace Cert.KernelIdeal.Arr

open Cert.KernelIdeal Cert.KernelIdeal.Gen Cert.KernelIdeal.Hand Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The block index of each window at grid point t: the feature rows and the output rows move with t, the two weight
    matrices and the two one-row biases stay whole. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the feature block at point t is row 1000·t + p of the feature matrix. -/
theorem x_rows0 (c : Dev nD) (t : Fin cfg0.N) (p : Fin 1000) (j : Fin 128) (r : Fin 10000) (hr : r.val = 1000 * t.val + p.val) :
    (iblk0 V c 0 t : Vec Ideal S1000x128 .f32) (ix2 p j) = (V c main_arg0 : Appnp.Mat 10000 128) (ix2 r j) := by
  obtain ⟨e00, e01, -, -, -, -, -, -, -, -, -, -⟩ := idx0 t
  unfold iblk0
  rw [View.read_apply]
  refine congrArg (V c main_arg0 : Appnp.Mat 10000 128) (funext fun ax => Fin.ext ?_)
  match ax with
  | ⟨0, _⟩ => show win0_0.index t (0 : Fin 2) * 1000 + 1 * p.val = r.val; rw [e00, hr]; omega
  | ⟨1, _⟩ => show win0_0.index t (1 : Fin 2) * 128 + 1 * j.val = j.val; rw [e01]; omega

/-- The first-layer weights' one block is the whole matrix. -/
theorem w1_whole0 (c : Dev nD) (t : Fin cfg0.N) (k : Fin 128) (j : Fin 128) :
    (iblk0 V c 1 t : Vec Ideal S128x128 .f32) (ix2 k j) = (V c main_arg2 : Appnp.Mat 128 128) (ix2 k j) := by
  obtain ⟨-, -, e10, e11, e20, e21, e30, e31, e40, e41, -, -⟩ := idx0 t
  unfold iblk0
  rw [View.read_apply]
  refine congrArg (V c main_arg2 : Appnp.Mat 128 128) (funext fun ax => Fin.ext ?_)
  match ax with
  | ⟨0, _⟩ => show win0_1.index t (0 : Fin 2) * 128 + 1 * k.val = k.val; rw [e10]; omega
  | ⟨1, _⟩ => show win0_1.index t (1 : Fin 2) * 128 + 1 * j.val = j.val; rw [e11]; omega

/-- The first-layer bias's one block is the whole one-row array. -/
theorem b1_whole0 (c : Dev nD) (t : Fin cfg0.N) (z : Fin 1) (k : Fin 128) :
    (iblk0 V c 2 t : Vec Ideal S1x128 .f32) (ix2 z k) = (V c main_v0 : Appnp.Mat 1 128) (ix2 z k) := by
  obtain ⟨-, -, e10, e11, e20, e21, e30, e31, e40, e41, -, -⟩ := idx0 t
  unfold iblk0
  rw [View.read_apply]
  refine congrArg (V c main_v0 : Appnp.Mat 1 128) (funext fun ax => Fin.ext ?_)
  match ax with
  | ⟨0, _⟩ => show win0_2.index t (0 : Fin 2) * 1 + 1 * z.val = z.val; rw [e20]; omega
  | ⟨1, _⟩ => show win0_2.index t (1 : Fin 2) * 128 + 1 * k.val = k.val; rw [e21]; omega

/-- The second-layer weights' one block is the whole matrix. -/
theorem w2_whole0 (c : Dev nD) (t : Fin cfg0.N) (q : Fin 10) (k : Fin 128) :
    (iblk0 V c 3 t : Vec Ideal S10x128 .f32) (ix2 q k) = (V c main_arg4 : Appnp.Mat 10 128) (ix2 q k) := by
  obtain ⟨-, -, e10, e11, e20, e21, e30, e31, e40, e41, -, -⟩ := idx0 t
  unfold iblk0
  rw [View.read_apply]
  refine congrArg (V c main_arg4 : Appnp.Mat 10 128) (funext fun ax => Fin.ext ?_)
  match ax with
  | ⟨0, _⟩ => show win0_3.index t (0 : Fin 2) * 10 + 1 * q.val = q.val; rw [e30]; omega
  | ⟨1, _⟩ => show win0_3.index t (1 : Fin 2) * 128 + 1 * k.val = k.val; rw [e31]; omega

/-- The second-layer bias's one block is the whole one-row array. -/
theorem b2_whole0 (c : Dev nD) (t : Fin cfg0.N) (z : Fin 1) (q : Fin 10) :
    (iblk0 V c 4 t : Vec Ideal S1x10 .f32) (ix2 z q) = (V c main_v1 : Appnp.Mat 1 10) (ix2 z q) := by
  obtain ⟨-, -, e10, e11, e20, e21, e30, e31, e40, e41, -, -⟩ := idx0 t
  unfold iblk0
  rw [View.read_apply]
  refine congrArg (V c main_v1 : Appnp.Mat 1 10) (funext fun ax => Fin.ext ?_)
  match ax with
  | ⟨0, _⟩ => show win0_4.index t (0 : Fin 2) * 1 + 1 * z.val = z.val; rw [e40]; omega
  | ⟨1, _⟩ => show win0_4.index t (1 : Fin 2) * 10 + 1 * q.val = q.val; rw [e41]; omega

/-- Entry (p, q) of the output block at point t sits at (1000·t + p, q) of the output array. -/
theorem out_rows0 (t : Fin cfg0.N) (p : Fin 1000) (q : Fin 10) (r : Fin 10000) (hr : r.val = 1000 * t.val + p.val) :
    ((cfg0.win 5).blk t).view.emb (ix2 p q) = (ix2 r q : S10000x10.Idx) := by
  obtain ⟨-, -, -, -, -, -, -, -, -, -, e50, e51⟩ := idx0 t
  funext ax; apply Fin.ext
  match ax with
  | ⟨0, _⟩ => show win0_5.index t (0 : Fin 2) * 1000 + 1 * p.val = r.val; rw [e50, hr]; omega
  | ⟨1, _⟩ => show win0_5.index t (1 : Fin 2) * 10 + 1 * q.val = q.val; rw [e51]; omega

/-- What point t writes back is block t of the encoder's function of the arrays it finds. -/
theorem flushed0_eq (c : Dev nD) (t : Fin cfg0.N) :
    (dat0 V c).flushed 5 t
      = ((cfg0.win 5).blk t).view.read (Elt Ideal) (Appnp.enc (V c main_arg0) (V c main_arg2) (fun i => V c main_v0 (ix2 (0 : Fin 1) (i 0))) (V c main_arg4) (fun i => V c main_v1 (ix2 (0 : Fin 1) (i 0)))) := by
  show (cfg0.win 5).cut (grid0.coords t) ((dat0 V c).after 5 t) = _
  rw [after0_5]
  unfold out0_5
  rw [View.canon_unit_zero hz0]
  simp only [View.ld_unit_zero (S := S1000x128) hz0, View.ld_unit_zero (S := S128x128) hz0, View.ld_unit_zero (S := S1x128) hz0,
    View.ld_unit_zero (S := S10x128) hz0, View.ld_unit_zero (S := S1x10) hz0]
  funext j
  obtain ⟨p, q, rfl⟩ : ∃ (p : Fin 1000) (q : Fin 10), j = ix2 p q := ⟨j 0, j 1, eq_ix2 j⟩
  have ht : t.val < 10 := lt_of_lt_of_eq t.isLt N_0
  have hp : p.val < 1000 := p.isLt
  obtain ⟨r, hr⟩ : ∃ r : Fin 10000, r.val = 1000 * t.val + p.val := ⟨⟨1000 * t.val + p.val, by omega⟩, rfl⟩
  show k0_pay1 (F := Ideal) (iblk0 V c 0 t) (iblk0 V c 1 t) (iblk0 V c 2 t) (iblk0 V c 3 t) (iblk0 V c 4 t) (ix2 p q)
    = (Appnp.enc (V c main_arg0) (V c main_arg2) (fun i => V c main_v0 (ix2 (0 : Fin 1) (i 0))) (V c main_arg4) (fun i => V c main_v1 (ix2 (0 : Fin 1) (i 0)))) (((cfg0.win 5).blk t).view.emb (ix2 p q))
  rw [out_rows0 t p q r hr, Appnp.enc_ix2]
  refine (pay_enc _ _ _ _ _ p q).trans ?_
  unfold Appnp.encAt Appnp.hidAt
  refine congrArg₂ (fun s b : EReal => s + b) (Finset.sum_congr rfl fun k _ => ?_) (b2_whole0 V c t (0 : Fin 1) q)
  refine congrArg₂ (fun h w : EReal => h * w) ?_ (w2_whole0 V c t q k)
  refine congrArg₂ (fun s b : EReal => max (s + b) Appnp.w0) (Finset.sum_congr rfl fun jj _ => ?_) (b1_whole0 V c t (0 : Fin 1) k)
  exact congrArg₂ (fun a b : EReal => a * b) (x_rows0 V c t p jj r hr) (w1_whole0 V c t k jj)

/-- Every row of the output array lies in the block of the point that is its quotient by 1000. -/
theorem cover0 (i : S10000x10.Idx) :
    ∃ t : Fin cfg0.N, (cfg0.win 5).flush t = true ∧ i ∈ ((cfg0.win 5).blk t).view.set := by
  have hi0 : (i 0).val < 10000 := (i 0).isLt
  have hi1 : (i 1).val < 10 := (i 1).isLt
  have hN : cfg0.N = 10 := N_0
  have hlt : (i 0).val / 1000 < cfg0.N := by rw [hN]; omega
  refine ⟨⟨(i 0).val / 1000, hlt⟩, flush0_5 _, ?_⟩
  obtain ⟨-, -, -, -, -, -, -, -, -, -, e50, e51⟩ := idx0 ⟨(i 0).val / 1000, hlt⟩
  show i ∈ ((View.whole main_v2).slice (win0_5.rect ⟨(i 0).val / 1000, hlt⟩)).set
  rw [View.set_slice_whole, Rect.mem_set_unit]
  intro a
  match a with
  | ⟨0, _⟩ =>
    show win0_5.index _ (0 : Fin 2) * 1000 ≤ (i 0).val ∧ (i 0).val < win0_5.index _ (0 : Fin 2) * 1000 + 1000
    rw [e50]; show (i 0).val / 1000 * 1000 ≤ (i 0).val ∧ (i 0).val < (i 0).val / 1000 * 1000 + 1000; omega
  | ⟨1, _⟩ =>
    show win0_5.index _ (1 : Fin 2) * 10 ≤ (i 1).val ∧ (i 1).val < win0_5.index _ (1 : Fin 2) * 10 + 10
    rw [e51]; omega

/-- The encoder's output array after the last point: the two-layer encoder of the arrays it finds, the biases read off
    their one row. -/
theorem arr_enc (c : Dev nD) : (dat0 V c).arrAt 5 cfg0.N = Appnp.enc (V c main_arg0) (V c main_arg2) (fun i => V c main_v0 (ix2 (0 : Fin 1) (i 0))) (V c main_arg4) (fun i => V c main_v1 (ix2 (0 : Fin 1) (i 0))) :=
  (dat0 V c).arrAt_eq_of_cover 5 (Appnp.enc (V c main_arg0) (V c main_arg2) (fun i => V c main_v0 (ix2 (0 : Fin 1) (i 0))) (V c main_arg4) (fun i => V c main_v1 (ix2 (0 : Fin 1) (i 0)))) (fun t _ => flushed0_eq V c t) (cover0)

end Cert.KernelIdeal.Arr

end
-- ==== Proof.KernelArrProp1.lean ====
/-
  Propagation step 1, from its blocks to its array. In this first step the current iterate is the encoder's output itself:
  the second and third windows read one and the same array.

  The step's grid has 25 points. At point t the stored block is  (adjacency rows 400·t … 400·t + 399 times the whole current
  iterate) · c₉ + c₁ · (encoder rows 400·t …):  the adjacency window's block index is (t, 0), the current iterate's is (0, 0)
  at every point, the encoder window's and the output window's are (t, 0), so entry (p, q) of a block is entry (400·t + p, q)
  of its array. Every point writes its output block back, and row r of the output array lies in the block of point r / 400;
  hence after the last point the output array is one propagation step of the arrays the step found, entry by entry.
-/
import proofs.«175698_g31370441130260_cont_8to1_b_1575_2_alg».proof.Proof.RegionProp1
import proofs.«175698_g31370441130260_cont_8to1_b_1575_2_alg».proof.Proof.KernelPay
import Idealize.ShloMosaic.Lib.Pipeline.Value

noncomputable section

namespace Cert.KernelIdeal.Arr

open Cert.KernelIdeal Cert.KernelIdeal.Gen Cert.KernelIdeal.Hand Cert.KernelIdeal.Pay
open Idealize.ShloMosaic Idealize.ShloMosaic.TcCoe Idealize.ShloMosaic.ValueIdx Idealize.SL.Sem
open Idealize.ShloMosaic.Pipeline (Dat)
open Idealize.SL Idealize.SL.RA

variable (V : (c : Dev nD) → (b : Ref sig .tc) → Buf (Elt Ideal) ((c : Thread nD τ).loc b))

-- the shares of the one array that the current-iterate window and the encoder window both read; the values do not depend on them
variable (q₁ q₂ : PosShare TreeShare)

theorem hz1 : (![0, 0] : Fin 2 → Nat) = fun _ => 0 := funext fun a => by fin_cases a <;> rfl

/-- The block index of each window at grid point t: the adjacency rows, the encoder rows and the output rows move with t,
    the current iterate stays whole. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Row p of the adjacency block at point t is row 400·t + p of the adjacency matrix. -/
theorem adj_rows1 (c : Dev nD) (t : Fin cfg1.N) (p : Fin 400) (k : Fin 10000) (r : Fin 10000) (hr : r.val = 400 * t.val + p.val) :
    (iblk1 V c 0 t : Vec Ideal S400x10000 .f32) (ix2 p k) = (V c main_arg1 : Appnp.Mat 10000 10000) (ix2 r k) := by
  obtain ⟨e00, e01, -, -, -, -, -, -⟩ := idx1 t
  unfold iblk1
  rw [View.read_apply]
  refine congrArg (V c main_arg1 : Appnp.Mat 10000 10000) (funext fun a => Fin.ext ?_)
  match a with
  | ⟨0, _⟩ => show win1_0.index t (0 : Fin 2) * 400 + 1 * p.val = r.val; rw [e00, hr]; omega
  | ⟨1, _⟩ => show win1_0.index t (1 : Fin 2) * 10000 + 1 * k.val = k.val; rw [e01]; omega

/-- The current iterate's one block is the whole iterate. -/
theorem cur_whole1 (c : Dev nD) (t : Fin cfg1.N) (k : Fin 10000) (q : Fin 10) :
    (iblk1 V c 1 t : Vec Ideal S10000x10 .f32) (ix2 k q) = (V c main_v2 : Appnp.Mat 10000 10) (ix2 k q) := by
  obtain ⟨-, -, e10, e11, -, -, -, -⟩ := idx1 t
  unfold iblk1
  rw [View.read_apply]
  refine congrArg (V c main_v2 : Appnp.Mat 10000 10) (funext fun a => Fin.ext ?_)
  match a with
  | ⟨0, _⟩ => show win1_1.index t (0 : Fin 2) * 10000 + 1 * k.val = k.val; rw [e10]; omega
  | ⟨1, _⟩ => show win1_1.index t (1 : Fin 2) * 10 + 1 * q.val = q.val; rw [e11]; omega

/-- Row p of the encoder block at point t is row 400·t + p of the encoder's output. -/
theorem z_rows1 (c : Dev nD) (t : Fin cfg1.N) (p : Fin 400) (q : Fin 10) (r : Fin 10000) (hr : r.val = 400 * t.val + p.val) :
    (iblk1 V c 2 t : Vec Ideal S400x10 .f32) (ix2 p q) = (V c main_v2 : Appnp.Mat 10000 10) (ix2 r q) := by
  obtain ⟨-, -, -, -, e20, e21, -, -⟩ := idx1 t
  unfold iblk1
  rw [View.read_apply]
  refine congrArg (V c main_v2 : Appnp.Mat 10000 10) (funext fun a => Fin.ext ?_)
  match a with
  | ⟨0, _⟩ => show win1_2.index t (0 : Fin 2) * 400 + 1 * p.val = r.val; rw [e20, hr]; omega
  | ⟨1, _⟩ => show win1_2.index t (1 : Fin 2) * 10 + 1 * q.val = q.val; rw [e21]; omega

/-- Entry (p, q) of the output block at point t sits at (400·t + p, q) of the output array. -/
theorem out_rows1 (t : Fin cfg1.N) (p : Fin 400) (q : Fin 10) (r : Fin 10000) (hr : r.val = 400 * t.val + p.val) :
    ((cfg1.win 3).blk t).view.emb (ix2 p q) = (ix2 r q : S10000x10.Idx) := by
  obtain ⟨-, -, -, -, -, -, e30, e31⟩ := idx1 t
  funext a; apply Fin.ext
  match a with
  | ⟨0, _⟩ => show win1_3.index t (0 : Fin 2) * 400 + 1 * p.val = r.val; rw [e30, hr]; omega
  | ⟨1, _⟩ => show win1_3.index t (1 : Fin 2) * 10 + 1 * q.val = q.val; rw [e31]; omega

/-- What point t writes back is block t of one propagation step of the arrays the step finds. -/
theorem flushed1_eq (c : Dev nD) (t : Fin cfg1.N) :
    (dat1 V q₁ q₂ c).flushed 3 t
      = ((cfg1.win 3).blk t).view.read (Elt Ideal) (Appnp.step (V c main_arg1) (V c main_v2) (V c main_v2)) := by
  show (cfg1.win 3).cut (grid1.coords t) ((dat1 V q₁ q₂ c).after 3 t) = _
  rw [after1_3]
  unfold out1_3
  rw [View.canon_unit_zero hz1]
  simp only [View.ld_unit_zero (S := S400x10000) hz1, View.ld_unit_zero (S := S10000x10) hz1, View.ld_unit_zero (S := S400x10) hz1]
  funext j
  obtain ⟨p, q, rfl⟩ : ∃ (p : Fin 400) (q : Fin 10), j = ix2 p q := ⟨j 0, j 1, eq_ix2 j⟩
  have ht : t.val < 25 := lt_of_lt_of_eq t.isLt N_1
  have hp : p.val < 400 := p.isLt
  have hr : (⟨400 * t.val + p.val, by omega⟩ : Fin 10000).val = 400 * t.val + p.val := rfl
  show k1_pay1 (F := Ideal) (iblk1 V c 0 t) (iblk1 V c 1 t) (iblk1 V c 2 t) (ix2 p q)
    = Appnp.step (V c main_arg1) (V c main_v2) (V c main_v2) (((cfg1.win 3).blk t).view.emb (ix2 p q))
  rw [out_rows1 t p q _ hr, Appnp.step_ix2]
  refine (pay_prop1 _ _ _ p q).trans ?_
  unfold Appnp.stepAt
  refine congrArg₂ (fun s x : EReal => s * Appnp.w9 + Appnp.w1 * x) (Finset.sum_congr rfl fun k _ => ?_) (z_rows1 V c t p q _ hr)
  exact congrArg₂ (fun a b : EReal => a * b) (adj_rows1 V c t p k _ hr) (cur_whole1 V c t k q)

/-- Every row of the output array lies in the block of the point that is its quotient by 400. -/
theorem cover1 (i : S10000x10.Idx) :
    ∃ t : Fin cfg1.N, (cfg1.win 3).flush t = true ∧ i ∈ ((cfg1.win 3).blk t).view.set := by
  have hi0 : (i 0).val < 10000 := (i 0).isLt
  have hi1 : (i 1).val < 10 := (i 1).isLt
  have hN : cfg1.N = 25 := N_1
  have hlt : (i 0).val / 400 < cfg1.N := by rw [hN]; omega
  refine ⟨⟨(i 0).val / 400, hlt⟩, flush1_3 _, ?_⟩
  obtain ⟨-, -, -, -, -, -, e30, e31⟩ := idx1 ⟨(i 0).val / 400, hlt⟩
  show i ∈ ((View.whole main_v3).slice (win1_3.rect ⟨(i 0).val / 400, hlt⟩)).set
  rw [View.set_slice_whole, Rect.mem_set_unit]
  intro a
  match a with
  | ⟨0, _⟩ =>
    show win1_3.index _ (0 : Fin 2) * 400 ≤ (i 0).val ∧ (i 0).val < win1_3.index _ (0 : Fin 2) * 400 + 400
    rw [e30]; show (i 0).val / 400 * 400 ≤ (i 0).val ∧ (i 0).val < (i 0).val / 400 * 400 + 400; omega
  | ⟨1, _⟩ =>
    show win1_3.index _ (1 : Fin 2) * 10 ≤ (i 1).val ∧ (i 1).val < win1_3.index _ (1 : Fin 2) * 10 + 10
    rw [e31]; omega

/-- The output array after the last point: one propagation step of the arrays the step finds. -/
theorem arr_prop1 (c : Dev nD) : (dat1 V q₁ q₂ c).arrAt 3 cfg1.N = Appnp.step (V c main_arg1) (V c main_v2) (V c main_v2) :=
  (dat1 V q₁ q₂ c).arrAt_eq_of_cover 3 (Appnp.step (V c main_arg1) (V c main_v2) (V c main_v2)) (fun t _ => flushed1_eq V q₁ q₂ c t) (cover1)

end Cert.KernelIdeal.Arr

end
-- ==== Proof.KernelArrProp2.lean ====
/-
  Propagation step 2, from its blocks to its array.

  The step's grid has 25 points. At point t the stored block is  (adjacency rows 400·t … 400·t + 399 times the whole current
  iterate) · c₉ + c₁ · (encoder rows 400·t …):  the adjacency window's block index is (t, 0), the current iterate's is (0, 0)
  at every point, the encoder window's and the output window's are (t, 0), so entry (p, q) of a block is entry (400·t + p, q)
  of its array. Every point writes its output block back, and row r of the output array lies in the block of point r / 400;
  hence after the last point the output array is one propagation step of the arrays the step found, entry by entry.
-/
import proofs.«175698_g31370441130260_cont_8to1_b_1575_2_alg».proof.Proof.RegionProp2
import proofs.«175698_g31370441130260_cont_8to1_b_1575_2_alg».proof.Proof.KernelPay
import Idealize.ShloMosaic.Lib.Pipeline.Value

noncomputable section

namespace Cert.KernelIdeal.Arr

open Cert.KernelIdeal Cert.KernelIdeal.Gen Cert.KernelIdeal.Hand Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The block index of each window at grid point t: the adjacency rows, the encoder rows and the output rows move with t,
    the current iterate stays whole. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Row p of the adjacency block at point t is row 400·t + p of the adjacency matrix. -/
theorem adj_rows2 (c : Dev nD) (t : Fin cfg2.N) (p : Fin 400) (k : Fin 10000) (r : Fin 10000) (hr : r.val = 400 * t.val + p.val) :
    (iblk2 V c 0 t : Vec Ideal S400x10000 .f32) (ix2 p k) = (V c main_arg1 : Appnp.Mat 10000 10000) (ix2 r k) := by
  obtain ⟨e00, e01, -, -, -, -, -, -⟩ := idx2 t
  unfold iblk2
  rw [View.read_apply]
  refine congrArg (V c main_arg1 : Appnp.Mat 10000 10000) (funext fun a => Fin.ext ?_)
  match a with
  | ⟨0, _⟩ => show win2_0.index t (0 : Fin 2) * 400 + 1 * p.val = r.val; rw [e00, hr]; omega
  | ⟨1, _⟩ => show win2_0.index t (1 : Fin 2) * 10000 + 1 * k.val = k.val; rw [e01]; omega

/-- The current iterate's one block is the whole iterate. -/
theorem cur_whole2 (c : Dev nD) (t : Fin cfg2.N) (k : Fin 10000) (q : Fin 10) :
    (iblk2 V c 1 t : Vec Ideal S10000x10 .f32) (ix2 k q) = (V c main_v3 : Appnp.Mat 10000 10) (ix2 k q) := by
  obtain ⟨-, -, e10, e11, -, -, -, -⟩ := idx2 t
  unfold iblk2
  rw [View.read_apply]
  refine congrArg (V c main_v3 : Appnp.Mat 10000 10) (funext fun a => Fin.ext ?_)
  match a with
  | ⟨0, _⟩ => show win2_1.index t (0 : Fin 2) * 10000 + 1 * k.val = k.val; rw [e10]; omega
  | ⟨1, _⟩ => show win2_1.index t (1 : Fin 2) * 10 + 1 * q.val = q.val; rw [e11]; omega

/-- Row p of the encoder block at point t is row 400·t + p of the encoder's output. -/
theorem z_rows2 (c : Dev nD) (t : Fin cfg2.N) (p : Fin 400) (q : Fin 10) (r : Fin 10000) (hr : r.val = 400 * t.val + p.val) :
    (iblk2 V c 2 t : Vec Ideal S400x10 .f32) (ix2 p q) = (V c main_v2 : Appnp.Mat 10000 10) (ix2 r q) := by
  obtain ⟨-, -, -, -, e20, e21, -, -⟩ := idx2 t
  unfold iblk2
  rw [View.read_apply]
  refine congrArg (V c main_v2 : Appnp.Mat 10000 10) (funext fun a => Fin.ext ?_)
  match a with
  | ⟨0, _⟩ => show win2_2.index t (0 : Fin 2) * 400 + 1 * p.val = r.val; rw [e20, hr]; omega
  | ⟨1, _⟩ => show win2_2.index t (1 : Fin 2) * 10 + 1 * q.val = q.val; rw [e21]; omega

/-- Entry (p, q) of the output block at point t sits at (400·t + p, q) of the output array. -/
theorem out_rows2 (t : Fin cfg2.N) (p : Fin 400) (q : Fin 10) (r : Fin 10000) (hr : r.val = 400 * t.val + p.val) :
    ((cfg2.win 3).blk t).view.emb (ix2 p q) = (ix2 r q : S10000x10.Idx) := by
  obtain ⟨-, -, -, -, -, -, e30, e31⟩ := idx2 t
  funext a; apply Fin.ext
  match a with
  | ⟨0, _⟩ => show win2_3.index t (0 : Fin 2) * 400 + 1 * p.val = r.val; rw [e30, hr]; omega
  | ⟨1, _⟩ => show win2_3.index t (1 : Fin 2) * 10 + 1 * q.val = q.val; rw [e31]; omega

/-- What point t writes back is block t of one propagation step of the arrays the step finds. -/
theorem flushed2_eq (c : Dev nD) (t : Fin cfg2.N) :
    (dat2 V c).flushed 3 t
      = ((cfg2.win 3).blk t).view.read (Elt Ideal) (Appnp.step (V c main_arg1) (V c main_v3) (V c main_v2)) := by
  show (cfg2.win 3).cut (grid2.coords t) ((dat2 V c).after 3 t) = _
  rw [after2_3]
  unfold out2_3
  rw [View.canon_unit_zero hz2]
  simp only [View.ld_unit_zero (S := S400x10000) hz2, View.ld_unit_zero (S := S10000x10) hz2, View.ld_unit_zero (S := S400x10) hz2]
  funext j
  obtain ⟨p, q, rfl⟩ : ∃ (p : Fin 400) (q : Fin 10), j = ix2 p q := ⟨j 0, j 1, eq_ix2 j⟩
  have ht : t.val < 25 := lt_of_lt_of_eq t.isLt N_2
  have hp : p.val < 400 := p.isLt
  have hr : (⟨400 * t.val + p.val, by omega⟩ : Fin 10000).val = 400 * t.val + p.val := rfl
  show k2_pay1 (F := Ideal) (iblk2 V c 0 t) (iblk2 V c 1 t) (iblk2 V c 2 t) (ix2 p q)
    = Appnp.step (V c main_arg1) (V c main_v3) (V c main_v2) (((cfg2.win 3).blk t).view.emb (ix2 p q))
  rw [out_rows2 t p q _ hr, Appnp.step_ix2]
  refine (pay_prop2 _ _ _ p q).trans ?_
  unfold Appnp.stepAt
  refine congrArg₂ (fun s x : EReal => s * Appnp.w9 + Appnp.w1 * x) (Finset.sum_congr rfl fun k _ => ?_) (z_rows2 V c t p q _ hr)
  exact congrArg₂ (fun a b : EReal => a * b) (adj_rows2 V c t p k _ hr) (cur_whole2 V c t k q)

/-- Every row of the output array lies in the block of the point that is its quotient by 400. -/
theorem cover2 (i : S10000x10.Idx) :
    ∃ t : Fin cfg2.N, (cfg2.win 3).flush t = true ∧ i ∈ ((cfg2.win 3).blk t).view.set := by
  have hi0 : (i 0).val < 10000 := (i 0).isLt
  have hi1 : (i 1).val < 10 := (i 1).isLt
  have hN : cfg2.N = 25 := N_2
  have hlt : (i 0).val / 400 < cfg2.N := by rw [hN]; omega
  refine ⟨⟨(i 0).val / 400, hlt⟩, flush2_3 _, ?_⟩
  obtain ⟨-, -, -, -, -, -, e30, e31⟩ := idx2 ⟨(i 0).val / 400, hlt⟩
  show i ∈ ((View.whole main_v4).slice (win2_3.rect ⟨(i 0).val / 400, hlt⟩)).set
  rw [View.set_slice_whole, Rect.mem_set_unit]
  intro a
  match a with
  | ⟨0, _⟩ =>
    show win2_3.index _ (0 : Fin 2) * 400 ≤ (i 0).val ∧ (i 0).val < win2_3.index _ (0 : Fin 2) * 400 + 400
    rw [e30]; show (i 0).val / 400 * 400 ≤ (i 0).val ∧ (i 0).val < (i 0).val / 400 * 400 + 400; omega
  | ⟨1, _⟩ =>
    show win2_3.index _ (1 : Fin 2) * 10 ≤ (i 1).val ∧ (i 1).val < win2_3.index _ (1 : Fin 2) * 10 + 10
    rw [e31]; omega

/-- The output array after the last point: one propagation step of the arrays the step finds. -/
theorem arr_prop2 (c : Dev nD) : (dat2 V c).arrAt 3 cfg2.N = Appnp.step (V c main_arg1) (V c main_v3) (V c main_v2) :=
  (dat2 V c).arrAt_eq_of_cover 3 (Appnp.step (V c main_arg1) (V c main_v3) (V c main_v2)) (fun t _ => flushed2_eq V c t) (cover2)

end Cert.KernelIdeal.Arr

end
-- ==== Proof.KernelArrProp3.lean ====
/-
  Propagation step 3, from its blocks to its array.

  The step's grid has 25 points. At point t the stored block is  (adjacency rows 400·t … 400·t + 399 times the whole current
  iterate) · c₉ + c₁ · (encoder rows 400·t …):  the adjacency window's block index is (t, 0), the current iterate's is (0, 0)
  at every point, the encoder window's and the output window's are (t, 0), so entry (p, q) of a block is entry (400·t + p, q)
  of its array. Every point writes its output block back, and row r of the output array lies in the block of point r / 400;
  hence after the last point the output array is one propagation step of the arrays the step found, entry by entry.
-/
import proofs.«175698_g31370441130260_cont_8to1_b_1575_2_alg».proof.Proof.RegionProp3
import proofs.«175698_g31370441130260_cont_8to1_b_1575_2_alg».proof.Proof.KernelPay
import Idealize.ShloMosaic.Lib.Pipeline.Value

noncomputable section

namespace Cert.KernelIdeal.Arr

open Cert.KernelIdeal Cert.KernelIdeal.Gen Cert.KernelIdeal.Hand Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The block index of each window at grid point t: the adjacency rows, the encoder rows and the output rows move with t,
    the current iterate stays whole. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- Row p of the adjacency block at point t is row 400·t + p of the adjacency matrix. -/
theorem adj_rows3 (c : Dev nD) (t : Fin cfg3.N) (p : Fin 400) (k : Fin 10000) (r : Fin 10000) (hr : r.val = 400 * t.val + p.val) :
    (iblk3 V c 0 t : Vec Ideal S400x10000 .f32) (ix2 p k) = (V c main_arg1 : Appnp.Mat 10000 10000) (ix2 r k) := by
  obtain ⟨e00, e01, -, -, -, -, -, -⟩ := idx3 t
  unfold iblk3
  rw [View.read_apply]
  refine congrArg (V c main_arg1 : Appnp.Mat 10000 10000) (funext fun a => Fin.ext ?_)
  match a with
  | ⟨0, _⟩ => show win3_0.index t (0 : Fin 2) * 400 + 1 * p.val = r.val; rw [e00, hr]; omega
  | ⟨1, _⟩ => show win3_0.index t (1 : Fin 2) * 10000 + 1 * k.val = k.val; rw [e01]; omega

/-- The current iterate's one block is the whole iterate. -/
theorem cur_whole3 (c : Dev nD) (t : Fin cfg3.N) (k : Fin 10000) (q : Fin 10) :
    (iblk3 V c 1 t : Vec Ideal S10000x10 .f32) (ix2 k q) = (V c main_v4 : Appnp.Mat 10000 10) (ix2 k q) := by
  obtain ⟨-, -, e10, e11, -, -, -, -⟩ := idx3 t
  unfold iblk3
  rw [View.read_apply]
  refine congrArg (V c main_v4 : Appnp.Mat 10000 10) (funext fun a => Fin.ext ?_)
  match a with
  | ⟨0, _⟩ => show win3_1.index t (0 : Fin 2) * 10000 + 1 * k.val = k.val; rw [e10]; omega
  | ⟨1, _⟩ => show win3_1.index t (1 : Fin 2) * 10 + 1 * q.val = q.val; rw [e11]; omega

/-- Row p of the encoder block at point t is row 400·t + p of the encoder's output. -/
theorem z_rows3 (c : Dev nD) (t : Fin cfg3.N) (p : Fin 400) (q : Fin 10) (r : Fin 10000) (hr : r.val = 400 * t.val + p.val) :
    (iblk3 V c 2 t : Vec Ideal S400x10 .f32) (ix2 p q) = (V c main_v2 : Appnp.Mat 10000 10) (ix2 r q) := by
  obtain ⟨-, -, -, -, e20, e21, -, -⟩ := idx3 t
  unfold iblk3
  rw [View.read_apply]
  refine congrArg (V c main_v2 : Appnp.Mat 10000 10) (funext fun a => Fin.ext ?_)
  match a with
  | ⟨0, _⟩ => show win3_2.index t (0 : Fin 2) * 400 + 1 * p.val = r.val; rw [e20, hr]; omega
  | ⟨1, _⟩ => show win3_2.index t (1 : Fin 2) * 10 + 1 * q.val = q.val; rw [e21]; omega

/-- Entry (p, q) of the output block at point t sits at (400·t + p, q) of the output array. -/
theorem out_rows3 (t : Fin cfg3.N) (p : Fin 400) (q : Fin 10) (r : Fin 10000) (hr : r.val = 400 * t.val + p.val) :
    ((cfg3.win 3).blk t).view.emb (ix2 p q) = (ix2 r q : S10000x10.Idx) := by
  obtain ⟨-, -, -, -, -, -, e30, e31⟩ := idx3 t
  funext a; apply Fin.ext
  match a with
  | ⟨0, _⟩ => show win3_3.index t (0 : Fin 2) * 400 + 1 * p.val = r.val; rw [e30, hr]; omega
  | ⟨1, _⟩ => show win3_3.index t (1 : Fin 2) * 10 + 1 * q.val = q.val; rw [e31]; omega

/-- What point t writes back is block t of one propagation step of the arrays the step finds. -/
theorem flushed3_eq (c : Dev nD) (t : Fin cfg3.N) :
    (dat3 V c).flushed 3 t
      = ((cfg3.win 3).blk t).view.read (Elt Ideal) (Appnp.step (V c main_arg1) (V c main_v4) (V c main_v2)) := by
  show (cfg3.win 3).cut (grid3.coords t) ((dat3 V c).after 3 t) = _
  rw [after3_3]
  unfold out3_3
  rw [View.canon_unit_zero hz3]
  simp only [View.ld_unit_zero (S := S400x10000) hz3, View.ld_unit_zero (S := S10000x10) hz3, View.ld_unit_zero (S := S400x10) hz3]
  funext j
  obtain ⟨p, q, rfl⟩ : ∃ (p : Fin 400) (q : Fin 10), j = ix2 p q := ⟨j 0, j 1, eq_ix2 j⟩
  have ht : t.val < 25 := lt_of_lt_of_eq t.isLt N_3
  have hp : p.val < 400 := p.isLt
  have hr : (⟨400 * t.val + p.val, by omega⟩ : Fin 10000).val = 400 * t.val + p.val := rfl
  show k3_pay1 (F := Ideal) (iblk3 V c 0 t) (iblk3 V c 1 t) (iblk3 V c 2 t) (ix2 p q)
    = Appnp.step (V c main_arg1) (V c main_v4) (V c main_v2) (((cfg3.win 3).blk t).view.emb (ix2 p q))
  rw [out_rows3 t p q _ hr, Appnp.step_ix2]
  refine (pay_prop3 _ _ _ p q).trans ?_
  unfold Appnp.stepAt
  refine congrArg₂ (fun s x : EReal => s * Appnp.w9 + Appnp.w1 * x) (Finset.sum_congr rfl fun k _ => ?_) (z_rows3 V c t p q _ hr)
  exact congrArg₂ (fun a b : EReal => a * b) (adj_rows3 V c t p k _ hr) (cur_whole3 V c t k q)

/-- Every row of the output array lies in the block of the point that is its quotient by 400. -/
theorem cover3 (i : S10000x10.Idx) :
    ∃ t : Fin cfg3.N, (cfg3.win 3).flush t = true ∧ i ∈ ((cfg3.win 3).blk t).view.set := by
  have hi0 : (i 0).val < 10000 := (i 0).isLt
  have hi1 : (i 1).val < 10 := (i 1).isLt
  have hN : cfg3.N = 25 := N_3
  have hlt : (i 0).val / 400 < cfg3.N := by rw [hN]; omega
  refine ⟨⟨(i 0).val / 400, hlt⟩, flush3_3 _, ?_⟩
  obtain ⟨-, -, -, -, -, -, e30, e31⟩ := idx3 ⟨(i 0).val / 400, hlt⟩
  show i ∈ ((View.whole main_v5).slice (win3_3.rect ⟨(i 0).val / 400, hlt⟩)).set
  rw [View.set_slice_whole, Rect.mem_set_unit]
  intro a
  match a with
  | ⟨0, _⟩ =>
    show win3_3.index _ (0 : Fin 2) * 400 ≤ (i 0).val ∧ (i 0).val < win3_3.index _ (0 : Fin 2) * 400 + 400
    rw [e30]; show (i 0).val / 400 * 400 ≤ (i 0).val ∧ (i 0).val < (i 0).val / 400 * 400 + 400; omega
  | ⟨1, _⟩ =>
    show win3_3.index _ (1 : Fin 2) * 10 ≤ (i 1).val ∧ (i 1).val < win3_3.index _ (1 : Fin 2) * 10 + 10
    rw [e31]; omega

/-- The output array after the last point: one propagation step of the arrays the step finds. -/
theorem arr_prop3 (c : Dev nD) : (dat3 V c).arrAt 3 cfg3.N = Appnp.step (V c main_arg1) (V c main_v4) (V c main_v2) :=
  (dat3 V c).arrAt_eq_of_cover 3 (Appnp.step (V c main_arg1) (V c main_v4) (V c main_v2)) (fun t _ => flushed3_eq V c t) (cover3)

end Cert.KernelIdeal.Arr

end
-- ==== Proof.KernelArrProp4.lean ====
/-
  Propagation step 4, from its blocks to its array.

  The step's grid has 25 points. At point t the stored block is  (adjacency rows 400·t … 400·t + 399 times the whole current
  iterate) · c₉ + c₁ · (encoder rows 400·t …):  the adjacency window's block index is (t, 0), the current iterate's is (0, 0)
  at every point, the encoder window's and the output window's are (t, 0), so entry (p, q) of a block is entry (400·t + p, q)
  of its array. Every point writes its output block back, and row r of the output array lies in the block of point r / 400;
  hence after the last point the output array is one propagation step of the arrays the step found, entry by entry.
-/
import proofs.«175698_g31370441130260_cont_8to1_b_1575_2_alg».proof.Proof.RegionProp4
import proofs.«175698_g31370441130260_cont_8to1_b_1575_2_alg».proof.Proof.KernelPay
import Idealize.ShloMosaic.Lib.Pipeline.Value

noncomputable section

namespace Cert.KernelIdeal.Arr

open Cert.KernelIdeal Cert.KernelIdeal.Gen Cert.KernelIdeal.Hand Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- The block index of each window at grid point t: the adjacency rows, the encoder rows and the output rows move with t,
    the current iterate stays whole. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- Row p of the adjacency block at point t is row 400·t + p of the adjacency matrix. -/
theorem adj_rows4 (c : Dev nD) (t : Fin cfg4.N) (p : Fin 400) (k : Fin 10000) (r : Fin 10000) (hr : r.val = 400 * t.val + p.val) :
    (iblk4 V c 0 t : Vec Ideal S400x10000 .f32) (ix2 p k) = (V c main_arg1 : Appnp.Mat 10000 10000) (ix2 r k) := by
  obtain ⟨e00, e01, -, -, -, -, -, -⟩ := idx4 t
  unfold iblk4
  rw [View.read_apply]
  refine congrArg (V c main_arg1 : Appnp.Mat 10000 10000) (funext fun a => Fin.ext ?_)
  match a with
  | ⟨0, _⟩ => show win4_0.index t (0 : Fin 2) * 400 + 1 * p.val = r.val; rw [e00, hr]; omega
  | ⟨1, _⟩ => show win4_0.index t (1 : Fin 2) * 10000 + 1 * k.val = k.val; rw [e01]; omega

/-- The current iterate's one block is the whole iterate. -/
theorem cur_whole4 (c : Dev nD) (t : Fin cfg4.N) (k : Fin 10000) (q : Fin 10) :
    (iblk4 V c 1 t : Vec Ideal S10000x10 .f32) (ix2 k q) = (V c main_v5 : Appnp.Mat 10000 10) (ix2 k q) := by
  obtain ⟨-, -, e10, e11, -, -, -, -⟩ := idx4 t
  unfold iblk4
  rw [View.read_apply]
  refine congrArg (V c main_v5 : Appnp.Mat 10000 10) (funext fun a => Fin.ext ?_)
  match a with
  | ⟨0, _⟩ => show win4_1.index t (0 : Fin 2) * 10000 + 1 * k.val = k.val; rw [e10]; omega
  | ⟨1, _⟩ => show win4_1.index t (1 : Fin 2) * 10 + 1 * q.val = q.val; rw [e11]; omega

/-- Row p of the encoder block at point t is row 400·t + p of the encoder's output. -/
theorem z_rows4 (c : Dev nD) (t : Fin cfg4.N) (p : Fin 400) (q : Fin 10) (r : Fin 10000) (hr : r.val = 400 * t.val + p.val) :
    (iblk4 V c 2 t : Vec Ideal S400x10 .f32) (ix2 p q) = (V c main_v2 : Appnp.Mat 10000 10) (ix2 r q) := by
  obtain ⟨-, -, -, -, e20, e21, -, -⟩ := idx4 t
  unfold iblk4
  rw [View.read_apply]
  refine congrArg (V c main_v2 : Appnp.Mat 10000 10) (funext fun a => Fin.ext ?_)
  match a with
  | ⟨0, _⟩ => show win4_2.index t (0 : Fin 2) * 400 + 1 * p.val = r.val; rw [e20, hr]; omega
  | ⟨1, _⟩ => show win4_2.index t (1 : Fin 2) * 10 + 1 * q.val = q.val; rw [e21]; omega

/-- Entry (p, q) of the output block at point t sits at (400·t + p, q) of the output array. -/
theorem out_rows4 (t : Fin cfg4.N) (p : Fin 400) (q : Fin 10) (r : Fin 10000) (hr : r.val = 400 * t.val + p.val) :
    ((cfg4.win 3).blk t).view.emb (ix2 p q) = (ix2 r q : S10000x10.Idx) := by
  obtain ⟨-, -, -, -, -, -, e30, e31⟩ := idx4 t
  funext a; apply Fin.ext
  match a with
  | ⟨0, _⟩ => show win4_3.index t (0 : Fin 2) * 400 + 1 * p.val = r.val; rw [e30, hr]; omega
  | ⟨1, _⟩ => show win4_3.index t (1 : Fin 2) * 10 + 1 * q.val = q.val; rw [e31]; omega

/-- What point t writes back is block t of one propagation step of the arrays the step finds. -/
theorem flushed4_eq (c : Dev nD) (t : Fin cfg4.N) :
    (dat4 V c).flushed 3 t
      = ((cfg4.win 3).blk t).view.read (Elt Ideal) (Appnp.step (V c main_arg1) (V c main_v5) (V c main_v2)) := by
  show (cfg4.win 3).cut (grid4.coords t) ((dat4 V c).after 3 t) = _
  rw [after4_3]
  unfold out4_3
  rw [View.canon_unit_zero hz4]
  simp only [View.ld_unit_zero (S := S400x10000) hz4, View.ld_unit_zero (S := S10000x10) hz4, View.ld_unit_zero (S := S400x10) hz4]
  funext j
  obtain ⟨p, q, rfl⟩ : ∃ (p : Fin 400) (q : Fin 10), j = ix2 p q := ⟨j 0, j 1, eq_ix2 j⟩
  have ht : t.val < 25 := lt_of_lt_of_eq t.isLt N_4
  have hp : p.val < 400 := p.isLt
  have hr : (⟨400 * t.val + p.val, by omega⟩ : Fin 10000).val = 400 * t.val + p.val := rfl
  show k4_pay1 (F := Ideal) (iblk4 V c 0 t) (iblk4 V c 1 t) (iblk4 V c 2 t) (ix2 p q)
    = Appnp.step (V c main_arg1) (V c main_v5) (V c main_v2) (((cfg4.win 3).blk t).view.emb (ix2 p q))
  rw [out_rows4 t p q _ hr, Appnp.step_ix2]
  refine (pay_prop4 _ _ _ p q).trans ?_
  unfold Appnp.stepAt
  refine congrArg₂ (fun s x : EReal => s * Appnp.w9 + Appnp.w1 * x) (Finset.sum_congr rfl fun k _ => ?_) (z_rows4 V c t p q _ hr)
  exact congrArg₂ (fun a b : EReal => a * b) (adj_rows4 V c t p k _ hr) (cur_whole4 V c t k q)

/-- Every row of the output array lies in the block of the point that is its quotient by 400. -/
theorem cover4 (i : S10000x10.Idx) :
    ∃ t : Fin cfg4.N, (cfg4.win 3).flush t = true ∧ i ∈ ((cfg4.win 3).blk t).view.set := by
  have hi0 : (i 0).val < 10000 := (i 0).isLt
  have hi1 : (i 1).val < 10 := (i 1).isLt
  have hN : cfg4.N = 25 := N_4
  have hlt : (i 0).val / 400 < cfg4.N := by rw [hN]; omega
  refine ⟨⟨(i 0).val / 400, hlt⟩, flush4_3 _, ?_⟩
  obtain ⟨-, -, -, -, -, -, e30, e31⟩ := idx4 ⟨(i 0).val / 400, hlt⟩
  show i ∈ ((View.whole main_v6).slice (win4_3.rect ⟨(i 0).val / 400, hlt⟩)).set
  rw [View.set_slice_whole, Rect.mem_set_unit]
  intro a
  match a with
  | ⟨0, _⟩ =>
    show win4_3.index _ (0 : Fin 2) * 400 ≤ (i 0).val ∧ (i 0).val < win4_3.index _ (0 : Fin 2) * 400 + 400
    rw [e30]; show (i 0).val / 400 * 400 ≤ (i 0).val ∧ (i 0).val < (i 0).val / 400 * 400 + 400; omega
  | ⟨1, _⟩ =>
    show win4_3.index _ (1 : Fin 2) * 10 ≤ (i 1).val ∧ (i 1).val < win4_3.index _ (1 : Fin 2) * 10 + 10
    rw [e31]; omega

/-- The output array after the last point: one propagation step of the arrays the step finds. -/
theorem arr_prop4 (c : Dev nD) : (dat4 V c).arrAt 3 cfg4.N = Appnp.step (V c main_arg1) (V c main_v5) (V c main_v2) :=
  (dat4 V c).arrAt_eq_of_cover 3 (Appnp.step (V c main_arg1) (V c main_v5) (V c main_v2)) (fun t _ => flushed4_eq V c t) (cover4)

end Cert.KernelIdeal.Arr

end
-- ==== Proof.KernelArrProp5.lean ====
/-
  Propagation step 5, from its blocks to its array.

  The step's grid has 25 points. At point t the stored block is  (adjacency rows 400·t … 400·t + 399 times the whole current
  iterate) · c₉ + c₁ · (encoder rows 400·t …):  the adjacency window's block index is (t, 0), the current iterate's is (0, 0)
  at every point, the encoder window's and the output window's are (t, 0), so entry (p, q) of a block is entry (400·t + p, q)
  of its array. Every point writes its output block back, and row r of the output array lies in the block of point r / 400;
  hence after the last point the output array is one propagation step of the arrays the step found, entry by entry.
-/
import proofs.«175698_g31370441130260_cont_8to1_b_1575_2_alg».proof.Proof.RegionProp5
import proofs.«175698_g31370441130260_cont_8to1_b_1575_2_alg».proof.Proof.KernelPay
import Idealize.ShloMosaic.Lib.Pipeline.Value

noncomputable section

namespace Cert.KernelIdeal.Arr

open Cert.KernelIdeal Cert.KernelIdeal.Gen Cert.KernelIdeal.Hand Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz5 : (![0, 0] : Fin 2 → Nat) = fun _ => 0 := funext fun a => by fin_cases a <;> rfl

/-- The block index of each window at grid point t: the adjacency rows, the encoder rows and the output rows move with t,
    the current iterate stays whole. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

/-- Row p of the adjacency block at point t is row 400·t + p of the adjacency matrix. -/
theorem adj_rows5 (c : Dev nD) (t : Fin cfg5.N) (p : Fin 400) (k : Fin 10000) (r : Fin 10000) (hr : r.val = 400 * t.val + p.val) :
    (iblk5 V c 0 t : Vec Ideal S400x10000 .f32) (ix2 p k) = (V c main_arg1 : Appnp.Mat 10000 10000) (ix2 r k) := by
  obtain ⟨e00, e01, -, -, -, -, -, -⟩ := idx5 t
  unfold iblk5
  rw [View.read_apply]
  refine congrArg (V c main_arg1 : Appnp.Mat 10000 10000) (funext fun a => Fin.ext ?_)
  match a with
  | ⟨0, _⟩ => show win5_0.index t (0 : Fin 2) * 400 + 1 * p.val = r.val; rw [e00, hr]; omega
  | ⟨1, _⟩ => show win5_0.index t (1 : Fin 2) * 10000 + 1 * k.val = k.val; rw [e01]; omega

/-- The current iterate's one block is the whole iterate. -/
theorem cur_whole5 (c : Dev nD) (t : Fin cfg5.N) (k : Fin 10000) (q : Fin 10) :
    (iblk5 V c 1 t : Vec Ideal S10000x10 .f32) (ix2 k q) = (V c main_v6 : Appnp.Mat 10000 10) (ix2 k q) := by
  obtain ⟨-, -, e10, e11, -, -, -, -⟩ := idx5 t
  unfold iblk5
  rw [View.read_apply]
  refine congrArg (V c main_v6 : Appnp.Mat 10000 10) (funext fun a => Fin.ext ?_)
  match a with
  | ⟨0, _⟩ => show win5_1.index t (0 : Fin 2) * 10000 + 1 * k.val = k.val; rw [e10]; omega
  | ⟨1, _⟩ => show win5_1.index t (1 : Fin 2) * 10 + 1 * q.val = q.val; rw [e11]; omega

/-- Row p of the encoder block at point t is row 400·t + p of the encoder's output. -/
theorem z_rows5 (c : Dev nD) (t : Fin cfg5.N) (p : Fin 400) (q : Fin 10) (r : Fin 10000) (hr : r.val = 400 * t.val + p.val) :
    (iblk5 V c 2 t : Vec Ideal S400x10 .f32) (ix2 p q) = (V c main_v2 : Appnp.Mat 10000 10) (ix2 r q) := by
  obtain ⟨-, -, -, -, e20, e21, -, -⟩ := idx5 t
  unfold iblk5
  rw [View.read_apply]
  refine congrArg (V c main_v2 : Appnp.Mat 10000 10) (funext fun a => Fin.ext ?_)
  match a with
  | ⟨0, _⟩ => show win5_2.index t (0 : Fin 2) * 400 + 1 * p.val = r.val; rw [e20, hr]; omega
  | ⟨1, _⟩ => show win5_2.index t (1 : Fin 2) * 10 + 1 * q.val = q.val; rw [e21]; omega

/-- Entry (p, q) of the output block at point t sits at (400·t + p, q) of the output array. -/
theorem out_rows5 (t : Fin cfg5.N) (p : Fin 400) (q : Fin 10) (r : Fin 10000) (hr : r.val = 400 * t.val + p.val) :
    ((cfg5.win 3).blk t).view.emb (ix2 p q) = (ix2 r q : S10000x10.Idx) := by
  obtain ⟨-, -, -, -, -, -, e30, e31⟩ := idx5 t
  funext a; apply Fin.ext
  match a with
  | ⟨0, _⟩ => show win5_3.index t (0 : Fin 2) * 400 + 1 * p.val = r.val; rw [e30, hr]; omega
  | ⟨1, _⟩ => show win5_3.index t (1 : Fin 2) * 10 + 1 * q.val = q.val; rw [e31]; omega

/-- What point t writes back is block t of one propagation step of the arrays the step finds. -/
theorem flushed5_eq (c : Dev nD) (t : Fin cfg5.N) :
    (dat5 V c).flushed 3 t
      = ((cfg5.win 3).blk t).view.read (Elt Ideal) (Appnp.step (V c main_arg1) (V c main_v6) (V c main_v2)) := by
  show (cfg5.win 3).cut (grid5.coords t) ((dat5 V c).after 3 t) = _
  rw [after5_3]
  unfold out5_3
  rw [View.canon_unit_zero hz5]
  simp only [View.ld_unit_zero (S := S400x10000) hz5, View.ld_unit_zero (S := S10000x10) hz5, View.ld_unit_zero (S := S400x10) hz5]
  funext j
  obtain ⟨p, q, rfl⟩ : ∃ (p : Fin 400) (q : Fin 10), j = ix2 p q := ⟨j 0, j 1, eq_ix2 j⟩
  have ht : t.val < 25 := lt_of_lt_of_eq t.isLt N_5
  have hp : p.val < 400 := p.isLt
  have hr : (⟨400 * t.val + p.val, by omega⟩ : Fin 10000).val = 400 * t.val + p.val := rfl
  show k5_pay1 (F := Ideal) (iblk5 V c 0 t) (iblk5 V c 1 t) (iblk5 V c 2 t) (ix2 p q)
    = Appnp.step (V c main_arg1) (V c main_v6) (V c main_v2) (((cfg5.win 3).blk t).view.emb (ix2 p q))
  rw [out_rows5 t p q _ hr, Appnp.step_ix2]
  refine (pay_prop5 _ _ _ p q).trans ?_
  unfold Appnp.stepAt
  refine congrArg₂ (fun s x : EReal => s * Appnp.w9 + Appnp.w1 * x) (Finset.sum_congr rfl fun k _ => ?_) (z_rows5 V c t p q _ hr)
  exact congrArg₂ (fun a b : EReal => a * b) (adj_rows5 V c t p k _ hr) (cur_whole5 V c t k q)

/-- Every row of the output array lies in the block of the point that is its quotient by 400. -/
theorem cover5 (i : S10000x10.Idx) :
    ∃ t : Fin cfg5.N, (cfg5.win 3).flush t = true ∧ i ∈ ((cfg5.win 3).blk t).view.set := by
  have hi0 : (i 0).val < 10000 := (i 0).isLt
  have hi1 : (i 1).val < 10 := (i 1).isLt
  have hN : cfg5.N = 25 := N_5
  have hlt : (i 0).val / 400 < cfg5.N := by rw [hN]; omega
  refine ⟨⟨(i 0).val / 400, hlt⟩, flush5_3 _, ?_⟩
  obtain ⟨-, -, -, -, -, -, e30, e31⟩ := idx5 ⟨(i 0).val / 400, hlt⟩
  show i ∈ ((View.whole main_v7).slice (win5_3.rect ⟨(i 0).val / 400, hlt⟩)).set
  rw [View.set_slice_whole, Rect.mem_set_unit]
  intro a
  match a with
  | ⟨0, _⟩ =>
    show win5_3.index _ (0 : Fin 2) * 400 ≤ (i 0).val ∧ (i 0).val < win5_3.index _ (0 : Fin 2) * 400 + 400
    rw [e30]; show (i 0).val / 400 * 400 ≤ (i 0).val ∧ (i 0).val < (i 0).val / 400 * 400 + 400; omega
  | ⟨1, _⟩ =>
    show win5_3.index _ (1 : Fin 2) * 10 ≤ (i 1).val ∧ (i 1).val < win5_3.index _ (1 : Fin 2) * 10 + 10
    rw [e31]; omega

/-- The output array after the last point: one propagation step of the arrays the step finds. -/
theorem arr_prop5 (c : Dev nD) : (dat5 V c).arrAt 3 cfg5.N = Appnp.step (V c main_arg1) (V c main_v6) (V c main_v2) :=
  (dat5 V c).arrAt_eq_of_cover 3 (Appnp.step (V c main_arg1) (V c main_v6) (V c main_v2)) (fun t _ => flushed5_eq V c t) (cover5)

end Cert.KernelIdeal.Arr

end
-- ==== Proof.KernelArrProp6.lean ====
/-
  Propagation step 6, from its blocks to its array.

  The step's grid has 25 points. At point t the stored block is  (adjacency rows 400·t … 400·t + 399 times the whole current
  iterate) · c₉ + c₁ · (encoder rows 400·t …):  the adjacency window's block index is (t, 0), the current iterate's is (0, 0)
  at every point, the encoder window's and the output window's are (t, 0), so entry (p, q) of a block is entry (400·t + p, q)
  of its array. Every point writes its output block back, and row r of the output array lies in the block of point r / 400;
  hence after the last point the output array is one propagation step of the arrays the step found, entry by entry.
-/
import proofs.«175698_g31370441130260_cont_8to1_b_1575_2_alg».proof.Proof.RegionProp6
import proofs.«175698_g31370441130260_cont_8to1_b_1575_2_alg».proof.Proof.KernelPay
import Idealize.ShloMosaic.Lib.Pipeline.Value

noncomputable section

namespace Cert.KernelIdeal.Arr

open Cert.KernelIdeal Cert.KernelIdeal.Gen Cert.KernelIdeal.Hand Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz6 : (![0, 0] : Fin 2 → Nat) = fun _ => 0 := funext fun a => by fin_cases a <;> rfl

/-- The block index of each window at grid point t: the adjacency rows, the encoder rows and the output rows move with t,
    the current iterate stays whole. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

/-- Row p of the adjacency block at point t is row 400·t + p of the adjacency matrix. -/
theorem adj_rows6 (c : Dev nD) (t : Fin cfg6.N) (p : Fin 400) (k : Fin 10000) (r : Fin 10000) (hr : r.val = 400 * t.val + p.val) :
    (iblk6 V c 0 t : Vec Ideal S400x10000 .f32) (ix2 p k) = (V c main_arg1 : Appnp.Mat 10000 10000) (ix2 r k) := by
  obtain ⟨e00, e01, -, -, -, -, -, -⟩ := idx6 t
  unfold iblk6
  rw [View.read_apply]
  refine congrArg (V c main_arg1 : Appnp.Mat 10000 10000) (funext fun a => Fin.ext ?_)
  match a with
  | ⟨0, _⟩ => show win6_0.index t (0 : Fin 2) * 400 + 1 * p.val = r.val; rw [e00, hr]; omega
  | ⟨1, _⟩ => show win6_0.index t (1 : Fin 2) * 10000 + 1 * k.val = k.val; rw [e01]; omega

/-- The current iterate's one block is the whole iterate. -/
theorem cur_whole6 (c : Dev nD) (t : Fin cfg6.N) (k : Fin 10000) (q : Fin 10) :
    (iblk6 V c 1 t : Vec Ideal S10000x10 .f32) (ix2 k q) = (V c main_v7 : Appnp.Mat 10000 10) (ix2 k q) := by
  obtain ⟨-, -, e10, e11, -, -, -, -⟩ := idx6 t
  unfold iblk6
  rw [View.read_apply]
  refine congrArg (V c main_v7 : Appnp.Mat 10000 10) (funext fun a => Fin.ext ?_)
  match a with
  | ⟨0, _⟩ => show win6_1.index t (0 : Fin 2) * 10000 + 1 * k.val = k.val; rw [e10]; omega
  | ⟨1, _⟩ => show win6_1.index t (1 : Fin 2) * 10 + 1 * q.val = q.val; rw [e11]; omega

/-- Row p of the encoder block at point t is row 400·t + p of the encoder's output. -/
theorem z_rows6 (c : Dev nD) (t : Fin cfg6.N) (p : Fin 400) (q : Fin 10) (r : Fin 10000) (hr : r.val = 400 * t.val + p.val) :
    (iblk6 V c 2 t : Vec Ideal S400x10 .f32) (ix2 p q) = (V c main_v2 : Appnp.Mat 10000 10) (ix2 r q) := by
  obtain ⟨-, -, -, -, e20, e21, -, -⟩ := idx6 t
  unfold iblk6
  rw [View.read_apply]
  refine congrArg (V c main_v2 : Appnp.Mat 10000 10) (funext fun a => Fin.ext ?_)
  match a with
  | ⟨0, _⟩ => show win6_2.index t (0 : Fin 2) * 400 + 1 * p.val = r.val; rw [e20, hr]; omega
  | ⟨1, _⟩ => show win6_2.index t (1 : Fin 2) * 10 + 1 * q.val = q.val; rw [e21]; omega

/-- Entry (p, q) of the output block at point t sits at (400·t + p, q) of the output array. -/
theorem out_rows6 (t : Fin cfg6.N) (p : Fin 400) (q : Fin 10) (r : Fin 10000) (hr : r.val = 400 * t.val + p.val) :
    ((cfg6.win 3).blk t).view.emb (ix2 p q) = (ix2 r q : S10000x10.Idx) := by
  obtain ⟨-, -, -, -, -, -, e30, e31⟩ := idx6 t
  funext a; apply Fin.ext
  match a with
  | ⟨0, _⟩ => show win6_3.index t (0 : Fin 2) * 400 + 1 * p.val = r.val; rw [e30, hr]; omega
  | ⟨1, _⟩ => show win6_3.index t (1 : Fin 2) * 10 + 1 * q.val = q.val; rw [e31]; omega

/-- What point t writes back is block t of one propagation step of the arrays the step finds. -/
theorem flushed6_eq (c : Dev nD) (t : Fin cfg6.N) :
    (dat6 V c).flushed 3 t
      = ((cfg6.win 3).blk t).view.read (Elt Ideal) (Appnp.step (V c main_arg1) (V c main_v7) (V c main_v2)) := by
  show (cfg6.win 3).cut (grid6.coords t) ((dat6 V c).after 3 t) = _
  rw [after6_3]
  unfold out6_3
  rw [View.canon_unit_zero hz6]
  simp only [View.ld_unit_zero (S := S400x10000) hz6, View.ld_unit_zero (S := S10000x10) hz6, View.ld_unit_zero (S := S400x10) hz6]
  funext j
  obtain ⟨p, q, rfl⟩ : ∃ (p : Fin 400) (q : Fin 10), j = ix2 p q := ⟨j 0, j 1, eq_ix2 j⟩
  have ht : t.val < 25 := lt_of_lt_of_eq t.isLt N_6
  have hp : p.val < 400 := p.isLt
  have hr : (⟨400 * t.val + p.val, by omega⟩ : Fin 10000).val = 400 * t.val + p.val := rfl
  show k6_pay1 (F := Ideal) (iblk6 V c 0 t) (iblk6 V c 1 t) (iblk6 V c 2 t) (ix2 p q)
    = Appnp.step (V c main_arg1) (V c main_v7) (V c main_v2) (((cfg6.win 3).blk t).view.emb (ix2 p q))
  rw [out_rows6 t p q _ hr, Appnp.step_ix2]
  refine (pay_prop6 _ _ _ p q).trans ?_
  unfold Appnp.stepAt
  refine congrArg₂ (fun s x : EReal => s * Appnp.w9 + Appnp.w1 * x) (Finset.sum_congr rfl fun k _ => ?_) (z_rows6 V c t p q _ hr)
  exact congrArg₂ (fun a b : EReal => a * b) (adj_rows6 V c t p k _ hr) (cur_whole6 V c t k q)

/-- Every row of the output array lies in the block of the point that is its quotient by 400. -/
theorem cover6 (i : S10000x10.Idx) :
    ∃ t : Fin cfg6.N, (cfg6.win 3).flush t = true ∧ i ∈ ((cfg6.win 3).blk t).view.set := by
  have hi0 : (i 0).val < 10000 := (i 0).isLt
  have hi1 : (i 1).val < 10 := (i 1).isLt
  have hN : cfg6.N = 25 := N_6
  have hlt : (i 0).val / 400 < cfg6.N := by rw [hN]; omega
  refine ⟨⟨(i 0).val / 400, hlt⟩, flush6_3 _, ?_⟩
  obtain ⟨-, -, -, -, -, -, e30, e31⟩ := idx6 ⟨(i 0).val / 400, hlt⟩
  show i ∈ ((View.whole main_v8).slice (win6_3.rect ⟨(i 0).val / 400, hlt⟩)).set
  rw [View.set_slice_whole, Rect.mem_set_unit]
  intro a
  match a with
  | ⟨0, _⟩ =>
    show win6_3.index _ (0 : Fin 2) * 400 ≤ (i 0).val ∧ (i 0).val < win6_3.index _ (0 : Fin 2) * 400 + 400
    rw [e30]; show (i 0).val / 400 * 400 ≤ (i 0).val ∧ (i 0).val < (i 0).val / 400 * 400 + 400; omega
  | ⟨1, _⟩ =>
    show win6_3.index _ (1 : Fin 2) * 10 ≤ (i 1).val ∧ (i 1).val < win6_3.index _ (1 : Fin 2) * 10 + 10
    rw [e31]; omega

/-- The output array after the last point: one propagation step of the arrays the step finds. -/
theorem arr_prop6 (c : Dev nD) : (dat6 V c).arrAt 3 cfg6.N = Appnp.step (V c main_arg1) (V c main_v7) (V c main_v2) :=
  (dat6 V c).arrAt_eq_of_cover 3 (Appnp.step (V c main_arg1) (V c main_v7) (V c main_v2)) (fun t _ => flushed6_eq V c t) (cover6)

end Cert.KernelIdeal.Arr

end
-- ==== Proof.KernelArrProp7.lean ====
/-
  Propagation step 7, from its blocks to its array.

  The step's grid has 25 points. At point t the stored block is  (adjacency rows 400·t … 400·t + 399 times the whole current
  iterate) · c₉ + c₁ · (encoder rows 400·t …):  the adjacency window's block index is (t, 0), the current iterate's is (0, 0)
  at every point, the encoder window's and the output window's are (t, 0), so entry (p, q) of a block is entry (400·t + p, q)
  of its array. Every point writes its output block back, and row r of the output array lies in the block of point r / 400;
  hence after the last point the output array is one propagation step of the arrays the step found, entry by entry.
-/
import proofs.«175698_g31370441130260_cont_8to1_b_1575_2_alg».proof.Proof.RegionProp7
import proofs.«175698_g31370441130260_cont_8to1_b_1575_2_alg».proof.Proof.KernelPay
import Idealize.ShloMosaic.Lib.Pipeline.Value

noncomputable section

namespace Cert.KernelIdeal.Arr

open Cert.KernelIdeal Cert.KernelIdeal.Gen Cert.KernelIdeal.Hand Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz7 : (![0, 0] : Fin 2 → Nat) = fun _ => 0 := funext fun a => by fin_cases a <;> rfl

/-- The block index of each window at grid point t: the adjacency rows, the encoder rows and the output rows move with t,
    the current iterate stays whole. -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0 :=
  (by decide +kernel : ∀ t : Fin grid7.N, _)

/-- Row p of the adjacency block at point t is row 400·t + p of the adjacency matrix. -/
theorem adj_rows7 (c : Dev nD) (t : Fin cfg7.N) (p : Fin 400) (k : Fin 10000) (r : Fin 10000) (hr : r.val = 400 * t.val + p.val) :
    (iblk7 V c 0 t : Vec Ideal S400x10000 .f32) (ix2 p k) = (V c main_arg1 : Appnp.Mat 10000 10000) (ix2 r k) := by
  obtain ⟨e00, e01, -, -, -, -, -, -⟩ := idx7 t
  unfold iblk7
  rw [View.read_apply]
  refine congrArg (V c main_arg1 : Appnp.Mat 10000 10000) (funext fun a => Fin.ext ?_)
  match a with
  | ⟨0, _⟩ => show win7_0.index t (0 : Fin 2) * 400 + 1 * p.val = r.val; rw [e00, hr]; omega
  | ⟨1, _⟩ => show win7_0.index t (1 : Fin 2) * 10000 + 1 * k.val = k.val; rw [e01]; omega

/-- The current iterate's one block is the whole iterate. -/
theorem cur_whole7 (c : Dev nD) (t : Fin cfg7.N) (k : Fin 10000) (q : Fin 10) :
    (iblk7 V c 1 t : Vec Ideal S10000x10 .f32) (ix2 k q) = (V c main_v8 : Appnp.Mat 10000 10) (ix2 k q) := by
  obtain ⟨-, -, e10, e11, -, -, -, -⟩ := idx7 t
  unfold iblk7
  rw [View.read_apply]
  refine congrArg (V c main_v8 : Appnp.Mat 10000 10) (funext fun a => Fin.ext ?_)
  match a with
  | ⟨0, _⟩ => show win7_1.index t (0 : Fin 2) * 10000 + 1 * k.val = k.val; rw [e10]; omega
  | ⟨1, _⟩ => show win7_1.index t (1 : Fin 2) * 10 + 1 * q.val = q.val; rw [e11]; omega

/-- Row p of the encoder block at point t is row 400·t + p of the encoder's output. -/
theorem z_rows7 (c : Dev nD) (t : Fin cfg7.N) (p : Fin 400) (q : Fin 10) (r : Fin 10000) (hr : r.val = 400 * t.val + p.val) :
    (iblk7 V c 2 t : Vec Ideal S400x10 .f32) (ix2 p q) = (V c main_v2 : Appnp.Mat 10000 10) (ix2 r q) := by
  obtain ⟨-, -, -, -, e20, e21, -, -⟩ := idx7 t
  unfold iblk7
  rw [View.read_apply]
  refine congrArg (V c main_v2 : Appnp.Mat 10000 10) (funext fun a => Fin.ext ?_)
  match a with
  | ⟨0, _⟩ => show win7_2.index t (0 : Fin 2) * 400 + 1 * p.val = r.val; rw [e20, hr]; omega
  | ⟨1, _⟩ => show win7_2.index t (1 : Fin 2) * 10 + 1 * q.val = q.val; rw [e21]; omega

/-- Entry (p, q) of the output block at point t sits at (400·t + p, q) of the output array. -/
theorem out_rows7 (t : Fin cfg7.N) (p : Fin 400) (q : Fin 10) (r : Fin 10000) (hr : r.val = 400 * t.val + p.val) :
    ((cfg7.win 3).blk t).view.emb (ix2 p q) = (ix2 r q : S10000x10.Idx) := by
  obtain ⟨-, -, -, -, -, -, e30, e31⟩ := idx7 t
  funext a; apply Fin.ext
  match a with
  | ⟨0, _⟩ => show win7_3.index t (0 : Fin 2) * 400 + 1 * p.val = r.val; rw [e30, hr]; omega
  | ⟨1, _⟩ => show win7_3.index t (1 : Fin 2) * 10 + 1 * q.val = q.val; rw [e31]; omega

/-- What point t writes back is block t of one propagation step of the arrays the step finds. -/
theorem flushed7_eq (c : Dev nD) (t : Fin cfg7.N) :
    (dat7 V c).flushed 3 t
      = ((cfg7.win 3).blk t).view.read (Elt Ideal) (Appnp.step (V c main_arg1) (V c main_v8) (V c main_v2)) := by
  show (cfg7.win 3).cut (grid7.coords t) ((dat7 V c).after 3 t) = _
  rw [after7_3]
  unfold out7_3
  rw [View.canon_unit_zero hz7]
  simp only [View.ld_unit_zero (S := S400x10000) hz7, View.ld_unit_zero (S := S10000x10) hz7, View.ld_unit_zero (S := S400x10) hz7]
  funext j
  obtain ⟨p, q, rfl⟩ : ∃ (p : Fin 400) (q : Fin 10), j = ix2 p q := ⟨j 0, j 1, eq_ix2 j⟩
  have ht : t.val < 25 := lt_of_lt_of_eq t.isLt N_7
  have hp : p.val < 400 := p.isLt
  have hr : (⟨400 * t.val + p.val, by omega⟩ : Fin 10000).val = 400 * t.val + p.val := rfl
  show k7_pay1 (F := Ideal) (iblk7 V c 0 t) (iblk7 V c 1 t) (iblk7 V c 2 t) (ix2 p q)
    = Appnp.step (V c main_arg1) (V c main_v8) (V c main_v2) (((cfg7.win 3).blk t).view.emb (ix2 p q))
  rw [out_rows7 t p q _ hr, Appnp.step_ix2]
  refine (pay_prop7 _ _ _ p q).trans ?_
  unfold Appnp.stepAt
  refine congrArg₂ (fun s x : EReal => s * Appnp.w9 + Appnp.w1 * x) (Finset.sum_congr rfl fun k _ => ?_) (z_rows7 V c t p q _ hr)
  exact congrArg₂ (fun a b : EReal => a * b) (adj_rows7 V c t p k _ hr) (cur_whole7 V c t k q)

/-- Every row of the output array lies in the block of the point that is its quotient by 400. -/
theorem cover7 (i : S10000x10.Idx) :
    ∃ t : Fin cfg7.N, (cfg7.win 3).flush t = true ∧ i ∈ ((cfg7.win 3).blk t).view.set := by
  have hi0 : (i 0).val < 10000 := (i 0).isLt
  have hi1 : (i 1).val < 10 := (i 1).isLt
  have hN : cfg7.N = 25 := N_7
  have hlt : (i 0).val / 400 < cfg7.N := by rw [hN]; omega
  refine ⟨⟨(i 0).val / 400, hlt⟩, flush7_3 _, ?_⟩
  obtain ⟨-, -, -, -, -, -, e30, e31⟩ := idx7 ⟨(i 0).val / 400, hlt⟩
  show i ∈ ((View.whole main_v9).slice (win7_3.rect ⟨(i 0).val / 400, hlt⟩)).set
  rw [View.set_slice_whole, Rect.mem_set_unit]
  intro a
  match a with
  | ⟨0, _⟩ =>
    show win7_3.index _ (0 : Fin 2) * 400 ≤ (i 0).val ∧ (i 0).val < win7_3.index _ (0 : Fin 2) * 400 + 400
    rw [e30]; show (i 0).val / 400 * 400 ≤ (i 0).val ∧ (i 0).val < (i 0).val / 400 * 400 + 400; omega
  | ⟨1, _⟩ =>
    show win7_3.index _ (1 : Fin 2) * 10 ≤ (i 1).val ∧ (i 1).val < win7_3.index _ (1 : Fin 2) * 10 + 10
    rw [e31]; omega

/-- The output array after the last point: one propagation step of the arrays the step finds. -/
theorem arr_prop7 (c : Dev nD) : (dat7 V c).arrAt 3 cfg7.N = Appnp.step (V c main_arg1) (V c main_v8) (V c main_v2) :=
  (dat7 V c).arrAt_eq_of_cover 3 (Appnp.step (V c main_arg1) (V c main_v8) (V c main_v2)) (fun t _ => flushed7_eq V c t) (cover7)

end Cert.KernelIdeal.Arr

end
-- ==== Proof.KernelArrLast.lean ====
/-
  The last step, from its blocks to its array.

  The grid has 25 points. At point t the stored block is the row-wise log-softmax of the propagation block
  (adjacency rows 400·t … 400·t + 399 times the whole current iterate) · c₉ + c₁ · (encoder rows 400·t …).  A row of the block is
  a row of the array (entry (p, q) of a block is entry (400·t + p, q) of its array, and a block holds whole rows), so the row
  maximum and the row sum taken inside the block are the array's. Every point writes its block back and row r lies in the block
  of point r / 400; hence after the last point the output array is the log-softmax of one propagation step, entry by entry.
-/
import proofs.«175698_g31370441130260_cont_8to1_b_1575_2_alg».proof.Proof.RegionLast
import proofs.«175698_g31370441130260_cont_8to1_b_1575_2_alg».proof.Proof.KernelPay
import Idealize.ShloMosaic.Lib.Pipeline.Value

noncomputable section

namespace Cert.KernelIdeal.Arr

open Cert.KernelIdeal Cert.KernelIdeal.Gen Cert.KernelIdeal.Hand Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz8 : (![0, 0] : Fin 2 → Nat) = fun _ => 0 := funext fun a => by fin_cases a <;> rfl

/-- The block index of each window at grid point t: the adjacency rows, the encoder rows and the output rows move with t,
    the current iterate stays whole. -/
theorem idx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0 :=
  (by decide +kernel : ∀ t : Fin grid8.N, _)

/-- Row p of the adjacency block at point t is row 400·t + p of the adjacency matrix. -/
theorem adj_rows8 (c : Dev nD) (t : Fin cfg8.N) (p : Fin 400) (k : Fin 10000) (r : Fin 10000) (hr : r.val = 400 * t.val + p.val) :
    (iblk8 V c 0 t : Vec Ideal S400x10000 .f32) (ix2 p k) = (V c main_arg1 : Appnp.Mat 10000 10000) (ix2 r k) := by
  obtain ⟨e00, e01, -, -, -, -, -, -⟩ := idx8 t
  unfold iblk8
  rw [View.read_apply]
  refine congrArg (V c main_arg1 : Appnp.Mat 10000 10000) (funext fun a => Fin.ext ?_)
  match a with
  | ⟨0, _⟩ => show win8_0.index t (0 : Fin 2) * 400 + 1 * p.val = r.val; rw [e00, hr]; omega
  | ⟨1, _⟩ => show win8_0.index t (1 : Fin 2) * 10000 + 1 * k.val = k.val; rw [e01]; omega

/-- The current iterate's one block is the whole iterate. -/
theorem cur_whole8 (c : Dev nD) (t : Fin cfg8.N) (k : Fin 10000) (q : Fin 10) :
    (iblk8 V c 1 t : Vec Ideal S10000x10 .f32) (ix2 k q) = (V c main_v9 : Appnp.Mat 10000 10) (ix2 k q) := by
  obtain ⟨-, -, e10, e11, -, -, -, -⟩ := idx8 t
  unfold iblk8
  rw [View.read_apply]
  refine congrArg (V c main_v9 : Appnp.Mat 10000 10) (funext fun a => Fin.ext ?_)
  match a with
  | ⟨0, _⟩ => show win8_1.index t (0 : Fin 2) * 10000 + 1 * k.val = k.val; rw [e10]; omega
  | ⟨1, _⟩ => show win8_1.index t (1 : Fin 2) * 10 + 1 * q.val = q.val; rw [e11]; omega

/-- Row p of the encoder block at point t is row 400·t + p of the encoder's output. -/
theorem z_rows8 (c : Dev nD) (t : Fin cfg8.N) (p : Fin 400) (q : Fin 10) (r : Fin 10000) (hr : r.val = 400 * t.val + p.val) :
    (iblk8 V c 2 t : Vec Ideal S400x10 .f32) (ix2 p q) = (V c main_v2 : Appnp.Mat 10000 10) (ix2 r q) := by
  obtain ⟨-, -, -, -, e20, e21, -, -⟩ := idx8 t
  unfold iblk8
  rw [View.read_apply]
  refine congrArg (V c main_v2 : Appnp.Mat 10000 10) (funext fun a => Fin.ext ?_)
  match a with
  | ⟨0, _⟩ => show win8_2.index t (0 : Fin 2) * 400 + 1 * p.val = r.val; rw [e20, hr]; omega
  | ⟨1, _⟩ => show win8_2.index t (1 : Fin 2) * 10 + 1 * q.val = q.val; rw [e21]; omega

/-- Entry (p, q) of the output block at point t sits at (400·t + p, q) of the output array. -/
theorem out_rows8 (t : Fin cfg8.N) (p : Fin 400) (q : Fin 10) (r : Fin 10000) (hr : r.val = 400 * t.val + p.val) :
    ((cfg8.win 3).blk t).view.emb (ix2 p q) = (ix2 r q : S10000x10.Idx) := by
  obtain ⟨-, -, -, -, -, -, e30, e31⟩ := idx8 t
  funext a; apply Fin.ext
  match a with
  | ⟨0, _⟩ => show win8_3.index t (0 : Fin 2) * 400 + 1 * p.val = r.val; rw [e30, hr]; omega
  | ⟨1, _⟩ => show win8_3.index t (1 : Fin 2) * 10 + 1 * q.val = q.val; rw [e31]; omega

/-- What point t writes back is block t of the row-wise log-softmax of one propagation step of the arrays the step finds:
    at row r = 400·t + p the block's propagation entries are the step's row r, so its row maximum is that row's. -/
theorem flushed8_eq (c : Dev nD) (t : Fin cfg8.N) :
    (dat8 V c).flushed 3 t
      = ((cfg8.win 3).blk t).view.read (Elt Ideal) (Appnp.lsm (Appnp.step (V c main_arg1) (V c main_v9) (V c main_v2))) := by
  show (cfg8.win 3).cut (grid8.coords t) ((dat8 V c).after 3 t) = _
  rw [after8_3]
  unfold out8_3
  rw [View.canon_unit_zero hz8]
  simp only [View.ld_unit_zero (S := S400x10000) hz8, View.ld_unit_zero (S := S10000x10) hz8, View.ld_unit_zero (S := S400x10) hz8]
  funext j
  obtain ⟨p, q, rfl⟩ : ∃ (p : Fin 400) (q : Fin 10), j = ix2 p q := ⟨j 0, j 1, eq_ix2 j⟩
  have ht : t.val < 25 := lt_of_lt_of_eq t.isLt N_8
  have hp : p.val < 400 := p.isLt
  obtain ⟨r, hr⟩ : ∃ r : Fin 10000, r.val = 400 * t.val + p.val := ⟨⟨400 * t.val + p.val, by omega⟩, rfl⟩
  show k8_pay1 (F := Ideal) (iblk8 V c 0 t) (iblk8 V c 1 t) (iblk8 V c 2 t) (ix2 p q)
    = Appnp.lsm (Appnp.step (V c main_arg1) (V c main_v9) (V c main_v2)) (((cfg8.win 3).blk t).view.emb (ix2 p q))
  rw [out_rows8 t p q r hr, Appnp.lsm_ix2]
  have hU : ∀ q' : Fin 10, uAt (iblk8 V c 0 t) (iblk8 V c 1 t) (iblk8 V c 2 t) p q' = Appnp.step (V c main_arg1) (V c main_v9) (V c main_v2) (ix2 r q') := fun q' => by
    rw [Appnp.step_ix2]
    unfold uAt Appnp.stepAt
    refine congrArg₂ (fun s x : EReal => s * Appnp.w9 + Appnp.w1 * x) (Finset.sum_congr rfl fun k _ => ?_) (z_rows8 V c t p q' r hr)
    exact congrArg₂ (fun a b : EReal => a * b) (adj_rows8 V c t p k r hr) (cur_whole8 V c t k q')
  have hM : mxAt (iblk8 V c 0 t) (iblk8 V c 1 t) (iblk8 V c 2 t) p = Appnp.rowMaxAt (Appnp.step (V c main_arg1) (V c main_v9) (V c main_v2)) r := by
    unfold mxAt Appnp.rowMaxAt
    exact congrArg (fun f : Fin 10 → EReal => max Appnp.wInf ((Finset.univ : Finset (Fin 10)).fold max Appnp.wInf f)) (funext hU)
  refine (pay_last _ _ _ p q).trans ?_
  unfold Appnp.lsmAt
  exact congrArg₂ (fun x s : EReal => x - Ideal.log s) (congrArg₂ (fun a m : EReal => a - m) (hU q) hM)
    (Finset.sum_congr rfl fun k _ => congrArg Ideal.exp (congrArg₂ (fun a m : EReal => a - m) (hU k) hM))

/-- Every row of the output array lies in the block of the point that is its quotient by 400. -/
theorem cover8 (i : S10000x10.Idx) :
    ∃ t : Fin cfg8.N, (cfg8.win 3).flush t = true ∧ i ∈ ((cfg8.win 3).blk t).view.set := by
  have hi0 : (i 0).val < 10000 := (i 0).isLt
  have hi1 : (i 1).val < 10 := (i 1).isLt
  have hN : cfg8.N = 25 := N_8
  have hlt : (i 0).val / 400 < cfg8.N := by rw [hN]; omega
  refine ⟨⟨(i 0).val / 400, hlt⟩, flush8_3 _, ?_⟩
  obtain ⟨-, -, -, -, -, -, e30, e31⟩ := idx8 ⟨(i 0).val / 400, hlt⟩
  show i ∈ ((View.whole main_v10).slice (win8_3.rect ⟨(i 0).val / 400, hlt⟩)).set
  rw [View.set_slice_whole, Rect.mem_set_unit]
  intro a
  match a with
  | ⟨0, _⟩ =>
    show win8_3.index _ (0 : Fin 2) * 400 ≤ (i 0).val ∧ (i 0).val < win8_3.index _ (0 : Fin 2) * 400 + 400
    rw [e30]; show (i 0).val / 400 * 400 ≤ (i 0).val ∧ (i 0).val < (i 0).val / 400 * 400 + 400; omega
  | ⟨1, _⟩ =>
    show win8_3.index _ (1 : Fin 2) * 10 ≤ (i 1).val ∧ (i 1).val < win8_3.index _ (1 : Fin 2) * 10 + 10
    rw [e31]; omega

/-- The output array after the last point: the row-wise log-softmax of one propagation step of the arrays the step finds. -/
theorem arr_last (c : Dev nD) : (dat8 V c).arrAt 3 cfg8.N = Appnp.lsm (Appnp.step (V c main_arg1) (V c main_v9) (V c main_v2)) :=
  (dat8 V c).arrAt_eq_of_cover 3 (Appnp.lsm (Appnp.step (V c main_arg1) (V c main_v9) (V c main_v2))) (fun t _ => flushed8_eq V c t) (cover8)

end Cert.KernelIdeal.Arr

end
-- ==== Proof.KernelValue.lean ====
/-
  What the result array holds after the run, at the ideal values: the last of the nine pallas_calls leaves the row-wise
  log-softmax of the eighth propagation iterate. Each call's output array is the specification's function of the arrays the
  call reads (the per-call block-to-array theorems); the adjacency matrix and the teleport matrix are never overwritten, so
  every call reads them as the launch and the first call left them, and the chain of calls unrolls the iteration.
-/
import proofs.«175698_g31370441130260_cont_8to1_b_1575_2_alg».proof.Proof.Run
import proofs.«175698_g31370441130260_cont_8to1_b_1575_2_alg».proof.Proof.KernelArrEnc
import proofs.«175698_g31370441130260_cont_8to1_b_1575_2_alg».proof.Proof.KernelArrProp1
import proofs.«175698_g31370441130260_cont_8to1_b_1575_2_alg».proof.Proof.KernelArrProp2
import proofs.«175698_g31370441130260_cont_8to1_b_1575_2_alg».proof.Proof.KernelArrProp3
import proofs.«175698_g31370441130260_cont_8to1_b_1575_2_alg».proof.Proof.KernelArrProp4
import proofs.«175698_g31370441130260_cont_8to1_b_1575_2_alg».proof.Proof.KernelArrProp5
import proofs.«175698_g31370441130260_cont_8to1_b_1575_2_alg».proof.Proof.KernelArrProp6
import proofs.«175698_g31370441130260_cont_8to1_b_1575_2_alg».proof.Proof.KernelArrProp7
import proofs.«175698_g31370441130260_cont_8to1_b_1575_2_alg».proof.Proof.KernelArrLast
import proofs.«175698_g31370441130260_cont_8to1_b_1575_2_alg».proof.Proof.Spec
import Idealize.ShloMosaic.Lib.ValueLayout
import Idealize.ShloMosaic.Lib.StableHlo.Run

noncomputable section

namespace Cert.KernelIdeal.Chain

open Cert.KernelIdeal Cert.KernelIdeal.Gen Cert.KernelIdeal.Hand Cert.KernelIdeal.Arr
open Idealize.ShloMosaic Idealize.ShloMosaic.TcCoe Idealize.ShloMosaic.ValueIdx Idealize.ShloMosaic.StableHlo
open Idealize.SL Idealize.SL.RA Idealize.SL.Sem

variable (m : (ℓ : Loc nD τ sig) → Buf (Elt Ideal) ℓ) (c : Dev nD)

/-- The teleport matrix of the launch arguments, and the iterates of the propagation from it. -/
def Z : Appnp.Mat 10000 10 := Appnp.enc (m ((c : Thread nD τ).loc main_arg0)) (m ((c : Thread nD τ).loc main_arg2)) (m ((c : Thread nD τ).loc main_arg3)) (m ((c : Thread nD τ).loc main_arg4)) (m ((c : Thread nD τ).loc main_arg5))
def It (n : Nat) : Appnp.Mat 10000 10 := Appnp.iter (m ((c : Thread nD τ).loc main_arg1)) (Z m c) n

/-! ## After the host reshapes -/

/-- The reshapes write only the two bias rows: every other buffer is as launched. -/
theorem C1_keeps (b : Ref sig .tc) (h0 : b ≠ main_v0) (h1 : b ≠ main_v1) : C1 m c b = m ((c : Thread nD τ).loc b) :=
  B1_keeps m c b h0 h1

/-- The first bias as a row reads, at (0, k), the bias at k. -/
theorem bias1_row : (fun i : (⟨1, ![128]⟩ : Shape).Idx => C1 m c main_v0 (ix2 (0 : Fin 1) (i 0))) = m ((c : Thread nD τ).loc main_arg3) := by
  funext i
  have e : (C1 m c main_v0 : S1x128.Idx → EReal) = shapeCast S1x128 (m ((c : Thread nD τ).loc main_arg3)) shapeCasts_S128_S1x128 := by
    show StableHlo.after hostOps0 (fun b => m (c, b)) (Proc.devRef .tc main_v0) = _
    after_results; rfl
  rw [e]
  exact (shapeCast_a_1a_apply _ _ (0 : Fin 1) (i 0)).trans (congrArg _ (eq_ix1 i).symm)

/-- The second bias likewise. -/
theorem bias2_row : (fun i : (⟨1, ![10]⟩ : Shape).Idx => C1 m c main_v1 (ix2 (0 : Fin 1) (i 0))) = m ((c : Thread nD τ).loc main_arg5) := by
  funext i
  have e : (C1 m c main_v1 : S1x10.Idx → EReal) = shapeCast S1x10 (m ((c : Thread nD τ).loc main_arg5)) shapeCasts_S10_S1x10 := by
    show StableHlo.after hostOps0 (fun b => m (c, b)) (Proc.devRef .tc main_v1) = _
    after_results; rfl
  rw [e]
  exact (shapeCast_a_1a_apply _ _ (0 : Fin 1) (i 0)).trans (congrArg _ (eq_ix1 i).symm)

/-! ## The adjacency matrix and the teleport matrix at every call's entry -/

theorem adj_1 : C1 m c main_arg1 = m ((c : Thread nD τ).loc main_arg1) := C1_keeps m c main_arg1 (by decide) (by decide)
theorem adj_2 : C2 m c main_arg1 = m ((c : Thread nD τ).loc main_arg1) := (B2_of_ne m c main_arg1 (by decide)).trans (adj_1 m c)
theorem adj_3 : C3 m c main_arg1 = m ((c : Thread nD τ).loc main_arg1) := (B3_of_ne m c main_arg1 (by decide)).trans (adj_2 m c)
theorem adj_4 : C4 m c main_arg1 = m ((c : Thread nD τ).loc main_arg1) := (B4_of_ne m c main_arg1 (by decide)).trans (adj_3 m c)
theorem adj_5 : C5 m c main_arg1 = m ((c : Thread nD τ).loc main_arg1) := (B5_of_ne m c main_arg1 (by decide)).trans (adj_4 m c)
theorem adj_6 : C6 m c main_arg1 = m ((c : Thread nD τ).loc main_arg1) := (B6_of_ne m c main_arg1 (by decide)).trans (adj_5 m c)
theorem adj_7 : C7 m c main_arg1 = m ((c : Thread nD τ).loc main_arg1) := (B7_of_ne m c main_arg1 (by decide)).trans (adj_6 m c)
theorem adj_8 : C8 m c main_arg1 = m ((c : Thread nD τ).loc main_arg1) := (B8_of_ne m c main_arg1 (by decide)).trans (adj_7 m c)
theorem adj_9 : C9 m c main_arg1 = m ((c : Thread nD τ).loc main_arg1) := (B9_of_ne m c main_arg1 (by decide)).trans (adj_8 m c)

/-- The first call leaves the teleport matrix in `main_v2`. -/
theorem z_2 : C2 m c main_v2 = Z m c := by
  refine (B2_out m c).trans ((arr_enc (C1 m) c).trans ?_)
  rw [bias1_row m c, bias2_row m c, C1_keeps m c main_arg0 (by decide) (by decide), C1_keeps m c main_arg2 (by decide) (by decide),
    C1_keeps m c main_arg4 (by decide) (by decide)]
  rfl
theorem z_3 : C3 m c main_v2 = Z m c := (B3_of_ne m c main_v2 (by decide)).trans (z_2 m c)
theorem z_4 : C4 m c main_v2 = Z m c := (B4_of_ne m c main_v2 (by decide)).trans (z_3 m c)
theorem z_5 : C5 m c main_v2 = Z m c := (B5_of_ne m c main_v2 (by decide)).trans (z_4 m c)
theorem z_6 : C6 m c main_v2 = Z m c := (B6_of_ne m c main_v2 (by decide)).trans (z_5 m c)
theorem z_7 : C7 m c main_v2 = Z m c := (B7_of_ne m c main_v2 (by decide)).trans (z_6 m c)
theorem z_8 : C8 m c main_v2 = Z m c := (B8_of_ne m c main_v2 (by decide)).trans (z_7 m c)
theorem z_9 : C9 m c main_v2 = Z m c := (B9_of_ne m c main_v2 (by decide)).trans (z_8 m c)

/-! ## The iterates -/

/-- The second call, which reads the teleport matrix through two windows, leaves the first iterate. -/
theorem out_1 : C3 m c main_v3 = It m c 1 := by
  refine (B3_out m c).trans ((arr_prop1 (C2 m) fullShare.left fullShare.right c).trans ?_)
  rw [adj_2 m c, z_2 m c]
  rfl
theorem out_2 : C4 m c main_v4 = It m c 2 := by
  refine (B4_out m c).trans ((arr_prop2 (C3 m) c).trans ?_)
  rw [adj_3 m c, out_1 m c, z_3 m c]
  rfl
theorem out_3 : C5 m c main_v5 = It m c 3 := by
  refine (B5_out m c).trans ((arr_prop3 (C4 m) c).trans ?_)
  rw [adj_4 m c, out_2 m c, z_4 m c]
  rfl
theorem out_4 : C6 m c main_v6 = It m c 4 := by
  refine (B6_out m c).trans ((arr_prop4 (C5 m) c).trans ?_)
  rw [adj_5 m c, out_3 m c, z_5 m c]
  rfl
theorem out_5 : C7 m c main_v7 = It m c 5 := by
  refine (B7_out m c).trans ((arr_prop5 (C6 m) c).trans ?_)
  rw [adj_6 m c, out_4 m c, z_6 m c]
  rfl
theorem out_6 : C8 m c main_v8 = It m c 6 := by
  refine (B8_out m c).trans ((arr_prop6 (C7 m) c).trans ?_)
  rw [adj_7 m c, out_5 m c, z_7 m c]
  rfl
theorem out_7 : C9 m c main_v9 = It m c 7 := by
  refine (B9_out m c).trans ((arr_prop7 (C8 m) c).trans ?_)
  rw [adj_8 m c, out_6 m c, z_8 m c]
  rfl

/-- The last call leaves the log-softmax of the eighth iterate: the specification's function of the six arguments. -/
theorem result_eq : B10 m c (Proc.devRef .tc main_v10) = Appnp.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (B10_out m c).trans ((arr_last (C9 m) c).trans ?_)
  rw [adj_9 m c, out_7 m c, z_9 m c]
  rfl

/-- THE KERNEL'S RUN WITH ITS VALUE: every weakly fair execution terminates, the result array holds the specification's
    function of the launch arguments, and the arguments are unchanged. -/
theorem run (ρ : Dev nD → PrngReg) : θ_run defs (onTc (τ := τ) (main (F := Ideal))) ⟨m, fun _ => 0, ρ⟩ (fun r => ∀ c : Dev nD,
      r.2.mem ((c.tc : Thread nD τ).loc main_v10) = Appnp.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_unscoped main_v10 (by decide))).trans (result_eq m c),
     (h c _ (mem_unscoped main_arg0 (by decide))).trans (B10_of_arg m c main_arg0 (by decide)),
     (h c _ (mem_unscoped main_arg1 (by decide))).trans (B10_of_arg m c main_arg1 (by decide)),
     (h c _ (mem_unscoped main_arg2 (by decide))).trans (B10_of_arg m c main_arg2 (by decide)),
     (h c _ (mem_unscoped main_arg3 (by decide))).trans (B10_of_arg m c main_arg3 (by decide)),
     (h c _ (mem_unscoped main_arg4 (by decide))).trans (B10_of_arg m c main_arg4 (by decide)),
     (h c _ (mem_unscoped main_arg5 (by decide))).trans (B10_of_arg m c main_arg5 (by decide))⟩) (run_all m ρ)

end Cert.KernelIdeal.Chain

end
-- ==== Proof.RefValue.lean ====
/-
  The reference program's result, at the ideal instance, is the specification function of its six arguments.

  The reference computes a two-layer encoder  z = relu(x · W1ᵀ + b1) · W2ᵀ + b2,  eight propagation steps
  cur ↦ (adj · cur) · c₉ + c₁ · z  from  cur = z,  and the row-wise log-softmax of the last iterate. Each stage of the
  program is read at an index (r, q): a product of matrices is the sum over the contracted coordinate, a transposition swaps
  the two coordinates, a broadcast of a row (or of a column, or of a constant word) forgets the coordinates it does not
  have, the maximum over a row from the word of −∞ is the fold of the maximum over the row's ten entries, and the sum over a
  row from the zero word is the plain sum. Read this way the encoder's last stage is `Appnp.enc`, the six stages of each
  unrolled step are `Appnp.step` of the previous iterate, and the last stages are `Appnp.lsm`; the eight steps compose to
  `Appnp.iter … 8`. No law of arithmetic is used beyond  0 + s = s  for the sum's initial word: both sides are the same
  expression entry by entry, so nothing here needs the inputs finite.
-/
import proofs.«175698_g31370441130260_cont_8to1_b_1575_2_alg».proof.Proof.RefRead
import proofs.«175698_g31370441130260_cont_8to1_b_1575_2_alg».proof.Proof.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx Idealize.ShloMosaic.StableHlo

section Stages

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S10x128, .f32⟩ : BufTy).Contents (Elt Ideal)) (x5 : (⟨S10, .f32⟩ : BufTy).Contents (Elt Ideal))

/-! ## The encoder -/

/-- The hidden layer at (r, k): the first product against the transposed weights, the bias row broadcast down the rows,
    and the maximum with the zero word. -/
theorem hid_at (r : Fin 10000) (k : Fin 128) :
    val_main_v5 (F := Ideal) x0 x2 x3 (ix2 r k) = Appnp.hidAt x0 x2 x3 r k := by
  rw [val_main_v5_apply, val_main_v4_apply, val_main_v1_apply, val_main_v3_apply, val_main_v2_apply, val_main_call0_v0_apply,
    val_main_call0_cst_apply]
  have e1 : ∀ j : Fin 128, lidx_main_v1 (ix2 r k) j = ix2 r j := fun j =>
    funext fun a => Fin.ext (by match a with | ⟨0, _⟩ => rfl | ⟨1, _⟩ => rfl)
  have e2 : ∀ j : Fin 128, idx_main_v0 (ridx_main_v1 (ix2 r k) j) = ix2 k j := fun j =>
    funext fun a => Fin.ext (by match a with | ⟨0, _⟩ => rfl | ⟨1, _⟩ => rfl)
  have e3 : idx_main_v2 (idx_main_v3 (ix2 r k)) = ix1 k :=
    funext fun a => Fin.ext (by match a with | ⟨0, _⟩ => rfl)
  simp only [val_main_v0_apply, e1, e2, e3]
  rfl

/-- The teleport matrix at (r, q): the hidden row against the transposed second weights, plus the bias row. -/
theorem enc_at (r : Fin 10000) (q : Fin 10) :
    val_main_v10 (F := Ideal) x0 x2 x3 x4 x5 (ix2 r q) = Appnp.encAt x0 x2 x3 x4 x5 r q := by
  rw [val_main_v10_apply, val_main_v7_apply, val_main_v9_apply, val_main_v8_apply]
  have e1 : ∀ k : Fin 128, lidx_main_v7 (ix2 r q) k = ix2 r k := fun k =>
    funext fun a => Fin.ext (by match a with | ⟨0, _⟩ => rfl | ⟨1, _⟩ => rfl)
  have e2 : ∀ k : Fin 128, idx_main_v6 (ridx_main_v7 (ix2 r q) k) = ix2 q k := fun k =>
    funext fun a => Fin.ext (by match a with | ⟨0, _⟩ => rfl | ⟨1, _⟩ => rfl)
  have e3 : idx_main_v8 (idx_main_v9 (ix2 r q)) = ix1 q :=
    funext fun a => Fin.ext (by match a with | ⟨0, _⟩ => rfl)
  simp only [val_main_v6_apply, e1, e2, e3, hid_at]
  rfl

/-- The encoder stage is the specification's teleport matrix. -/
theorem enc_eq : val_main_v10 (F := Ideal) x0 x2 x3 x4 x5 = Appnp.enc x0 x2 x3 x4 x5 := by
  funext i
  obtain ⟨r, q, rfl⟩ : ∃ (r : Fin 10000) (q : Fin 10), i = ix2 r q := ⟨i 0, i 1, eq_ix2 i⟩
  exact enc_at x0 x2 x3 x4 x5 r q

/-! ## One propagation step -/

/-- Three stages make a step: the product of the adjacency matrix with the current iterate, times the first constant word,
    plus the second constant word times the teleport matrix. Stated over any three matrices and a result read index by index,
    so that each of the eight unrolled steps is an instance. -/
theorem step_of (adj : Appnp.Mat 10000 10000) (cur z out : Appnp.Mat 10000 10)
    (h : ∀ i : S10000x10.Idx, out i =
      FloatOps.addf (F := Ideal) (FloatOps.mulf (F := Ideal) (∑ k : Fin 10000, adj (lidx_main_v11 i k) * cur (ridx_main_v11 i k)) (FloatOps.ofBits (F := Ideal) .f32 0x3F666666#32))
        (FloatOps.mulf (F := Ideal) (FloatOps.ofBits (F := Ideal) .f32 0x3DCCCCCD#32) (z i))) :
    out = Appnp.step adj cur z := by
  funext i
  obtain ⟨r, q, rfl⟩ : ∃ (r : Fin 10000) (q : Fin 10), i = ix2 r q := ⟨i 0, i 1, eq_ix2 i⟩
  rw [h, Appnp.step_ix2]
  have e1 : ∀ k : Fin 10000, lidx_main_v11 (ix2 r q) k = ix2 r k := fun k =>
    funext fun a => Fin.ext (by match a with | ⟨0, _⟩ => rfl | ⟨1, _⟩ => rfl)
  have e2 : ∀ k : Fin 10000, ridx_main_v11 (ix2 r q) k = ix2 k q := fun k =>
    funext fun a => Fin.ext (by match a with | ⟨0, _⟩ => rfl | ⟨1, _⟩ => rfl)
  simp only [e1, e2]
  rfl

theorem step1 : val_main_v16 (F := Ideal) x0 x1 x2 x3 x4 x5
    = Appnp.step x1 (val_main_v10 (F := Ideal) x0 x2 x3 x4 x5) (val_main_v10 (F := Ideal) x0 x2 x3 x4 x5) :=
  step_of x1 _ _ _ fun i => by
    rw [val_main_v16_apply, val_main_v13_apply, val_main_v11_apply, val_main_v12_apply, val_main_cst_apply, val_main_v15_apply,
      val_main_v14_apply, val_main_cst_0_apply]

theorem step2 : val_main_v22 (F := Ideal) x0 x1 x2 x3 x4 x5
    = Appnp.step x1 (val_main_v16 (F := Ideal) x0 x1 x2 x3 x4 x5) (val_main_v10 (F := Ideal) x0 x2 x3 x4 x5) :=
  step_of x1 _ _ _ fun i => by
    rw [val_main_v22_apply, val_main_v19_apply, val_main_v17_apply, val_main_v18_apply, val_main_cst_1_apply, val_main_v21_apply,
      val_main_v20_apply, val_main_cst_2_apply]

theorem step3 : val_main_v28 (F := Ideal) x0 x1 x2 x3 x4 x5
    = Appnp.step x1 (val_main_v22 (F := Ideal) x0 x1 x2 x3 x4 x5) (val_main_v10 (F := Ideal) x0 x2 x3 x4 x5) :=
  step_of x1 _ _ _ fun i => by
    rw [val_main_v28_apply, val_main_v25_apply, val_main_v23_apply, val_main_v24_apply, val_main_cst_3_apply, val_main_v27_apply,
      val_main_v26_apply, val_main_cst_4_apply]

theorem step4 : val_main_v34 (F := Ideal) x0 x1 x2 x3 x4 x5
    = Appnp.step x1 (val_main_v28 (F := Ideal) x0 x1 x2 x3 x4 x5) (val_main_v10 (F := Ideal) x0 x2 x3 x4 x5) :=
  step_of x1 _ _ _ fun i => by
    rw [val_main_v34_apply, val_main_v31_apply, val_main_v29_apply, val_main_v30_apply, val_main_cst_5_apply, val_main_v33_apply,
      val_main_v32_apply, val_main_cst_6_apply]

theorem step5 : val_main_v40 (F := Ideal) x0 x1 x2 x3 x4 x5
    = Appnp.step x1 (val_main_v34 (F := Ideal) x0 x1 x2 x3 x4 x5) (val_main_v10 (F := Ideal) x0 x2 x3 x4 x5) :=
  step_of x1 _ _ _ fun i => by
    rw [val_main_v40_apply, val_main_v37_apply, val_main_v35_apply, val_main_v36_apply, val_main_cst_7_apply, val_main_v39_apply,
      val_main_v38_apply, val_main_cst_8_apply]

theorem step6 : val_main_v46 (F := Ideal) x0 x1 x2 x3 x4 x5
    = Appnp.step x1 (val_main_v40 (F := Ideal) x0 x1 x2 x3 x4 x5) (val_main_v10 (F := Ideal) x0 x2 x3 x4 x5) :=
  step_of x1 _ _ _ fun i => by
    rw [val_main_v46_apply, val_main_v43_apply, val_main_v41_apply, val_main_v42_apply, val_main_cst_9_apply, val_main_v45_apply,
      val_main_v44_apply, val_main_cst_10_apply]

theorem step7 : val_main_v52 (F := Ideal) x0 x1 x2 x3 x4 x5
    = Appnp.step x1 (val_main_v46 (F := Ideal) x0 x1 x2 x3 x4 x5) (val_main_v10 (F := Ideal) x0 x2 x3 x4 x5) :=
  step_of x1 _ _ _ fun i => by
    rw [val_main_v52_apply, val_main_v49_apply, val_main_v47_apply, val_main_v48_apply, val_main_cst_11_apply, val_main_v51_apply,
      val_main_v50_apply, val_main_cst_12_apply]

theorem step8 : val_main_v58 (F := Ideal) x0 x1 x2 x3 x4 x5
    = Appnp.step x1 (val_main_v52 (F := Ideal) x0 x1 x2 x3 x4 x5) (val_main_v10 (F := Ideal) x0 x2 x3 x4 x5) :=
  step_of x1 _ _ _ fun i => by
    rw [val_main_v58_apply, val_main_v55_apply, val_main_v53_apply, val_main_v54_apply, val_main_cst_13_apply, val_main_v57_apply,
      val_main_v56_apply, val_main_cst_14_apply]

/-! ## The row-wise log-softmax -/

/-- The host's maximum over the second axis, from the word of −∞, at row r: the fold of the maximum over the row's ten entries. -/
theorem rowmax_at (u : (⟨S10000x10, .f32⟩ : BufTy).Contents (Elt Ideal)) (r : Fin 10000) :
    Host.reduce (FloatOps.maximumf (F := Ideal) (φ := .f32)) u (val_main_call1_cst (F := Ideal)) reducesTo_S10000x10_S10000_d1 h_S_ (ix1 r)
      = (Finset.univ : Finset (Fin 10)).fold max Appnp.wInf (fun k => u (ix2 r k)) := by
  have h : S10000x10.Reduces [1] S10000 := by decide
  rw [Host.reduce_eq_fold_single (FloatOps.maximumf (F := Ideal) (φ := .f32)) u _ reducesTo_S10000x10_S10000_d1 h h_S_]
  have hf : (u ∘ h.lift (ix1 r)) = fun k : Fin 10 => u (ix2 r k) := funext fun k =>
    congrArg u (funext fun c => Fin.ext (by match c with | ⟨0, _⟩ => rfl | ⟨1, _⟩ => rfl))
  rw [hf]
  rfl

section
variable (r : Fin 10000) (q : Fin 10)

/-- The row maximum joined once more with −∞, at row r. -/
theorem max_at : val_main_call1_v2 (F := Ideal) x0 x1 x2 x3 x4 x5 (ix1 r) = Appnp.rowMaxAt (val_main_v58 (F := Ideal) x0 x1 x2 x3 x4 x5) r := by
  rw [val_main_call1_v2_apply, val_main_call1_v1_apply, val_main_call1_cst_0_apply]
  unfold val_main_call1_v0
  rw [rowmax_at]
  rfl

/-- An entry minus its row's maximum (the maximum broadcast to a column, then along the row). -/
theorem shifted_at : val_main_call1_v5 (F := Ideal) x0 x1 x2 x3 x4 x5 (ix2 r q)
    = val_main_v58 (F := Ideal) x0 x1 x2 x3 x4 x5 (ix2 r q) - Appnp.rowMaxAt (val_main_v58 (F := Ideal) x0 x1 x2 x3 x4 x5) r := by
  rw [val_main_call1_v5_apply, val_main_call1_v4_apply, val_main_call1_v3_apply]
  have e : idx_main_call1_v3 (idx_main_call1_v4 (ix2 r q)) = ix1 r :=
    funext fun a => Fin.ext (by match a with | ⟨0, _⟩ => rfl)
  rw [e, max_at]
  rfl

/-- The row's sum of exponentials of the shifted entries: the host's sum starts from the zero word. -/
theorem sumexp_at : val_main_call1_v7 (F := Ideal) x0 x1 x2 x3 x4 x5 (ix1 r)
    = ∑ k : Fin 10, Ideal.exp (val_main_v58 (F := Ideal) x0 x1 x2 x3 x4 x5 (ix2 r k) - Appnp.rowMaxAt (val_main_v58 (F := Ideal) x0 x1 x2 x3 x4 x5) r) := by
  rw [val_main_call1_v7_apply, val_main_call1_cst_1_apply]
  have e : ∀ k : Fin 10, idx_main_call1_v7 (ix1 r) k = ix2 r k := fun k =>
    funext fun a => Fin.ext (by match a with | ⟨0, _⟩ => rfl | ⟨1, _⟩ => rfl)
  simp only [e, val_main_call1_v6_apply, shifted_at, Ideal.hostUnary_exp_def, Ideal.ofBits_def, Ideal.ofBits_zero_f32, zero_add]

/-- The result at (r, q). -/
theorem lsm_at : val_main_v59 (F := Ideal) x0 x1 x2 x3 x4 x5 (ix2 r q) = Appnp.lsmAt (val_main_v58 (F := Ideal) x0 x1 x2 x3 x4 x5) r q := by
  rw [val_main_v59_apply, shifted_at, val_main_call1_v10_apply, val_main_call1_v9_apply, val_main_call1_v8_apply]
  have e : idx_main_call1_v8 (idx_main_call1_v10 (ix2 r q)) = ix1 r :=
    funext fun a => Fin.ext (by match a with | ⟨0, _⟩ => rfl)
  rw [e, sumexp_at]
  rfl

end

/-- The last eleven stages are the row-wise log-softmax of the last iterate. -/
theorem tail_eq : val_main_v59 (F := Ideal) x0 x1 x2 x3 x4 x5 = Appnp.lsm (val_main_v58 (F := Ideal) x0 x1 x2 x3 x4 x5) := by
  funext i
  obtain ⟨r, q, rfl⟩ : ∃ (r : Fin 10000) (q : Fin 10), i = ix2 r q := ⟨i 0, i 1, eq_ix2 i⟩
  exact lsm_at x0 x1 x2 x3 x4 x5 r q

/-! ## The whole reference -/

/-- The stage after the n-th unrolled step is the n-th iterate from the teleport matrix. -/
theorem iter1 : val_main_v16 (F := Ideal) x0 x1 x2 x3 x4 x5 = Appnp.iter x1 (Appnp.enc x0 x2 x3 x4 x5) 1 := by
  rw [step1, enc_eq]; rfl
theorem iter2 : val_main_v22 (F := Ideal) x0 x1 x2 x3 x4 x5 = Appnp.iter x1 (Appnp.enc x0 x2 x3 x4 x5) 2 := by
  rw [step2, iter1, enc_eq]; rfl
theorem iter3 : val_main_v28 (F := Ideal) x0 x1 x2 x3 x4 x5 = Appnp.iter x1 (Appnp.enc x0 x2 x3 x4 x5) 3 := by
  rw [step3, iter2, enc_eq]; rfl
theorem iter4 : val_main_v34 (F := Ideal) x0 x1 x2 x3 x4 x5 = Appnp.iter x1 (Appnp.enc x0 x2 x3 x4 x5) 4 := by
  rw [step4, iter3, enc_eq]; rfl
theorem iter5 : val_main_v40 (F := Ideal) x0 x1 x2 x3 x4 x5 = Appnp.iter x1 (Appnp.enc x0 x2 x3 x4 x5) 5 := by
  rw [step5, iter4, enc_eq]; rfl
theorem iter6 : val_main_v46 (F := Ideal) x0 x1 x2 x3 x4 x5 = Appnp.iter x1 (Appnp.enc x0 x2 x3 x4 x5) 6 := by
  rw [step6, iter5, enc_eq]; rfl
theorem iter7 : val_main_v52 (F := Ideal) x0 x1 x2 x3 x4 x5 = Appnp.iter x1 (Appnp.enc x0 x2 x3 x4 x5) 7 := by
  rw [step7, iter6, enc_eq]; rfl
theorem iter8 : val_main_v58 (F := Ideal) x0 x1 x2 x3 x4 x5 = Appnp.iter x1 (Appnp.enc x0 x2 x3 x4 x5) 8 := by
  rw [step8, iter7, enc_eq]; rfl

end Stages

/-- The reference's result, at the ideal instance, is the specification function of the six arguments. -/
theorem ref_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S10x128, .f32⟩ : BufTy).Contents (Elt Ideal)) (x5 : (⟨S10, .f32⟩ : BufTy).Contents (Elt Ideal)) :
    Cert.ReferenceIdeal.Read.val_main_v59 (F := Ideal) x0 x1 x2 x3 x4 x5 = Appnp.G x0 x1 x2 x3 x4 x5 := by
  rw [tail_eq, iter8]; rfl

end Cert.ReferenceIdeal.RefValue

end
-- ==== Proof.lean ====
/-
  The certificate of an APPNP propagation kernel against its reference: a two-layer encoder gives the teleport matrix
  z = relu(x · W1ᵀ + b1) · W2ᵀ + b2; eight steps cur ↦ (adj · cur) · 0.9 + 0.1 · z start from cur = z; the result is the
  row-wise log-softmax of the last iterate.

  The kernel computes this in nine pallas_calls (the encoder on row blocks; eight propagation calls on row blocks of the
  adjacency matrix, each with the whole current iterate resident, the last with the log-softmax fused), the reference in
  one straight line of host operations. Over the extended reals both are the same function of the six arguments, entry by
  entry: a row block of a matrix product is the rows of the whole product, the kernel's matrix products into a zero
  accumulator and the host's are the same finite sums, and the two log-softmax chains are the same operations in the same
  order. No law used needs the inputs finite (nothing is distributed or cancelled), so the precondition is never opened.

  The three frames: each kernel program's run is nine pipeline launches in a row, every unscoped buffer tracked between
  two calls (the second call reads the teleport matrix through two windows and holds its buffer at two half shares); the
  reference's frame is its run with the result dropped. The ideal pass rewrote nothing, so the kernel's idealization is
  its own text read at the extended reals.
-/
import proofs.«175698_g31370441130260_cont_8to1_b_1575_2_alg».proof.Defs
import proofs.«175698_g31370441130260_cont_8to1_b_1575_2_alg».proof.Proof.Gen.Kernel
import proofs.«175698_g31370441130260_cont_8to1_b_1575_2_alg».proof.Proof.Gen.KernelIdeal
import proofs.«175698_g31370441130260_cont_8to1_b_1575_2_alg».proof.Proof.Gen.ReferenceIdeal
import proofs.«175698_g31370441130260_cont_8to1_b_1575_2_alg».proof.Proof.Gen.Pre_finite_inputs
import proofs.«175698_g31370441130260_cont_8to1_b_1575_2_alg».proof.Proof.KRun
import proofs.«175698_g31370441130260_cont_8to1_b_1575_2_alg».proof.Proof.KernelValue
import proofs.«175698_g31370441130260_cont_8to1_b_1575_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_kernel : Cert.frame_Kernel := fun m ρ _ => Cert.Kernel.Hand.frame m ρ

/-- So does the kernel read at the extended reals. -/
theorem frame_kernelIdeal : Cert.frame_KernelIdeal := fun m ρ _ => Cert.KernelIdeal.Hand.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the specification's function of the (agreeing) arguments in their result arrays. -/
theorem algebraic : Cert.algebraic_KernelIdeal_ReferenceIdeal := by
  intro m ρ m' ρ' _ hagree
  refine ⟨_, Cert.KernelIdeal.Chain.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq, Cert.ReferenceIdeal.RefValue.ref_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
